-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "selu_scale_alpha" .f32 0x3FE10966#32 ((123715243141731 / 70368744177664 : ℝ) : EReal)
  ∧ IdealRules.named_const.Statement Cert.KernelIdeal.κ "selu_scale_alpha" .f32 0x3FE10966#32 ((123715243141731 / 70368744177664 : ℝ) : EReal)
  ∧ IdealRules.named_const.Statement Cert.KernelIdeal.κ "selu_scale_alpha" .f32 0x3FE10966#32 ((123715243141731 / 70368744177664 : ℝ) : EReal)
  ∧ IdealRules.named_const.Statement Cert.KernelIdeal.κ "selu_scale_alpha" .f32 0x3FE10966#32 ((123715243141731 / 70368744177664 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S7x1024x1024 : Shape := ⟨3, ![7, 1024, 1024]⟩
abbrev S7x1024 : Shape := ⟨2, ![7, 1024]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S7x1024x1024 : S_.BroadcastsInDim S7x1024x1024 (![] : Fin 0 → Fin S7x1024x1024.rank)
  reducesTo_S7x1024x1024_S_d0_1_2 : S7x1024x1024.ReducesTo [0, 1, 2] S_
  bcast_S_S7x1024 : S_.BroadcastsInDim S7x1024 (![] : Fin 0 → Fin S7x1024.rank)
  reducesTo_S7x1024_S_d0_1 : S7x1024.ReducesTo [0, 1] S_

variable [Facts]

def fn_part1 {F : FTy → Type} [FloatOps F] (main_v13 : IVec S_ 1) (main_v16 : IVec S7x1024 1) : IVec S_ 1 :=
  let main_c_5 : IVec S_ 1 := constantI S_ 1 1#1
  let main_v17 : IVec S_ 1 := (fun x v => Host.reduce IntOp.andi x v reducesTo_S7x1024_S_d0_1 h_S_) main_v16 main_c_5
  let main_v18 : IVec S_ 1 := andi main_v13 main_v17
  main_v18

def fn {F : FTy → Type} [FloatOps F] (main_arg0 : FVec F S16x1024x512 .f32) (main_arg1 : FVec F S16x1024x512 .f32) (main_arg2 : FVec F S7x1024x1024 .f32) (main_arg3 : FVec F S7x1024 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S7x1024x1024 .f32 := Host.absf main_arg2
  let main_cst_2 : FVec F S_ .f32 := constant S_ .f32 0x7F800000#32
  let main_v10 : FVec F S7x1024x1024 .f32 := broadcastInDim S7x1024x1024 ![] bcast_S_S7x1024x1024 main_cst_2
  let main_v11 : IVec S7x1024x1024 1 := cmpf .olt main_v9 main_v10
  let main_c_3 : IVec S_ 1 := constantI S_ 1 1#1
  let main_v12 : IVec S_ 1 := (fun x v => Host.reduce IntOp.andi x v reducesTo_S7x1024x1024_S_d0_1_2 h_S_) main_v11 main_c_3
  let main_v13 : IVec S_ 1 := andi main_v8 main_v12
  let main_v14 : FVec F S7x1024 .f32 := Host.absf main_arg3
  let main_cst_4 : FVec F S_ .f32 := constant S_ .f32 0x7F800000#32
  let main_v15 : FVec F S7x1024 .f32 := broadcastInDim S7x1024 ![] bcast_S_S7x1024 main_cst_4
  let main_v16 : IVec S7x1024 1 := cmpf .olt main_v14 main_v15
  fn_part1 (F := F) main_v13 main_v16
-- ==== Kernel.lean ====
abbrev S16x1024x512 : Shape := ⟨3, ![16, 1024, 512]⟩
abbrev S7x1024x1024 : Shape := ⟨3, ![7, 1024, 1024]⟩
abbrev S7x1024 : Shape := ⟨2, ![7, 1024]⟩
abbrev S16x512x1024 : Shape := ⟨3, ![16, 512, 1024]⟩
abbrev S8192x1024 : Shape := ⟨2, ![8192, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16x1024 : Shape := ⟨2, ![16, 1024]⟩
abbrev S16x1x1024 : Shape := ⟨3, ![16, 1, 1024]⟩
abbrev S16x512 : Shape := ⟨2, ![16, 512]⟩
abbrev S16x512x1 : Shape := ⟨3, ![16, 512, 1]⟩
abbrev S16x512x512 : Shape := ⟨3, ![16, 512, 512]⟩
abbrev S16x1024x1 : Shape := ⟨3, ![16, 1024, 1]⟩

abbrev nBuf : Space → Nat
  | .hbm => 122
  | .vmem => 24
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S7x1024x1024, .f32⟩
  | .hbm, ⟨3, _⟩ => ⟨S7x1024, .f32⟩
  | .hbm, ⟨4, _⟩ => ⟨S7x1024x1024, .f32⟩
  | .hbm, ⟨5, _⟩ => ⟨S7x1024x1024, .bf16⟩
  | .hbm, ⟨6, _⟩ => ⟨S16x512x1024, .f32⟩
  | .hbm, ⟨7, _⟩ => ⟨S16x512x1024, .f32⟩
  | .hbm, ⟨8, _⟩ => ⟨S8192x1024, .f32⟩
  | .hbm, ⟨9, _⟩ => ⟨S8192x1024, .f32⟩
  | .hbm, ⟨10, _⟩ => ⟨S16x512x1024, .f32⟩
  | .hbm, ⟨11, _⟩ => ⟨S8192x1024, .f32⟩
  | .hbm, ⟨12, _⟩ => ⟨S8192x1024, .f32⟩
  | .hbm, ⟨13, _⟩ => ⟨S16x512x1024, .f32⟩
  | .hbm, ⟨14, _⟩ => ⟨S_, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1x1024, .f32⟩
  | .hbm, ⟨20, _⟩ => ⟨S16x512x1024, .f32⟩
  | .hbm, ⟨21, _⟩ => ⟨S16x512x1024, .f32⟩
  | .hbm, ⟨22, _⟩ => ⟨S16x512x1024, .f32⟩
  | .hbm, ⟨23, _⟩ => ⟨S_, .f32⟩
  | .hbm, ⟨24, _⟩ => ⟨S16x1024, .f32⟩
  | .hbm, ⟨25, _⟩ => ⟨S16x1x1024, .f32⟩
  | .hbm, ⟨26, _⟩ => ⟨S16x512x1024, .f32⟩
  | .hbm, ⟨27, _⟩ => ⟨S16x512x1024, .f32⟩
  | .hbm, ⟨28, _⟩ => ⟨S_, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512x1, .f32⟩
  | .hbm, ⟨34, _⟩ => ⟨S16x512x1024, .f32⟩
  | .hbm, ⟨35, _⟩ => ⟨S16x512x1024, .f32⟩
  | .hbm, ⟨36, _⟩ => ⟨S16x512x1024, .f32⟩
  | .hbm, ⟨37, _⟩ => ⟨S_, .f32⟩
  | .hbm, ⟨38, _⟩ => ⟨S16x512, .f32⟩
  | .hbm, ⟨39, _⟩ => ⟨S16x512x1, .f32⟩
  | .hbm, ⟨40, _⟩ => ⟨S16x512x1024, .f32⟩
  | .hbm, ⟨41, _⟩ => ⟨S16x512x1024, .f32⟩
  | .hbm, ⟨42, _⟩ => ⟨S_, .f32⟩
  | .hbm, ⟨43, _⟩ => ⟨S16x1024, .f32⟩
  | .hbm, ⟨44, _⟩ => ⟨S_, .f32⟩
  | .hbm, ⟨45, _⟩ => ⟨S16x1024, .f32⟩
  | .hbm, ⟨46, _⟩ => ⟨S16x1024, .f32⟩
  | .hbm, ⟨47, _⟩ => ⟨S16x1x1024, .f32⟩
  | .hbm, ⟨48, _⟩ => ⟨S16x512x1024, .f32⟩
  | .hbm, ⟨49, _⟩ => ⟨S16x512x1024, .f32⟩
  | .hbm, ⟨50, _⟩ => ⟨S16x512x1024, .f32⟩
  | .hbm, ⟨51, _⟩ => ⟨S_, .f32⟩
  | .hbm, ⟨52, _⟩ => ⟨S16x1024, .f32⟩
  | .hbm, ⟨53, _⟩ => ⟨S16x1x1024, .f32⟩
  | .hbm, ⟨54, _⟩ => ⟨S16x512x1024, .f32⟩
  | .hbm, ⟨55, _⟩ => ⟨S16x512x1024, .f32⟩
  | .hbm, ⟨56, _⟩ => ⟨S_, .f32⟩
  | .hbm, ⟨57, _⟩ => ⟨S16x512, .f32⟩
  | .hbm, ⟨58, _⟩ => ⟨S_, .f32⟩
  | .hbm, ⟨59, _⟩ => ⟨S16x512, .f32⟩
  | .hbm, ⟨60, _⟩ => ⟨S16x512, .f32⟩
  | .hbm, ⟨61, _⟩ => ⟨S16x512x1, .f32⟩
  | .hbm, ⟨62, _⟩ => ⟨S16x512x1024, .f32⟩
  | .hbm, ⟨63, _⟩ => ⟨S16x512x1024, .f32⟩
  | .hbm, ⟨64, _⟩ => ⟨S16x512x1024, .f32⟩
  | .hbm, ⟨65, _⟩ => ⟨S_, .f32⟩
  | .hbm, ⟨66, _⟩ => ⟨S16x512, .f32⟩
  | .hbm, ⟨67, _⟩ => ⟨S16x512x1, .f32⟩
  | .hbm, ⟨68, _⟩ => ⟨S16x512x1024, .f32⟩
  | .hbm, ⟨69, _⟩ => ⟨S16x512x1024, .f32⟩
  | .hbm, ⟨70, _⟩ => ⟨S16x512x512, .f32⟩
  | .hbm, ⟨71, _⟩ => ⟨S_, .f32⟩
  | .hbm, ⟨72, _⟩ => ⟨S16x512x512, .f32⟩
  | .hbm, ⟨73, _⟩ => ⟨S16x512x512, .f32⟩
  | .hbm, ⟨74, _⟩ => ⟨S16x512x1024, .f32⟩
  | .hbm, ⟨75, _⟩ => ⟨S8192x1024, .f32⟩
  | .hbm, ⟨76, _⟩ => ⟨S8192x1024, .f32⟩
  | .hbm, ⟨77, _⟩ => ⟨S16x512x1024, .f32⟩
  | .hbm, ⟨78, _⟩ => ⟨S16x1024x512, .f32⟩
  | .hbm, ⟨79, _⟩ => ⟨S16x1024x512, .f32⟩
  | .hbm, ⟨80, _⟩ => ⟨S_, .f32⟩
  | .hbm, ⟨81, _⟩ => ⟨S16x1024, .f32⟩
  | .hbm, ⟨82, _⟩ => ⟨S16x1024x1, .f32⟩
  | .hbm, ⟨83, _⟩ => ⟨S16x1024x1, .f32⟩
  | .hbm, ⟨84, _⟩ => ⟨S_, .f32⟩
  | .hbm, ⟨85, _⟩ => ⟨S16x1024x1, .f32⟩
  | .hbm, ⟨86, _⟩ => ⟨S16x1024x1, .f32⟩
  | .hbm, ⟨87, _⟩ => ⟨S16x1024x512, .f32⟩
  | .hbm, ⟨88, _⟩ => ⟨S16x1024x512, .f32⟩
  | .hbm, ⟨89, _⟩ => ⟨S_, .f32⟩
  | .hbm, ⟨90, _⟩ => ⟨S16x1024x512, .f32⟩
  | .hbm, ⟨91, _⟩ => ⟨S16x1024x512, .f32⟩
  | .hbm, ⟨92, _⟩ => ⟨S_, .f32⟩
  | .hbm, ⟨93, _⟩ => ⟨S16x1024x512, .f32⟩
  | .hbm, ⟨94, _⟩ => ⟨S16x1024x512, .f32⟩
  | .hbm, ⟨95, _⟩ => ⟨S16x1024x512, .f32⟩
  | .hbm, ⟨96, _⟩ => ⟨S16x512x512, .f32⟩
  | .hbm, ⟨97, _⟩ => ⟨S_, .f32⟩
  | .hbm, ⟨98, _⟩ => ⟨S16x512x512, .f32⟩
  | .hbm, ⟨99, _⟩ => ⟨S16x512x512, .f32⟩
  | .hbm, ⟨100, _⟩ => ⟨S16x512x1024, .f32⟩
  | .hbm, ⟨101, _⟩ => ⟨S8192x1024, .f32⟩
  | .hbm, ⟨102, _⟩ => ⟨S8192x1024, .f32⟩
  | .hbm, ⟨103, _⟩ => ⟨S16x512x1024, .f32⟩
  | .hbm, ⟨104, _⟩ => ⟨S16x1024x512, .f32⟩
  | .hbm, ⟨105, _⟩ => ⟨S16x1024x512, .f32⟩
  | .hbm, ⟨106, _⟩ => ⟨S_, .f32⟩
  | .hbm, ⟨107, _⟩ => ⟨S16x1024, .f32⟩
  | .hbm, ⟨108, _⟩ => ⟨S16x1024x1, .f32⟩
  | .hbm, ⟨109, _⟩ => ⟨S16x1024x1, .f32⟩
  | .hbm, ⟨110, _⟩ => ⟨S_, .f32⟩
  | .hbm, ⟨111, _⟩ => ⟨S16x1024x1, .f32⟩
  | .hbm, ⟨112, _⟩ => ⟨S16x1024x1, .f32⟩
  | .hbm, ⟨113, _⟩ => ⟨S16x1024x512, .f32⟩
  | .hbm, ⟨114, _⟩ => ⟨S16x1024x512, .f32⟩
  | .hbm, ⟨115, _⟩ => ⟨S_, .f32⟩
  | .hbm, ⟨116, _⟩ => ⟨S16x1024x512, .f32⟩
  | .hbm, ⟨117, _⟩ => ⟨S16x1024x512, .f32⟩
  | .hbm, ⟨118, _⟩ => ⟨S_, .f32⟩
  | .hbm, ⟨119, _⟩ => ⟨S16x1024x512, .f32⟩
  | .hbm, ⟨120, _⟩ => ⟨S16x1024x512, .f32⟩
  | .hbm, ⟨121, _⟩ => ⟨S16x1024x512, .f32⟩
  | .local _ .vmem, ⟨0, _⟩ => ⟨S512x1024, .f32⟩
  | .local _ .vmem, ⟨1, _⟩ => ⟨S512x1024, .f32⟩
  | .local _ .vmem, ⟨2, _⟩ => ⟨S7x1024x1024, .bf16⟩
  | .local _ .vmem, ⟨3, _⟩ => ⟨S7x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S7x1024x1024, .bf16⟩
  | .local _ .vmem, ⟨9, _⟩ => ⟨S7x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S7x1024x1024, .bf16⟩
  | .local _ .vmem, ⟨15, _⟩ => ⟨S7x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S7x1024x1024, .bf16⟩
  | .local _ .vmem, ⟨21, _⟩ => ⟨S7x1024, .f32⟩
  | .local _ .vmem, ⟨22, _⟩ => ⟨S512x1024, .f32⟩
  | .local _ .vmem, ⟨23, _⟩ => ⟨S512x1024, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_19 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S7x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S7x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S7x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S7x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S7x1024x1024_S7x1024x1024_0_2_1 : S7x1024x1024.Transposes [0, 2, 1] S7x1024x1024
  bitsLt_bf16_f32 : FTy.bits .bf16 < FTy.bits .f32
  transposes_S16x1024x512_S16x512x1024_0_2_1 : S16x1024x512.Transposes [0, 2, 1] S16x512x1024
  shapeCasts_S16x512x1024_S8192x1024 : S16x512x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S7x1024x1024_S1x1024x1024_0_0_0 : ∀ a, (![0, 0, 0] : Fin 3 → Nat) a + S1x1024x1024.size a ≤ S7x1024x1024.size a
  h_S1x1024x1024 : 0 < S1x1024x1024.numel
  shapeCasts_S1x1024x1024_S1024x1024 : S1x1024x1024.ShapeCasts S1024x1024
  inb_S7x1024_S1x1024_0_0 : ∀ a, (![0, 0] : Fin 2 → Nat) a + S1x1024.size a ≤ S7x1024.size a
  h_S1x1024 : 0 < S1x1024.numel
  broadcasts_S1x1024_S512x1024 : S1x1024.Broadcasts S512x1024
  inb_S7x1024x1024_S1x1024x1024_1_0_0 : ∀ a, (![1, 0, 0] : Fin 3 → Nat) a + S1x1024x1024.size a ≤ S7x1024x1024.size a
  inb_S7x1024_S1x1024_1_0 : ∀ a, (![1, 0] : Fin 2 → Nat) a + S1x1024.size a ≤ S7x1024.size a
  inb_S7x1024x1024_S1x1024x1024_2_0_0 : ∀ a, (![2, 0, 0] : Fin 3 → Nat) a + S1x1024x1024.size a ≤ S7x1024x1024.size a
  inb_S7x1024_S1x1024_2_0 : ∀ a, (![2, 0] : Fin 2 → Nat) a + S1x1024.size a ≤ S7x1024.size a
  inb_S7x1024x1024_S1x1024x1024_3_0_0 : ∀ a, (![3, 0, 0] : Fin 3 → Nat) a + S1x1024x1024.size a ≤ S7x1024x1024.size a
  inb_S7x1024_S1x1024_3_0 : ∀ a, (![3, 0] : Fin 2 → Nat) a + S1x1024.size a ≤ S7x1024.size a
  inb_S7x1024x1024_S1x1024x1024_4_0_0 : ∀ a, (![4, 0, 0] : Fin 3 → Nat) a + S1x1024x1024.size a ≤ S7x1024x1024.size a
  inb_S7x1024_S1x1024_4_0 : ∀ a, (![4, 0] : Fin 2 → Nat) a + S1x1024.size a ≤ S7x1024.size a
  inb_S7x1024x1024_S1x1024x1024_5_0_0 : ∀ a, (![5, 0, 0] : Fin 3 → Nat) a + S1x1024x1024.size a ≤ S7x1024x1024.size a
  inb_S7x1024_S1x1024_5_0 : ∀ a, (![5, 0] : Fin 2 → Nat) a + S1x1024.size a ≤ S7x1024.size a
  inb_S7x1024x1024_S1x1024x1024_6_0_0 : ∀ a, (![6, 0, 0] : Fin 3 → Nat) a + S1x1024x1024.size a ≤ S7x1024x1024.size a
  inb_S7x1024_S1x1024_6_0 : ∀ a, (![6, 0] : Fin 2 → Nat) a + S1x1024.size a ≤ S7x1024.size a
  shapeCasts_S8192x1024_S16x512x1024 : S8192x1024.ShapeCasts S16x512x1024
  reducesTo_S16x512x1024_S16x1024_d1 : S16x512x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x512x1024_0_1_2 : S16x1x1024.BroadcastsInDim S16x512x1024 (![0, 1, 2] : Fin 3 → Fin S16x512x1024.rank)
  reducesTo_S16x512x1024_S16x512_d2 : S16x512x1024.ReducesTo [2] S16x512
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x1024_0_1_2 : S16x512x1.BroadcastsInDim S16x512x1024 (![0, 1, 2] : Fin 3 → Fin S16x512x1024.rank)
  bcast_S_S16x512x512 : S_.BroadcastsInDim S16x512x512 (![] : Fin 0 → Fin S16x512x512.rank)
  transposes_S16x512x1024_S16x1024x512_0_2_1 : S16x512x1024.Transposes [0, 2, 1] S16x1024x512
  reducesTo_S16x1024x512_S16x1024_d2 : S16x1024x512.ReducesTo [2] S16x1024
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  bcast_S_S16x1024x512 : S_.BroadcastsInDim S16x1024x512 (![] : Fin 0 → Fin S16x1024x512.rank)
  dot_S512x1024_S1024x1024_S512x1024_1_0_0_1_n_n_wf : DotDims.WF S512x1024 S1024x1024 S512x1024 [1] [0] [0] [1] [] []
  dot_S16x512x1024_S16x512x1024_S16x512x512_2_2_1_1_0_0_wf : DotDims.WF S16x512x1024 S16x512x1024 S16x512x512 [2] [2] [1] [1] [0] [0]
  dot_S16x512x512_S16x512x1024_S16x512x1024_2_1_1_2_0_0_wf : DotDims.WF S16x512x512 S16x512x1024 S16x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x1024x1024.size a ≤ S7x1024x1024.size a
  hwx0_1 : ∀ i : grid0.Coords, EltTy.bits .bf16 = 32 ∨ (Rect.block (s := S7x1024x1024) S7x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x1024.size a ≤ S7x1024.size a
  hwx0_2 : ∀ i : grid0.Coords, EltTy.bits .f32 = 32 ∨ (Rect.block (s := S7x1024) S7x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7x1024x1024.size a ≤ S7x1024x1024.size a
  hwx1_1 : ∀ i : grid1.Coords, EltTy.bits .bf16 = 32 ∨ (Rect.block (s := S7x1024x1024) S7x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x1024.size a ≤ S7x1024.size a
  hwx1_2 : ∀ i : grid1.Coords, EltTy.bits .f32 = 32 ∨ (Rect.block (s := S7x1024) S7x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7x1024x1024.size a ≤ S7x1024x1024.size a
  hwx2_1 : ∀ i : grid2.Coords, EltTy.bits .bf16 = 32 ∨ (Rect.block (s := S7x1024x1024) S7x1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S7x1024.size a ≤ S7x1024.size a
  hwx2_2 : ∀ i : grid2.Coords, EltTy.bits .f32 = 32 ∨ (Rect.block (s := S7x1024) S7x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7x1024x1024.size a ≤ S7x1024x1024.size a
  hwx3_1 : ∀ i : grid3.Coords, EltTy.bits .bf16 = 32 ∨ (Rect.block (s := S7x1024x1024) S7x1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S7x1024.size a ≤ S7x1024.size a
  hwx3_2 : ∀ i : grid3.Coords, EltTy.bits .f32 = 32 ∨ (Rect.block (s := S7x1024) S7x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x1024.size a
  hwx3_3 : ∀ i : grid3.Coords, EltTy.bits .f32 = 32 ∨ (Rect.block (s := S8192x1024) S512x1024.size (cc3_transform_3 i) (hinb3_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x512_S16x512x1024_S16x512x1024_2_1_1_2_0_0 : DotDims S16x512x512 S16x512x1024 S16x512x1024 where
  lhsContracting := [2]
  rhsContracting := [1]
  lhsNonContracting := [1]
  rhsNonContracting := [2]
  lhsBatch := [0]
  rhsBatch := [0]
  wf := dot_S16x512x512_S16x512x1024_S16x512x1024_2_1_1_2_0_0_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S7x1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S7x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S7x1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S7x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S7x1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S7x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x1024x512 : Shape := ⟨3, ![16, 1024, 512]⟩
abbrev S7x1024x1024 : Shape := ⟨3, ![7, 1024, 1024]⟩
abbrev S7x1024 : Shape := ⟨2, ![7, 1024]⟩
abbrev S16x512x1024 : Shape := ⟨3, ![16, 512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1x1024 : Shape := ⟨3, ![16, 1, 1024]⟩
abbrev S16x512 : Shape := ⟨2, ![16, 512]⟩
abbrev S16x512x1 : Shape := ⟨3, ![16, 512, 1]⟩
abbrev S16x512x512 : Shape := ⟨3, ![16, 512, 512]⟩
abbrev S16x1024x1 : Shape := ⟨3, ![16, 1024, 1]⟩

abbrev nBuf : Space → Nat
  | .hbm => 408
  | .vmem => 0
  | .smem => 0
  | _ => 0

abbrev hbmTy0_0 (i : Nat) : BufTy := match i % 128 with
  | 0 => ⟨S16x1024x512, .f32⟩
  | 1 => ⟨S16x1024x512, .f32⟩
  | 2 => ⟨S7x1024x1024, .f32⟩
  | 3 => ⟨S7x1024, .f32⟩
  | 4 => ⟨S16x512x1024, .f32⟩
  | 5 => ⟨S16x512x1024, .f32⟩
  | 6 => ⟨S1x1024x1024, .f32⟩
  | 7 => ⟨S1024x1024, .f32⟩
  | 8 => ⟨S16x512x1024, .f32⟩
  | 9 => ⟨S1x1024, .f32⟩
  | 10 => ⟨S1024, .f32⟩
  | 11 => ⟨S1x1x1024, .f32⟩
  | 12 => ⟨S16x512x1024, .f32⟩
  | 13 => ⟨S16x512x1024, .f32⟩
  | 14 => ⟨S1x1024x1024, .f32⟩
  | 15 => ⟨S1024x1024, .f32⟩
  | 16 => ⟨S16x512x1024, .f32⟩
  | 17 => ⟨S1x1024, .f32⟩
  | 18 => ⟨S1024, .f32⟩
  | 19 => ⟨S1x1x1024, .f32⟩
  | 20 => ⟨S16x512x1024, .f32⟩
  | 21 => ⟨S16x512x1024, .f32⟩
  | 22 => ⟨S1x1024x1024, .f32⟩
  | 23 => ⟨S1024x1024, .f32⟩
  | 24 => ⟨S16x512x1024, .f32⟩
  | 25 => ⟨S1x1024, .f32⟩
  | 26 => ⟨S1024, .f32⟩
  | 27 => ⟨S1x1x1024, .f32⟩
  | 28 => ⟨S16x512x1024, .f32⟩
  | 29 => ⟨S16x512x1024, .f32⟩
  | 30 => ⟨S1x1024x1024, .f32⟩
  | 31 => ⟨S1024x1024, .f32⟩
  | 32 => ⟨S16x512x1024, .f32⟩
  | 33 => ⟨S1x1024, .f32⟩
  | 34 => ⟨S1024, .f32⟩
  | 35 => ⟨S1x1x1024, .f32⟩
  | 36 => ⟨S16x512x1024, .f32⟩
  | 37 => ⟨S16x512x1024, .f32⟩
  | 38 => ⟨S_, .f32⟩
  | 39 => ⟨S_, .f32⟩
  | 40 => ⟨S16x512x1024, .f32⟩
  | 41 => ⟨S16x512x1024, .i1⟩
  | 42 => ⟨S_, .f32⟩
  | 43 => ⟨S16x512x1024, .f32⟩
  | 44 => ⟨S16x512x1024, .i1⟩
  | 45 => ⟨S_, .f32⟩
  | 46 => ⟨S_, .f32⟩
  | 47 => ⟨S16x512x1024, .f32⟩
  | 48 => ⟨S16x512x1024, .f32⟩
  | 49 => ⟨S16x512x1024, .f32⟩
  | 50 => ⟨S_, .f32⟩
  | 51 => ⟨S16x512x1024, .f32⟩
  | 52 => ⟨S16x512x1024, .f32⟩
  | 53 => ⟨S16x512x1024, .f32⟩
  | 54 => ⟨S_, .f32⟩
  | 55 => ⟨S16x512x1024, .f32⟩
  | 56 => ⟨S16x512x1024, .f32⟩
  | 57 => ⟨S1x1024x1024, .f32⟩
  | 58 => ⟨S1024x1024, .f32⟩
  | 59 => ⟨S16x512x1024, .f32⟩
  | 60 => ⟨S1x1024, .f32⟩
  | 61 => ⟨S1024, .f32⟩
  | 62 => ⟨S1x1x1024, .f32⟩
  | 63 => ⟨S16x512x1024, .f32⟩
  | 64 => ⟨S16x512x1024, .f32⟩
  | 65 => ⟨S1x1024x1024, .f32⟩
  | 66 => ⟨S1024x1024, .f32⟩
  | 67 => ⟨S16x512x1024, .f32⟩
  | 68 => ⟨S1x1024, .f32⟩
  | 69 => ⟨S1024, .f32⟩
  | 70 => ⟨S1x1x1024, .f32⟩
  | 71 => ⟨S16x512x1024, .f32⟩
  | 72 => ⟨S16x512x1024, .f32⟩
  | 73 => ⟨S1x1024x1024, .f32⟩
  | 74 => ⟨S1024x1024, .f32⟩
  | 75 => ⟨S16x512x1024, .f32⟩
  | 76 => ⟨S1x1024, .f32⟩
  | 77 => ⟨S1024, .f32⟩
  | 78 => ⟨S1x1x1024, .f32⟩
  | 79 => ⟨S16x512x1024, .f32⟩
  | 80 => ⟨S16x512x1024, .f32⟩
  | 81 => ⟨S1x1024x1024, .f32⟩
  | 82 => ⟨S1024x1024, .f32⟩
  | 83 => ⟨S16x512x1024, .f32⟩
  | 84 => ⟨S1x1024, .f32⟩
  | 85 => ⟨S1024, .f32⟩
  | 86 => ⟨S1x1x1024, .f32⟩
  | 87 => ⟨S16x512x1024, .f32⟩
  | 88 => ⟨S16x512x1024, .f32⟩
  | 89 => ⟨S1x1024x1024, .f32⟩
  | 90 => ⟨S1024x1024, .f32⟩
  | 91 => ⟨S16x512x1024, .f32⟩
  | 92 => ⟨S1x1024, .f32⟩
  | 93 => ⟨S1024, .f32⟩
  | 94 => ⟨S1x1x1024, .f32⟩
  | 95 => ⟨S16x512x1024, .f32⟩
  | 96 => ⟨S16x512x1024, .f32⟩
  | 97 => ⟨S1x1024x1024, .f32⟩
  | 98 => ⟨S1024x1024, .f32⟩
  | 99 => ⟨S16x512x1024, .f32⟩
  | 100 => ⟨S1x1024, .f32⟩
  | 101 => ⟨S1024, .f32⟩
  | 102 => ⟨S1x1x1024, .f32⟩
  | 103 => ⟨S16x512x1024, .f32⟩
  | 104 => ⟨S16x512x1024, .f32⟩
  | 105 => ⟨S1x1024x1024, .f32⟩
  | 106 => ⟨S1024x1024, .f32⟩
  | 107 => ⟨S16x512x1024, .f32⟩
  | 108 => ⟨S1x1024, .f32⟩
  | 109 => ⟨S1024, .f32⟩
  | 110 => ⟨S1x1x1024, .f32⟩
  | 111 => ⟨S16x512x1024, .f32⟩
  | 112 => ⟨S16x512x1024, .f32⟩
  | 113 => ⟨S_, .f32⟩
  | 114 => ⟨S_, .f32⟩
  | 115 => ⟨S16x512x1024, .f32⟩
  | 116 => ⟨S16x512x1024, .i1⟩
  | 117 => ⟨S_, .f32⟩
  | 118 => ⟨S16x512x1024, .f32⟩
  | 119 => ⟨S16x512x1024, .i1⟩
  | 120 => ⟨S_, .f32⟩
  | 121 => ⟨S_, .f32⟩
  | 122 => ⟨S16x512x1024, .f32⟩
  | 123 => ⟨S16x512x1024, .f32⟩
  | 124 => ⟨S16x512x1024, .f32⟩
  | 125 => ⟨S_, .f32⟩
  | 126 => ⟨S16x512x1024, .f32⟩
  | 127 => ⟨S16x512x1024, .f32⟩
  | _ => ⟨S16x1024x512, .f32⟩

abbrev hbmTy0_1 (i : Nat) : BufTy := match i % 128 with
  | 0 => ⟨S16x512x1024, .f32⟩
  | 1 => ⟨S_, .f32⟩
  | 2 => ⟨S16x512x1024, .f32⟩
  | 3 => ⟨S16x512x1024, .f32⟩
  | 4 => ⟨S1x1024x1024, .f32⟩
  | 5 => ⟨S1024x1024, .f32⟩
  | 6 => ⟨S16x512x1024, .f32⟩
  | 7 => ⟨S1x1024, .f32⟩
  | 8 => ⟨S1024, .f32⟩
  | 9 => ⟨S1x1x1024, .f32⟩
  | 10 => ⟨S16x512x1024, .f32⟩
  | 11 => ⟨S16x512x1024, .f32⟩
  | 12 => ⟨S1x1024x1024, .f32⟩
  | 13 => ⟨S1024x1024, .f32⟩
  | 14 => ⟨S16x512x1024, .f32⟩
  | 15 => ⟨S1x1024, .f32⟩
  | 16 => ⟨S1024, .f32⟩
  | 17 => ⟨S1x1x1024, .f32⟩
  | 18 => ⟨S16x512x1024, .f32⟩
  | 19 => ⟨S16x512x1024, .f32⟩
  | 20 => ⟨S1x1024x1024, .f32⟩
  | 21 => ⟨S1024x1024, .f32⟩
  | 22 => ⟨S16x512x1024, .f32⟩
  | 23 => ⟨S1x1024, .f32⟩
  | 24 => ⟨S1024, .f32⟩
  | 25 => ⟨S1x1x1024, .f32⟩
  | 26 => ⟨S16x512x1024, .f32⟩
  | 27 => ⟨S16x512x1024, .f32⟩
  | 28 => ⟨S_, .f32⟩
  | 29 => ⟨S16x1024, .f32⟩
  | 30 => ⟨S_, .f32⟩
  | 31 => ⟨S16x1024, .f32⟩
  | 32 => ⟨S16x1024, .f32⟩
  | 33 => ⟨S16x1x1024, .f32⟩
  | 34 => ⟨S16x512x1024, .f32⟩
  | 35 => ⟨S16x512x1024, .f32⟩
  | 36 => ⟨S16x512x1024, .f32⟩
  | 37 => ⟨S_, .f32⟩
  | 38 => ⟨S16x1024, .f32⟩
  | 39 => ⟨S16x1x1024, .f32⟩
  | 40 => ⟨S16x512x1024, .f32⟩
  | 41 => ⟨S16x512x1024, .f32⟩
  | 42 => ⟨S_, .f32⟩
  | 43 => ⟨S16x512, .f32⟩
  | 44 => ⟨S_, .f32⟩
  | 45 => ⟨S16x512, .f32⟩
  | 46 => ⟨S16x512, .f32⟩
  | 47 => ⟨S16x512x1, .f32⟩
  | 48 => ⟨S16x512x1024, .f32⟩
  | 49 => ⟨S16x512x1024, .f32⟩
  | 50 => ⟨S16x512x1024, .f32⟩
  | 51 => ⟨S_, .f32⟩
  | 52 => ⟨S16x512, .f32⟩
  | 53 => ⟨S16x512x1, .f32⟩
  | 54 => ⟨S16x512x1024, .f32⟩
  | 55 => ⟨S16x512x1024, .f32⟩
  | 56 => ⟨S_, .f32⟩
  | 57 => ⟨S16x1024, .f32⟩
  | 58 => ⟨S_, .f32⟩
  | 59 => ⟨S16x1024, .f32⟩
  | 60 => ⟨S16x1024, .f32⟩
  | 61 => ⟨S16x1x1024, .f32⟩
  | 62 => ⟨S16x512x1024, .f32⟩
  | 63 => ⟨S16x512x1024, .f32⟩
  | 64 => ⟨S16x512x1024, .f32⟩
  | 65 => ⟨S_, .f32⟩
  | 66 => ⟨S16x1024, .f32⟩
  | 67 => ⟨S16x1x1024, .f32⟩
  | 68 => ⟨S16x512x1024, .f32⟩
  | 69 => ⟨S16x512x1024, .f32⟩
  | 70 => ⟨S_, .f32⟩
  | 71 => ⟨S16x512, .f32⟩
  | 72 => ⟨S_, .f32⟩
  | 73 => ⟨S16x512, .f32⟩
  | 74 => ⟨S16x512, .f32⟩
  | 75 => ⟨S16x512x1, .f32⟩
  | 76 => ⟨S16x512x1024, .f32⟩
  | 77 => ⟨S16x512x1024, .f32⟩
  | 78 => ⟨S16x512x1024, .f32⟩
  | 79 => ⟨S_, .f32⟩
  | 80 => ⟨S16x512, .f32⟩
  | 81 => ⟨S16x512x1, .f32⟩
  | 82 => ⟨S16x512x1024, .f32⟩
  | 83 => ⟨S16x512x1024, .f32⟩
  | 84 => ⟨S16x512x512, .f32⟩
  | 85 => ⟨S_, .f32⟩
  | 86 => ⟨S16x512x512, .f32⟩
  | 87 => ⟨S16x512x512, .f32⟩
  | 88 => ⟨S16x512x1024, .f32⟩
  | 89 => ⟨S1x1024x1024, .f32⟩
  | 90 => ⟨S1024x1024, .f32⟩
  | 91 => ⟨S16x512x1024, .f32⟩
  | 92 => ⟨S1x1024, .f32⟩
  | 93 => ⟨S1024, .f32⟩
  | 94 => ⟨S1x1x1024, .f32⟩
  | 95 => ⟨S16x512x1024, .f32⟩
  | 96 => ⟨S16x512x1024, .f32⟩
  | 97 => ⟨S1x1024x1024, .f32⟩
  | 98 => ⟨S1024x1024, .f32⟩
  | 99 => ⟨S16x512x1024, .f32⟩
  | 100 => ⟨S1x1024, .f32⟩
  | 101 => ⟨S1024, .f32⟩
  | 102 => ⟨S1x1x1024, .f32⟩
  | 103 => ⟨S16x512x1024, .f32⟩
  | 104 => ⟨S16x512x1024, .f32⟩
  | 105 => ⟨S1x1024x1024, .f32⟩
  | 106 => ⟨S1024x1024, .f32⟩
  | 107 => ⟨S16x512x1024, .f32⟩
  | 108 => ⟨S1x1024, .f32⟩
  | 109 => ⟨S1024, .f32⟩
  | 110 => ⟨S1x1x1024, .f32⟩
  | 111 => ⟨S16x512x1024, .f32⟩
  | 112 => ⟨S16x512x1024, .f32⟩
  | 113 => ⟨S1x1024x1024, .f32⟩
  | 114 => ⟨S1024x1024, .f32⟩
  | 115 => ⟨S16x512x1024, .f32⟩
  | 116 => ⟨S1x1024, .f32⟩
  | 117 => ⟨S1024, .f32⟩
  | 118 => ⟨S1x1x1024, .f32⟩
  | 119 => ⟨S16x512x1024, .f32⟩
  | 120 => ⟨S16x512x1024, .f32⟩
  | 121 => ⟨S_, .f32⟩
  | 122 => ⟨S_, .f32⟩
  | 123 => ⟨S16x512x1024, .f32⟩
  | 124 => ⟨S16x512x1024, .i1⟩
  | 125 => ⟨S_, .f32⟩
  | 126 => ⟨S16x512x1024, .f32⟩
  | 127 => ⟨S16x512x1024, .i1⟩
  | _ => ⟨S16x1024x512, .f32⟩

abbrev hbmTy0_2 (i : Nat) : BufTy := match i % 128 with
  | 0 => ⟨S_, .f32⟩
  | 1 => ⟨S_, .f32⟩
  | 2 => ⟨S16x512x1024, .f32⟩
  | 3 => ⟨S16x512x1024, .f32⟩
  | 4 => ⟨S16x512x1024, .f32⟩
  | 5 => ⟨S_, .f32⟩
  | 6 => ⟨S16x512x1024, .f32⟩
  | 7 => ⟨S16x512x1024, .f32⟩
  | 8 => ⟨S16x512x1024, .f32⟩
  | 9 => ⟨S_, .f32⟩
  | 10 => ⟨S16x512x1024, .f32⟩
  | 11 => ⟨S16x512x1024, .f32⟩
  | 12 => ⟨S1x1024x1024, .f32⟩
  | 13 => ⟨S1024x1024, .f32⟩
  | 14 => ⟨S16x512x1024, .f32⟩
  | 15 => ⟨S1x1024, .f32⟩
  | 16 => ⟨S1024, .f32⟩
  | 17 => ⟨S1x1x1024, .f32⟩
  | 18 => ⟨S16x512x1024, .f32⟩
  | 19 => ⟨S16x512x1024, .f32⟩
  | 20 => ⟨S1x1024x1024, .f32⟩
  | 21 => ⟨S1024x1024, .f32⟩
  | 22 => ⟨S16x512x1024, .f32⟩
  | 23 => ⟨S1x1024, .f32⟩
  | 24 => ⟨S1024, .f32⟩
  | 25 => ⟨S1x1x1024, .f32⟩
  | 26 => ⟨S16x512x1024, .f32⟩
  | 27 => ⟨S16x512x1024, .f32⟩
  | 28 => ⟨S1x1024x1024, .f32⟩
  | 29 => ⟨S1024x1024, .f32⟩
  | 30 => ⟨S16x512x1024, .f32⟩
  | 31 => ⟨S1x1024, .f32⟩
  | 32 => ⟨S1024, .f32⟩
  | 33 => ⟨S1x1x1024, .f32⟩
  | 34 => ⟨S16x512x1024, .f32⟩
  | 35 => ⟨S16x512x1024, .f32⟩
  | 36 => ⟨S16x1024x512, .f32⟩
  | 37 => ⟨S16x1024x512, .f32⟩
  | 38 => ⟨S_, .f32⟩
  | 39 => ⟨S16x1024, .f32⟩
  | 40 => ⟨S16x1024x1, .f32⟩
  | 41 => ⟨S16x1024x1, .f32⟩
  | 42 => ⟨S_, .f32⟩
  | 43 => ⟨S16x1024x1, .f32⟩
  | 44 => ⟨S16x1024x1, .f32⟩
  | 45 => ⟨S16x1024x512, .f32⟩
  | 46 => ⟨S16x1024x512, .f32⟩
  | 47 => ⟨S_, .f32⟩
  | 48 => ⟨S16x1024x512, .f32⟩
  | 49 => ⟨S16x1024x512, .f32⟩
  | 50 => ⟨S_, .f32⟩
  | 51 => ⟨S16x1024x512, .f32⟩
  | 52 => ⟨S16x1024x512, .f32⟩
  | 53 => ⟨S16x1024x512, .f32⟩
  | 54 => ⟨S16x512x512, .f32⟩
  | 55 => ⟨S_, .f32⟩
  | 56 => ⟨S16x512x512, .f32⟩
  | 57 => ⟨S16x512x512, .f32⟩
  | 58 => ⟨S16x512x1024, .f32⟩
  | 59 => ⟨S1x1024x1024, .f32⟩
  | 60 => ⟨S1024x1024, .f32⟩
  | 61 => ⟨S16x512x1024, .f32⟩
  | 62 => ⟨S1x1024, .f32⟩
  | 63 => ⟨S1024, .f32⟩
  | 64 => ⟨S1x1x1024, .f32⟩
  | 65 => ⟨S16x512x1024, .f32⟩
  | 66 => ⟨S16x512x1024, .f32⟩
  | 67 => ⟨S1x1024x1024, .f32⟩
  | 68 => ⟨S1024x1024, .f32⟩
  | 69 => ⟨S16x512x1024, .f32⟩
  | 70 => ⟨S1x1024, .f32⟩
  | 71 => ⟨S1024, .f32⟩
  | 72 => ⟨S1x1x1024, .f32⟩
  | 73 => ⟨S16x512x1024, .f32⟩
  | 74 => ⟨S16x512x1024, .f32⟩
  | 75 => ⟨S1x1024x1024, .f32⟩
  | 76 => ⟨S1024x1024, .f32⟩
  | 77 => ⟨S16x512x1024, .f32⟩
  | 78 => ⟨S1x1024, .f32⟩
  | 79 => ⟨S1024, .f32⟩
  | 80 => ⟨S1x1x1024, .f32⟩
  | 81 => ⟨S16x512x1024, .f32⟩
  | 82 => ⟨S16x512x1024, .f32⟩
  | 83 => ⟨S1x1024x1024, .f32⟩
  | 84 => ⟨S1024x1024, .f32⟩
  | 85 => ⟨S16x512x1024, .f32⟩
  | 86 => ⟨S1x1024, .f32⟩
  | 87 => ⟨S1024, .f32⟩
  | 88 => ⟨S1x1x1024, .f32⟩
  | 89 => ⟨S16x512x1024, .f32⟩
  | 90 => ⟨S16x512x1024, .f32⟩
  | 91 => ⟨S_, .f32⟩
  | 92 => ⟨S_, .f32⟩
  | 93 => ⟨S16x512x1024, .f32⟩
  | 94 => ⟨S16x512x1024, .i1⟩
  | 95 => ⟨S_, .f32⟩
  | 96 => ⟨S16x512x1024, .f32⟩
  | 97 => ⟨S16x512x1024, .i1⟩
  | 98 => ⟨S_, .f32⟩
  | 99 => ⟨S_, .f32⟩
  | 100 => ⟨S16x512x1024, .f32⟩
  | 101 => ⟨S16x512x1024, .f32⟩
  | 102 => ⟨S16x512x1024, .f32⟩
  | 103 => ⟨S_, .f32⟩
  | 104 => ⟨S16x512x1024, .f32⟩
  | 105 => ⟨S16x512x1024, .f32⟩
  | 106 => ⟨S16x512x1024, .f32⟩
  | 107 => ⟨S_, .f32⟩
  | 108 => ⟨S16x512x1024, .f32⟩
  | 109 => ⟨S16x512x1024, .f32⟩
  | 110 => ⟨S1x1024x1024, .f32⟩
  | 111 => ⟨S1024x1024, .f32⟩
  | 112 => ⟨S16x512x1024, .f32⟩
  | 113 => ⟨S1x1024, .f32⟩
  | 114 => ⟨S1024, .f32⟩
  | 115 => ⟨S1x1x1024, .f32⟩
  | 116 => ⟨S16x512x1024, .f32⟩
  | 117 => ⟨S16x512x1024, .f32⟩
  | 118 => ⟨S1x1024x1024, .f32⟩
  | 119 => ⟨S1024x1024, .f32⟩
  | 120 => ⟨S16x512x1024, .f32⟩
  | 121 => ⟨S1x1024, .f32⟩
  | 122 => ⟨S1024, .f32⟩
  | 123 => ⟨S1x1x1024, .f32⟩
  | 124 => ⟨S16x512x1024, .f32⟩
  | 125 => ⟨S16x512x1024, .f32⟩
  | 126 => ⟨S1x1024x1024, .f32⟩
  | 127 => ⟨S1024x1024, .f32⟩
  | _ => ⟨S16x1024x512, .f32⟩

abbrev hbmTy0_3 (i : Nat) : BufTy := match i % 128 with
  | 0 => ⟨S16x512x1024, .f32⟩
  | 1 => ⟨S1x1024, .f32⟩
  | 2 => ⟨S1024, .f32⟩
  | 3 => ⟨S1x1x1024, .f32⟩
  | 4 => ⟨S16x512x1024, .f32⟩
  | 5 => ⟨S16x512x1024, .f32⟩
  | 6 => ⟨S16x1024x512, .f32⟩
  | 7 => ⟨S16x1024x512, .f32⟩
  | 8 => ⟨S_, .f32⟩
  | 9 => ⟨S16x1024, .f32⟩
  | 10 => ⟨S16x1024x1, .f32⟩
  | 11 => ⟨S16x1024x1, .f32⟩
  | 12 => ⟨S_, .f32⟩
  | 13 => ⟨S16x1024x1, .f32⟩
  | 14 => ⟨S16x1024x1, .f32⟩
  | 15 => ⟨S16x1024x512, .f32⟩
  | 16 => ⟨S16x1024x512, .f32⟩
  | 17 => ⟨S_, .f32⟩
  | 18 => ⟨S16x1024x512, .f32⟩
  | 19 => ⟨S16x1024x512, .f32⟩
  | 20 => ⟨S_, .f32⟩
  | 21 => ⟨S16x1024x512, .f32⟩
  | 22 => ⟨S16x1024x512, .f32⟩
  | 23 => ⟨S16x1024x512, .f32⟩
  | _ => ⟨S16x1024x512, .f32⟩

abbrev hbmTy (i : Nat) : BufTy := match i / 128 with
  | 0 => hbmTy0_0 i
  | 1 => hbmTy0_1 i
  | 2 => hbmTy0_2 i
  | 3 => hbmTy0_3 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_cst : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_cst_0 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_cst_1 : Ref sig .tc := ⟨.hbm, 45, rfl⟩
abbrev main_call0_call0_call0_v0 : Ref sig .tc := ⟨.hbm, 46, rfl⟩
abbrev main_call0_call0_call0_v1 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_v0 : Ref sig .tc := ⟨.hbm, 53, rfl⟩
abbrev main_call0_cst_0 : Ref sig .tc := ⟨.hbm, 54, rfl⟩
abbrev main_call0_v1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_call1_cst : Ref sig .tc := ⟨.hbm, 113, rfl⟩
abbrev main_call1_call0_cst : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_call0_cst_0 : Ref sig .tc := ⟨.hbm, 117, rfl⟩
abbrev main_call1_call0_v2 : Ref sig .tc := ⟨.hbm, 118, rfl⟩
abbrev main_call1_call0_v3 : Ref sig .tc := ⟨.hbm, 119, rfl⟩
abbrev main_call1_call0_cst_1 : Ref sig .tc := ⟨.hbm, 120, rfl⟩
abbrev main_call1_call0_call0_v0 : Ref sig .tc := ⟨.hbm, 121, rfl⟩
abbrev main_call1_call0_call0_v1 : Ref sig .tc := ⟨.hbm, 122, rfl⟩
abbrev main_call1_call0_v4 : Ref sig .tc := ⟨.hbm, 123, rfl⟩
abbrev main_call1_call0_v5 : Ref sig .tc := ⟨.hbm, 124, rfl⟩
abbrev main_call1_call0_v6 : Ref sig .tc := ⟨.hbm, 125, rfl⟩
abbrev main_call1_call0_v7 : Ref sig .tc := ⟨.hbm, 126, rfl⟩
abbrev main_call1_call0_v8 : Ref sig .tc := ⟨.hbm, 127, rfl⟩
abbrev main_call1_v0 : Ref sig .tc := ⟨.hbm, 128, rfl⟩
abbrev main_call1_cst_0 : Ref sig .tc := ⟨.hbm, 129, rfl⟩
abbrev main_call1_v1 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst : Ref sig .tc := ⟨.hbm, 156, rfl⟩
abbrev main_v116 : Ref sig .tc := ⟨.hbm, 157, rfl⟩
abbrev main_cst_0 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_1 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_2 : Ref sig .tc := ⟨.hbm, 170, rfl⟩
abbrev main_v127 : Ref sig .tc := ⟨.hbm, 171, rfl⟩
abbrev main_cst_3 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_4 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_5 : Ref sig .tc := ⟨.hbm, 184, rfl⟩
abbrev main_v138 : Ref sig .tc := ⟨.hbm, 185, rfl⟩
abbrev main_cst_6 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_7 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_8 : Ref sig .tc := ⟨.hbm, 198, rfl⟩
abbrev main_v149 : Ref sig .tc := ⟨.hbm, 199, rfl⟩
abbrev main_cst_9 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_10 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_11 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_call2_cst : Ref sig .tc := ⟨.hbm, 249, rfl⟩
abbrev main_call2_call0_cst : Ref sig .tc := ⟨.hbm, 250, rfl⟩
abbrev main_call2_call0_v0 : Ref sig .tc := ⟨.hbm, 251, rfl⟩
abbrev main_call2_call0_v1 : Ref sig .tc := ⟨.hbm, 252, rfl⟩
abbrev main_call2_call0_cst_0 : Ref sig .tc := ⟨.hbm, 253, rfl⟩
abbrev main_call2_call0_v2 : Ref sig .tc := ⟨.hbm, 254, rfl⟩
abbrev main_call2_call0_v3 : Ref sig .tc := ⟨.hbm, 255, rfl⟩
abbrev main_call2_call0_cst_1 : Ref sig .tc := ⟨.hbm, 256, rfl⟩
abbrev main_call2_call0_call0_v0 : Ref sig .tc := ⟨.hbm, 257, rfl⟩
abbrev main_call2_call0_call0_v1 : Ref sig .tc := ⟨.hbm, 258, rfl⟩
abbrev main_call2_call0_v4 : Ref sig .tc := ⟨.hbm, 259, rfl⟩
abbrev main_call2_call0_v5 : Ref sig .tc := ⟨.hbm, 260, rfl⟩
abbrev main_call2_call0_v6 : Ref sig .tc := ⟨.hbm, 261, rfl⟩
abbrev main_call2_call0_v7 : Ref sig .tc := ⟨.hbm, 262, rfl⟩
abbrev main_call2_call0_v8 : Ref sig .tc := ⟨.hbm, 263, rfl⟩
abbrev main_call2_v0 : Ref sig .tc := ⟨.hbm, 264, rfl⟩
abbrev main_call2_cst_0 : Ref sig .tc := ⟨.hbm, 265, rfl⟩
abbrev main_call2_v1 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_cst_12 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_cst_13 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_cst_14 : Ref sig .tc := ⟨.hbm, 303, rfl⟩
abbrev main_v230 : Ref sig .tc := ⟨.hbm, 304, rfl⟩
abbrev main_v231 : Ref sig .tc := ⟨.hbm, 305, rfl⟩
abbrev main_cst_15 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_cst_16 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_call3_cst : Ref sig .tc := ⟨.hbm, 347, rfl⟩
abbrev main_call3_call0_cst : Ref sig .tc := ⟨.hbm, 348, rfl⟩
abbrev main_call3_call0_v0 : Ref sig .tc := ⟨.hbm, 349, rfl⟩
abbrev main_call3_call0_v1 : Ref sig .tc := ⟨.hbm, 350, rfl⟩
abbrev main_call3_call0_cst_0 : Ref sig .tc := ⟨.hbm, 351, rfl⟩
abbrev main_call3_call0_v2 : Ref sig .tc := ⟨.hbm, 352, rfl⟩
abbrev main_call3_call0_v3 : Ref sig .tc := ⟨.hbm, 353, rfl⟩
abbrev main_call3_call0_cst_1 : Ref sig .tc := ⟨.hbm, 354, rfl⟩
abbrev main_call3_call0_call0_v0 : Ref sig .tc := ⟨.hbm, 355, rfl⟩
abbrev main_call3_call0_call0_v1 : Ref sig .tc := ⟨.hbm, 356, rfl⟩
abbrev main_call3_call0_v4 : Ref sig .tc := ⟨.hbm, 357, rfl⟩
abbrev main_call3_call0_v5 : Ref sig .tc := ⟨.hbm, 358, rfl⟩
abbrev main_call3_call0_v6 : Ref sig .tc := ⟨.hbm, 359, rfl⟩
abbrev main_call3_call0_v7 : Ref sig .tc := ⟨.hbm, 360, rfl⟩
abbrev main_call3_call0_v8 : Ref sig .tc := ⟨.hbm, 361, rfl⟩
abbrev main_call3_v0 : Ref sig .tc := ⟨.hbm, 362, rfl⟩
abbrev main_call3_cst_0 : Ref sig .tc := ⟨.hbm, 363, rfl⟩
abbrev main_call3_v1 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_cst_17 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_cst_18 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_cst_19 : Ref sig .tc := ⟨.hbm, 401, rfl⟩
abbrev main_v305 : Ref sig .tc := ⟨.hbm, 402, rfl⟩
abbrev main_v306 : Ref sig .tc := ⟨.hbm, 403, rfl⟩
abbrev main_cst_20 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩

abbrev nD : Nat := 1
abbrev τ : Topo := Topo.v7x

variable {F : FTy → Type} [FloatOps F]

class Facts₀ : Prop where
  transposes_S16x1024x512_S16x512x1024_0_2_1 : S16x1024x512.Transposes [0, 2, 1] S16x512x1024
  slices_S7x1024x1024_S1x1024x1024_0_0_0 : S7x1024x1024.Slices ![0, 0, 0] S1x1024x1024
  shapeCasts_S1x1024x1024_S1024x1024 : S1x1024x1024.ShapeCasts S1024x1024
  slices_S7x1024_S1x1024_0_0 : S7x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S16x512x1024_0_1_2 : S1x1x1024.BroadcastsInDim S16x512x1024 (![0, 1, 2] : Fin 3 → Fin S16x512x1024.rank)
  slices_S7x1024x1024_S1x1024x1024_1_0_0 : S7x1024x1024.Slices ![1, 0, 0] S1x1024x1024
  slices_S7x1024_S1x1024_1_0 : S7x1024.Slices ![1, 0] S1x1024
  slices_S7x1024x1024_S1x1024x1024_2_0_0 : S7x1024x1024.Slices ![2, 0, 0] S1x1024x1024
  slices_S7x1024_S1x1024_2_0 : S7x1024.Slices ![2, 0] S1x1024
  slices_S7x1024x1024_S1x1024x1024_3_0_0 : S7x1024x1024.Slices ![3, 0, 0] S1x1024x1024
  slices_S7x1024_S1x1024_3_0 : S7x1024.Slices ![3, 0] S1x1024
  bcast_S_S16x512x1024 : S_.BroadcastsInDim S16x512x1024 (![] : Fin 0 → Fin S16x512x1024.rank)
  slices_S7x1024x1024_S1x1024x1024_4_0_0 : S7x1024x1024.Slices ![4, 0, 0] S1x1024x1024
  slices_S7x1024_S1x1024_4_0 : S7x1024.Slices ![4, 0] S1x1024
  slices_S7x1024x1024_S1x1024x1024_5_0_0 : S7x1024x1024.Slices ![5, 0, 0] S1x1024x1024
  slices_S7x1024_S1x1024_5_0 : S7x1024.Slices ![5, 0] S1x1024
  slices_S7x1024x1024_S1x1024x1024_6_0_0 : S7x1024x1024.Slices ![6, 0, 0] S1x1024x1024
  slices_S7x1024_S1x1024_6_0 : S7x1024.Slices ![6, 0] S1x1024
  reducesTo_S16x512x1024_S16x1024_d1 : S16x512x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x512x1024_0_1_2 : S16x1x1024.BroadcastsInDim S16x512x1024 (![0, 1, 2] : Fin 3 → Fin S16x512x1024.rank)
  reducesTo_S16x512x1024_S16x512_d2 : S16x512x1024.ReducesTo [2] S16x512
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x1024_0_1_2 : S16x512x1.BroadcastsInDim S16x512x1024 (![0, 1, 2] : Fin 3 → Fin S16x512x1024.rank)
  bcast_S_S16x512x512 : S_.BroadcastsInDim S16x512x512 (![] : Fin 0 → Fin S16x512x512.rank)
  transposes_S16x512x1024_S16x1024x512_0_2_1 : S16x512x1024.Transposes [0, 2, 1] S16x1024x512
  reducesTo_S16x1024x512_S16x1024_d2 : S16x1024x512.ReducesTo [2] S16x1024
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  bcast_S_S16x1024x512 : S_.BroadcastsInDim S16x1024x512 (![] : Fin 0 → Fin S16x1024x512.rank)
  dot_S16x512x1024_S1024x1024_S16x512x1024_2_1_01_0_n_n_wf : DotDims.WF S16x512x1024 S1024x1024 S16x512x1024 [2] [1] [0, 1] [0] [] []
  dot_S16x512x1024_S16x512x1024_S16x512x512_2_2_1_1_0_0_wf : DotDims.WF S16x512x1024 S16x512x1024 S16x512x512 [2] [2] [1] [1] [0] [0]
  dot_S16x512x512_S16x512x1024_S16x512x1024_2_1_1_2_0_0_wf : DotDims.WF S16x512x512 S16x512x1024 S16x512x1024 [2] [1] [1] [2] [0] [0]

variable [Facts₀]

def dot_S16x512x1024_S1024x1024_S16x512x1024_2_1_01_0_n_n : DotDims S16x512x1024 S1024x1024 S16x512x1024 where
  lhsContracting := [2]
  rhsContracting := [1]
  lhsNonContracting := [0, 1]
  rhsNonContracting := [0]
  lhsBatch := []
  rhsBatch := []
  wf := dot_S16x512x1024_S1024x1024_S16x512x1024_2_1_01_0_n_n_wf
def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf
def dot_S16x512x512_S16x512x1024_S16x512x1024_2_1_1_2_0_0 : DotDims S16x512x512 S16x512x1024 S16x512x1024 where
  lhsContracting := [2]
  rhsContracting := [1]
  lhsNonContracting := [1]
  rhsNonContracting := [2]
  lhsBatch := [0]
  rhsBatch := [0]
  wf := dot_S16x512x512_S16x512x1024_S16x512x1024_2_1_1_2_0_0_wf

class Facts : Prop extends Facts₀ where

variable [Facts]
-- ==== Proof.KRun.lean ====
/-
  The idealized kernel's run with its two results named: every weakly fair execution of @main terminates, and in every
  final state each result buffer holds what the fold of the program's segments leaves there — the last stretch of host
  operations applied to what the fourth region's write-backs leave, and so on back to the launch memory — while the four
  argument arrays are as launched. The run itself is the generated frame's (the launch over the nine segments); only the
  reading of the final state is widened from the arguments to the results.
-/
import proofs.«114870_j317827580568_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with both results read off the last boundary's contents. -/
theorem run_values : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_v95) = W9 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       h c _ (mem_uc main_v95 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.KRun

end
-- ==== Proof.KStages.lean ====
/-
  The idealized kernel's host-side arithmetic between its four launches, as named whole-array functions.

  `smax1` / `smax2` are the softmax along the channel axis (of extent 512) and along the feature axis (of extent 1024):
  the exponential of the array shifted by its maximum along the axis, divided by the sum of those exponentials along the
  axis. `att q k v` is the attention step: the matrix product of `q` and `k` contracted over features, divided by 1024,
  then multiplied into `v` over channels. `norm y a` transposes `y` back to the arguments' layout, divides each row by
  the larger of its Euclidean norm and 1e-12, scales by 0.1 and adds `a` times one. The two results apply a row function
  `fc` (the seven-layer perceptron on every row) four times around these steps.
-/
import proofs.«114870_j317827580568_1_alg».proof.Proof.Gen.KernelIdeal

noncomputable section

namespace Cert.KernelIdeal.KStages

open Cert.KernelIdeal Cert.KernelIdeal.Facts₀ Cert.KernelIdeal.Facts Idealize.ShloMosaic

variable {F : FTy → Type} [FloatOps F]

/-- The exponentials of the softmax along axis 1: `exp (x − max over axis 1)`. -/
def smax1e (x : FVec F S16x512x1024 .f32) : FVec F S16x512x1024 .f32 :=
  Host.exp (subf x (broadcastInDim S16x512x1024 ![0, 1, 2] bcast_S16x1x1024_S16x512x1024_0_1_2
    (broadcastInDim S16x1x1024 ![0, 2] bcast_S16x1024_S16x1x1024_0_2
      (maximumf (broadcastInDim S16x1024 ![] bcast_S_S16x1024 (constant S_ .f32 0xFF800000#32))
        (Host.reduce FloatOps.maximumf x (constant S_ .f32 0xFF800000#32) reducesTo_S16x512x1024_S16x1024_d1 h_S_)))))

/-- The softmax along axis 1. -/
def smax1 (x : FVec F S16x512x1024 .f32) : FVec F S16x512x1024 .f32 :=
  Host.divf (smax1e x) (broadcastInDim S16x512x1024 ![0, 1, 2] bcast_S16x1x1024_S16x512x1024_0_1_2
    (broadcastInDim S16x1x1024 ![0, 2] bcast_S16x1024_S16x1x1024_0_2
      (Host.reduceAdd (smax1e x) (constant S_ .f32 0x00000000#32) reducesTo_S16x512x1024_S16x1024_d1 h_S_)))

/-- The exponentials of the softmax along axis 2: `exp (x − max over axis 2)`. -/
def smax2e (x : FVec F S16x512x1024 .f32) : FVec F S16x512x1024 .f32 :=
  Host.exp (subf x (broadcastInDim S16x512x1024 ![0, 1, 2] bcast_S16x512x1_S16x512x1024_0_1_2
    (broadcastInDim S16x512x1 ![0, 1] bcast_S16x512_S16x512x1_0_1
      (maximumf (broadcastInDim S16x512 ![] bcast_S_S16x512 (constant S_ .f32 0xFF800000#32))
        (Host.reduce FloatOps.maximumf x (constant S_ .f32 0xFF800000#32) reducesTo_S16x512x1024_S16x512_d2 h_S_)))))

/-- The softmax along axis 2. -/
def smax2 (x : FVec F S16x512x1024 .f32) : FVec F S16x512x1024 .f32 :=
  Host.divf (smax2e x) (broadcastInDim S16x512x1024 ![0, 1, 2] bcast_S16x512x1_S16x512x1024_0_1_2
    (broadcastInDim S16x512x1 ![0, 1] bcast_S16x512_S16x512x1_0_1
      (Host.reduceAdd (smax2e x) (constant S_ .f32 0x00000000#32) reducesTo_S16x512x1024_S16x512_d2 h_S_)))

/-- The attention step: `((q · kᵀ) / 1024) · v`, batched over the leading axis. -/
def att (q k v : FVec F S16x512x1024 .f32) : FVec F S16x512x1024 .f32 :=
  Host.dotGeneral dot_S16x512x512_S16x512x1024_S16x512x1024_2_1_1_2_0_0 none
    (Host.divf (Host.dotGeneral dot_S16x512x1024_S16x512x1024_S16x512x512_2_2_1_1_0_0 none q k)
      (broadcastInDim S16x512x512 ![] bcast_S_S16x512x512 (constant S_ .f32 0x44800000#32))) v

/-- The perceptron's output moved back to the arguments' layout. -/
def normT (y : FVec F S16x512x1024 .f32) : FVec F S16x1024x512 .f32 :=
  transpose S16x1024x512 [0, 2, 1] y transposes_S16x512x1024_S16x1024x512_0_2_1

/-- Row normalisation, the 0.1 scale and the blend with the argument. -/
def norm (y : FVec F S16x512x1024 .f32) (a : FVec F S16x1024x512 .f32) : FVec F S16x1024x512 .f32 :=
  addf
    (mulf
      (Host.divf (normT y)
        (broadcastInDim S16x1024x512 ![0, 1, 2] bcast_S16x1024x1_S16x1024x512_0_1_2
          (maximumf
            (Host.sqrt (broadcastInDim S16x1024x1 ![0, 1] bcast_S16x1024_S16x1024x1_0_1
              (Host.reduceAdd (mulf (normT y) (normT y)) (constant S_ .f32 0x00000000#32) reducesTo_S16x1024x512_S16x1024_d2 h_S_)))
            (broadcastInDim S16x1024x1 ![] bcast_S_S16x1024x1 (constant S_ .f32 0x2B8CBCCC#32)))))
      (broadcastInDim S16x1024x512 ![] bcast_S_S16x1024x512 (constant S_ .f32 0x3DCCCCCD#32)))
    (mulf a (broadcastInDim S16x1024x512 ![] bcast_S_S16x1024x512 (constant S_ .f32 0x3F800000#32)))

/-- An argument moved to the perceptron's layout (channels before features). -/
def toRows (a : FVec F S16x1024x512 .f32) : FVec F S16x512x1024 .f32 :=
  transpose S16x512x1024 [0, 2, 1] a transposes_S16x1024x512_S16x512x1024_0_2_1

/-- The first result, over a row function `fc`. -/
def out0 (fc : FVec F S16x512x1024 .f32 → FVec F S16x512x1024 .f32) (a0 a1 : FVec F S16x1024x512 .f32) : FVec F S16x1024x512 .f32 :=
  norm (fc (att (smax1 (fc (toRows a0))) (smax2 (fc (toRows a1))) (toRows a0))) a0

/-- The second result, over a row function `fc`. -/
def out1 (fc : FVec F S16x512x1024 .f32 → FVec F S16x512x1024 .f32) (a0 a1 : FVec F S16x1024x512 .f32) : FVec F S16x1024x512 .f32 :=
  norm (fc (att (smax1 (fc (toRows a1))) (smax2 (fc (toRows a0))) (toRows a1))) a1

end Cert.KernelIdeal.KStages

end
-- ==== Proof.KHost.lean ====
/-
  What each stretch of host operations of the idealized kernel's @main leaves in the buffers that are read later, as
  functions of the buffer contents the stretch is entered with: the transposes and the row-major reshapes around the four
  launches, the two pairs of softmaxes and the attention steps, and the normalisation and blend of each result. Every
  other buffer read later is left as it was.
-/
import proofs.«114870_j317827580568_1_alg».proof.Proof.Gen.KernelIdeal.Launch
import proofs.«114870_j317827580568_1_alg».proof.Proof.KStages
import Idealize.ShloMosaic.Lib.StableHlo.Run

set_option maxRecDepth 16384
set_option maxHeartbeats 2000000

noncomputable section

namespace Cert.KernelIdeal.KHost

open Cert.KernelIdeal Cert.KernelIdeal.Gen Cert.KernelIdeal.KStages
open Idealize.ShloMosaic Idealize.ShloMosaic.TcCoe Idealize.SL.Sem Idealize.ShloMosaic.StableHlo

variable {F : FTy → Type} [FloatOps F] [Named F]
variable (V : Valuation τ sig (Elt F))

/-! ## Before the first launch: the weights transposed and narrowed, both arguments moved to rows, the first flattened -/

theorem h0_v1 : StableHlo.after (hostOps0 (F := F)) V (Proc.devRef .tc main_v1)
    = truncf .bf16 (transpose S7x1024x1024 [0, 2, 1] (V (Proc.devRef .tc main_arg2)) transposes_S7x1024x1024_S7x1024x1024_0_2_1) bitsLt_bf16_f32 := by
  after_results <;> rfl
theorem h0_v2 : StableHlo.after (hostOps0 (F := F)) V (Proc.devRef .tc main_v2) = toRows (V (Proc.devRef .tc main_arg0)) := by
  after_results <;> rfl
theorem h0_v3 : StableHlo.after (hostOps0 (F := F)) V (Proc.devRef .tc main_v3) = toRows (V (Proc.devRef .tc main_arg1)) := by
  after_results <;> rfl
theorem h0_v4 : StableHlo.after (hostOps0 (F := F)) V (Proc.devRef .tc main_v4)
    = shapeCast S8192x1024 (toRows (V (Proc.devRef .tc main_arg0))) shapeCasts_S16x512x1024_S8192x1024 := by
  after_results <;> rfl
theorem h0_keep_arg0 : StableHlo.after (hostOps0 (F := F)) V (Proc.devRef .tc main_arg0) = V (Proc.devRef .tc main_arg0) := by
  after_results
theorem h0_keep_arg1 : StableHlo.after (hostOps0 (F := F)) V (Proc.devRef .tc main_arg1) = V (Proc.devRef .tc main_arg1) := by
  after_results
theorem h0_keep_arg3 : StableHlo.after (hostOps0 (F := F)) V (Proc.devRef .tc main_arg3) = V (Proc.devRef .tc main_arg3) := by
  after_results

/-! ## Between the first two launches: the first output unflattened, the second argument's rows flattened -/

theorem h1_v6 : StableHlo.after (hostOps1 (F := F)) V (Proc.devRef .tc main_v6)
    = shapeCast S16x512x1024 (V (Proc.devRef .tc main_v5)) shapeCasts_S8192x1024_S16x512x1024 := by
  after_results <;> rfl
theorem h1_v7 : StableHlo.after (hostOps1 (F := F)) V (Proc.devRef .tc main_v7)
    = shapeCast S8192x1024 (V (Proc.devRef .tc main_v3)) shapeCasts_S16x512x1024_S8192x1024 := by
  after_results <;> rfl
theorem h1_keep_v1 : StableHlo.after (hostOps1 (F := F)) V (Proc.devRef .tc main_v1) = V (Proc.devRef .tc main_v1) := by
  after_results
theorem h1_keep_v2 : StableHlo.after (hostOps1 (F := F)) V (Proc.devRef .tc main_v2) = V (Proc.devRef .tc main_v2) := by
  after_results
theorem h1_keep_v3 : StableHlo.after (hostOps1 (F := F)) V (Proc.devRef .tc main_v3) = V (Proc.devRef .tc main_v3) := by
  after_results
theorem h1_keep_arg0 : StableHlo.after (hostOps1 (F := F)) V (Proc.devRef .tc main_arg0) = V (Proc.devRef .tc main_arg0) := by
  after_results
theorem h1_keep_arg1 : StableHlo.after (hostOps1 (F := F)) V (Proc.devRef .tc main_arg1) = V (Proc.devRef .tc main_arg1) := by
  after_results
theorem h1_keep_arg3 : StableHlo.after (hostOps1 (F := F)) V (Proc.devRef .tc main_arg3) = V (Proc.devRef .tc main_arg3) := by
  after_results

/-! ## Between the second and third launches: the four softmaxes and the first attention step -/

theorem h2_v58 : StableHlo.after (hostOps2 (F := F)) V (Proc.devRef .tc main_v58)
    = shapeCast S8192x1024 (att (smax1 (V (Proc.devRef .tc main_v6))) (smax2 (shapeCast S16x512x1024 (V (Proc.devRef .tc main_v8)) shapeCasts_S8192x1024_S16x512x1024)) (V (Proc.devRef .tc main_v2))) shapeCasts_S16x512x1024_S8192x1024 := by
  after_results_simp <;> rfl
theorem h2_v42 : StableHlo.after (hostOps2 (F := F)) V (Proc.devRef .tc main_v42)
    = smax1 (shapeCast S16x512x1024 (V (Proc.devRef .tc main_v8)) shapeCasts_S8192x1024_S16x512x1024) := by
  after_results_simp <;> rfl
theorem h2_v31 : StableHlo.after (hostOps2 (F := F)) V (Proc.devRef .tc main_v31) = smax2 (V (Proc.devRef .tc main_v6)) := by
  after_results_simp <;> rfl
theorem h2_keep_v1 : StableHlo.after (hostOps2 (F := F)) V (Proc.devRef .tc main_v1) = V (Proc.devRef .tc main_v1) := by
  after_results_simp
theorem h2_keep_v3 : StableHlo.after (hostOps2 (F := F)) V (Proc.devRef .tc main_v3) = V (Proc.devRef .tc main_v3) := by
  after_results_simp
theorem h2_keep_arg0 : StableHlo.after (hostOps2 (F := F)) V (Proc.devRef .tc main_arg0) = V (Proc.devRef .tc main_arg0) := by
  after_results_simp
theorem h2_keep_arg1 : StableHlo.after (hostOps2 (F := F)) V (Proc.devRef .tc main_arg1) = V (Proc.devRef .tc main_arg1) := by
  after_results_simp
theorem h2_keep_arg3 : StableHlo.after (hostOps2 (F := F)) V (Proc.devRef .tc main_arg3) = V (Proc.devRef .tc main_arg3) := by
  after_results_simp

/-! ## Between the third and fourth launches: the first result, and the second attention step -/

theorem h3_v74 : StableHlo.after (hostOps3 (F := F)) V (Proc.devRef .tc main_v74)
    = norm (shapeCast S16x512x1024 (V (Proc.devRef .tc main_v59)) shapeCasts_S8192x1024_S16x512x1024) (V (Proc.devRef .tc main_arg0)) := by
  after_results_simp <;> rfl
theorem h3_v79 : StableHlo.after (hostOps3 (F := F)) V (Proc.devRef .tc main_v79)
    = shapeCast S8192x1024 (att (V (Proc.devRef .tc main_v42)) (V (Proc.devRef .tc main_v31)) (V (Proc.devRef .tc main_v3))) shapeCasts_S16x512x1024_S8192x1024 := by
  after_results_simp <;> rfl
theorem h3_keep_v1 : StableHlo.after (hostOps3 (F := F)) V (Proc.devRef .tc main_v1) = V (Proc.devRef .tc main_v1) := by
  after_results_simp
theorem h3_keep_arg1 : StableHlo.after (hostOps3 (F := F)) V (Proc.devRef .tc main_arg1) = V (Proc.devRef .tc main_arg1) := by
  after_results_simp
theorem h3_keep_arg3 : StableHlo.after (hostOps3 (F := F)) V (Proc.devRef .tc main_arg3) = V (Proc.devRef .tc main_arg3) := by
  after_results_simp

/-! ## After the fourth launch: the second result -/

theorem h4_v95 : StableHlo.after (hostOps4 (F := F)) V (Proc.devRef .tc main_v95)
    = norm (shapeCast S16x512x1024 (V (Proc.devRef .tc main_v80)) shapeCasts_S8192x1024_S16x512x1024) (V (Proc.devRef .tc main_arg1)) := by
  after_results_simp <;> rfl
theorem h4_keep_v74 : StableHlo.after (hostOps4 (F := F)) V (Proc.devRef .tc main_v74) = V (Proc.devRef .tc main_v74) := by
  after_results_simp

end Cert.KernelIdeal.KHost

end
-- ==== Proof.Spec.lean ====
/-
  The mathematics both programs compute for one row of the seven-layer perceptron, on the extended reals.

  A row `x : Fin 1024 → EReal` passes through seven affine layers `y ↦ (∑ₖ yₖ · Wᵢ[n,k]) + bᵢ[n]`, with SELU applied to the
  output of the fourth layer. The kernel and the reference spell SELU differently: the kernel selects between
  `s · y` and `q · (eʸ − 1)` with `q` the folded product `s · a`; the reference computes
  `s · select(y > 0, y, a · expm1(select(y > 0, 0, y)))`. The two agree at every extended real, by associativity of the
  product alone (`seluRef_eq`): no finiteness is needed.
-/
import Idealize.ShloMosaic.PureOps.Ideal
import Idealize.ShloMosaic.Lib.ValueIdx

noncomputable section

namespace Cert.Spec

open Idealize.ShloMosaic

/-- The f32 word `+0.0` denotes `0`. -/
theorem ofBits_zero : Ideal.ofBits .f32 0x00000000#32 = 0 := by
  simp [Ideal.ofBits, Ideal.ieee]

/-- The f32 word `1.0` denotes `1`. -/
theorem ofBits_one : Ideal.ofBits .f32 0x3F800000#32 = 1 := by
  simp [Ideal.ofBits, Ideal.ieee, -EReal.coe_mul]; norm_num

/-- SELU's scale, the f32 word both programs carry: the dyadic 8813919 / 2²³. -/
def scaleW : EReal := Ideal.ofBits .f32 0x3F867D5F#32

/-- SELU's alpha, the f32 word the reference carries: the dyadic 14036349 / 2²³. -/
def alphaW : EReal := Ideal.ofBits .f32 0x3FD62D7D#32

/-- The value the kernel's folded constant is read at: the exact product of the two dyadics. -/
def foldedQ : EReal := ((123715243141731 / 70368744177664 : ℝ) : EReal)

theorem scaleW_eq : scaleW = ((8813919 / 8388608 : ℝ) : EReal) := by
  unfold scaleW; simp [Ideal.ofBits, Ideal.ieee, -EReal.coe_mul]; norm_num

theorem alphaW_eq : alphaW = ((14036349 / 8388608 : ℝ) : EReal) := by
  unfold alphaW; simp [Ideal.ofBits, Ideal.ieee, -EReal.coe_mul]; norm_num

/-- The folded constant is the product of scale and alpha: 8813919 · 14036349 = 123715243141731 over 2⁴⁶. -/
theorem foldedQ_eq : foldedQ = scaleW * alphaW := by
  rw [scaleW_eq, alphaW_eq, ← EReal.coe_mul]; unfold foldedQ; congr 1; norm_num

/-- SELU as the kernel spells it, at one extended real. -/
def selu (y : EReal) : EReal :=
  Scalar.select (Ideal.cmp .ogt y (Ideal.ofBits .f32 0x00000000#32))
    (scaleW * y) (foldedQ * (Ideal.exp y - Ideal.ofBits .f32 0x3F800000#32))

/-- SELU as the reference spells it (scale · elu, with the exponent's argument clamped at zero on the positive side). -/
def seluRef (y : EReal) : EReal :=
  scaleW * Scalar.select (Ideal.cmp .ogt y (Ideal.ofBits .f32 0x00000000#32)) y
    (alphaW * (Ideal.exp (Scalar.select (Ideal.cmp .ogt y (Ideal.ofBits .f32 0x00000000#32)) (Ideal.ofBits .f32 0x00000000#32) y) - 1))

/-- The two spellings agree everywhere: on the positive side both are `s · y`; elsewhere `s · (a · z) = (s · a) · z`. -/
theorem seluRef_eq (y : EReal) : seluRef y = selu y := by
  unfold seluRef selu
  by_cases h : Ideal.cmp .ogt y (Ideal.ofBits .f32 0x00000000#32) = 1#1
  · rw [h]; simp only [ValueIdx.select_one]
  · have h0 := ValueIdx.eq_zero_of_ne_one h
    rw [h0]; simp only [ValueIdx.select_zero]
    rw [foldedQ_eq, ofBits_one, mul_assoc]

/-- One affine layer on a row: `n ↦ (∑ₖ xₖ · W[n,k]) + b[n]`. -/
def lin (W : Fin 1024 → Fin 1024 → EReal) (b : Fin 1024 → EReal) (x : Fin 1024 → EReal) (n : Fin 1024) : EReal :=
  (∑ k : Fin 1024, x k * W n k) + b n

/-- The seven layers on a row, SELU after the fourth. -/
def fc1row (W : Fin 7 → Fin 1024 → Fin 1024 → EReal) (b : Fin 7 → Fin 1024 → EReal) (x : Fin 1024 → EReal) : Fin 1024 → EReal :=
  lin (W 6) (b 6) (lin (W 5) (b 5) (lin (W 4) (b 4) (fun n => selu (lin (W 3) (b 3) (lin (W 2) (b 2) (lin (W 1) (b 1) (lin (W 0) (b 0) x))) n))))

end Cert.Spec

end
-- ==== Proof.KFc1Named.lean ====
/-
  The kernel's folded SELU constant, read on the extended reals.

  The kernel carries one f32 word for the product scale · alpha. On the extended reals that word is read as the
  exact product of the two dyadics the reference multiplies, the rational 123715243141731 / 2⁴⁶, as the
  certificate's table of named constants gives it.
-/
import proofs.«114870_j317827580568_1_alg».proof.KernelIdeal
import Idealize.ShloMosaic.PureOps.IdealRules
import proofs.«114870_j317827580568_1_alg».proof.Proof.Spec

noncomputable section

namespace Cert.KFc1

open Idealize.ShloMosaic

/-- The named word "selu_scale_alpha" denotes the folded product `Spec.foldedQ` on the extended reals. -/
theorem named_eq :
    Named.named (F := Ideal) Cert.KernelIdeal.κ "selu_scale_alpha" (φ := .f32) 0x3FE10966#32 = Cert.Spec.foldedQ :=
  IdealRules.named_const.ideal_named_scalar _ _ _ _ rfl

end Cert.KFc1

end
-- ==== Proof.KFc1Layer.lean ====
/-
  One affine layer and the SELU step, as the kernel computes them on a block of 512 rows, read at an index.

  The kernel's layer is a matrix product of the block (its entries carried in a narrower format, which is the
  identity on the extended reals) with one 1024 × 1024 slice of the weight stack, accumulated into zero, plus the
  layer's bias row broadcast down the 512 rows. Read at row r and column n it is
  (∑ₖ v[r,k] · w[k,n]) + b[n], which is the specification's affine layer on row r with the weight
  matrix read transposed. The SELU step selects, entry by entry, between scale · y and q · (eʸ − 1), with q the
  folded constant; read at an index it is the specification's SELU of the entry.
-/
import proofs.«114870_j317827580568_1_alg».proof.Proof.Gen.KernelIdeal
import proofs.«114870_j317827580568_1_alg».proof.Proof.KFc1Named
import Idealize.ShloMosaic.PureOps.Ideal.Laws
import Idealize.ShloMosaic.Lib.ValueIdx
import Idealize.ShloMosaic.Lib.ValueLayout
import Idealize.ShloMosaic.Lib.Pipeline.Value

noncomputable section

namespace Cert.KFc1

open Idealize.ShloMosaic Idealize.ShloMosaic.ValueIdx Cert.KernelIdeal Cert.KernelIdeal.Gen

/-! ## The matrix product read at an index -/

/-- The left operand's row coordinate is the output's row. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The left operand's column coordinate is the contracted one. -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's row coordinate is the contracted one. -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The right operand's column coordinate is the output's column. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A 512 × 1024 by 1024 × 1024 product accumulated into zero, read at (r, n), is ∑ₖ a[r,k] · m[k,n]. -/
theorem mm_apply (a : FVec Ideal S512x1024 .bf16) (m : FVec Ideal S1024x1024 .bf16) (r : Fin 512) (n : Fin 1024) :
    matmul dot_S512x1024_S1024x1024_S512x1024_1_0_0_1_n_n none a m (constant (F := Ideal) S512x1024 .f32 0x00000000#32) (ix2 r n)
      = ∑ k : Fin 1024, a (ix2 r k) * m (ix2 k n) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r n)
      ((contrEquiv1 dot_S512x1024_S1024x1024_S512x1024_1_0_0_1_n_n 1024 rfl rfl).symm k) = ix2 r k :=
    funext fun a => Fin.ext (by
      match a with
      | ⟨0, _⟩ => exact lhs_row _ _
      | ⟨1, _⟩ => exact (lhs_col _ _).trans hk)
  have er : dot_S512x1024_S1024x1024_S512x1024_1_0_0_1_n_n.rhsIdx (ix2 r n)
      ((contrEquiv1 dot_S512x1024_S1024x1024_S512x1024_1_0_0_1_n_n 1024 rfl rfl).symm k) = ix2 k n :=
    funext fun a => Fin.ext (by
      match a with
      | ⟨0, _⟩ => exact (rhs_row _ _).trans hk
      | ⟨1, _⟩ => exact rhs_col _ _)
  rw [el, er]

/-! ## One layer -/

/-- One affine layer on a block: the product with a weight slice, into zero, plus the bias row down the rows. -/
def layerK (v : FVec Ideal S512x1024 .f32) (w : Vec Ideal S1x1024x1024 .bf16) (b : Vec Ideal S1x1024 .f32) :
    FVec Ideal S512x1024 .f32 :=
  addf (matmul dot_S512x1024_S1024x1024_S512x1024_1_0_0_1_n_n none (truncf .bf16 v bitsLt_bf16_f32)
      (shapeCast S1024x1024 w shapeCasts_S1x1024x1024_S1024x1024 : FVec Ideal S1024x1024 .bf16)
      (constant (F := Ideal) S512x1024 .f32 0x00000000#32))
    (broadcastTo S512x1024 b broadcasts_S1x1024_S512x1024)

/-- The layer at (r, n) is the specification's affine layer on row r, for any names W, B, x of the slice's entries
    (read transposed), the bias row's entries and the block's row r. -/
theorem layerK_apply (v : FVec Ideal S512x1024 .f32) (w : Vec Ideal S1x1024x1024 .bf16) (b : Vec Ideal S1x1024 .f32)
    (W : Fin 1024 → Fin 1024 → EReal) (B : Fin 1024 → EReal) (x : Fin 1024 → EReal) (r : Fin 512)
    (hw : ∀ n k, w (ix3 (0 : Fin 1) k n) = W n k) (hb : ∀ n, b (ix2 (0 : Fin 1) n) = B n)
    (hv : ∀ k, v (ix2 r k) = x k) (n : Fin 1024) :
    layerK v w b (ix2 r n) = Cert.Spec.lin W B x n := by
  unfold layerK Cert.Spec.lin
  rw [addf_apply, mm_apply, broadcastTo_1b_ab_apply, hb]
  refine congrArg (· + B n) (Finset.sum_congr rfl fun k _ => ?_)
  rw [truncf_apply, shapeCast_1ab_ab_apply, hv, hw]

/-! ## The SELU step -/

/-- The condition "the entry is above zero", entry by entry. -/
def condK (y : FVec Ideal S512x1024 .f32) : IVec S512x1024 1 :=
  cmpf .ogt y (broadcast S512x1024 (Scalar.ofBits (F := Ideal) .f32 0x00000000#32))

/-- The kernel's SELU on a block under a condition: scale · y where it holds, q · (eʸ − 1) elsewhere. -/
def seluK (y : FVec Ideal S512x1024 .f32) (c : IVec S512x1024 1) : FVec Ideal S512x1024 .f32 :=
  select c (mulf (broadcast S512x1024 (Scalar.ofBits (F := Ideal) .f32 0x3F867D5F#32)) y)
    (mulf (broadcast S512x1024 (Named.named (F := Ideal) κ "selu_scale_alpha" (φ := .f32) 0x3FE10966#32))
      (subf (exp y) (broadcast S512x1024 (Scalar.ofBits (F := Ideal) .f32 0x3F800000#32))))

/-- Under its own condition the step is the specification's SELU of each entry. -/
theorem seluK_apply (y : FVec Ideal S512x1024 .f32) (i : S512x1024.Idx) :
    seluK y (condK y) i = Cert.Spec.selu (y i) := by
  show Scalar.select (Ideal.cmp .ogt (y i) (Ideal.ofBits .f32 0x00000000#32)) (Ideal.ofBits .f32 0x3F867D5F#32 * y i)
    (Named.named (F := Ideal) κ "selu_scale_alpha" (φ := .f32) 0x3FE10966#32
      * (Ideal.exp (y i) - Ideal.ofBits .f32 0x3F800000#32)) = _
  rw [named_eq]
  rfl

/-! ## The slices of the weight stack and of the bias the layers load -/

/-- The load of weight slice i (offsets (i, 0, 0), sizes 1 × 1024 × 1024) reads the stack at (i, k, n). -/
theorem ld_w (x1 : Vec Ideal S7x1024x1024 .bf16) (o : Nat)
    (inb : ∀ a, (![o, 0, 0] : Fin 3 → Nat) a + S1x1024x1024.size a ≤ S7x1024x1024.size a) (i : Fin 7) (hi : i.val = o)
    (n k : Fin 1024) :
    View.ld x1 (Rect.unit (s := S7x1024x1024) ![o, 0, 0] S1x1024x1024.size inb) (ix3 (0 : Fin 1) k n) = x1 (ix3 i k n) := by
  refine congrArg x1 (funext fun a => Fin.ext ?_)
  match a with
  | ⟨0, _⟩ => show o + 1 * 0 = i.val; omega
  | ⟨1, _⟩ => show 0 + 1 * k.val = k.val; omega
  | ⟨2, _⟩ => show 0 + 1 * n.val = n.val; omega

/-- The load of bias row i (offsets (i, 0), sizes 1 × 1024) reads the bias at (i, n). -/
theorem ld_b (x2 : Vec Ideal S7x1024 .f32) (o : Nat)
    (inb : ∀ a, (![o, 0] : Fin 2 → Nat) a + S1x1024.size a ≤ S7x1024.size a) (i : Fin 7) (hi : i.val = o) (n : Fin 1024) :
    View.ld x2 (Rect.unit (s := S7x1024) ![o, 0] S1x1024.size inb) (ix2 (0 : Fin 1) n) = x2 (ix2 i n) := by
  refine congrArg x2 (funext fun a => Fin.ext ?_)
  match a with
  | ⟨0, _⟩ => show o + 1 * 0 = i.val; omega
  | ⟨1, _⟩ => show 0 + 1 * n.val = n.val; omega

end Cert.KFc1

end
-- ==== Proof.KFc1Block0.lean ====
/-
  Region 0 of the kernel: what one grid point leaves in its output block, read at an index.

  The body loads its 512 × 1024 block of rows, runs the seven affine layers on it (each a product with one slice of
  the weight stack, accumulated into zero, plus that layer's bias row), with the SELU step after the fourth, and stores
  the result through the whole output block. Read at row r and column n of the block the stored value is the
  specification's seven-layer function of row r of the input block, at column n, with the weight stack read
  transposed (the kernel holds Wt[i][k][n] and multiplies the block on the right by slice i).
-/
import proofs.«114870_j317827580568_1_alg».proof.Proof.Gen.KernelIdeal.Frame
import proofs.«114870_j317827580568_1_alg».proof.Proof.KFc1Layer

noncomputable section

namespace Cert.KFc1

open Idealize.ShloMosaic Idealize.ShloMosaic.ValueIdx Cert.KernelIdeal Cert.KernelIdeal.Gen

/-- The offsets (0, 0) are the zero offsets. -/
theorem hz_0 : (![0, 0] : Fin 2 → Nat) = fun _ => 0 := funext fun a => by fin_cases a <;> rfl

/-- The first four layers of the body are four layers composed on the loaded block. -/
theorem pay2_0 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k0_pay2 (F := Ideal) v0 v2 v4 v9 v11 v16 v18 v23 v25
      = layerK (layerK (layerK (layerK (shapeCast S512x1024 v0 shapeCasts_S512x1024_S512x1024) v2 v4) v9 v11) v16 v18) v23 v25 :=
  rfl

/-- The body's condition is "above zero" of the fourth layer's output. -/
theorem pay3_0 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k0_pay3 (F := Ideal) v0 v2 v4 v9 v11 v16 v18 v23 v25 = condK (k0_pay2 (F := Ideal) v0 v2 v4 v9 v11 v16 v18 v23 v25) :=
  rfl

/-- The stored value is the SELU step followed by the last three layers. -/
theorem pay1_0 (v29 : FVec Ideal S512x1024 .f32) (v31 : IVec S512x1024 1) (v40 : Vec Ideal S1x1024x1024 .bf16)
    (v42 : Vec Ideal S1x1024 .f32) (v47 : Vec Ideal S1x1024x1024 .bf16) (v49 : Vec Ideal S1x1024 .f32)
    (v54 : Vec Ideal S1x1024x1024 .bf16) (v56 : Vec Ideal S1x1024 .f32) :
    k0_pay1 (F := Ideal) v29 v31 v40 v42 v47 v49 v54 v56
      = layerK (layerK (layerK (seluK v29 v31) v40 v42) v47 v49) v54 v56 :=
  rfl

/-- What a point leaves in its output block, at (r, n): the seven layers on row r of its input block. -/
theorem out0_3_apply (x0 : Vec Ideal S512x1024 .f32) (x1 : Vec Ideal S7x1024x1024 .bf16) (x2 : Vec Ideal S7x1024 .f32)
    (r : Fin 512) (n : Fin 1024) :
    out0_3 (F := Ideal) x0 x1 x2 (ix2 r n)
      = Cert.Spec.fc1row (fun i n k => x1 (ix3 i k n)) (fun i n => x2 (ix2 i n)) (fun k => x0 (ix2 r k)) n := by
  unfold out0_3
  rw [View.canon_unit_zero hz_0, pay1_0, pay3_0, pay2_0]
  unfold Cert.Spec.fc1row
  refine layerK_apply _ _ _ _ _ _ r (ld_w x1 6 _ 6 rfl) (ld_b x2 6 _ 6 rfl) (fun k => ?_) n
  refine layerK_apply _ _ _ _ _ _ r (ld_w x1 5 _ 5 rfl) (ld_b x2 5 _ 5 rfl) (fun k => ?_) k
  refine layerK_apply _ _ _ _ _ _ r (ld_w x1 4 _ 4 rfl) (ld_b x2 4 _ 4 rfl) (fun k => ?_) k
  refine (seluK_apply _ _).trans (congrArg Cert.Spec.selu ?_)
  refine layerK_apply _ _ _ _ _ _ r (ld_w x1 3 _ 3 rfl) (ld_b x2 3 _ 3 rfl) (fun k => ?_) k
  refine layerK_apply _ _ _ _ _ _ r (ld_w x1 2 _ 2 rfl) (ld_b x2 2 _ 2 rfl) (fun k => ?_) k
  refine layerK_apply _ _ _ _ _ _ r (ld_w x1 1 _ 1 rfl) (ld_b x2 1 _ 1 rfl) (fun k => ?_) k
  refine layerK_apply _ _ _ _ _ _ r (ld_w x1 0 _ 0 rfl) (ld_b x2 0 _ 0 rfl) (fun k => ?_) k
  rw [shapeCast_self, View.ld_unit_zero hz_0]

end Cert.KFc1

end
-- ==== Proof.KFc1ArrayDef.lean ====
/-
  The kernel's value on a whole array: the seven-layer perceptron applied to every row.

  Given the 8192 × 1024 array of rows X, the weight stack Wt (held transposed: Wt[i][k][n]) and the bias b, entry
  (ρ, n) of the result is the specification's seven-layer function of row ρ of X, at column n, with layer i's weight
  matrix read as W[n,k] = Wt[i][k][n].
-/
import proofs.«114870_j317827580568_1_alg».proof.KernelIdeal
import proofs.«114870_j317827580568_1_alg».proof.Proof.Spec
import Idealize.ShloMosaic.Lib.ValueIdx

noncomputable section

namespace Cert.KFc1

open Idealize.ShloMosaic Idealize.ShloMosaic.ValueIdx Cert.KernelIdeal

/-- The perceptron on every row of X: entry (ρ, n) is the seven layers on row ρ, at column n. -/
def fc1K (X : S8192x1024.Idx → EReal) (Wt : S7x1024x1024.Idx → EReal) (b : S7x1024.Idx → EReal) : S8192x1024.Idx → EReal :=
  fun j => Cert.Spec.fc1row (fun i n k => Wt (ix3 i k n)) (fun i n => b (ix2 i n)) (fun k => X (ix2 (j 0) k)) (j 1)

end Cert.KFc1

end
-- ==== Proof.KFc1Array0.lean ====
/-
  Region 0 of the kernel: from the blocks the grid points write back to the whole output array.

  The grid has 16 points. Point t reads rows 512·t … 512·t + 511 of the 8192 × 1024 input array, the whole weight
  stack and the whole bias, and writes back rows 512·t … 512·t + 511 of the output array. What it writes back is
  the seven-layer perceptron of its rows, so it is that block of the perceptron applied to every row of the input
  array; the 16 blocks tile the output array (row ρ lies in the block of point ρ / 512), so after the last point
  the output array holds the perceptron of every row. The three inputs are never written back, so they end as
  the region found them.
-/
import proofs.«114870_j317827580568_1_alg».proof.Proof.Gen.KernelIdeal.Frame
import proofs.«114870_j317827580568_1_alg».proof.Proof.KFc1Block0
import proofs.«114870_j317827580568_1_alg».proof.Proof.KFc1ArrayDef
import Idealize.ShloMosaic.Lib.Pipeline.Value

noncomputable section

namespace Cert.KFc1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The windows' block indices at point t: the row blocks of the input and of the output are block t, every other
    block index is zero (decided over the 16 points). -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the perceptron applied to every row of the input array. -/
theorem flushed0_eq (c : Dev nD) (t : Fin cfg0.N) :
    (dat0 (F := Ideal) V c).flushed 3 t = ((cfg0.win 3).blk t).view.read (Elt Ideal)
      (fc1K (V c (Pipeline.arrRef spec0 0)) (V c (Pipeline.arrRef spec0 1)) (V c (Pipeline.arrRef spec0 2))) := by
  show (cfg0.win 3).cut (grid0.coords t) ((dat0 V c).after 3 t) = _
  rw [after0_3]
  funext j
  have hj0 : (j 0).val < 512 := (j 0).isLt
  have hj1 : (j 1).val < 1024 := (j 1).isLt
  obtain ⟨e00, e01, e10, e11, e12, e20, e21, e30, e31⟩ := idx_facts0 t
  have hx : (cfg0.win 3).xinj (grid0.coords t) j = ix2 (⟨(j 0).val, hj0⟩ : Fin 512) (⟨(j 1).val, hj1⟩ : Fin 1024) :=
    funext fun a => Fin.ext (by match a with | ⟨0, _⟩ => rfl | ⟨1, _⟩ => rfl)
  show out0_3 (iblk0 V c 0 t) (iblk0 V c 1 t) (iblk0 V c 2 t) ((cfg0.win 3).xinj (grid0.coords t) j) = _
  rw [hx]
  refine (out0_3_apply (iblk0 V c 0 t) (iblk0 V c 1 t) (iblk0 V c 2 t) _ _).trans ?_
  -- the weight window's block is the whole stack
  have hW : (fun (i : Fin 7) (n k : Fin 1024) => (iblk0 V c 1 t : Vec Ideal S7x1024x1024 .bf16) (ix3 i k n))
      = fun (i : Fin 7) (n k : Fin 1024) => (V c (Pipeline.arrRef spec0 1) : S7x1024x1024.Idx → EReal) (ix3 i k n) :=
    funext fun i => funext fun n => funext fun k => by
      show (V c (Pipeline.arrRef spec0 1) : S7x1024x1024.Idx → EReal) (((cfg0.win 1).blk t).view.emb (ix3 i k n)) = _
      refine congrArg _ (funext fun a => Fin.ext ?_)
      match a with
      | ⟨0, _⟩ => show win0_1.index t (0 : Fin 3) * 7 + 1 * i.val = i.val; rw [e10]; omega
      | ⟨1, _⟩ => show win0_1.index t (1 : Fin 3) * 1024 + 1 * k.val = k.val; rw [e11]; omega
      | ⟨2, _⟩ => show win0_1.index t (2 : Fin 3) * 1024 + 1 * n.val = n.val; rw [e12]; omega
  -- the bias window's block is the whole bias
  have hB : (fun (i : Fin 7) (n : Fin 1024) => (iblk0 V c 2 t : Vec Ideal S7x1024 .f32) (ix2 i n))
      = fun (i : Fin 7) (n : Fin 1024) => (V c (Pipeline.arrRef spec0 2) : S7x1024.Idx → EReal) (ix2 i n) :=
    funext fun i => funext fun n => by
      show (V c (Pipeline.arrRef spec0 2) : S7x1024.Idx → EReal) (((cfg0.win 2).blk t).view.emb (ix2 i n)) = _
      refine congrArg _ (funext fun a => Fin.ext ?_)
      match a with
      | ⟨0, _⟩ => show win0_2.index t (0 : Fin 2) * 7 + 1 * i.val = i.val; rw [e20]; omega
      | ⟨1, _⟩ => show win0_2.index t (1 : Fin 2) * 1024 + 1 * n.val = n.val; rw [e21]; omega
  -- row r of the input block is the array's row that the output block's row r lands on
  have hX : (fun (k : Fin 1024) => (iblk0 V c 0 t : Vec Ideal S512x1024 .f32) (ix2 (⟨(j 0).val, hj0⟩ : Fin 512) k))
      = fun (k : Fin 1024) => (V c (Pipeline.arrRef spec0 0) : S8192x1024.Idx → EReal)
          (ix2 ((((cfg0.win 3).blk t).view.emb j : S8192x1024.Idx) 0) k) :=
    funext fun k => by
      show (V c (Pipeline.arrRef spec0 0) : S8192x1024.Idx → EReal)
        (((cfg0.win 0).blk t).view.emb (ix2 (⟨(j 0).val, hj0⟩ : Fin 512) k)) = _
      refine congrArg _ (funext fun a => Fin.ext ?_)
      match a with
      | ⟨0, _⟩ =>
        show win0_0.index t (0 : Fin 2) * 512 + 1 * (j 0).val = win0_3.index t (0 : Fin 2) * 512 + 1 * (j 0).val
        rw [e00, e30]
      | ⟨1, _⟩ => show win0_0.index t (1 : Fin 2) * 1024 + 1 * k.val = k.val; rw [e01]; omega
  -- the column is kept
  have hq : (⟨(j 1).val, hj1⟩ : Fin 1024) = (((cfg0.win 3).blk t).view.emb j : S8192x1024.Idx) 1 :=
    Fin.ext (by show (j 1).val = win0_3.index t (1 : Fin 2) * 1024 + 1 * (j 1).val; rw [e31]; omega)
  rw [hW, hB, hX, hq]
  rfl

/-- An index of the output array is in point t's block iff each coordinate is in the block's range on its axis. -/
theorem mem_blk0 (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5).slice (win0_3.rect t)).set ↔ _
  rw [View.set_slice_whole, Rect.mem_set_unit]
  exact Iff.rfl

/-- After the last point the output array holds the perceptron of every row of the input array: the 16 blocks
    cover it, row ρ lying in the block of point ρ / 512. -/
theorem arr0 (c : Dev nD) :
    (dat0 (F := Ideal) V c).arrAt 3 cfg0.N
      = fc1K (V c (Pipeline.arrRef spec0 0)) (V c (Pipeline.arrRef spec0 1)) (V c (Pipeline.arrRef spec0 2)) :=
  (dat0 V c).arrAt_eq_of_cover 3 _ (fun t _ => flushed0_eq V c t) fun i => by
    have hi0 : (i 0).val < 8192 := (i 0).isLt
    have hi1 : (i 1).val < 1024 := (i 1).isLt
    have hN : cfg0.N = 16 := N_0
    let t : Fin cfg0.N := ⟨(i 0).val / 512, by rw [hN]; omega⟩
    obtain ⟨e00, e01, e10, e11, e12, e20, e21, e30, e31⟩ := idx_facts0 t
    refine ⟨t, flush0_3 t, ?_⟩
    rw [mem_blk0]
    intro a
    match a with
    | ⟨0, _⟩ =>
      show win0_3.index t (0 : Fin 2) * 512 ≤ (i 0).val ∧ (i 0).val < win0_3.index t (0 : Fin 2) * 512 + 512
      rw [e30]; show (i 0).val / 512 * 512 ≤ (i 0).val ∧ (i 0).val < (i 0).val / 512 * 512 + 512; omega
    | ⟨1, _⟩ =>
      show win0_3.index t (1 : Fin 2) * 1024 ≤ (i 1).val ∧ (i 1).val < win0_3.index t (1 : Fin 2) * 1024 + 1024
      rw [e31]; omega

/-- The three input windows are never written back (decided over the 16 points). -/
theorem noflush0 : ∀ t : Fin cfg0.N,
    (cfg0.win 0).flush t = false ∧ (cfg0.win 1).flush t = false ∧ (cfg0.win 2).flush t = false :=
  (by decide +kernel : ∀ t : Fin grid0.N, win0_0.flush t = false ∧ win0_1.flush t = false ∧ win0_2.flush t = false)

/-- So the input array of rows ends as the region found it, -/
theorem in0_0 (c : Dev nD) : (dat0 (F := Ideal) V c).arrAt 0 cfg0.N = V c (Pipeline.arrRef spec0 0) :=
  funext fun i => ((dat0 V c).arrAt_apply_of_forall_not_mem 0 cfg0.N i fun t _ hf _ => by
    rw [(noflush0 t).1] at hf; exact absurd hf (by decide)).trans (congrFun (A_eq0 V c 0) i)
/-- and the weight stack, -/
theorem in0_1 (c : Dev nD) : (dat0 (F := Ideal) V c).arrAt 1 cfg0.N = V c (Pipeline.arrRef spec0 1) :=
  funext fun i => ((dat0 V c).arrAt_apply_of_forall_not_mem 1 cfg0.N i fun t _ hf _ => by
    rw [(noflush0 t).2.1] at hf; exact absurd hf (by decide)).trans (congrFun (A_eq0 V c 1) i)
/-- and the bias. -/
theorem in0_2 (c : Dev nD) : (dat0 (F := Ideal) V c).arrAt 2 cfg0.N = V c (Pipeline.arrRef spec0 2) :=
  funext fun i => ((dat0 V c).arrAt_apply_of_forall_not_mem 2 cfg0.N i fun t _ hf _ => by
    rw [(noflush0 t).2.2] at hf; exact absurd hf (by decide)).trans (congrFun (A_eq0 V c 2) i)

end Cert.KFc1

end
-- ==== Proof.KFc1Block1.lean ====
/-
  Region 1 of the kernel: what one grid point leaves in its output block, read at an index.

  The body loads its 512 × 1024 block of rows, runs the seven affine layers on it (each a product with one slice of
  the weight stack, accumulated into zero, plus that layer's bias row), with the SELU step after the fourth, and stores
  the result through the whole output block. Read at row r and column n of the block the stored value is the
  specification's seven-layer function of row r of the input block, at column n, with the weight stack read
  transposed (the kernel holds Wt[i][k][n] and multiplies the block on the right by slice i).
-/
import proofs.«114870_j317827580568_1_alg».proof.Proof.Gen.KernelIdeal.Frame
import proofs.«114870_j317827580568_1_alg».proof.Proof.KFc1Layer

noncomputable section

namespace Cert.KFc1

open Idealize.ShloMosaic Idealize.ShloMosaic.ValueIdx Cert.KernelIdeal Cert.KernelIdeal.Gen

/-- The offsets (0, 0) are the zero offsets. -/
theorem hz_1 : (![0, 0] : Fin 2 → Nat) = fun _ => 0 := funext fun a => by fin_cases a <;> rfl

/-- The first four layers of the body are four layers composed on the loaded block. -/
theorem pay2_1 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k1_pay2 (F := Ideal) v0 v2 v4 v9 v11 v16 v18 v23 v25
      = layerK (layerK (layerK (layerK (shapeCast S512x1024 v0 shapeCasts_S512x1024_S512x1024) v2 v4) v9 v11) v16 v18) v23 v25 :=
  rfl

/-- The body's condition is "above zero" of the fourth layer's output. -/
theorem pay3_1 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k1_pay3 (F := Ideal) v0 v2 v4 v9 v11 v16 v18 v23 v25 = condK (k1_pay2 (F := Ideal) v0 v2 v4 v9 v11 v16 v18 v23 v25) :=
  rfl

/-- The stored value is the SELU step followed by the last three layers. -/
theorem pay1_1 (v29 : FVec Ideal S512x1024 .f32) (v31 : IVec S512x1024 1) (v40 : Vec Ideal S1x1024x1024 .bf16)
    (v42 : Vec Ideal S1x1024 .f32) (v47 : Vec Ideal S1x1024x1024 .bf16) (v49 : Vec Ideal S1x1024 .f32)
    (v54 : Vec Ideal S1x1024x1024 .bf16) (v56 : Vec Ideal S1x1024 .f32) :
    k1_pay1 (F := Ideal) v29 v31 v40 v42 v47 v49 v54 v56
      = layerK (layerK (layerK (seluK v29 v31) v40 v42) v47 v49) v54 v56 :=
  rfl

/-- What a point leaves in its output block, at (r, n): the seven layers on row r of its input block. -/
theorem out1_3_apply (x0 : Vec Ideal S512x1024 .f32) (x1 : Vec Ideal S7x1024x1024 .bf16) (x2 : Vec Ideal S7x1024 .f32)
    (r : Fin 512) (n : Fin 1024) :
    out1_3 (F := Ideal) x0 x1 x2 (ix2 r n)
      = Cert.Spec.fc1row (fun i n k => x1 (ix3 i k n)) (fun i n => x2 (ix2 i n)) (fun k => x0 (ix2 r k)) n := by
  unfold out1_3
  rw [View.canon_unit_zero hz_1, pay1_1, pay3_1, pay2_1]
  unfold Cert.Spec.fc1row
  refine layerK_apply _ _ _ _ _ _ r (ld_w x1 6 _ 6 rfl) (ld_b x2 6 _ 6 rfl) (fun k => ?_) n
  refine layerK_apply _ _ _ _ _ _ r (ld_w x1 5 _ 5 rfl) (ld_b x2 5 _ 5 rfl) (fun k => ?_) k
  refine layerK_apply _ _ _ _ _ _ r (ld_w x1 4 _ 4 rfl) (ld_b x2 4 _ 4 rfl) (fun k => ?_) k
  refine (seluK_apply _ _).trans (congrArg Cert.Spec.selu ?_)
  refine layerK_apply _ _ _ _ _ _ r (ld_w x1 3 _ 3 rfl) (ld_b x2 3 _ 3 rfl) (fun k => ?_) k
  refine layerK_apply _ _ _ _ _ _ r (ld_w x1 2 _ 2 rfl) (ld_b x2 2 _ 2 rfl) (fun k => ?_) k
  refine layerK_apply _ _ _ _ _ _ r (ld_w x1 1 _ 1 rfl) (ld_b x2 1 _ 1 rfl) (fun k => ?_) k
  refine layerK_apply _ _ _ _ _ _ r (ld_w x1 0 _ 0 rfl) (ld_b x2 0 _ 0 rfl) (fun k => ?_) k
  rw [shapeCast_self, View.ld_unit_zero hz_1]

end Cert.KFc1

end
-- ==== Proof.KFc1Array1.lean ====
/-
  Region 1 of the kernel: from the blocks the grid points write back to the whole output array.

  The grid has 16 points. Point t reads rows 512·t … 512·t + 511 of the 8192 × 1024 input array, the whole weight
  stack and the whole bias, and writes back rows 512·t … 512·t + 511 of the output array. What it writes back is
  the seven-layer perceptron of its rows, so it is that block of the perceptron applied to every row of the input
  array; the 16 blocks tile the output array (row ρ lies in the block of point ρ / 512), so after the last point
  the output array holds the perceptron of every row. The three inputs are never written back, so they end as
  the region found them.
-/
import proofs.«114870_j317827580568_1_alg».proof.Proof.Gen.KernelIdeal.Frame
import proofs.«114870_j317827580568_1_alg».proof.Proof.KFc1Block1
import proofs.«114870_j317827580568_1_alg».proof.Proof.KFc1ArrayDef
import Idealize.ShloMosaic.Lib.Pipeline.Value

noncomputable section

namespace Cert.KFc1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The windows' block indices at point t: the row blocks of the input and of the output are block t, every other
    block index is zero (decided over the 16 points). -/
theorem idx_facts1 : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the perceptron applied to every row of the input array. -/
theorem flushed1_eq (c : Dev nD) (t : Fin cfg1.N) :
    (dat1 (F := Ideal) V c).flushed 3 t = ((cfg1.win 3).blk t).view.read (Elt Ideal)
      (fc1K (V c (Pipeline.arrRef spec1 0)) (V c (Pipeline.arrRef spec1 1)) (V c (Pipeline.arrRef spec1 2))) := by
  show (cfg1.win 3).cut (grid1.coords t) ((dat1 V c).after 3 t) = _
  rw [after1_3]
  funext j
  have hj0 : (j 0).val < 512 := (j 0).isLt
  have hj1 : (j 1).val < 1024 := (j 1).isLt
  obtain ⟨e00, e01, e10, e11, e12, e20, e21, e30, e31⟩ := idx_facts1 t
  have hx : (cfg1.win 3).xinj (grid1.coords t) j = ix2 (⟨(j 0).val, hj0⟩ : Fin 512) (⟨(j 1).val, hj1⟩ : Fin 1024) :=
    funext fun a => Fin.ext (by match a with | ⟨0, _⟩ => rfl | ⟨1, _⟩ => rfl)
  show out1_3 (iblk1 V c 0 t) (iblk1 V c 1 t) (iblk1 V c 2 t) ((cfg1.win 3).xinj (grid1.coords t) j) = _
  rw [hx]
  refine (out1_3_apply (iblk1 V c 0 t) (iblk1 V c 1 t) (iblk1 V c 2 t) _ _).trans ?_
  -- the weight window's block is the whole stack
  have hW : (fun (i : Fin 7) (n k : Fin 1024) => (iblk1 V c 1 t : Vec Ideal S7x1024x1024 .bf16) (ix3 i k n))
      = fun (i : Fin 7) (n k : Fin 1024) => (V c (Pipeline.arrRef spec1 1) : S7x1024x1024.Idx → EReal) (ix3 i k n) :=
    funext fun i => funext fun n => funext fun k => by
      show (V c (Pipeline.arrRef spec1 1) : S7x1024x1024.Idx → EReal) (((cfg1.win 1).blk t).view.emb (ix3 i k n)) = _
      refine congrArg _ (funext fun a => Fin.ext ?_)
      match a with
      | ⟨0, _⟩ => show win1_1.index t (0 : Fin 3) * 7 + 1 * i.val = i.val; rw [e10]; omega
      | ⟨1, _⟩ => show win1_1.index t (1 : Fin 3) * 1024 + 1 * k.val = k.val; rw [e11]; omega
      | ⟨2, _⟩ => show win1_1.index t (2 : Fin 3) * 1024 + 1 * n.val = n.val; rw [e12]; omega
  -- the bias window's block is the whole bias
  have hB : (fun (i : Fin 7) (n : Fin 1024) => (iblk1 V c 2 t : Vec Ideal S7x1024 .f32) (ix2 i n))
      = fun (i : Fin 7) (n : Fin 1024) => (V c (Pipeline.arrRef spec1 2) : S7x1024.Idx → EReal) (ix2 i n) :=
    funext fun i => funext fun n => by
      show (V c (Pipeline.arrRef spec1 2) : S7x1024.Idx → EReal) (((cfg1.win 2).blk t).view.emb (ix2 i n)) = _
      refine congrArg _ (funext fun a => Fin.ext ?_)
      match a with
      | ⟨0, _⟩ => show win1_2.index t (0 : Fin 2) * 7 + 1 * i.val = i.val; rw [e20]; omega
      | ⟨1, _⟩ => show win1_2.index t (1 : Fin 2) * 1024 + 1 * n.val = n.val; rw [e21]; omega
  -- row r of the input block is the array's row that the output block's row r lands on
  have hX : (fun (k : Fin 1024) => (iblk1 V c 0 t : Vec Ideal S512x1024 .f32) (ix2 (⟨(j 0).val, hj0⟩ : Fin 512) k))
      = fun (k : Fin 1024) => (V c (Pipeline.arrRef spec1 0) : S8192x1024.Idx → EReal)
          (ix2 ((((cfg1.win 3).blk t).view.emb j : S8192x1024.Idx) 0) k) :=
    funext fun k => by
      show (V c (Pipeline.arrRef spec1 0) : S8192x1024.Idx → EReal)
        (((cfg1.win 0).blk t).view.emb (ix2 (⟨(j 0).val, hj0⟩ : Fin 512) k)) = _
      refine congrArg _ (funext fun a => Fin.ext ?_)
      match a with
      | ⟨0, _⟩ =>
        show win1_0.index t (0 : Fin 2) * 512 + 1 * (j 0).val = win1_3.index t (0 : Fin 2) * 512 + 1 * (j 0).val
        rw [e00, e30]
      | ⟨1, _⟩ => show win1_0.index t (1 : Fin 2) * 1024 + 1 * k.val = k.val; rw [e01]; omega
  -- the column is kept
  have hq : (⟨(j 1).val, hj1⟩ : Fin 1024) = (((cfg1.win 3).blk t).view.emb j : S8192x1024.Idx) 1 :=
    Fin.ext (by show (j 1).val = win1_3.index t (1 : Fin 2) * 1024 + 1 * (j 1).val; rw [e31]; omega)
  rw [hW, hB, hX, hq]
  rfl

/-- An index of the output array is in point t's block iff each coordinate is in the block's range on its axis. -/
theorem mem_blk1 (t : Fin cfg1.N) (i : S8192x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v8).slice (win1_3.rect t)).set ↔ _
  rw [View.set_slice_whole, Rect.mem_set_unit]
  exact Iff.rfl

/-- After the last point the output array holds the perceptron of every row of the input array: the 16 blocks
    cover it, row ρ lying in the block of point ρ / 512. -/
theorem arr1 (c : Dev nD) :
    (dat1 (F := Ideal) V c).arrAt 3 cfg1.N
      = fc1K (V c (Pipeline.arrRef spec1 0)) (V c (Pipeline.arrRef spec1 1)) (V c (Pipeline.arrRef spec1 2)) :=
  (dat1 V c).arrAt_eq_of_cover 3 _ (fun t _ => flushed1_eq V c t) fun i => by
    have hi0 : (i 0).val < 8192 := (i 0).isLt
    have hi1 : (i 1).val < 1024 := (i 1).isLt
    have hN : cfg1.N = 16 := N_1
    let t : Fin cfg1.N := ⟨(i 0).val / 512, by rw [hN]; omega⟩
    obtain ⟨e00, e01, e10, e11, e12, e20, e21, e30, e31⟩ := idx_facts1 t
    refine ⟨t, flush1_3 t, ?_⟩
    rw [mem_blk1]
    intro a
    match a with
    | ⟨0, _⟩ =>
      show win1_3.index t (0 : Fin 2) * 512 ≤ (i 0).val ∧ (i 0).val < win1_3.index t (0 : Fin 2) * 512 + 512
      rw [e30]; show (i 0).val / 512 * 512 ≤ (i 0).val ∧ (i 0).val < (i 0).val / 512 * 512 + 512; omega
    | ⟨1, _⟩ =>
      show win1_3.index t (1 : Fin 2) * 1024 ≤ (i 1).val ∧ (i 1).val < win1_3.index t (1 : Fin 2) * 1024 + 1024
      rw [e31]; omega

/-- The three input windows are never written back (decided over the 16 points). -/
theorem noflush1 : ∀ t : Fin cfg1.N,
    (cfg1.win 0).flush t = false ∧ (cfg1.win 1).flush t = false ∧ (cfg1.win 2).flush t = false :=
  (by decide +kernel : ∀ t : Fin grid1.N, win1_0.flush t = false ∧ win1_1.flush t = false ∧ win1_2.flush t = false)

/-- So the input array of rows ends as the region found it, -/
theorem in1_0 (c : Dev nD) : (dat1 (F := Ideal) V c).arrAt 0 cfg1.N = V c (Pipeline.arrRef spec1 0) :=
  funext fun i => ((dat1 V c).arrAt_apply_of_forall_not_mem 0 cfg1.N i fun t _ hf _ => by
    rw [(noflush1 t).1] at hf; exact absurd hf (by decide)).trans (congrFun (A_eq1 V c 0) i)
/-- and the weight stack, -/
theorem in1_1 (c : Dev nD) : (dat1 (F := Ideal) V c).arrAt 1 cfg1.N = V c (Pipeline.arrRef spec1 1) :=
  funext fun i => ((dat1 V c).arrAt_apply_of_forall_not_mem 1 cfg1.N i fun t _ hf _ => by
    rw [(noflush1 t).2.1] at hf; exact absurd hf (by decide)).trans (congrFun (A_eq1 V c 1) i)
/-- and the bias. -/
theorem in1_2 (c : Dev nD) : (dat1 (F := Ideal) V c).arrAt 2 cfg1.N = V c (Pipeline.arrRef spec1 2) :=
  funext fun i => ((dat1 V c).arrAt_apply_of_forall_not_mem 2 cfg1.N i fun t _ hf _ => by
    rw [(noflush1 t).2.2] at hf; exact absurd hf (by decide)).trans (congrFun (A_eq1 V c 2) i)

end Cert.KFc1

end
-- ==== Proof.KFc1Block2.lean ====
/-
  Region 2 of the kernel: what one grid point leaves in its output block, read at an index.

  The body loads its 512 × 1024 block of rows, runs the seven affine layers on it (each a product with one slice of
  the weight stack, accumulated into zero, plus that layer's bias row), with the SELU step after the fourth, and stores
  the result through the whole output block. Read at row r and column n of the block the stored value is the
  specification's seven-layer function of row r of the input block, at column n, with the weight stack read
  transposed (the kernel holds Wt[i][k][n] and multiplies the block on the right by slice i).
-/
import proofs.«114870_j317827580568_1_alg».proof.Proof.Gen.KernelIdeal.Frame
import proofs.«114870_j317827580568_1_alg».proof.Proof.KFc1Layer

noncomputable section

namespace Cert.KFc1

open Idealize.ShloMosaic Idealize.ShloMosaic.ValueIdx Cert.KernelIdeal Cert.KernelIdeal.Gen

/-- The offsets (0, 0) are the zero offsets. -/
theorem hz_2 : (![0, 0] : Fin 2 → Nat) = fun _ => 0 := funext fun a => by fin_cases a <;> rfl

/-- The first four layers of the body are four layers composed on the loaded block. -/
theorem pay2_2 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k2_pay2 (F := Ideal) v0 v2 v4 v9 v11 v16 v18 v23 v25
      = layerK (layerK (layerK (layerK (shapeCast S512x1024 v0 shapeCasts_S512x1024_S512x1024) v2 v4) v9 v11) v16 v18) v23 v25 :=
  rfl

/-- The body's condition is "above zero" of the fourth layer's output. -/
theorem pay3_2 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k2_pay3 (F := Ideal) v0 v2 v4 v9 v11 v16 v18 v23 v25 = condK (k2_pay2 (F := Ideal) v0 v2 v4 v9 v11 v16 v18 v23 v25) :=
  rfl

/-- The stored value is the SELU step followed by the last three layers. -/
theorem pay1_2 (v29 : FVec Ideal S512x1024 .f32) (v31 : IVec S512x1024 1) (v40 : Vec Ideal S1x1024x1024 .bf16)
    (v42 : Vec Ideal S1x1024 .f32) (v47 : Vec Ideal S1x1024x1024 .bf16) (v49 : Vec Ideal S1x1024 .f32)
    (v54 : Vec Ideal S1x1024x1024 .bf16) (v56 : Vec Ideal S1x1024 .f32) :
    k2_pay1 (F := Ideal) v29 v31 v40 v42 v47 v49 v54 v56
      = layerK (layerK (layerK (seluK v29 v31) v40 v42) v47 v49) v54 v56 :=
  rfl

/-- What a point leaves in its output block, at (r, n): the seven layers on row r of its input block. -/
theorem out2_3_apply (x0 : Vec Ideal S512x1024 .f32) (x1 : Vec Ideal S7x1024x1024 .bf16) (x2 : Vec Ideal S7x1024 .f32)
    (r : Fin 512) (n : Fin 1024) :
    out2_3 (F := Ideal) x0 x1 x2 (ix2 r n)
      = Cert.Spec.fc1row (fun i n k => x1 (ix3 i k n)) (fun i n => x2 (ix2 i n)) (fun k => x0 (ix2 r k)) n := by
  unfold out2_3
  rw [View.canon_unit_zero hz_2, pay1_2, pay3_2, pay2_2]
  unfold Cert.Spec.fc1row
  refine layerK_apply _ _ _ _ _ _ r (ld_w x1 6 _ 6 rfl) (ld_b x2 6 _ 6 rfl) (fun k => ?_) n
  refine layerK_apply _ _ _ _ _ _ r (ld_w x1 5 _ 5 rfl) (ld_b x2 5 _ 5 rfl) (fun k => ?_) k
  refine layerK_apply _ _ _ _ _ _ r (ld_w x1 4 _ 4 rfl) (ld_b x2 4 _ 4 rfl) (fun k => ?_) k
  refine (seluK_apply _ _).trans (congrArg Cert.Spec.selu ?_)
  refine layerK_apply _ _ _ _ _ _ r (ld_w x1 3 _ 3 rfl) (ld_b x2 3 _ 3 rfl) (fun k => ?_) k
  refine layerK_apply _ _ _ _ _ _ r (ld_w x1 2 _ 2 rfl) (ld_b x2 2 _ 2 rfl) (fun k => ?_) k
  refine layerK_apply _ _ _ _ _ _ r (ld_w x1 1 _ 1 rfl) (ld_b x2 1 _ 1 rfl) (fun k => ?_) k
  refine layerK_apply _ _ _ _ _ _ r (ld_w x1 0 _ 0 rfl) (ld_b x2 0 _ 0 rfl) (fun k => ?_) k
  rw [shapeCast_self, View.ld_unit_zero hz_2]

end Cert.KFc1

end
-- ==== Proof.KFc1Array2.lean ====
/-
  Region 2 of the kernel: from the blocks the grid points write back to the whole output array.

  The grid has 16 points. Point t reads rows 512·t … 512·t + 511 of the 8192 × 1024 input array, the whole weight
  stack and the whole bias, and writes back rows 512·t … 512·t + 511 of the output array. What it writes back is
  the seven-layer perceptron of its rows, so it is that block of the perceptron applied to every row of the input
  array; the 16 blocks tile the output array (row ρ lies in the block of point ρ / 512), so after the last point
  the output array holds the perceptron of every row. The three inputs are never written back, so they end as
  the region found them.
-/
import proofs.«114870_j317827580568_1_alg».proof.Proof.Gen.KernelIdeal.Frame
import proofs.«114870_j317827580568_1_alg».proof.Proof.KFc1Block2
import proofs.«114870_j317827580568_1_alg».proof.Proof.KFc1ArrayDef
import Idealize.ShloMosaic.Lib.Pipeline.Value

noncomputable section

namespace Cert.KFc1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The windows' block indices at point t: the row blocks of the input and of the output are block t, every other
    block index is zero (decided over the 16 points). -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the perceptron applied to every row of the input array. -/
theorem flushed2_eq (c : Dev nD) (t : Fin cfg2.N) :
    (dat2 (F := Ideal) V c).flushed 3 t = ((cfg2.win 3).blk t).view.read (Elt Ideal)
      (fc1K (V c (Pipeline.arrRef spec2 0)) (V c (Pipeline.arrRef spec2 1)) (V c (Pipeline.arrRef spec2 2))) := by
  show (cfg2.win 3).cut (grid2.coords t) ((dat2 V c).after 3 t) = _
  rw [after2_3]
  funext j
  have hj0 : (j 0).val < 512 := (j 0).isLt
  have hj1 : (j 1).val < 1024 := (j 1).isLt
  obtain ⟨e00, e01, e10, e11, e12, e20, e21, e30, e31⟩ := idx_facts2 t
  have hx : (cfg2.win 3).xinj (grid2.coords t) j = ix2 (⟨(j 0).val, hj0⟩ : Fin 512) (⟨(j 1).val, hj1⟩ : Fin 1024) :=
    funext fun a => Fin.ext (by match a with | ⟨0, _⟩ => rfl | ⟨1, _⟩ => rfl)
  show out2_3 (iblk2 V c 0 t) (iblk2 V c 1 t) (iblk2 V c 2 t) ((cfg2.win 3).xinj (grid2.coords t) j) = _
  rw [hx]
  refine (out2_3_apply (iblk2 V c 0 t) (iblk2 V c 1 t) (iblk2 V c 2 t) _ _).trans ?_
  -- the weight window's block is the whole stack
  have hW : (fun (i : Fin 7) (n k : Fin 1024) => (iblk2 V c 1 t : Vec Ideal S7x1024x1024 .bf16) (ix3 i k n))
      = fun (i : Fin 7) (n k : Fin 1024) => (V c (Pipeline.arrRef spec2 1) : S7x1024x1024.Idx → EReal) (ix3 i k n) :=
    funext fun i => funext fun n => funext fun k => by
      show (V c (Pipeline.arrRef spec2 1) : S7x1024x1024.Idx → EReal) (((cfg2.win 1).blk t).view.emb (ix3 i k n)) = _
      refine congrArg _ (funext fun a => Fin.ext ?_)
      match a with
      | ⟨0, _⟩ => show win2_1.index t (0 : Fin 3) * 7 + 1 * i.val = i.val; rw [e10]; omega
      | ⟨1, _⟩ => show win2_1.index t (1 : Fin 3) * 1024 + 1 * k.val = k.val; rw [e11]; omega
      | ⟨2, _⟩ => show win2_1.index t (2 : Fin 3) * 1024 + 1 * n.val = n.val; rw [e12]; omega
  -- the bias window's block is the whole bias
  have hB : (fun (i : Fin 7) (n : Fin 1024) => (iblk2 V c 2 t : Vec Ideal S7x1024 .f32) (ix2 i n))
      = fun (i : Fin 7) (n : Fin 1024) => (V c (Pipeline.arrRef spec2 2) : S7x1024.Idx → EReal) (ix2 i n) :=
    funext fun i => funext fun n => by
      show (V c (Pipeline.arrRef spec2 2) : S7x1024.Idx → EReal) (((cfg2.win 2).blk t).view.emb (ix2 i n)) = _
      refine congrArg _ (funext fun a => Fin.ext ?_)
      match a with
      | ⟨0, _⟩ => show win2_2.index t (0 : Fin 2) * 7 + 1 * i.val = i.val; rw [e20]; omega
      | ⟨1, _⟩ => show win2_2.index t (1 : Fin 2) * 1024 + 1 * n.val = n.val; rw [e21]; omega
  -- row r of the input block is the array's row that the output block's row r lands on
  have hX : (fun (k : Fin 1024) => (iblk2 V c 0 t : Vec Ideal S512x1024 .f32) (ix2 (⟨(j 0).val, hj0⟩ : Fin 512) k))
      = fun (k : Fin 1024) => (V c (Pipeline.arrRef spec2 0) : S8192x1024.Idx → EReal)
          (ix2 ((((cfg2.win 3).blk t).view.emb j : S8192x1024.Idx) 0) k) :=
    funext fun k => by
      show (V c (Pipeline.arrRef spec2 0) : S8192x1024.Idx → EReal)
        (((cfg2.win 0).blk t).view.emb (ix2 (⟨(j 0).val, hj0⟩ : Fin 512) k)) = _
      refine congrArg _ (funext fun a => Fin.ext ?_)
      match a with
      | ⟨0, _⟩ =>
        show win2_0.index t (0 : Fin 2) * 512 + 1 * (j 0).val = win2_3.index t (0 : Fin 2) * 512 + 1 * (j 0).val
        rw [e00, e30]
      | ⟨1, _⟩ => show win2_0.index t (1 : Fin 2) * 1024 + 1 * k.val = k.val; rw [e01]; omega
  -- the column is kept
  have hq : (⟨(j 1).val, hj1⟩ : Fin 1024) = (((cfg2.win 3).blk t).view.emb j : S8192x1024.Idx) 1 :=
    Fin.ext (by show (j 1).val = win2_3.index t (1 : Fin 2) * 1024 + 1 * (j 1).val; rw [e31]; omega)
  rw [hW, hB, hX, hq]
  rfl

/-- An index of the output array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v59).slice (win2_3.rect t)).set ↔ _
  rw [View.set_slice_whole, Rect.mem_set_unit]
  exact Iff.rfl

/-- After the last point the output array holds the perceptron of every row of the input array: the 16 blocks
    cover it, row ρ lying in the block of point ρ / 512. -/
theorem arr2 (c : Dev nD) :
    (dat2 (F := Ideal) V c).arrAt 3 cfg2.N
      = fc1K (V c (Pipeline.arrRef spec2 0)) (V c (Pipeline.arrRef spec2 1)) (V c (Pipeline.arrRef spec2 2)) :=
  (dat2 V c).arrAt_eq_of_cover 3 _ (fun t _ => flushed2_eq V c t) fun i => by
    have hi0 : (i 0).val < 8192 := (i 0).isLt
    have hi1 : (i 1).val < 1024 := (i 1).isLt
    have hN : cfg2.N = 16 := N_2
    let t : Fin cfg2.N := ⟨(i 0).val / 512, by rw [hN]; omega⟩
    obtain ⟨e00, e01, e10, e11, e12, e20, e21, e30, e31⟩ := idx_facts2 t
    refine ⟨t, flush2_3 t, ?_⟩
    rw [mem_blk2]
    intro a
    match a with
    | ⟨0, _⟩ =>
      show win2_3.index t (0 : Fin 2) * 512 ≤ (i 0).val ∧ (i 0).val < win2_3.index t (0 : Fin 2) * 512 + 512
      rw [e30]; show (i 0).val / 512 * 512 ≤ (i 0).val ∧ (i 0).val < (i 0).val / 512 * 512 + 512; omega
    | ⟨1, _⟩ =>
      show win2_3.index t (1 : Fin 2) * 1024 ≤ (i 1).val ∧ (i 1).val < win2_3.index t (1 : Fin 2) * 1024 + 1024
      rw [e31]; omega

/-- The three input windows are never written back (decided over the 16 points). -/
theorem noflush2 : ∀ t : Fin cfg2.N,
    (cfg2.win 0).flush t = false ∧ (cfg2.win 1).flush t = false ∧ (cfg2.win 2).flush t = false :=
  (by decide +kernel : ∀ t : Fin grid2.N, win2_0.flush t = false ∧ win2_1.flush t = false ∧ win2_2.flush t = false)

/-- So the input array of rows ends as the region found it, -/
theorem in2_0 (c : Dev nD) : (dat2 (F := Ideal) V c).arrAt 0 cfg2.N = V c (Pipeline.arrRef spec2 0) :=
  funext fun i => ((dat2 V c).arrAt_apply_of_forall_not_mem 0 cfg2.N i fun t _ hf _ => by
    rw [(noflush2 t).1] at hf; exact absurd hf (by decide)).trans (congrFun (A_eq2 V c 0) i)
/-- and the weight stack, -/
theorem in2_1 (c : Dev nD) : (dat2 (F := Ideal) V c).arrAt 1 cfg2.N = V c (Pipeline.arrRef spec2 1) :=
  funext fun i => ((dat2 V c).arrAt_apply_of_forall_not_mem 1 cfg2.N i fun t _ hf _ => by
    rw [(noflush2 t).2.1] at hf; exact absurd hf (by decide)).trans (congrFun (A_eq2 V c 1) i)
/-- and the bias. -/
theorem in2_2 (c : Dev nD) : (dat2 (F := Ideal) V c).arrAt 2 cfg2.N = V c (Pipeline.arrRef spec2 2) :=
  funext fun i => ((dat2 V c).arrAt_apply_of_forall_not_mem 2 cfg2.N i fun t _ hf _ => by
    rw [(noflush2 t).2.2] at hf; exact absurd hf (by decide)).trans (congrFun (A_eq2 V c 2) i)

end Cert.KFc1

end
-- ==== Proof.KFc1Block3.lean ====
/-
  Region 3 of the kernel: what one grid point leaves in its output block, read at an index.

  The body loads its 512 × 1024 block of rows, runs the seven affine layers on it (each a product with one slice of
  the weight stack, accumulated into zero, plus that layer's bias row), with the SELU step after the fourth, and stores
  the result through the whole output block. Read at row r and column n of the block the stored value is the
  specification's seven-layer function of row r of the input block, at column n, with the weight stack read
  transposed (the kernel holds Wt[i][k][n] and multiplies the block on the right by slice i).
-/
import proofs.«114870_j317827580568_1_alg».proof.Proof.Gen.KernelIdeal.Frame
import proofs.«114870_j317827580568_1_alg».proof.Proof.KFc1Layer

noncomputable section

namespace Cert.KFc1

open Idealize.ShloMosaic Idealize.ShloMosaic.ValueIdx Cert.KernelIdeal Cert.KernelIdeal.Gen

/-- The offsets (0, 0) are the zero offsets. -/
theorem hz_3 : (![0, 0] : Fin 2 → Nat) = fun _ => 0 := funext fun a => by fin_cases a <;> rfl

/-- The first four layers of the body are four layers composed on the loaded block. -/
theorem pay2_3 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k3_pay2 (F := Ideal) v0 v2 v4 v9 v11 v16 v18 v23 v25
      = layerK (layerK (layerK (layerK (shapeCast S512x1024 v0 shapeCasts_S512x1024_S512x1024) v2 v4) v9 v11) v16 v18) v23 v25 :=
  rfl

/-- The body's condition is "above zero" of the fourth layer's output. -/
theorem pay3_3 (v0 : Vec Ideal S512x1024 .f32) (v2 : Vec Ideal S1x1024x1024 .bf16) (v4 : Vec Ideal S1x1024 .f32)
    (v9 : Vec Ideal S1x1024x1024 .bf16) (v11 : Vec Ideal S1x1024 .f32) (v16 : Vec Ideal S1x1024x1024 .bf16)
    (v18 : Vec Ideal S1x1024 .f32) (v23 : Vec Ideal S1x1024x1024 .bf16) (v25 : Vec Ideal S1x1024 .f32) :
    k3_pay3 (F := Ideal) v0 v2 v4 v9 v11 v16 v18 v23 v25 = condK (k3_pay2 (F := Ideal) v0 v2 v4 v9 v11 v16 v18 v23 v25) :=
  rfl

/-- The stored value is the SELU step followed by the last three layers. -/
theorem pay1_3 (v29 : FVec Ideal S512x1024 .f32) (v31 : IVec S512x1024 1) (v40 : Vec Ideal S1x1024x1024 .bf16)
    (v42 : Vec Ideal S1x1024 .f32) (v47 : Vec Ideal S1x1024x1024 .bf16) (v49 : Vec Ideal S1x1024 .f32)
    (v54 : Vec Ideal S1x1024x1024 .bf16) (v56 : Vec Ideal S1x1024 .f32) :
    k3_pay1 (F := Ideal) v29 v31 v40 v42 v47 v49 v54 v56
      = layerK (layerK (layerK (seluK v29 v31) v40 v42) v47 v49) v54 v56 :=
  rfl

/-- What a point leaves in its output block, at (r, n): the seven layers on row r of its input block. -/
theorem out3_3_apply (x0 : Vec Ideal S512x1024 .f32) (x1 : Vec Ideal S7x1024x1024 .bf16) (x2 : Vec Ideal S7x1024 .f32)
    (r : Fin 512) (n : Fin 1024) :
    out3_3 (F := Ideal) x0 x1 x2 (ix2 r n)
      = Cert.Spec.fc1row (fun i n k => x1 (ix3 i k n)) (fun i n => x2 (ix2 i n)) (fun k => x0 (ix2 r k)) n := by
  unfold out3_3
  rw [View.canon_unit_zero hz_3, pay1_3, pay3_3, pay2_3]
  unfold Cert.Spec.fc1row
  refine layerK_apply _ _ _ _ _ _ r (ld_w x1 6 _ 6 rfl) (ld_b x2 6 _ 6 rfl) (fun k => ?_) n
  refine layerK_apply _ _ _ _ _ _ r (ld_w x1 5 _ 5 rfl) (ld_b x2 5 _ 5 rfl) (fun k => ?_) k
  refine layerK_apply _ _ _ _ _ _ r (ld_w x1 4 _ 4 rfl) (ld_b x2 4 _ 4 rfl) (fun k => ?_) k
  refine (seluK_apply _ _).trans (congrArg Cert.Spec.selu ?_)
  refine layerK_apply _ _ _ _ _ _ r (ld_w x1 3 _ 3 rfl) (ld_b x2 3 _ 3 rfl) (fun k => ?_) k
  refine layerK_apply _ _ _ _ _ _ r (ld_w x1 2 _ 2 rfl) (ld_b x2 2 _ 2 rfl) (fun k => ?_) k
  refine layerK_apply _ _ _ _ _ _ r (ld_w x1 1 _ 1 rfl) (ld_b x2 1 _ 1 rfl) (fun k => ?_) k
  refine layerK_apply _ _ _ _ _ _ r (ld_w x1 0 _ 0 rfl) (ld_b x2 0 _ 0 rfl) (fun k => ?_) k
  rw [shapeCast_self, View.ld_unit_zero hz_3]

end Cert.KFc1

end
-- ==== Proof.KFc1Array3.lean ====
/-
  Region 3 of the kernel: from the blocks the grid points write back to the whole output array.

  The grid has 16 points. Point t reads rows 512·t … 512·t + 511 of the 8192 × 1024 input array, the whole weight
  stack and the whole bias, and writes back rows 512·t … 512·t + 511 of the output array. What it writes back is
  the seven-layer perceptron of its rows, so it is that block of the perceptron applied to every row of the input
  array; the 16 blocks tile the output array (row ρ lies in the block of point ρ / 512), so after the last point
  the output array holds the perceptron of every row. The three inputs are never written back, so they end as
  the region found them.
-/
import proofs.«114870_j317827580568_1_alg».proof.Proof.Gen.KernelIdeal.Frame
import proofs.«114870_j317827580568_1_alg».proof.Proof.KFc1Block3
import proofs.«114870_j317827580568_1_alg».proof.Proof.KFc1ArrayDef
import Idealize.ShloMosaic.Lib.Pipeline.Value

noncomputable section

namespace Cert.KFc1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The windows' block indices at point t: the row blocks of the input and of the output are block t, every other
    block index is zero (decided over the 16 points). -/
theorem idx_facts3 : ∀ t : Fin cfg3.N,
    win3_0.index t (0 : Fin 2) = t.val ∧ win3_0.index t (1 : Fin 2) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the perceptron applied to every row of the input array. -/
theorem flushed3_eq (c : Dev nD) (t : Fin cfg3.N) :
    (dat3 (F := Ideal) V c).flushed 3 t = ((cfg3.win 3).blk t).view.read (Elt Ideal)
      (fc1K (V c (Pipeline.arrRef spec3 0)) (V c (Pipeline.arrRef spec3 1)) (V c (Pipeline.arrRef spec3 2))) := by
  show (cfg3.win 3).cut (grid3.coords t) ((dat3 V c).after 3 t) = _
  rw [after3_3]
  funext j
  have hj0 : (j 0).val < 512 := (j 0).isLt
  have hj1 : (j 1).val < 1024 := (j 1).isLt
  obtain ⟨e00, e01, e10, e11, e12, e20, e21, e30, e31⟩ := idx_facts3 t
  have hx : (cfg3.win 3).xinj (grid3.coords t) j = ix2 (⟨(j 0).val, hj0⟩ : Fin 512) (⟨(j 1).val, hj1⟩ : Fin 1024) :=
    funext fun a => Fin.ext (by match a with | ⟨0, _⟩ => rfl | ⟨1, _⟩ => rfl)
  show out3_3 (iblk3 V c 0 t) (iblk3 V c 1 t) (iblk3 V c 2 t) ((cfg3.win 3).xinj (grid3.coords t) j) = _
  rw [hx]
  refine (out3_3_apply (iblk3 V c 0 t) (iblk3 V c 1 t) (iblk3 V c 2 t) _ _).trans ?_
  -- the weight window's block is the whole stack
  have hW : (fun (i : Fin 7) (n k : Fin 1024) => (iblk3 V c 1 t : Vec Ideal S7x1024x1024 .bf16) (ix3 i k n))
      = fun (i : Fin 7) (n k : Fin 1024) => (V c (Pipeline.arrRef spec3 1) : S7x1024x1024.Idx → EReal) (ix3 i k n) :=
    funext fun i => funext fun n => funext fun k => by
      show (V c (Pipeline.arrRef spec3 1) : S7x1024x1024.Idx → EReal) (((cfg3.win 1).blk t).view.emb (ix3 i k n)) = _
      refine congrArg _ (funext fun a => Fin.ext ?_)
      match a with
      | ⟨0, _⟩ => show win3_1.index t (0 : Fin 3) * 7 + 1 * i.val = i.val; rw [e10]; omega
      | ⟨1, _⟩ => show win3_1.index t (1 : Fin 3) * 1024 + 1 * k.val = k.val; rw [e11]; omega
      | ⟨2, _⟩ => show win3_1.index t (2 : Fin 3) * 1024 + 1 * n.val = n.val; rw [e12]; omega
  -- the bias window's block is the whole bias
  have hB : (fun (i : Fin 7) (n : Fin 1024) => (iblk3 V c 2 t : Vec Ideal S7x1024 .f32) (ix2 i n))
      = fun (i : Fin 7) (n : Fin 1024) => (V c (Pipeline.arrRef spec3 2) : S7x1024.Idx → EReal) (ix2 i n) :=
    funext fun i => funext fun n => by
      show (V c (Pipeline.arrRef spec3 2) : S7x1024.Idx → EReal) (((cfg3.win 2).blk t).view.emb (ix2 i n)) = _
      refine congrArg _ (funext fun a => Fin.ext ?_)
      match a with
      | ⟨0, _⟩ => show win3_2.index t (0 : Fin 2) * 7 + 1 * i.val = i.val; rw [e20]; omega
      | ⟨1, _⟩ => show win3_2.index t (1 : Fin 2) * 1024 + 1 * n.val = n.val; rw [e21]; omega
  -- row r of the input block is the array's row that the output block's row r lands on
  have hX : (fun (k : Fin 1024) => (iblk3 V c 0 t : Vec Ideal S512x1024 .f32) (ix2 (⟨(j 0).val, hj0⟩ : Fin 512) k))
      = fun (k : Fin 1024) => (V c (Pipeline.arrRef spec3 0) : S8192x1024.Idx → EReal)
          (ix2 ((((cfg3.win 3).blk t).view.emb j : S8192x1024.Idx) 0) k) :=
    funext fun k => by
      show (V c (Pipeline.arrRef spec3 0) : S8192x1024.Idx → EReal)
        (((cfg3.win 0).blk t).view.emb (ix2 (⟨(j 0).val, hj0⟩ : Fin 512) k)) = _
      refine congrArg _ (funext fun a => Fin.ext ?_)
      match a with
      | ⟨0, _⟩ =>
        show win3_0.index t (0 : Fin 2) * 512 + 1 * (j 0).val = win3_3.index t (0 : Fin 2) * 512 + 1 * (j 0).val
        rw [e00, e30]
      | ⟨1, _⟩ => show win3_0.index t (1 : Fin 2) * 1024 + 1 * k.val = k.val; rw [e01]; omega
  -- the column is kept
  have hq : (⟨(j 1).val, hj1⟩ : Fin 1024) = (((cfg3.win 3).blk t).view.emb j : S8192x1024.Idx) 1 :=
    Fin.ext (by show (j 1).val = win3_3.index t (1 : Fin 2) * 1024 + 1 * (j 1).val; rw [e31]; omega)
  rw [hW, hB, hX, hq]
  rfl

/-- An index of the output array is in point t's block iff each coordinate is in the block's range on its axis. -/
theorem mem_blk3 (t : Fin cfg3.N) (i : S8192x1024.Idx) :
    i ∈ ((cfg3.win 3).blk t).view.set ↔ ∀ a : Fin 2, win3_3.index t a * S512x1024.size a ≤ (i a).val
      ∧ (i a).val < win3_3.index t a * S512x1024.size a + S512x1024.size a := by
  show i ∈ ((View.whole main_v80).slice (win3_3.rect t)).set ↔ _
  rw [View.set_slice_whole, Rect.mem_set_unit]
  exact Iff.rfl

/-- After the last point the output array holds the perceptron of every row of the input array: the 16 blocks
    cover it, row ρ lying in the block of point ρ / 512. -/
theorem arr3 (c : Dev nD) :
    (dat3 (F := Ideal) V c).arrAt 3 cfg3.N
      = fc1K (V c (Pipeline.arrRef spec3 0)) (V c (Pipeline.arrRef spec3 1)) (V c (Pipeline.arrRef spec3 2)) :=
  (dat3 V c).arrAt_eq_of_cover 3 _ (fun t _ => flushed3_eq V c t) fun i => by
    have hi0 : (i 0).val < 8192 := (i 0).isLt
    have hi1 : (i 1).val < 1024 := (i 1).isLt
    have hN : cfg3.N = 16 := N_3
    let t : Fin cfg3.N := ⟨(i 0).val / 512, by rw [hN]; omega⟩
    obtain ⟨e00, e01, e10, e11, e12, e20, e21, e30, e31⟩ := idx_facts3 t
    refine ⟨t, flush3_3 t, ?_⟩
    rw [mem_blk3]
    intro a
    match a with
    | ⟨0, _⟩ =>
      show win3_3.index t (0 : Fin 2) * 512 ≤ (i 0).val ∧ (i 0).val < win3_3.index t (0 : Fin 2) * 512 + 512
      rw [e30]; show (i 0).val / 512 * 512 ≤ (i 0).val ∧ (i 0).val < (i 0).val / 512 * 512 + 512; omega
    | ⟨1, _⟩ =>
      show win3_3.index t (1 : Fin 2) * 1024 ≤ (i 1).val ∧ (i 1).val < win3_3.index t (1 : Fin 2) * 1024 + 1024
      rw [e31]; omega

/-- The three input windows are never written back (decided over the 16 points). -/
theorem noflush3 : ∀ t : Fin cfg3.N,
    (cfg3.win 0).flush t = false ∧ (cfg3.win 1).flush t = false ∧ (cfg3.win 2).flush t = false :=
  (by decide +kernel : ∀ t : Fin grid3.N, win3_0.flush t = false ∧ win3_1.flush t = false ∧ win3_2.flush t = false)

/-- So the input array of rows ends as the region found it, -/
theorem in3_0 (c : Dev nD) : (dat3 (F := Ideal) V c).arrAt 0 cfg3.N = V c (Pipeline.arrRef spec3 0) :=
  funext fun i => ((dat3 V c).arrAt_apply_of_forall_not_mem 0 cfg3.N i fun t _ hf _ => by
    rw [(noflush3 t).1] at hf; exact absurd hf (by decide)).trans (congrFun (A_eq3 V c 0) i)
/-- and the weight stack, -/
theorem in3_1 (c : Dev nD) : (dat3 (F := Ideal) V c).arrAt 1 cfg3.N = V c (Pipeline.arrRef spec3 1) :=
  funext fun i => ((dat3 V c).arrAt_apply_of_forall_not_mem 1 cfg3.N i fun t _ hf _ => by
    rw [(noflush3 t).2.1] at hf; exact absurd hf (by decide)).trans (congrFun (A_eq3 V c 1) i)
/-- and the bias. -/
theorem in3_2 (c : Dev nD) : (dat3 (F := Ideal) V c).arrAt 2 cfg3.N = V c (Pipeline.arrRef spec3 2) :=
  funext fun i => ((dat3 V c).arrAt_apply_of_forall_not_mem 2 cfg3.N i fun t _ hf _ => by
    rw [(noflush3 t).2.2] at hf; exact absurd hf (by decide)).trans (congrFun (A_eq3 V c 2) i)

end Cert.KFc1

end
-- ==== Proof.KFc1Array.lean ====
/-
  The kernel's four regions, each from its blocks to its whole output array: one module per region, gathered here.
  Each region's output array ends holding the seven-layer perceptron of every row of that region's input array
  (`arr0` … `arr3`), and its three inputs end as the region found them (`in0_0` … `in3_2`).
-/
import proofs.«114870_j317827580568_1_alg».proof.Proof.KFc1Array0
import proofs.«114870_j317827580568_1_alg».proof.Proof.KFc1Array1
import proofs.«114870_j317827580568_1_alg».proof.Proof.KFc1Array2
import proofs.«114870_j317827580568_1_alg».proof.Proof.KFc1Array3
-- ==== Proof.KValue.lean ====
/-
  The idealized kernel's two results as whole-array functions of its four arguments: the contents of the buffers read
  later are followed from the launch memory through the nine segments of @main — each stretch of host operations by what
  it computes, each launch by the whole-array function its write-backs leave in its output — until the two result buffers
  hold `out0` and `out1` of the arguments over the perceptron applied row by row.
-/
import proofs.«114870_j317827580568_1_alg».proof.Proof.Gen.KernelIdeal.Frame
import proofs.«114870_j317827580568_1_alg».proof.Proof.KHost
import proofs.«114870_j317827580568_1_alg».proof.Proof.KFc1Array

set_option maxRecDepth 16384

noncomputable section

namespace Cert.KernelIdeal.KValue

open Cert.KernelIdeal Cert.KernelIdeal.Gen Cert.KernelIdeal.KStages
open Idealize.ShloMosaic Idealize.ShloMosaic.TcCoe Idealize.SL.Sem Idealize.ShloMosaic.StableHlo Cert.KFc1

/-- The weights as the launches read them: transposed in the last two axes, then narrowed (the identity here). -/
def wt (Wm : FVec Ideal S7x1024x1024 .f32) : FVec Ideal S7x1024x1024 .bf16 :=
  truncf .bf16 (transpose S7x1024x1024 [0, 2, 1] Wm transposes_S7x1024x1024_S7x1024x1024_0_2_1) bitsLt_bf16_f32

/-- The perceptron on every row of a 16 × 512 × 1024 array: flatten the rows, apply the launch's whole-array function, unflatten. -/
def fcK (Wm : FVec Ideal S7x1024x1024 .f32) (bm : FVec Ideal S7x1024 .f32) (x : FVec Ideal S16x512x1024 .f32) : FVec Ideal S16x512x1024 .f32 :=
  shapeCast S16x512x1024 (fc1K (shapeCast S8192x1024 x shapeCasts_S16x512x1024_S8192x1024) (wt Wm) bm) shapeCasts_S8192x1024_S16x512x1024

variable (m : (ℓ : Loc nD τ sig) → Buf (Elt Ideal) ℓ) (ρ : Dev nD → PrngReg) (c : Dev nD)

/-! ## Boundary 1: after the first stretch -/
theorem W1_v1 : W1 m ρ c (Proc.devRef .tc main_v1) = (wt (m ((c : Thread nD τ).loc main_arg2))) := KHost.h0_v1 (W0 m ρ c)
theorem W1_v2 : W1 m ρ c (Proc.devRef .tc main_v2) = (toRows (F := Ideal) (m ((c : Thread nD τ).loc main_arg0))) := KHost.h0_v2 (W0 m ρ c)
theorem W1_v3 : W1 m ρ c (Proc.devRef .tc main_v3) = (toRows (F := Ideal) (m ((c : Thread nD τ).loc main_arg1))) := KHost.h0_v3 (W0 m ρ c)
theorem W1_v4 : W1 m ρ c (Proc.devRef .tc main_v4) = (shapeCast S8192x1024 (toRows (F := Ideal) (m ((c : Thread nD τ).loc main_arg0))) shapeCasts_S16x512x1024_S8192x1024) := KHost.h0_v4 (W0 m ρ c)
theorem W1_arg0 : W1 m ρ c (Proc.devRef .tc main_arg0) = (m ((c : Thread nD τ).loc main_arg0)) := KHost.h0_keep_arg0 (W0 m ρ c)
theorem W1_arg1 : W1 m ρ c (Proc.devRef .tc main_arg1) = (m ((c : Thread nD τ).loc main_arg1)) := KHost.h0_keep_arg1 (W0 m ρ c)
theorem W1_arg3 : W1 m ρ c (Proc.devRef .tc main_arg3) = (m ((c : Thread nD τ).loc main_arg3)) := KHost.h0_keep_arg3 (W0 m ρ c)

/-! ## Boundary 2: after the first launch -/
theorem W2_v5 : W2 m ρ c (Proc.devRef .tc main_v5) = fc1K (shapeCast S8192x1024 (toRows (F := Ideal) (m ((c : Thread nD τ).loc main_arg0))) shapeCasts_S16x512x1024_S8192x1024) (wt (m ((c : Thread nD τ).loc main_arg2))) (m ((c : Thread nD τ).loc main_arg3)) := by
  rw [← W1_v4 m ρ c, ← W1_v1 m ρ c, ← W1_arg3 m ρ c]
  exact (W2_arr m ρ c 3).trans (Cert.KFc1.arr0 (V1 m ρ) c)
theorem W2_keep_v1 : W2 m ρ c (Proc.devRef .tc main_v1) = W1 m ρ c (Proc.devRef .tc main_v1) := (W2_arr m ρ c 1).trans (Cert.KFc1.in0_1 (V1 m ρ) c)
theorem W2_keep_v2 : W2 m ρ c (Proc.devRef .tc main_v2) = W1 m ρ c (Proc.devRef .tc main_v2) := W2_of_ne m ρ c main_v2 (by decide)
theorem W2_keep_v3 : W2 m ρ c (Proc.devRef .tc main_v3) = W1 m ρ c (Proc.devRef .tc main_v3) := W2_of_ne m ρ c main_v3 (by decide)
theorem W2_keep_arg0 : W2 m ρ c (Proc.devRef .tc main_arg0) = W1 m ρ c (Proc.devRef .tc main_arg0) := W2_of_ne m ρ c main_arg0 (by decide)
theorem W2_keep_arg1 : W2 m ρ c (Proc.devRef .tc main_arg1) = W1 m ρ c (Proc.devRef .tc main_arg1) := W2_of_ne m ρ c main_arg1 (by decide)
theorem W2_keep_arg3 : W2 m ρ c (Proc.devRef .tc main_arg3) = W1 m ρ c (Proc.devRef .tc main_arg3) := (W2_arr m ρ c 2).trans (Cert.KFc1.in0_2 (V1 m ρ) c)

/-! ## Boundary 3: after the second stretch -/
theorem W3_v6 : W3 m ρ c (Proc.devRef .tc main_v6) = (fcK (m ((c : Thread nD τ).loc main_arg2)) (m ((c : Thread nD τ).loc main_arg3)) (toRows (F := Ideal) (m ((c : Thread nD τ).loc main_arg0)))) := by
  rw [show W3 m ρ c (Proc.devRef .tc main_v6) = _ from KHost.h1_v6 (W2 m ρ c), W2_v5 m ρ c]; rfl
theorem W3_v7 : W3 m ρ c (Proc.devRef .tc main_v7) = (shapeCast S8192x1024 (toRows (F := Ideal) (m ((c : Thread nD τ).loc main_arg1))) shapeCasts_S16x512x1024_S8192x1024) := by
  rw [show W3 m ρ c (Proc.devRef .tc main_v7) = _ from KHost.h1_v7 (W2 m ρ c), W2_keep_v3 m ρ c, W1_v3 m ρ c]
theorem W3_keep_v1 : W3 m ρ c (Proc.devRef .tc main_v1) = W2 m ρ c (Proc.devRef .tc main_v1) := KHost.h1_keep_v1 (W2 m ρ c)
theorem W3_keep_v2 : W3 m ρ c (Proc.devRef .tc main_v2) = W2 m ρ c (Proc.devRef .tc main_v2) := KHost.h1_keep_v2 (W2 m ρ c)
theorem W3_keep_v3 : W3 m ρ c (Proc.devRef .tc main_v3) = W2 m ρ c (Proc.devRef .tc main_v3) := KHost.h1_keep_v3 (W2 m ρ c)
theorem W3_keep_arg0 : W3 m ρ c (Proc.devRef .tc main_arg0) = W2 m ρ c (Proc.devRef .tc main_arg0) := KHost.h1_keep_arg0 (W2 m ρ c)
theorem W3_keep_arg1 : W3 m ρ c (Proc.devRef .tc main_arg1) = W2 m ρ c (Proc.devRef .tc main_arg1) := KHost.h1_keep_arg1 (W2 m ρ c)
theorem W3_keep_arg3 : W3 m ρ c (Proc.devRef .tc main_arg3) = W2 m ρ c (Proc.devRef .tc main_arg3) := KHost.h1_keep_arg3 (W2 m ρ c)
/-! ## Boundary 4: after the second launch -/
theorem W4_v8 : W4 m ρ c (Proc.devRef .tc main_v8) = fc1K (shapeCast S8192x1024 (toRows (F := Ideal) (m ((c : Thread nD τ).loc main_arg1))) shapeCasts_S16x512x1024_S8192x1024) (wt (m ((c : Thread nD τ).loc main_arg2))) (m ((c : Thread nD τ).loc main_arg3)) := by
  rw [← W3_v7 m ρ c, ← W1_v1 m ρ c, ← W2_keep_v1 m ρ c, ← W3_keep_v1 m ρ c, ← W1_arg3 m ρ c, ← W2_keep_arg3 m ρ c, ← W3_keep_arg3 m ρ c]
  exact (W4_arr m ρ c 3).trans (Cert.KFc1.arr1 (V3 m ρ) c)
theorem W4_keep_v6 : W4 m ρ c (Proc.devRef .tc main_v6) = W3 m ρ c (Proc.devRef .tc main_v6) := W4_of_ne m ρ c main_v6 (by decide)
theorem W4_keep_v1 : W4 m ρ c (Proc.devRef .tc main_v1) = W3 m ρ c (Proc.devRef .tc main_v1) := (W4_arr m ρ c 1).trans (Cert.KFc1.in1_1 (V3 m ρ) c)
theorem W4_keep_v2 : W4 m ρ c (Proc.devRef .tc main_v2) = W3 m ρ c (Proc.devRef .tc main_v2) := W4_of_ne m ρ c main_v2 (by decide)
theorem W4_keep_v3 : W4 m ρ c (Proc.devRef .tc main_v3) = W3 m ρ c (Proc.devRef .tc main_v3) := W4_of_ne m ρ c main_v3 (by decide)
theorem W4_keep_arg0 : W4 m ρ c (Proc.devRef .tc main_arg0) = W3 m ρ c (Proc.devRef .tc main_arg0) := W4_of_ne m ρ c main_arg0 (by decide)
theorem W4_keep_arg1 : W4 m ρ c (Proc.devRef .tc main_arg1) = W3 m ρ c (Proc.devRef .tc main_arg1) := W4_of_ne m ρ c main_arg1 (by decide)
theorem W4_keep_arg3 : W4 m ρ c (Proc.devRef .tc main_arg3) = W3 m ρ c (Proc.devRef .tc main_arg3) := (W4_arr m ρ c 2).trans (Cert.KFc1.in1_2 (V3 m ρ) c)
/-! ## Boundary 5: after the third stretch -/
theorem W4_v6' : W4 m ρ c (Proc.devRef .tc main_v6) = (fcK (m ((c : Thread nD τ).loc main_arg2)) (m ((c : Thread nD τ).loc main_arg3)) (toRows (F := Ideal) (m ((c : Thread nD τ).loc main_arg0)))) := (W4_keep_v6 m ρ c).trans (W3_v6 m ρ c)
theorem W4_v8' : (shapeCast S16x512x1024 (W4 m ρ c (Proc.devRef .tc main_v8)) shapeCasts_S8192x1024_S16x512x1024) = (fcK (m ((c : Thread nD τ).loc main_arg2)) (m ((c : Thread nD τ).loc main_arg3)) (toRows (F := Ideal) (m ((c : Thread nD τ).loc main_arg1)))) := by rw [W4_v8 m ρ c]; rfl
theorem W4_v2' : W4 m ρ c (Proc.devRef .tc main_v2) = (toRows (F := Ideal) (m ((c : Thread nD τ).loc main_arg0))) :=
  (W4_keep_v2 m ρ c).trans ((W3_keep_v2 m ρ c).trans ((W2_keep_v2 m ρ c).trans (W1_v2 m ρ c)))
theorem W5_v58 : W5 m ρ c (Proc.devRef .tc main_v58) = (shapeCast S8192x1024 (att (F := Ideal) (smax1 (F := Ideal) (fcK (m ((c : Thread nD τ).loc main_arg2)) (m ((c : Thread nD τ).loc main_arg3)) (toRows (F := Ideal) (m ((c : Thread nD τ).loc main_arg0))))) (smax2 (F := Ideal) (fcK (m ((c : Thread nD τ).loc main_arg2)) (m ((c : Thread nD τ).loc main_arg3)) (toRows (F := Ideal) (m ((c : Thread nD τ).loc main_arg1))))) (toRows (F := Ideal) (m ((c : Thread nD τ).loc main_arg0)))) shapeCasts_S16x512x1024_S8192x1024) := by
  rw [show W5 m ρ c (Proc.devRef .tc main_v58) = _ from KHost.h2_v58 (W4 m ρ c), W4_v6' m ρ c, W4_v8' m ρ c, W4_v2' m ρ c]
theorem W5_v42 : W5 m ρ c (Proc.devRef .tc main_v42) = smax1 (F := Ideal) (fcK (m ((c : Thread nD τ).loc main_arg2)) (m ((c : Thread nD τ).loc main_arg3)) (toRows (F := Ideal) (m ((c : Thread nD τ).loc main_arg1)))) := by
  rw [show W5 m ρ c (Proc.devRef .tc main_v42) = _ from KHost.h2_v42 (W4 m ρ c), W4_v8' m ρ c]
theorem W5_v31 : W5 m ρ c (Proc.devRef .tc main_v31) = smax2 (F := Ideal) (fcK (m ((c : Thread nD τ).loc main_arg2)) (m ((c : Thread nD τ).loc main_arg3)) (toRows (F := Ideal) (m ((c : Thread nD τ).loc main_arg0)))) := by
  rw [show W5 m ρ c (Proc.devRef .tc main_v31) = _ from KHost.h2_v31 (W4 m ρ c), W4_v6' m ρ c]
theorem W5_keep_v1 : W5 m ρ c (Proc.devRef .tc main_v1) = W4 m ρ c (Proc.devRef .tc main_v1) := KHost.h2_keep_v1 (W4 m ρ c)
theorem W5_keep_v3 : W5 m ρ c (Proc.devRef .tc main_v3) = W4 m ρ c (Proc.devRef .tc main_v3) := KHost.h2_keep_v3 (W4 m ρ c)
theorem W5_keep_arg0 : W5 m ρ c (Proc.devRef .tc main_arg0) = W4 m ρ c (Proc.devRef .tc main_arg0) := KHost.h2_keep_arg0 (W4 m ρ c)
theorem W5_keep_arg1 : W5 m ρ c (Proc.devRef .tc main_arg1) = W4 m ρ c (Proc.devRef .tc main_arg1) := KHost.h2_keep_arg1 (W4 m ρ c)
theorem W5_keep_arg3 : W5 m ρ c (Proc.devRef .tc main_arg3) = W4 m ρ c (Proc.devRef .tc main_arg3) := KHost.h2_keep_arg3 (W4 m ρ c)

/-! ## The weights, the bias and the arguments at the later boundaries -/
theorem W5_v1' : W5 m ρ c (Proc.devRef .tc main_v1) = (wt (m ((c : Thread nD τ).loc main_arg2))) :=
  (W5_keep_v1 m ρ c).trans ((W4_keep_v1 m ρ c).trans ((W3_keep_v1 m ρ c).trans ((W2_keep_v1 m ρ c).trans (W1_v1 m ρ c))))
theorem W5_arg3' : W5 m ρ c (Proc.devRef .tc main_arg3) = (m ((c : Thread nD τ).loc main_arg3)) :=
  (W5_keep_arg3 m ρ c).trans ((W4_keep_arg3 m ρ c).trans ((W3_keep_arg3 m ρ c).trans ((W2_keep_arg3 m ρ c).trans (W1_arg3 m ρ c))))
theorem W5_arg0' : W5 m ρ c (Proc.devRef .tc main_arg0) = (m ((c : Thread nD τ).loc main_arg0)) :=
  (W5_keep_arg0 m ρ c).trans ((W4_keep_arg0 m ρ c).trans ((W3_keep_arg0 m ρ c).trans ((W2_keep_arg0 m ρ c).trans (W1_arg0 m ρ c))))
theorem W5_arg1' : W5 m ρ c (Proc.devRef .tc main_arg1) = (m ((c : Thread nD τ).loc main_arg1)) :=
  (W5_keep_arg1 m ρ c).trans ((W4_keep_arg1 m ρ c).trans ((W3_keep_arg1 m ρ c).trans ((W2_keep_arg1 m ρ c).trans (W1_arg1 m ρ c))))
theorem W5_v3' : W5 m ρ c (Proc.devRef .tc main_v3) = (toRows (F := Ideal) (m ((c : Thread nD τ).loc main_arg1))) :=
  (W5_keep_v3 m ρ c).trans ((W4_keep_v3 m ρ c).trans ((W3_keep_v3 m ρ c).trans ((W2_keep_v3 m ρ c).trans (W1_v3 m ρ c))))
/-! ## Boundary 6: after the third launch -/
theorem W6_v59 : W6 m ρ c (Proc.devRef .tc main_v59) = fc1K (shapeCast S8192x1024 (att (F := Ideal) (smax1 (F := Ideal) (fcK (m ((c : Thread nD τ).loc main_arg2)) (m ((c : Thread nD τ).loc main_arg3)) (toRows (F := Ideal) (m ((c : Thread nD τ).loc main_arg0))))) (smax2 (F := Ideal) (fcK (m ((c : Thread nD τ).loc main_arg2)) (m ((c : Thread nD τ).loc main_arg3)) (toRows (F := Ideal) (m ((c : Thread nD τ).loc main_arg1))))) (toRows (F := Ideal) (m ((c : Thread nD τ).loc main_arg0)))) shapeCasts_S16x512x1024_S8192x1024) (wt (m ((c : Thread nD τ).loc main_arg2))) (m ((c : Thread nD τ).loc main_arg3)) := by
  rw [← W5_v58 m ρ c, ← W5_v1' m ρ c, ← W5_arg3' m ρ c]
  exact (W6_arr m ρ c 3).trans (Cert.KFc1.arr2 (V5 m ρ) c)
theorem W6_keep_v42 : W6 m ρ c (Proc.devRef .tc main_v42) = W5 m ρ c (Proc.devRef .tc main_v42) := W6_of_ne m ρ c main_v42 (by decide)
theorem W6_keep_v31 : W6 m ρ c (Proc.devRef .tc main_v31) = W5 m ρ c (Proc.devRef .tc main_v31) := W6_of_ne m ρ c main_v31 (by decide)
theorem W6_keep_v1 : W6 m ρ c (Proc.devRef .tc main_v1) = W5 m ρ c (Proc.devRef .tc main_v1) := (W6_arr m ρ c 1).trans (Cert.KFc1.in2_1 (V5 m ρ) c)
theorem W6_keep_v3 : W6 m ρ c (Proc.devRef .tc main_v3) = W5 m ρ c (Proc.devRef .tc main_v3) := W6_of_ne m ρ c main_v3 (by decide)
theorem W6_keep_arg0 : W6 m ρ c (Proc.devRef .tc main_arg0) = W5 m ρ c (Proc.devRef .tc main_arg0) := W6_of_ne m ρ c main_arg0 (by decide)
theorem W6_keep_arg1 : W6 m ρ c (Proc.devRef .tc main_arg1) = W5 m ρ c (Proc.devRef .tc main_arg1) := W6_of_ne m ρ c main_arg1 (by decide)
theorem W6_keep_arg3 : W6 m ρ c (Proc.devRef .tc main_arg3) = W5 m ρ c (Proc.devRef .tc main_arg3) := (W6_arr m ρ c 2).trans (Cert.KFc1.in2_2 (V5 m ρ) c)
/-! ## Boundary 7: after the fourth stretch — the first result -/
theorem W7_v74 : W7 m ρ c (Proc.devRef .tc main_v74) = out0 (F := Ideal) (fcK (m ((c : Thread nD τ).loc main_arg2)) (m ((c : Thread nD τ).loc main_arg3))) (m ((c : Thread nD τ).loc main_arg0)) (m ((c : Thread nD τ).loc main_arg1)) := by
  rw [show W7 m ρ c (Proc.devRef .tc main_v74) = _ from KHost.h3_v74 (W6 m ρ c), W6_v59 m ρ c, W6_keep_arg0 m ρ c, W5_arg0' m ρ c]; rfl
theorem W7_v79 : W7 m ρ c (Proc.devRef .tc main_v79) = (shapeCast S8192x1024 (att (F := Ideal) (smax1 (F := Ideal) (fcK (m ((c : Thread nD τ).loc main_arg2)) (m ((c : Thread nD τ).loc main_arg3)) (toRows (F := Ideal) (m ((c : Thread nD τ).loc main_arg1))))) (smax2 (F := Ideal) (fcK (m ((c : Thread nD τ).loc main_arg2)) (m ((c : Thread nD τ).loc main_arg3)) (toRows (F := Ideal) (m ((c : Thread nD τ).loc main_arg0))))) (toRows (F := Ideal) (m ((c : Thread nD τ).loc main_arg1)))) shapeCasts_S16x512x1024_S8192x1024) := by
  rw [show W7 m ρ c (Proc.devRef .tc main_v79) = _ from KHost.h3_v79 (W6 m ρ c), W6_keep_v42 m ρ c, W6_keep_v31 m ρ c, W6_keep_v3 m ρ c,
    W5_v42 m ρ c, W5_v31 m ρ c, W5_v3' m ρ c]
theorem W7_keep_v1 : W7 m ρ c (Proc.devRef .tc main_v1) = W6 m ρ c (Proc.devRef .tc main_v1) := KHost.h3_keep_v1 (W6 m ρ c)
theorem W7_keep_arg1 : W7 m ρ c (Proc.devRef .tc main_arg1) = W6 m ρ c (Proc.devRef .tc main_arg1) := KHost.h3_keep_arg1 (W6 m ρ c)
theorem W7_keep_arg3 : W7 m ρ c (Proc.devRef .tc main_arg3) = W6 m ρ c (Proc.devRef .tc main_arg3) := KHost.h3_keep_arg3 (W6 m ρ c)
/-! ## Boundary 8: after the fourth launch -/
theorem W8_v80 : W8 m ρ c (Proc.devRef .tc main_v80) = fc1K (shapeCast S8192x1024 (att (F := Ideal) (smax1 (F := Ideal) (fcK (m ((c : Thread nD τ).loc main_arg2)) (m ((c : Thread nD τ).loc main_arg3)) (toRows (F := Ideal) (m ((c : Thread nD τ).loc main_arg1))))) (smax2 (F := Ideal) (fcK (m ((c : Thread nD τ).loc main_arg2)) (m ((c : Thread nD τ).loc main_arg3)) (toRows (F := Ideal) (m ((c : Thread nD τ).loc main_arg0))))) (toRows (F := Ideal) (m ((c : Thread nD τ).loc main_arg1)))) shapeCasts_S16x512x1024_S8192x1024) (wt (m ((c : Thread nD τ).loc main_arg2))) (m ((c : Thread nD τ).loc main_arg3)) := by
  rw [← W7_v79 m ρ c, ← W5_v1' m ρ c, ← W6_keep_v1 m ρ c, ← W7_keep_v1 m ρ c, ← W5_arg3' m ρ c, ← W6_keep_arg3 m ρ c, ← W7_keep_arg3 m ρ c]
  exact (W8_arr m ρ c 3).trans (Cert.KFc1.arr3 (V7 m ρ) c)
theorem W8_keep_v74 : W8 m ρ c (Proc.devRef .tc main_v74) = W7 m ρ c (Proc.devRef .tc main_v74) := W8_of_ne m ρ c main_v74 (by decide)
theorem W8_keep_arg1 : W8 m ρ c (Proc.devRef .tc main_arg1) = W7 m ρ c (Proc.devRef .tc main_arg1) := W8_of_ne m ρ c main_arg1 (by decide)

/-! ## Boundary 9: after the last stretch — both results -/
theorem W9_v74 : W9 m ρ c (Proc.devRef .tc main_v74) = out0 (F := Ideal) (fcK (m ((c : Thread nD τ).loc main_arg2)) (m ((c : Thread nD τ).loc main_arg3))) (m ((c : Thread nD τ).loc main_arg0)) (m ((c : Thread nD τ).loc main_arg1)) :=
  (KHost.h4_keep_v74 (W8 m ρ c)).trans ((W8_keep_v74 m ρ c).trans (W7_v74 m ρ c))
theorem W9_v95 : W9 m ρ c (Proc.devRef .tc main_v95) = out1 (F := Ideal) (fcK (m ((c : Thread nD τ).loc main_arg2)) (m ((c : Thread nD τ).loc main_arg3))) (m ((c : Thread nD τ).loc main_arg0)) (m ((c : Thread nD τ).loc main_arg1)) := by
  rw [show W9 m ρ c (Proc.devRef .tc main_v95) = _ from KHost.h4_v95 (W8 m ρ c), W8_v80 m ρ c, W8_keep_arg1 m ρ c, W7_keep_arg1 m ρ c,
    W6_keep_arg1 m ρ c, W5_arg1' m ρ c]; rfl

end Cert.KernelIdeal.KValue

end
-- ==== Proof.RefStages.lean ====
/-
  The reference program's pure stages, as composed terms of its own operations.

  One seven-layer perceptron instance is `fc1R W b x`: seven times "contract the last axis of the activations with the
  second axis of the i-th weight matrix and add the i-th bias row", with SELU — scale · select(y > 0, y, alpha · expm1(select(y > 0, 0, y))) —
  after the fourth. The whole program is `out0` / `out1`: with `pse`, `val` the two inputs transposed to [16, 512, 1024],
  a branch is  norm (fc (att (smax1 (fc u)) (smax2 (fc w)) u)) a  where `smax1` / `smax2` are the softmaxes over axis 1 / axis 2,
  `att q k v = ((q · kᵀ) / 1024) · v` batched over the leading axis, and `norm y a = (yᵀ / max(‖yᵀ‖₂, 1e-12)) · 0.1 + a · 1.0`
  with the 2-norm over the last axis. The perceptron is a parameter `fc` of `out0` / `out1`, so that another spelling of the
  same perceptron can be put in its place.
-/
import proofs.«114870_j317827580568_1_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Facts]

/-- The i-th affine layer: x ↦ x · W[i]ᵀ + b[i], the bias row broadcast over the two leading axes. -/
def linAt (i : Nat) (hW : S7x1024x1024.Slices ![i, 0, 0] S1x1024x1024) (hb : S7x1024.Slices ![i, 0] S1x1024)
    (W : FVec F S7x1024x1024 .f32) (b : FVec F S7x1024 .f32) (x : FVec F S16x512x1024 .f32) : FVec F S16x512x1024 .f32 :=
  addf
    (Host.dotGeneral dot_S16x512x1024_S1024x1024_S16x512x1024_2_1_01_0_n_n none x
      (shapeCast S1024x1024 (extractStridedSlice S1x1024x1024 ![i, 0, 0] W hW) shapeCasts_S1x1024x1024_S1024x1024))
    (broadcastInDim S16x512x1024 ![0, 1, 2] bcast_S1x1x1024_S16x512x1024_0_1_2
      (broadcastInDim S1x1x1024 ![2] bcast_S1024_S1x1x1024_2
        (shapeCast S1024 (extractStridedSlice S1x1024 ![i, 0] b hb) shapeCasts_S1x1024_S1024)))

/-- The exponent's argument of ELU: select(y > 0, 0, y). -/
def eluArg (y : FVec F S16x512x1024 .f32) : FVec F S16x512x1024 .f32 :=
  select (cmpf .ogt y (broadcastInDim S16x512x1024 ![] bcast_S_S16x512x1024 (constant S_ .f32 0x00000000#32)))
    (broadcastInDim S16x512x1024 ![] bcast_S_S16x512x1024 (constant S_ .f32 0x00000000#32)) y

/-- ELU with the given alpha: select(y > 0, y, alpha · expm1(select(y > 0, 0, y))). -/
def eluR (y : FVec F S16x512x1024 .f32) : FVec F S16x512x1024 .f32 :=
  select (cmpf .ogt y (broadcastInDim S16x512x1024 ![] bcast_S_S16x512x1024 (constant S_ .f32 0x00000000#32))) y
    (mulf (broadcastInDim S16x512x1024 ![] bcast_S_S16x512x1024 (constant S_ .f32 0x3FD62D7D#32)) (Host.expm1 (eluArg y)))

/-- SELU: scale · ELU. -/
def seluR (y : FVec F S16x512x1024 .f32) : FVec F S16x512x1024 .f32 :=
  mulf (broadcastInDim S16x512x1024 ![] bcast_S_S16x512x1024 (constant S_ .f32 0x3F867D5F#32)) (eluR y)

/-- One perceptron instance: four layers, SELU, three layers. -/
def fc1R (W : FVec F S7x1024x1024 .f32) (b : FVec F S7x1024 .f32) (x : FVec F S16x512x1024 .f32) : FVec F S16x512x1024 .f32 :=
  linAt 6 slices_S7x1024x1024_S1x1024x1024_6_0_0 slices_S7x1024_S1x1024_6_0 W b
    (linAt 5 slices_S7x1024x1024_S1x1024x1024_5_0_0 slices_S7x1024_S1x1024_5_0 W b
      (linAt 4 slices_S7x1024x1024_S1x1024x1024_4_0_0 slices_S7x1024_S1x1024_4_0 W b
        (seluR
          (linAt 3 slices_S7x1024x1024_S1x1024x1024_3_0_0 slices_S7x1024_S1x1024_3_0 W b
            (linAt 2 slices_S7x1024x1024_S1x1024x1024_2_0_0 slices_S7x1024_S1x1024_2_0 W b
              (linAt 1 slices_S7x1024x1024_S1x1024x1024_1_0_0 slices_S7x1024_S1x1024_1_0 W b
                (linAt 0 slices_S7x1024x1024_S1x1024x1024_0_0_0 slices_S7x1024_S1x1024_0_0 W b x)))))))

/-- exp(x − max over axis 1), the maximum taken against −∞ and broadcast back. -/
def smax1e (x : FVec F S16x512x1024 .f32) : FVec F S16x512x1024 .f32 :=
  Host.exp (subf x
    (broadcastInDim S16x512x1024 ![0, 1, 2] bcast_S16x1x1024_S16x512x1024_0_1_2
      (broadcastInDim S16x1x1024 ![0, 2] bcast_S16x1024_S16x1x1024_0_2
        (maximumf (broadcastInDim S16x1024 ![] bcast_S_S16x1024 (constant S_ .f32 0xFF800000#32))
          (Host.reduce FloatOps.maximumf x (constant S_ .f32 0xFF800000#32) reducesTo_S16x512x1024_S16x1024_d1 h_S_)))))

/-- Softmax over axis 1. -/
def smax1 (x : FVec F S16x512x1024 .f32) : FVec F S16x512x1024 .f32 :=
  Host.divf (smax1e x)
    (broadcastInDim S16x512x1024 ![0, 1, 2] bcast_S16x1x1024_S16x512x1024_0_1_2
      (broadcastInDim S16x1x1024 ![0, 2] bcast_S16x1024_S16x1x1024_0_2
        (Host.reduceAdd (smax1e x) (constant S_ .f32 0x00000000#32) reducesTo_S16x512x1024_S16x1024_d1 h_S_)))

/-- exp(x − max over axis 2), the maximum taken against −∞ and broadcast back. -/
def smax2e (x : FVec F S16x512x1024 .f32) : FVec F S16x512x1024 .f32 :=
  Host.exp (subf x
    (broadcastInDim S16x512x1024 ![0, 1, 2] bcast_S16x512x1_S16x512x1024_0_1_2
      (broadcastInDim S16x512x1 ![0, 1] bcast_S16x512_S16x512x1_0_1
        (maximumf (broadcastInDim S16x512 ![] bcast_S_S16x512 (constant S_ .f32 0xFF800000#32))
          (Host.reduce FloatOps.maximumf x (constant S_ .f32 0xFF800000#32) reducesTo_S16x512x1024_S16x512_d2 h_S_)))))

/-- Softmax over axis 2. -/
def smax2 (x : FVec F S16x512x1024 .f32) : FVec F S16x512x1024 .f32 :=
  Host.divf (smax2e x)
    (broadcastInDim S16x512x1024 ![0, 1, 2] bcast_S16x512x1_S16x512x1024_0_1_2
      (broadcastInDim S16x512x1 ![0, 1] bcast_S16x512_S16x512x1_0_1
        (Host.reduceAdd (smax2e x) (constant S_ .f32 0x00000000#32) reducesTo_S16x512x1024_S16x512_d2 h_S_)))

/-- ((q · kᵀ) / 1024) · v, batched over the leading axis. -/
def att (q k v : FVec F S16x512x1024 .f32) : FVec F S16x512x1024 .f32 :=
  Host.dotGeneral dot_S16x512x512_S16x512x1024_S16x512x1024_2_1_1_2_0_0 none
    (Host.divf (Host.dotGeneral dot_S16x512x1024_S16x512x1024_S16x512x512_2_2_1_1_0_0 none q k)
      (broadcastInDim S16x512x512 ![] bcast_S_S16x512x512 (constant S_ .f32 0x44800000#32)))
    v

/-- Back to [16, 1024, 512]. -/
def normT (y : FVec F S16x512x1024 .f32) : FVec F S16x1024x512 .f32 :=
  transpose S16x1024x512 [0, 2, 1] y transposes_S16x512x1024_S16x1024x512_0_2_1

/-- (t / max(‖t‖₂, 1e-12)) · 0.1 + a · 1.0 with t = yᵀ, the 2-norm over the last axis. -/
def norm (y : FVec F S16x512x1024 .f32) (a : FVec F S16x1024x512 .f32) : FVec F S16x1024x512 .f32 :=
  addf
    (mulf
      (Host.divf (normT y)
        (broadcastInDim S16x1024x512 ![0, 1, 2] bcast_S16x1024x1_S16x1024x512_0_1_2
          (maximumf
            (Host.sqrt (broadcastInDim S16x1024x1 ![0, 1] bcast_S16x1024_S16x1024x1_0_1
              (Host.reduceAdd (mulf (normT y) (normT y)) (constant S_ .f32 0x00000000#32) reducesTo_S16x1024x512_S16x1024_d2 h_S_)))
            (broadcastInDim S16x1024x1 ![] bcast_S_S16x1024x1 (constant S_ .f32 0x2B8CBCCC#32)))))
      (broadcastInDim S16x1024x512 ![] bcast_S_S16x1024x512 (constant S_ .f32 0x3DCCCCCD#32)))
    (mulf a (broadcastInDim S16x1024x512 ![] bcast_S_S16x1024x512 (constant S_ .f32 0x3F800000#32)))

/-- An input transposed to [16, 512, 1024]. -/
def inT (a : FVec F S16x1024x512 .f32) : FVec F S16x512x1024 .f32 :=
  transpose S16x512x1024 [0, 2, 1] a transposes_S16x1024x512_S16x512x1024_0_2_1

/-- The first result: the first input's branch. -/
def out0 (fc : FVec F S16x512x1024 .f32 → FVec F S16x512x1024 .f32) (a0 a1 : FVec F S16x1024x512 .f32) : FVec F S16x1024x512 .f32 :=
  norm (fc (att (smax1 (fc (inT a0))) (smax2 (fc (inT a1))) (inT a0))) a0

/-- The second result: the second input's branch. -/
def out1 (fc : FVec F S16x512x1024 .f32 → FVec F S16x512x1024 .f32) (a0 a1 : FVec F S16x1024x512 .f32) : FVec F S16x1024x512 .f32 :=
  norm (fc (att (smax1 (fc (inT a1))) (smax2 (fc (inT a0))) (inT a1))) a1

end Cert.ReferenceIdeal.Stages

end
-- ==== Proof.BridgeGlue.lean ====
/-
  The host-side arithmetic of the two programs is one function: the idealized kernel's softmaxes, attention steps and
  normalisation are the reference's own operations on the same shapes, so the two results, as functions of the row
  function `fc` and of the two arguments, are equal by unfolding.
-/
import proofs.«114870_j317827580568_1_alg».proof.Proof.Gen.KernelIdeal
import proofs.«114870_j317827580568_1_alg».proof.Proof.Gen.ReferenceIdeal
import proofs.«114870_j317827580568_1_alg».proof.Proof.KStages
import proofs.«114870_j317827580568_1_alg».proof.Proof.RefStages

noncomputable section

namespace Cert.Bridge

open Idealize.ShloMosaic

theorem out0_eq (fc : FVec Ideal Cert.ReferenceIdeal.S16x512x1024 .f32 → FVec Ideal Cert.ReferenceIdeal.S16x512x1024 .f32)
    (a0 a1 : FVec Ideal Cert.ReferenceIdeal.S16x1024x512 .f32) :
    Cert.KernelIdeal.KStages.out0 (F := Ideal) fc a0 a1 = Cert.ReferenceIdeal.Stages.out0 (F := Ideal) fc a0 a1 := rfl

theorem out1_eq (fc : FVec Ideal Cert.ReferenceIdeal.S16x512x1024 .f32 → FVec Ideal Cert.ReferenceIdeal.S16x512x1024 .f32)
    (a0 a1 : FVec Ideal Cert.ReferenceIdeal.S16x1024x512 .f32) :
    Cert.KernelIdeal.KStages.out1 (F := Ideal) fc a0 a1 = Cert.ReferenceIdeal.Stages.out1 (F := Ideal) fc a0 a1 := rfl

end Cert.Bridge

end
-- ==== Proof.RefFc1.lean ====
/-
  One perceptron instance of the reference, read at an index.

  A layer of the reference contracts the last axis of the activations `x[p,q,·]` with the second axis of the i-th weight
  matrix and adds the i-th bias row broadcast over the two leading axes: read at `(p, q, n)` it is
  `(∑ₖ x[p,q,k] · W[i,n,k]) + b[i,n]`, the specification's affine layer on the row `x[p,q,·]`. The reference's SELU is
  the specification's `seluRef` entry by entry, which equals the kernel's spelling everywhere. Seven layers with SELU
  after the fourth give the specification's row function.
-/
import proofs.«114870_j317827580568_1_alg».proof.Proof.Gen.ReferenceIdeal
import proofs.«114870_j317827580568_1_alg».proof.Proof.RefStages
import proofs.«114870_j317827580568_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.RefFc1

open Idealize.ShloMosaic Idealize.ShloMosaic.ValueIdx Cert.ReferenceIdeal Cert.ReferenceIdeal.Stages

/-! ## The layer's product read at an index -/

/-- The activations' two leading coordinates are the output's. -/
theorem lhs_0 (j : S16x512x1024.Idx) (q : dot_S16x512x1024_S1024x1024_S16x512x1024_2_1_01_0_n_n.contr.Idx) : (dot_S16x512x1024_S1024x1024_S16x512x1024_2_1_01_0_n_n.lhsIdx j q 0).val = (j 0).val := by
  unfold DotDims.lhsIdx
  rw [dif_neg (show ¬(0 : Fin S16x512x1024.rank) ∈ dot_S16x512x1024_S1024x1024_S16x512x1024_2_1_01_0_n_n.lhsBatch by decide),
    dif_pos (show (0 : Fin S16x512x1024.rank) ∈ dot_S16x512x1024_S1024x1024_S16x512x1024_2_1_01_0_n_n.lhsNonContracting by decide)]
  rfl
theorem lhs_1 (j : S16x512x1024.Idx) (q : dot_S16x512x1024_S1024x1024_S16x512x1024_2_1_01_0_n_n.contr.Idx) : (dot_S16x512x1024_S1024x1024_S16x512x1024_2_1_01_0_n_n.lhsIdx j q 1).val = (j 1).val := by
  unfold DotDims.lhsIdx
  rw [dif_neg (show ¬(1 : Fin S16x512x1024.rank) ∈ dot_S16x512x1024_S1024x1024_S16x512x1024_2_1_01_0_n_n.lhsBatch by decide),
    dif_pos (show (1 : Fin S16x512x1024.rank) ∈ dot_S16x512x1024_S1024x1024_S16x512x1024_2_1_01_0_n_n.lhsNonContracting by decide)]
  rfl
/-- The activations' last coordinate is the contracted one. -/
theorem lhs_2 (j : S16x512x1024.Idx) (q : dot_S16x512x1024_S1024x1024_S16x512x1024_2_1_01_0_n_n.contr.Idx) : (dot_S16x512x1024_S1024x1024_S16x512x1024_2_1_01_0_n_n.lhsIdx j q 2).val = (q ⟨0, by decide⟩).val :=
  dot_S16x512x1024_S1024x1024_S16x512x1024_2_1_01_0_n_n.lhsIdx_val_of_single rfl j q
/-- The weight matrix's first coordinate is the output's last. -/
theorem rhs_0 (j : S16x512x1024.Idx) (q : dot_S16x512x1024_S1024x1024_S16x512x1024_2_1_01_0_n_n.contr.Idx) : (dot_S16x512x1024_S1024x1024_S16x512x1024_2_1_01_0_n_n.rhsIdx j q 0).val = (j 2).val := by
  unfold DotDims.rhsIdx
  rw [dif_neg (show ¬(0 : Fin S1024x1024.rank) ∈ dot_S16x512x1024_S1024x1024_S16x512x1024_2_1_01_0_n_n.rhsBatch by decide),
    dif_pos (show (0 : Fin S1024x1024.rank) ∈ dot_S16x512x1024_S1024x1024_S16x512x1024_2_1_01_0_n_n.rhsNonContracting by decide)]
  rfl
/-- The weight matrix's second coordinate is the contracted one. -/
theorem rhs_1 (j : S16x512x1024.Idx) (q : dot_S16x512x1024_S1024x1024_S16x512x1024_2_1_01_0_n_n.contr.Idx) : (dot_S16x512x1024_S1024x1024_S16x512x1024_2_1_01_0_n_n.rhsIdx j q 1).val = (q ⟨0, by decide⟩).val :=
  dot_S16x512x1024_S1024x1024_S16x512x1024_2_1_01_0_n_n.rhsIdx_val_of_single rfl j q

/-- The batched product of the activations with a 1024 × 1024 matrix over the matrix's second axis, at (p, q, n),
    is ∑ₖ x[p,q,k] · M[n,k]. -/
theorem dot_apply (x : FVec Ideal S16x512x1024 .f32) (M : FVec Ideal S1024x1024 .f32) (p : Fin 16) (q : Fin 512) (n : Fin 1024) :
    Host.dotGeneral dot_S16x512x1024_S1024x1024_S16x512x1024_2_1_01_0_n_n none x M (ix3 p q n) = ∑ k : Fin 1024, x (ix3 p q k) * M (ix2 n k) := by
  simp only [Host.dotGeneral]
  rw [Ideal.dotGeneral_apply, ← Equiv.sum_comp (contrEquiv1 dot_S16x512x1024_S1024x1024_S16x512x1024_2_1_01_0_n_n 1024 rfl rfl).symm]
  refine Finset.sum_congr rfl fun k _ => ?_
  have hk := contrEquiv1_symm_val dot_S16x512x1024_S1024x1024_S16x512x1024_2_1_01_0_n_n 1024 rfl rfl k
  have el : dot_S16x512x1024_S1024x1024_S16x512x1024_2_1_01_0_n_n.lhsIdx (ix3 p q n) ((contrEquiv1 dot_S16x512x1024_S1024x1024_S16x512x1024_2_1_01_0_n_n 1024 rfl rfl).symm k) = ix3 p q k :=
    funext fun a => Fin.ext (by
      match a with
      | ⟨0, _⟩ => exact lhs_0 _ _
      | ⟨1, _⟩ => exact lhs_1 _ _
      | ⟨2, _⟩ => exact (lhs_2 _ _).trans hk)
  have er : dot_S16x512x1024_S1024x1024_S16x512x1024_2_1_01_0_n_n.rhsIdx (ix3 p q n) ((contrEquiv1 dot_S16x512x1024_S1024x1024_S16x512x1024_2_1_01_0_n_n 1024 rfl rfl).symm k) = ix2 n k :=
    funext fun a => Fin.ext (by
      match a with
      | ⟨0, _⟩ => exact rhs_0 _ _
      | ⟨1, _⟩ => exact (rhs_1 _ _).trans hk)
  rw [el, er]

/-! ## One layer -/

/-- Layer i at (p, q, n) is the specification's affine layer on the row x[p,q,·]. -/
theorem linAt_apply (i : Fin 7) (hW : S7x1024x1024.Slices ![i.val, 0, 0] S1x1024x1024) (hb : S7x1024.Slices ![i.val, 0] S1x1024)
    (W : FVec Ideal S7x1024x1024 .f32) (b : FVec Ideal S7x1024 .f32) (x : FVec Ideal S16x512x1024 .f32)
    (p : Fin 16) (q : Fin 512) (n : Fin 1024) :
    linAt (F := Ideal) i.val hW hb W b x (ix3 p q n)
      = Cert.Spec.lin (fun n k => W (ix3 i n k)) (fun n => b (ix2 i n)) (fun k => x (ix3 p q k)) n := by
  unfold linAt Cert.Spec.lin
  rw [addf_apply, dot_apply]
  congr 1
  · refine Finset.sum_congr rfl fun k _ => ?_
    rw [shapeCast_1ab_ab_apply]
    refine congrArg (x (ix3 p q k) * ·) ?_
    exact extractStridedSlice_apply _ _ _ _ _ (fun ax => by
      match ax with
      | ⟨0, _⟩ => exact (Nat.add_zero _).symm
      | ⟨1, _⟩ => exact (Nat.zero_add _).symm
      | ⟨2, _⟩ => exact (Nat.zero_add _).symm)
  · refine (broadcastInDim_apply _ _ _ (ix3 p q n) (ix3 (0 : Fin 1) (0 : Fin 1) n) (fun a => by
      match a with
      | ⟨0, _⟩ => rfl
      | ⟨1, _⟩ => rfl
      | ⟨2, _⟩ => rfl)).trans ?_
    refine (broadcastInDim_apply _ _ _ (ix3 (0 : Fin 1) (0 : Fin 1) n) (ix1 n) (fun a => by
      match a with
      | ⟨0, _⟩ => rfl)).trans ?_
    rw [shapeCast_1a_a_apply]
    exact extractStridedSlice_apply _ _ _ _ _ (fun ax => by
      match ax with
      | ⟨0, _⟩ => exact (Nat.add_zero _).symm
      | ⟨1, _⟩ => exact (Nat.zero_add _).symm)

/-! ## SELU -/

/-- The reference's SELU, entry by entry, is the specification's (kernel-spelt) SELU of the entry. -/
theorem seluR_apply (y : FVec Ideal S16x512x1024 .f32) (j : S16x512x1024.Idx) :
    seluR (F := Ideal) y j = Cert.Spec.selu (y j) := by
  rw [← Cert.Spec.seluRef_eq]
  rfl

/-! ## The seven layers -/

theorem fc1R_apply (W : FVec Ideal S7x1024x1024 .f32) (b : FVec Ideal S7x1024 .f32) (x : FVec Ideal S16x512x1024 .f32)
    (p : Fin 16) (q : Fin 512) (n : Fin 1024) :
    fc1R (F := Ideal) W b x (ix3 p q n)
      = Cert.Spec.fc1row (fun i n k => W (ix3 i n k)) (fun i n => b (ix2 i n)) (fun k => x (ix3 p q k)) n := by
  unfold fc1R Cert.Spec.fc1row
  refine (linAt_apply (6 : Fin 7) _ _ W b _ p q n).trans ?_
  refine congrArg (fun r => Cert.Spec.lin _ _ r n) (funext fun k5 => ?_)
  refine (linAt_apply (5 : Fin 7) _ _ W b _ p q k5).trans ?_
  refine congrArg (fun r => Cert.Spec.lin _ _ r k5) (funext fun k4 => ?_)
  refine (linAt_apply (4 : Fin 7) _ _ W b _ p q k4).trans ?_
  refine congrArg (fun r => Cert.Spec.lin _ _ r k4) (funext fun k3 => ?_)
  rw [seluR_apply]
  refine congrArg Cert.Spec.selu ?_
  refine (linAt_apply (3 : Fin 7) _ _ W b _ p q k3).trans ?_
  refine congrArg (fun r => Cert.Spec.lin _ _ r k3) (funext fun k2 => ?_)
  refine (linAt_apply (2 : Fin 7) _ _ W b _ p q k2).trans ?_
  refine congrArg (fun r => Cert.Spec.lin _ _ r k2) (funext fun k1 => ?_)
  refine (linAt_apply (1 : Fin 7) _ _ W b _ p q k1).trans ?_
  refine congrArg (fun r => Cert.Spec.lin _ _ r k1) (funext fun k0 => ?_)
  exact linAt_apply (0 : Fin 7) _ _ W b x p q k0

end Cert.RefFc1

end
-- ==== Proof.BridgeFc.lean ====
/-
  The perceptron as the kernel's launches apply it and as the reference's operations apply it are one row function.

  The kernel flattens the 16 × 512 rows to 8192, so row (p, q) is row 512·p + q of the flattened array, and reads the
  weights transposed in their last two axes: entry (i, k, n) of the transposed stack is entry (i, n, k) of the argument.
  With those two readings, both sides are the specification's seven layers on the row x[p,q,·].
-/
import proofs.«114870_j317827580568_1_alg».proof.Proof.KValue
import proofs.«114870_j317827580568_1_alg».proof.Proof.RefFc1
import proofs.«114870_j317827580568_1_alg».proof.Proof.BridgeGlue

noncomputable section

namespace Cert.Bridge

open Idealize.ShloMosaic Idealize.ShloMosaic.ValueIdx

/-- Row (p, q) of a 16 × 512 × 1024 array is row 512·p + q of its row-major flattening. -/
theorem flat_apply {α : Type} (x : (⟨3, ![16, 512, 1024]⟩ : Shape).Idx → α)
    (h : (⟨3, ![16, 512, 1024]⟩ : Shape).ShapeCasts ⟨2, ![8192, 1024]⟩) (p : Fin 16) (q : Fin 512) (k : Fin 1024) :
    shapeCast ⟨2, ![8192, 1024]⟩ x h (ix2 (⟨p.val * 512 + q.val, by omega⟩ : Fin 8192) k) = x (ix3 p q k) :=
  shapeCast_apply x h _ _ (by rw [Shape.rowMajor_val_three, Shape.rowMajor_val_two]; rfl)

/-- Entry (p, q, n) of the unflattening of an 8192 × 1024 array is its entry (512·p + q, n). -/
theorem unflat_apply {α : Type} (y : (⟨2, ![8192, 1024]⟩ : Shape).Idx → α)
    (h : (⟨2, ![8192, 1024]⟩ : Shape).ShapeCasts ⟨3, ![16, 512, 1024]⟩) (p : Fin 16) (q : Fin 512) (n : Fin 1024) :
    shapeCast ⟨3, ![16, 512, 1024]⟩ y h (ix3 p q n) = y (ix2 (⟨p.val * 512 + q.val, by omega⟩ : Fin 8192) n) :=
  shapeCast_apply y h _ _ (by rw [Shape.rowMajor_val_three, Shape.rowMajor_val_two]; rfl)

/-- The kernel's row function is the reference's. -/
theorem fcK_eq (Wm : FVec Ideal Cert.ReferenceIdeal.S7x1024x1024 .f32) (bm : FVec Ideal Cert.ReferenceIdeal.S7x1024 .f32) :
    Cert.KernelIdeal.KValue.fcK Wm bm = Cert.ReferenceIdeal.Stages.fc1R (F := Ideal) Wm bm := by
  funext x j
  obtain ⟨p, q, n, rfl⟩ : ∃ (p : Fin 16) (q : Fin 512) (n : Fin 1024), j = ix3 p q n := ⟨j 0, j 1, j 2, eq_ix3 j⟩
  rw [Cert.RefFc1.fc1R_apply]
  unfold Cert.KernelIdeal.KValue.fcK
  rw [unflat_apply]
  unfold Cert.KFc1.fc1K Cert.KernelIdeal.KValue.wt
  refine congrArg₂ (fun W r => Cert.Spec.fc1row W (fun i n => bm (ix2 i n)) r n) ?_ ?_
  · funext i n' k
    rw [truncf_apply, transpose_ix3_021_apply]
  · funext k
    exact flat_apply x _ p q k

end Cert.Bridge

end
-- ==== Proof.RefOps.lean ====
/-
  The reference program as a list of its host operations, window by window, with each call of SELU replaced by the
  nineteen operations of its body (ELU's and the two selects' among them) over that call's buffers; the program is
  the straight line of that list, every operation touches TensorCore buffers only, and none leaves a result unchosen.
-/
import proofs.«114870_j317827580568_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0, calls inlined. -/
abbrev ops_part0 : List (HloOp τ sig (Elt F)) :=
  [ unary main_arg0 main_v0 ((transpose S16x512x1024 [0, 2, 1] · transposes_S16x1024x512_S16x512x1024_0_2_1) : (⟨S16x1024x512, .f32⟩ : BufTy).Contents (Elt F) → (⟨S16x512x1024, .f32⟩ : BufTy).Contents (Elt F)),
    unary main_arg1 main_v1 ((transpose S16x512x1024 [0, 2, 1] · transposes_S16x1024x512_S16x512x1024_0_2_1) : (⟨S16x1024x512, .f32⟩ : BufTy).Contents (Elt F) → (⟨S16x512x1024, .f32⟩ : BufTy).Contents (Elt F)),
    unary main_arg2 main_v2 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v2 main_v3 rfl shapeCasts_S1x1024x1024_S1024x1024,
    binary main_v0 main_v3 main_v4 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v5 ((extractStridedSlice S1x1024 ![0, 0] · slices_S7x1024_S1x1024_0_0) : (⟨S7x1024, .f32⟩ : BufTy).Contents (Elt F) → (⟨S1x1024, .f32⟩ : BufTy).Contents (Elt F)),
    reshape main_v5 main_v6 rfl shapeCasts_S1x1024_S1024,
    unary main_v6 main_v7 (broadcastInDim S1x1x1024 ![2] bcast_S1024_S1x1x1024_2 : (⟨S1024, .f32⟩ : BufTy).Contents (Elt F) → (⟨S1x1x1024, .f32⟩ : BufTy).Contents (Elt F)),
    unary main_v7 main_v8 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v4 main_v8 main_v9 (addf : (⟨S16x512x1024, .f32⟩ : BufTy).Contents (Elt F) → (⟨S16x512x1024, .f32⟩ : BufTy).Contents (Elt F) → (⟨S16x512x1024, .f32⟩ : BufTy).Contents (Elt F)),
    unary main_arg2 main_v10 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v10 main_v11 rfl shapeCasts_S1x1024x1024_S1024x1024,
    binary main_v9 main_v11 main_v12 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v13 ((extractStridedSlice S1x1024 ![1, 0] · slices_S7x1024_S1x1024_1_0) : (⟨S7x1024, .f32⟩ : BufTy).Contents (Elt F) → (⟨S1x1024, .f32⟩ : BufTy).Contents (Elt F)),
    reshape main_v13 main_v14 rfl shapeCasts_S1x1024_S1024,
    unary main_v14 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v12 main_v16 main_v17 (addf : (⟨S16x512x1024, .f32⟩ : BufTy).Contents (Elt F) → (⟨S16x512x1024, .f32⟩ : BufTy).Contents (Elt F) → (⟨S16x512x1024, .f32⟩ : BufTy).Contents (Elt F)),
    unary main_arg2 main_v18 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v18 main_v19 rfl shapeCasts_S1x1024x1024_S1024x1024,
    binary main_v17 main_v19 main_v20 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v21 ((extractStridedSlice S1x1024 ![2, 0] · slices_S7x1024_S1x1024_2_0) : (⟨S7x1024, .f32⟩ : BufTy).Contents (Elt F) → (⟨S1x1024, .f32⟩ : BufTy).Contents (Elt F)),
    reshape main_v21 main_v22 rfl shapeCasts_S1x1024_S1024,
    unary main_v22 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v20 main_v24 main_v25 (addf : (⟨S16x512x1024, .f32⟩ : BufTy).Contents (Elt F) → (⟨S16x512x1024, .f32⟩ : BufTy).Contents (Elt F) → (⟨S16x512x1024, .f32⟩ : BufTy).Contents (Elt F)),
    unary main_arg2 main_v26 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v26 main_v27 rfl shapeCasts_S1x1024x1024_S1024x1024,
    binary main_v25 main_v27 main_v28 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v29 ((extractStridedSlice S1x1024 ![3, 0] · slices_S7x1024_S1x1024_3_0) : (⟨S7x1024, .f32⟩ : BufTy).Contents (Elt F) → (⟨S1x1024, .f32⟩ : BufTy).Contents (Elt F)),
    reshape main_v29 main_v30 rfl shapeCasts_S1x1024_S1024,
    unary main_v30 main_v31 (broadcastInDim S1x1x1024 ![2] bcast_S1024_S1x1x1024_2 : (⟨S1024, .f32⟩ : BufTy).Contents (Elt F) → (⟨S1x1x1024, .f32⟩ : BufTy).Contents (Elt F)),
    unary main_v31 main_v32 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v28 main_v32 main_v33 (addf : (⟨S16x512x1024, .f32⟩ : BufTy).Contents (Elt F) → (⟨S16x512x1024, .f32⟩ : BufTy).Contents (Elt F) → (⟨S16x512x1024, .f32⟩ : BufTy).Contents (Elt F)),
    nullary main_call0_cst (constant S_ .f32 0x3FD62D7D#32),
    nullary main_call0_call0_cst (constant S_ .f32 0x00000000#32),
    unary main_call0_call0_cst main_call0_call0_v0 (broadcastInDim S16x512x1024 ![] bcast_S_S16x512x1024 : (⟨S_, .f32⟩ : BufTy).Contents (Elt F) → (⟨S16x512x1024, .f32⟩ : BufTy).Contents (Elt F)),
    binary main_v33 main_call0_call0_v0 main_call0_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call0_call0_cst_0 (constant S_ .f32 0x00000000#32),
    unary main_call0_call0_cst_0 main_call0_call0_v2 (broadcastInDim S16x512x1024 ![] bcast_S_S16x512x1024 : (⟨S_, .f32⟩ : BufTy).Contents (Elt F) → (⟨S16x512x1024, .f32⟩ : BufTy).Contents (Elt F)),
    binary main_v33 main_call0_call0_v2 main_call0_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call0_call0_cst_1 (constant S_ .f32 0x00000000#32),
    unary main_call0_call0_cst_1 main_call0_call0_call0_v0 (id : (⟨S_, .f32⟩ : BufTy).Contents (Elt F) → (⟨S_, .f32⟩ : BufTy).Contents (Elt F)),
    unary main_call0_call0_call0_v0 main_call0_call0_call0_v1 (broadcastInDim S16x512x1024 ![] bcast_S_S16x512x1024 : (⟨S_, .f32⟩ : BufTy).Contents (Elt F) → (⟨S16x512x1024, .f32⟩ : BufTy).Contents (Elt F)),
    ternary main_call0_call0_v3 main_call0_call0_call0_v1 main_v33 main_call0_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call0_call0_v4 main_call0_call0_v5 (Host.expm1 : (⟨S16x512x1024, .f32⟩ : BufTy).Contents (Elt F) → (⟨S16x512x1024, .f32⟩ : BufTy).Contents (Elt F)),
    unary main_call0_cst main_call0_call0_v6 (id : (⟨S_, .f32⟩ : BufTy).Contents (Elt F) → (⟨S_, .f32⟩ : BufTy).Contents (Elt F)),
    unary main_call0_call0_v6 main_call0_call0_v7 (broadcastInDim S16x512x1024 ![] bcast_S_S16x512x1024 : (⟨S_, .f32⟩ : BufTy).Contents (Elt F) → (⟨S16x512x1024, .f32⟩ : BufTy).Contents (Elt F)),
    binary main_call0_call0_v7 main_call0_call0_v5 main_call0_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call0_call0_v1 main_v33 main_call0_call0_v8 main_call0_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call0_cst_0 (constant S_ .f32 0x3F867D5F#32),
    unary main_call0_cst_0 main_call0_v1 (broadcastInDim S16x512x1024 ![] bcast_S_S16x512x1024 : (⟨S_, .f32⟩ : BufTy).Contents (Elt F) → (⟨S16x512x1024, .f32⟩ : BufTy).Contents (Elt F)),
    binary main_call0_v1 main_call0_v0 main_v34 (mulf : (⟨S16x512x1024, .f32⟩ : BufTy).Contents (Elt F) → (⟨S16x512x1024, .f32⟩ : BufTy).Contents (Elt F) → (⟨S16x512x1024, .f32⟩ : BufTy).Contents (Elt F)),
    unary main_arg2 main_v35 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v35 main_v36 rfl shapeCasts_S1x1024x1024_S1024x1024,
    binary main_v34 main_v36 main_v37 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v38 ((extractStridedSlice S1x1024 ![4, 0] · slices_S7x1024_S1x1024_4_0) : (⟨S7x1024, .f32⟩ : BufTy).Contents (Elt F) → (⟨S1x1024, .f32⟩ : BufTy).Contents (Elt F)),
    reshape main_v38 main_v39 rfl shapeCasts_S1x1024_S1024,
    unary main_v39 main_v40 (broadcastInDim S1x1x1024 ![2] bcast_S1024_S1x1x1024_2 : (⟨S1024, .f32⟩ : BufTy).Contents (Elt F) → (⟨S1x1x1024, .f32⟩ : BufTy).Contents (Elt F)),
    unary main_v40 main_v41 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v37 main_v41 main_v42 (addf : (⟨S16x512x1024, .f32⟩ : BufTy).Contents (Elt F) → (⟨S16x512x1024, .f32⟩ : BufTy).Contents (Elt F) → (⟨S16x512x1024, .f32⟩ : BufTy).Contents (Elt F)),
    unary main_arg2 main_v43 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v43 main_v44 rfl shapeCasts_S1x1024x1024_S1024x1024,
    binary main_v42 main_v44 main_v45 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v46 ((extractStridedSlice S1x1024 ![5, 0] · slices_S7x1024_S1x1024_5_0) : (⟨S7x1024, .f32⟩ : BufTy).Contents (Elt F) → (⟨S1x1024, .f32⟩ : BufTy).Contents (Elt F)),
    reshape main_v46 main_v47 rfl shapeCasts_S1x1024_S1024,
    unary main_v47 main_v48 (broadcastInDim S1x1x1024 ![2] bcast_S1024_S1x1x1024_2 : (⟨S1024, .f32⟩ : BufTy).Contents (Elt F) → (⟨S1x1x1024, .f32⟩ : BufTy).Contents (Elt F)),
    unary main_v48 main_v49 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v45 main_v49 main_v50 (addf : (⟨S16x512x1024, .f32⟩ : BufTy).Contents (Elt F) → (⟨S16x512x1024, .f32⟩ : BufTy).Contents (Elt F) → (⟨S16x512x1024, .f32⟩ : BufTy).Contents (Elt F)),
    unary main_arg2 main_v51 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v51 main_v52 rfl shapeCasts_S1x1024x1024_S1024x1024,
    binary main_v50 main_v52 main_v53 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v54 ((extractStridedSlice S1x1024 ![6, 0] · slices_S7x1024_S1x1024_6_0) : (⟨S7x1024, .f32⟩ : BufTy).Contents (Elt F) → (⟨S1x1024, .f32⟩ : BufTy).Contents (Elt F)),
    reshape main_v54 main_v55 rfl shapeCasts_S1x1024_S1024,
    unary main_v55 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v53 main_v57 main_v58 (addf : (⟨S16x512x1024, .f32⟩ : BufTy).Contents (Elt F) → (⟨S16x512x1024, .f32⟩ : BufTy).Contents (Elt F) → (⟨S16x512x1024, .f32⟩ : BufTy).Contents (Elt F)),
    unary main_arg2 main_v59 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)) ]

/-- The operations of the program's window 1, calls inlined. -/
abbrev ops_part1 : List (HloOp τ sig (Elt F)) :=
  [ reshape main_v59 main_v60 rfl shapeCasts_S1x1024x1024_S1024x1024,
    binary main_v1 main_v60 main_v61 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v62 ((extractStridedSlice S1x1024 ![0, 0] · slices_S7x1024_S1x1024_0_0) : (⟨S7x1024, .f32⟩ : BufTy).Contents (Elt F) → (⟨S1x1024, .f32⟩ : BufTy).Contents (Elt F)),
    reshape main_v62 main_v63 rfl shapeCasts_S1x1024_S1024,
    unary main_v63 main_v64 (broadcastInDim S1x1x1024 ![2] bcast_S1024_S1x1x1024_2 : (⟨S1024, .f32⟩ : BufTy).Contents (Elt F) → (⟨S1x1x1024, .f32⟩ : BufTy).Contents (Elt F)),
    unary main_v64 main_v65 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v61 main_v65 main_v66 (addf : (⟨S16x512x1024, .f32⟩ : BufTy).Contents (Elt F) → (⟨S16x512x1024, .f32⟩ : BufTy).Contents (Elt F) → (⟨S16x512x1024, .f32⟩ : BufTy).Contents (Elt F)),
    unary main_arg2 main_v67 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v67 main_v68 rfl shapeCasts_S1x1024x1024_S1024x1024,
    binary main_v66 main_v68 main_v69 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v70 ((extractStridedSlice S1x1024 ![1, 0] · slices_S7x1024_S1x1024_1_0) : (⟨S7x1024, .f32⟩ : BufTy).Contents (Elt F) → (⟨S1x1024, .f32⟩ : BufTy).Contents (Elt F)),
    reshape main_v70 main_v71 rfl shapeCasts_S1x1024_S1024,
    unary main_v71 main_v72 (broadcastInDim S1x1x1024 ![2] bcast_S1024_S1x1x1024_2 : (⟨S1024, .f32⟩ : BufTy).Contents (Elt F) → (⟨S1x1x1024, .f32⟩ : BufTy).Contents (Elt F)),
    unary main_v72 main_v73 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v69 main_v73 main_v74 (addf : (⟨S16x512x1024, .f32⟩ : BufTy).Contents (Elt F) → (⟨S16x512x1024, .f32⟩ : BufTy).Contents (Elt F) → (⟨S16x512x1024, .f32⟩ : BufTy).Contents (Elt F)),
    unary main_arg2 main_v75 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v75 main_v76 rfl shapeCasts_S1x1024x1024_S1024x1024,
    binary main_v74 main_v76 main_v77 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v78 ((extractStridedSlice S1x1024 ![2, 0] · slices_S7x1024_S1x1024_2_0) : (⟨S7x1024, .f32⟩ : BufTy).Contents (Elt F) → (⟨S1x1024, .f32⟩ : BufTy).Contents (Elt F)),
    reshape main_v78 main_v79 rfl shapeCasts_S1x1024_S1024,
    unary main_v79 main_v80 (broadcastInDim S1x1x1024 ![2] bcast_S1024_S1x1x1024_2 : (⟨S1024, .f32⟩ : BufTy).Contents (Elt F) → (⟨S1x1x1024, .f32⟩ : BufTy).Contents (Elt F)),
    unary main_v80 main_v81 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v77 main_v81 main_v82 (addf : (⟨S16x512x1024, .f32⟩ : BufTy).Contents (Elt F) → (⟨S16x512x1024, .f32⟩ : BufTy).Contents (Elt F) → (⟨S16x512x1024, .f32⟩ : BufTy).Contents (Elt F)),
    unary main_arg2 main_v83 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v83 main_v84 rfl shapeCasts_S1x1024x1024_S1024x1024,
    binary main_v82 main_v84 main_v85 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v86 ((extractStridedSlice S1x1024 ![3, 0] · slices_S7x1024_S1x1024_3_0) : (⟨S7x1024, .f32⟩ : BufTy).Contents (Elt F) → (⟨S1x1024, .f32⟩ : BufTy).Contents (Elt F)),
    reshape main_v86 main_v87 rfl shapeCasts_S1x1024_S1024,
    unary main_v87 main_v88 (broadcastInDim S1x1x1024 ![2] bcast_S1024_S1x1x1024_2 : (⟨S1024, .f32⟩ : BufTy).Contents (Elt F) → (⟨S1x1x1024, .f32⟩ : BufTy).Contents (Elt F)),
    unary main_v88 main_v89 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v85 main_v89 main_v90 (addf : (⟨S16x512x1024, .f32⟩ : BufTy).Contents (Elt F) → (⟨S16x512x1024, .f32⟩ : BufTy).Contents (Elt F) → (⟨S16x512x1024, .f32⟩ : BufTy).Contents (Elt F)),
    nullary main_call1_cst (constant S_ .f32 0x3FD62D7D#32),
    nullary main_call1_call0_cst (constant S_ .f32 0x00000000#32),
    unary main_call1_call0_cst main_call1_call0_v0 (broadcastInDim S16x512x1024 ![] bcast_S_S16x512x1024 : (⟨S_, .f32⟩ : BufTy).Contents (Elt F) → (⟨S16x512x1024, .f32⟩ : BufTy).Contents (Elt F)),
    binary main_v90 main_call1_call0_v0 main_call1_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call1_call0_cst_0 (constant S_ .f32 0x00000000#32),
    unary main_call1_call0_cst_0 main_call1_call0_v2 (broadcastInDim S16x512x1024 ![] bcast_S_S16x512x1024 : (⟨S_, .f32⟩ : BufTy).Contents (Elt F) → (⟨S16x512x1024, .f32⟩ : BufTy).Contents (Elt F)),
    binary main_v90 main_call1_call0_v2 main_call1_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call1_call0_cst_1 (constant S_ .f32 0x00000000#32),
    unary main_call1_call0_cst_1 main_call1_call0_call0_v0 (id : (⟨S_, .f32⟩ : BufTy).Contents (Elt F) → (⟨S_, .f32⟩ : BufTy).Contents (Elt F)),
    unary main_call1_call0_call0_v0 main_call1_call0_call0_v1 (broadcastInDim S16x512x1024 ![] bcast_S_S16x512x1024 : (⟨S_, .f32⟩ : BufTy).Contents (Elt F) → (⟨S16x512x1024, .f32⟩ : BufTy).Contents (Elt F)),
    ternary main_call1_call0_v3 main_call1_call0_call0_v1 main_v90 main_call1_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call1_call0_v4 main_call1_call0_v5 (Host.expm1 : (⟨S16x512x1024, .f32⟩ : BufTy).Contents (Elt F) → (⟨S16x512x1024, .f32⟩ : BufTy).Contents (Elt F)),
    unary main_call1_cst main_call1_call0_v6 (id : (⟨S_, .f32⟩ : BufTy).Contents (Elt F) → (⟨S_, .f32⟩ : BufTy).Contents (Elt F)),
    unary main_call1_call0_v6 main_call1_call0_v7 (broadcastInDim S16x512x1024 ![] bcast_S_S16x512x1024 : (⟨S_, .f32⟩ : BufTy).Contents (Elt F) → (⟨S16x512x1024, .f32⟩ : BufTy).Contents (Elt F)),
    binary main_call1_call0_v7 main_call1_call0_v5 main_call1_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call1_call0_v1 main_v90 main_call1_call0_v8 main_call1_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call1_cst_0 (constant S_ .f32 0x3F867D5F#32),
    unary main_call1_cst_0 main_call1_v1 (broadcastInDim S16x512x1024 ![] bcast_S_S16x512x1024 : (⟨S_, .f32⟩ : BufTy).Contents (Elt F) → (⟨S16x512x1024, .f32⟩ : BufTy).Contents (Elt F)),
    binary main_call1_v1 main_call1_v0 main_v91 (mulf : (⟨S16x512x1024, .f32⟩ : BufTy).Contents (Elt F) → (⟨S16x512x1024, .f32⟩ : BufTy).Contents (Elt F) → (⟨S16x512x1024, .f32⟩ : BufTy).Contents (Elt F)),
    unary main_arg2 main_v92 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v92 main_v93 rfl shapeCasts_S1x1024x1024_S1024x1024,
    binary main_v91 main_v93 main_v94 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v95 ((extractStridedSlice S1x1024 ![4, 0] · slices_S7x1024_S1x1024_4_0) : (⟨S7x1024, .f32⟩ : BufTy).Contents (Elt F) → (⟨S1x1024, .f32⟩ : BufTy).Contents (Elt F)),
    reshape main_v95 main_v96 rfl shapeCasts_S1x1024_S1024,
    unary main_v96 main_v97 (broadcastInDim S1x1x1024 ![2] bcast_S1024_S1x1x1024_2 : (⟨S1024, .f32⟩ : BufTy).Contents (Elt F) → (⟨S1x1x1024, .f32⟩ : BufTy).Contents (Elt F)),
    unary main_v97 main_v98 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v94 main_v98 main_v99 (addf : (⟨S16x512x1024, .f32⟩ : BufTy).Contents (Elt F) → (⟨S16x512x1024, .f32⟩ : BufTy).Contents (Elt F) → (⟨S16x512x1024, .f32⟩ : BufTy).Contents (Elt F)),
    unary main_arg2 main_v100 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v100 main_v101 rfl shapeCasts_S1x1024x1024_S1024x1024,
    binary main_v99 main_v101 main_v102 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v103 ((extractStridedSlice S1x1024 ![5, 0] · slices_S7x1024_S1x1024_5_0) : (⟨S7x1024, .f32⟩ : BufTy).Contents (Elt F) → (⟨S1x1024, .f32⟩ : BufTy).Contents (Elt F)),
    reshape main_v103 main_v104 rfl shapeCasts_S1x1024_S1024,
    unary main_v104 main_v105 (broadcastInDim S1x1x1024 ![2] bcast_S1024_S1x1x1024_2 : (⟨S1024, .f32⟩ : BufTy).Contents (Elt F) → (⟨S1x1x1024, .f32⟩ : BufTy).Contents (Elt F)),
    unary main_v105 main_v106 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v102 main_v106 main_v107 (addf : (⟨S16x512x1024, .f32⟩ : BufTy).Contents (Elt F) → (⟨S16x512x1024, .f32⟩ : BufTy).Contents (Elt F) → (⟨S16x512x1024, .f32⟩ : BufTy).Contents (Elt F)),
    unary main_arg2 main_v108 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v108 main_v109 rfl shapeCasts_S1x1024x1024_S1024x1024,
    binary main_v107 main_v109 main_v110 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v111 ((extractStridedSlice S1x1024 ![6, 0] · slices_S7x1024_S1x1024_6_0) : (⟨S7x1024, .f32⟩ : BufTy).Contents (Elt F) → (⟨S1x1024, .f32⟩ : BufTy).Contents (Elt F)),
    reshape main_v111 main_v112 rfl shapeCasts_S1x1024_S1024,
    unary main_v112 main_v113 (broadcastInDim S1x1x1024 ![2] bcast_S1024_S1x1x1024_2 : (⟨S1024, .f32⟩ : BufTy).Contents (Elt F) → (⟨S1x1x1024, .f32⟩ : BufTy).Contents (Elt F)),
    unary main_v113 main_v114 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v110 main_v114 main_v115 (addf : (⟨S16x512x1024, .f32⟩ : BufTy).Contents (Elt F) → (⟨S16x512x1024, .f32⟩ : BufTy).Contents (Elt F) → (⟨S16x512x1024, .f32⟩ : BufTy).Contents (Elt F)),
    nullary main_cst (constant S_ .f32 0xFF800000#32),
    binary main_v58 main_cst main_v116 ((fun x v => Host.reduce FloatOps.maximumf x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    nullary main_cst_0 (constant S_ .f32 0xFF800000#32),
    unary main_cst_0 main_v117 (broadcastInDim S16x1024 ![] bcast_S_S16x1024 : (⟨S_, .f32⟩ : BufTy).Contents (Elt F) → (⟨S16x1024, .f32⟩ : BufTy).Contents (Elt F)) ]

/-- The operations of the program's window 2, calls inlined. -/
abbrev ops_part2 : List (HloOp τ sig (Elt F)) :=
  [ binary main_v117 main_v116 main_v118 (maximumf : (⟨S16x1024, .f32⟩ : BufTy).Contents (Elt F) → (⟨S16x1024, .f32⟩ : BufTy).Contents (Elt F) → (⟨S16x1024, .f32⟩ : BufTy).Contents (Elt F)),
    unary main_v118 main_v119 (broadcastInDim S16x1x1024 ![0, 2] bcast_S16x1024_S16x1x1024_0_2 : (⟨S16x1024, .f32⟩ : BufTy).Contents (Elt F) → (⟨S16x1x1024, .f32⟩ : BufTy).Contents (Elt F)),
    unary main_v119 main_v120 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v58 main_v120 main_v121 (subf : (⟨S16x512x1024, .f32⟩ : BufTy).Contents (Elt F) → (⟨S16x512x1024, .f32⟩ : BufTy).Contents (Elt F) → (⟨S16x512x1024, .f32⟩ : BufTy).Contents (Elt F)),
    unary main_v121 main_v122 (Host.exp : (⟨S16x512x1024, .f32⟩ : BufTy).Contents (Elt F) → (⟨S16x512x1024, .f32⟩ : BufTy).Contents (Elt F)),
    nullary main_cst_1 (constant S_ .f32 0x00000000#32),
    binary main_v122 main_cst_1 main_v123 ((fun x v => Host.reduceAdd x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    unary main_v123 main_v124 (broadcastInDim S16x1x1024 ![0, 2] bcast_S16x1024_S16x1x1024_0_2 : (⟨S16x1024, .f32⟩ : BufTy).Contents (Elt F) → (⟨S16x1x1024, .f32⟩ : BufTy).Contents (Elt F)),
    unary main_v124 main_v125 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v122 main_v125 main_v126 (Host.divf : (⟨S16x512x1024, .f32⟩ : BufTy).Contents (Elt F) → (⟨S16x512x1024, .f32⟩ : BufTy).Contents (Elt F) → (⟨S16x512x1024, .f32⟩ : BufTy).Contents (Elt F)),
    nullary main_cst_2 (constant S_ .f32 0xFF800000#32),
    binary main_v58 main_cst_2 main_v127 ((fun x v => Host.reduce FloatOps.maximumf x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    nullary main_cst_3 (constant S_ .f32 0xFF800000#32),
    unary main_cst_3 main_v128 (broadcastInDim S16x512 ![] bcast_S_S16x512 : (⟨S_, .f32⟩ : BufTy).Contents (Elt F) → (⟨S16x512, .f32⟩ : BufTy).Contents (Elt F)),
    binary main_v128 main_v127 main_v129 (maximumf : (⟨S16x512, .f32⟩ : BufTy).Contents (Elt F) → (⟨S16x512, .f32⟩ : BufTy).Contents (Elt F) → (⟨S16x512, .f32⟩ : BufTy).Contents (Elt F)),
    unary main_v129 main_v130 (broadcastInDim S16x512x1 ![0, 1] bcast_S16x512_S16x512x1_0_1 : (⟨S16x512, .f32⟩ : BufTy).Contents (Elt F) → (⟨S16x512x1, .f32⟩ : BufTy).Contents (Elt F)),
    unary main_v130 main_v131 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v58 main_v131 main_v132 (subf : (⟨S16x512x1024, .f32⟩ : BufTy).Contents (Elt F) → (⟨S16x512x1024, .f32⟩ : BufTy).Contents (Elt F) → (⟨S16x512x1024, .f32⟩ : BufTy).Contents (Elt F)),
    unary main_v132 main_v133 (Host.exp : (⟨S16x512x1024, .f32⟩ : BufTy).Contents (Elt F) → (⟨S16x512x1024, .f32⟩ : BufTy).Contents (Elt F)),
    nullary main_cst_4 (constant S_ .f32 0x00000000#32),
    binary main_v133 main_cst_4 main_v134 ((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    unary main_v134 main_v135 (broadcastInDim S16x512x1 ![0, 1] bcast_S16x512_S16x512x1_0_1 : (⟨S16x512, .f32⟩ : BufTy).Contents (Elt F) → (⟨S16x512x1, .f32⟩ : BufTy).Contents (Elt F)),
    unary main_v135 main_v136 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v133 main_v136 main_v137 (Host.divf : (⟨S16x512x1024, .f32⟩ : BufTy).Contents (Elt F) → (⟨S16x512x1024, .f32⟩ : BufTy).Contents (Elt F) → (⟨S16x512x1024, .f32⟩ : BufTy).Contents (Elt F)),
    nullary main_cst_5 (constant S_ .f32 0xFF800000#32),
    binary main_v115 main_cst_5 main_v138 ((fun x v => Host.reduce FloatOps.maximumf x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    nullary main_cst_6 (constant S_ .f32 0xFF800000#32),
    unary main_cst_6 main_v139 (broadcastInDim S16x1024 ![] bcast_S_S16x1024 : (⟨S_, .f32⟩ : BufTy).Contents (Elt F) → (⟨S16x1024, .f32⟩ : BufTy).Contents (Elt F)),
    binary main_v139 main_v138 main_v140 (maximumf : (⟨S16x1024, .f32⟩ : BufTy).Contents (Elt F) → (⟨S16x1024, .f32⟩ : BufTy).Contents (Elt F) → (⟨S16x1024, .f32⟩ : BufTy).Contents (Elt F)),
    unary main_v140 main_v141 (broadcastInDim S16x1x1024 ![0, 2] bcast_S16x1024_S16x1x1024_0_2 : (⟨S16x1024, .f32⟩ : BufTy).Contents (Elt F) → (⟨S16x1x1024, .f32⟩ : BufTy).Contents (Elt F)),
    unary main_v141 main_v142 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v115 main_v142 main_v143 (subf : (⟨S16x512x1024, .f32⟩ : BufTy).Contents (Elt F) → (⟨S16x512x1024, .f32⟩ : BufTy).Contents (Elt F) → (⟨S16x512x1024, .f32⟩ : BufTy).Contents (Elt F)),
    unary main_v143 main_v144 (Host.exp : (⟨S16x512x1024, .f32⟩ : BufTy).Contents (Elt F) → (⟨S16x512x1024, .f32⟩ : BufTy).Contents (Elt F)),
    nullary main_cst_7 (constant S_ .f32 0x00000000#32),
    binary main_v144 main_cst_7 main_v145 ((fun x v => Host.reduceAdd x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    unary main_v145 main_v146 (broadcastInDim S16x1x1024 ![0, 2] bcast_S16x1024_S16x1x1024_0_2 : (⟨S16x1024, .f32⟩ : BufTy).Contents (Elt F) → (⟨S16x1x1024, .f32⟩ : BufTy).Contents (Elt F)),
    unary main_v146 main_v147 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v144 main_v147 main_v148 (Host.divf : (⟨S16x512x1024, .f32⟩ : BufTy).Contents (Elt F) → (⟨S16x512x1024, .f32⟩ : BufTy).Contents (Elt F) → (⟨S16x512x1024, .f32⟩ : BufTy).Contents (Elt F)),
    nullary main_cst_8 (constant S_ .f32 0xFF800000#32),
    binary main_v115 main_cst_8 main_v149 ((fun x v => Host.reduce FloatOps.maximumf x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    nullary main_cst_9 (constant S_ .f32 0xFF800000#32),
    unary main_cst_9 main_v150 (broadcastInDim S16x512 ![] bcast_S_S16x512 : (⟨S_, .f32⟩ : BufTy).Contents (Elt F) → (⟨S16x512, .f32⟩ : BufTy).Contents (Elt F)),
    binary main_v150 main_v149 main_v151 (maximumf : (⟨S16x512, .f32⟩ : BufTy).Contents (Elt F) → (⟨S16x512, .f32⟩ : BufTy).Contents (Elt F) → (⟨S16x512, .f32⟩ : BufTy).Contents (Elt F)),
    unary main_v151 main_v152 (broadcastInDim S16x512x1 ![0, 1] bcast_S16x512_S16x512x1_0_1 : (⟨S16x512, .f32⟩ : BufTy).Contents (Elt F) → (⟨S16x512x1, .f32⟩ : BufTy).Contents (Elt F)),
    unary main_v152 main_v153 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v115 main_v153 main_v154 (subf : (⟨S16x512x1024, .f32⟩ : BufTy).Contents (Elt F) → (⟨S16x512x1024, .f32⟩ : BufTy).Contents (Elt F) → (⟨S16x512x1024, .f32⟩ : BufTy).Contents (Elt F)),
    unary main_v154 main_v155 (Host.exp : (⟨S16x512x1024, .f32⟩ : BufTy).Contents (Elt F) → (⟨S16x512x1024, .f32⟩ : BufTy).Contents (Elt F)),
    nullary main_cst_10 (constant S_ .f32 0x00000000#32),
    binary main_v155 main_cst_10 main_v156 ((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    unary main_v156 main_v157 (broadcastInDim S16x512x1 ![0, 1] bcast_S16x512_S16x512x1_0_1 : (⟨S16x512, .f32⟩ : BufTy).Contents (Elt F) → (⟨S16x512x1, .f32⟩ : BufTy).Contents (Elt F)),
    unary main_v157 main_v158 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v155 main_v158 main_v159 (Host.divf : (⟨S16x512x1024, .f32⟩ : BufTy).Contents (Elt F) → (⟨S16x512x1024, .f32⟩ : BufTy).Contents (Elt F) → (⟨S16x512x1024, .f32⟩ : BufTy).Contents (Elt F)),
    binary main_v126 main_v159 main_v160 ((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)),
    nullary main_cst_11 (constant S_ .f32 0x44800000#32),
    unary main_cst_11 main_v161 (broadcastInDim S16x512x512 ![] bcast_S_S16x512x512 : (⟨S_, .f32⟩ : BufTy).Contents (Elt F) → (⟨S16x512x512, .f32⟩ : BufTy).Contents (Elt F)),
    binary main_v160 main_v161 main_v162 (Host.divf : (⟨S16x512x512, .f32⟩ : BufTy).Contents (Elt F) → (⟨S16x512x512, .f32⟩ : BufTy).Contents (Elt F) → (⟨S16x512x512, .f32⟩ : BufTy).Contents (Elt F)),
    binary main_v162 main_v0 main_v163 ((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)),
    unary main_arg2 main_v164 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v164 main_v165 rfl shapeCasts_S1x1024x1024_S1024x1024,
    binary main_v163 main_v165 main_v166 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)) ]

/-- The operations of the program's window 3, calls inlined. -/
abbrev ops_part3 : List (HloOp τ sig (Elt F)) :=
  [ unary main_arg3 main_v167 ((extractStridedSlice S1x1024 ![0, 0] · slices_S7x1024_S1x1024_0_0) : (⟨S7x1024, .f32⟩ : BufTy).Contents (Elt F) → (⟨S1x1024, .f32⟩ : BufTy).Contents (Elt F)),
    reshape main_v167 main_v168 rfl shapeCasts_S1x1024_S1024,
    unary main_v168 main_v169 (broadcastInDim S1x1x1024 ![2] bcast_S1024_S1x1x1024_2 : (⟨S1024, .f32⟩ : BufTy).Contents (Elt F) → (⟨S1x1x1024, .f32⟩ : BufTy).Contents (Elt F)),
    unary main_v169 main_v170 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v166 main_v170 main_v171 (addf : (⟨S16x512x1024, .f32⟩ : BufTy).Contents (Elt F) → (⟨S16x512x1024, .f32⟩ : BufTy).Contents (Elt F) → (⟨S16x512x1024, .f32⟩ : BufTy).Contents (Elt F)),
    unary main_arg2 main_v172 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v172 main_v173 rfl shapeCasts_S1x1024x1024_S1024x1024,
    binary main_v171 main_v173 main_v174 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v175 ((extractStridedSlice S1x1024 ![1, 0] · slices_S7x1024_S1x1024_1_0) : (⟨S7x1024, .f32⟩ : BufTy).Contents (Elt F) → (⟨S1x1024, .f32⟩ : BufTy).Contents (Elt F)),
    reshape main_v175 main_v176 rfl shapeCasts_S1x1024_S1024,
    unary main_v176 main_v177 (broadcastInDim S1x1x1024 ![2] bcast_S1024_S1x1x1024_2 : (⟨S1024, .f32⟩ : BufTy).Contents (Elt F) → (⟨S1x1x1024, .f32⟩ : BufTy).Contents (Elt F)),
    unary main_v177 main_v178 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v174 main_v178 main_v179 (addf : (⟨S16x512x1024, .f32⟩ : BufTy).Contents (Elt F) → (⟨S16x512x1024, .f32⟩ : BufTy).Contents (Elt F) → (⟨S16x512x1024, .f32⟩ : BufTy).Contents (Elt F)),
    unary main_arg2 main_v180 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v180 main_v181 rfl shapeCasts_S1x1024x1024_S1024x1024,
    binary main_v179 main_v181 main_v182 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v183 ((extractStridedSlice S1x1024 ![2, 0] · slices_S7x1024_S1x1024_2_0) : (⟨S7x1024, .f32⟩ : BufTy).Contents (Elt F) → (⟨S1x1024, .f32⟩ : BufTy).Contents (Elt F)),
    reshape main_v183 main_v184 rfl shapeCasts_S1x1024_S1024,
    unary main_v184 main_v185 (broadcastInDim S1x1x1024 ![2] bcast_S1024_S1x1x1024_2 : (⟨S1024, .f32⟩ : BufTy).Contents (Elt F) → (⟨S1x1x1024, .f32⟩ : BufTy).Contents (Elt F)),
    unary main_v185 main_v186 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v182 main_v186 main_v187 (addf : (⟨S16x512x1024, .f32⟩ : BufTy).Contents (Elt F) → (⟨S16x512x1024, .f32⟩ : BufTy).Contents (Elt F) → (⟨S16x512x1024, .f32⟩ : BufTy).Contents (Elt F)),
    unary main_arg2 main_v188 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v188 main_v189 rfl shapeCasts_S1x1024x1024_S1024x1024,
    binary main_v187 main_v189 main_v190 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v191 ((extractStridedSlice S1x1024 ![3, 0] · slices_S7x1024_S1x1024_3_0) : (⟨S7x1024, .f32⟩ : BufTy).Contents (Elt F) → (⟨S1x1024, .f32⟩ : BufTy).Contents (Elt F)),
    reshape main_v191 main_v192 rfl shapeCasts_S1x1024_S1024,
    unary main_v192 main_v193 (broadcastInDim S1x1x1024 ![2] bcast_S1024_S1x1x1024_2 : (⟨S1024, .f32⟩ : BufTy).Contents (Elt F) → (⟨S1x1x1024, .f32⟩ : BufTy).Contents (Elt F)),
    unary main_v193 main_v194 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v190 main_v194 main_v195 (addf : (⟨S16x512x1024, .f32⟩ : BufTy).Contents (Elt F) → (⟨S16x512x1024, .f32⟩ : BufTy).Contents (Elt F) → (⟨S16x512x1024, .f32⟩ : BufTy).Contents (Elt F)),
    nullary main_call2_cst (constant S_ .f32 0x3FD62D7D#32),
    nullary main_call2_call0_cst (constant S_ .f32 0x00000000#32),
    unary main_call2_call0_cst main_call2_call0_v0 (broadcastInDim S16x512x1024 ![] bcast_S_S16x512x1024 : (⟨S_, .f32⟩ : BufTy).Contents (Elt F) → (⟨S16x512x1024, .f32⟩ : BufTy).Contents (Elt F)),
    binary main_v195 main_call2_call0_v0 main_call2_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call2_call0_cst_0 (constant S_ .f32 0x00000000#32),
    unary main_call2_call0_cst_0 main_call2_call0_v2 (broadcastInDim S16x512x1024 ![] bcast_S_S16x512x1024 : (⟨S_, .f32⟩ : BufTy).Contents (Elt F) → (⟨S16x512x1024, .f32⟩ : BufTy).Contents (Elt F)),
    binary main_v195 main_call2_call0_v2 main_call2_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call2_call0_cst_1 (constant S_ .f32 0x00000000#32),
    unary main_call2_call0_cst_1 main_call2_call0_call0_v0 (id : (⟨S_, .f32⟩ : BufTy).Contents (Elt F) → (⟨S_, .f32⟩ : BufTy).Contents (Elt F)),
    unary main_call2_call0_call0_v0 main_call2_call0_call0_v1 (broadcastInDim S16x512x1024 ![] bcast_S_S16x512x1024 : (⟨S_, .f32⟩ : BufTy).Contents (Elt F) → (⟨S16x512x1024, .f32⟩ : BufTy).Contents (Elt F)),
    ternary main_call2_call0_v3 main_call2_call0_call0_v1 main_v195 main_call2_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call2_call0_v4 main_call2_call0_v5 (Host.expm1 : (⟨S16x512x1024, .f32⟩ : BufTy).Contents (Elt F) → (⟨S16x512x1024, .f32⟩ : BufTy).Contents (Elt F)),
    unary main_call2_cst main_call2_call0_v6 (id : (⟨S_, .f32⟩ : BufTy).Contents (Elt F) → (⟨S_, .f32⟩ : BufTy).Contents (Elt F)),
    unary main_call2_call0_v6 main_call2_call0_v7 (broadcastInDim S16x512x1024 ![] bcast_S_S16x512x1024 : (⟨S_, .f32⟩ : BufTy).Contents (Elt F) → (⟨S16x512x1024, .f32⟩ : BufTy).Contents (Elt F)),
    binary main_call2_call0_v7 main_call2_call0_v5 main_call2_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call2_call0_v1 main_v195 main_call2_call0_v8 main_call2_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call2_cst_0 (constant S_ .f32 0x3F867D5F#32),
    unary main_call2_cst_0 main_call2_v1 (broadcastInDim S16x512x1024 ![] bcast_S_S16x512x1024 : (⟨S_, .f32⟩ : BufTy).Contents (Elt F) → (⟨S16x512x1024, .f32⟩ : BufTy).Contents (Elt F)),
    binary main_call2_v1 main_call2_v0 main_v196 (mulf : (⟨S16x512x1024, .f32⟩ : BufTy).Contents (Elt F) → (⟨S16x512x1024, .f32⟩ : BufTy).Contents (Elt F) → (⟨S16x512x1024, .f32⟩ : BufTy).Contents (Elt F)),
    unary main_arg2 main_v197 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v197 main_v198 rfl shapeCasts_S1x1024x1024_S1024x1024,
    binary main_v196 main_v198 main_v199 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v200 ((extractStridedSlice S1x1024 ![4, 0] · slices_S7x1024_S1x1024_4_0) : (⟨S7x1024, .f32⟩ : BufTy).Contents (Elt F) → (⟨S1x1024, .f32⟩ : BufTy).Contents (Elt F)),
    reshape main_v200 main_v201 rfl shapeCasts_S1x1024_S1024,
    unary main_v201 main_v202 (broadcastInDim S1x1x1024 ![2] bcast_S1024_S1x1x1024_2 : (⟨S1024, .f32⟩ : BufTy).Contents (Elt F) → (⟨S1x1x1024, .f32⟩ : BufTy).Contents (Elt F)),
    unary main_v202 main_v203 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v199 main_v203 main_v204 (addf : (⟨S16x512x1024, .f32⟩ : BufTy).Contents (Elt F) → (⟨S16x512x1024, .f32⟩ : BufTy).Contents (Elt F) → (⟨S16x512x1024, .f32⟩ : BufTy).Contents (Elt F)),
    unary main_arg2 main_v205 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v205 main_v206 rfl shapeCasts_S1x1024x1024_S1024x1024,
    binary main_v204 main_v206 main_v207 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v208 ((extractStridedSlice S1x1024 ![5, 0] · slices_S7x1024_S1x1024_5_0) : (⟨S7x1024, .f32⟩ : BufTy).Contents (Elt F) → (⟨S1x1024, .f32⟩ : BufTy).Contents (Elt F)),
    reshape main_v208 main_v209 rfl shapeCasts_S1x1024_S1024,
    unary main_v209 main_v210 (broadcastInDim S1x1x1024 ![2] bcast_S1024_S1x1x1024_2 : (⟨S1024, .f32⟩ : BufTy).Contents (Elt F) → (⟨S1x1x1024, .f32⟩ : BufTy).Contents (Elt F)),
    unary main_v210 main_v211 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v207 main_v211 main_v212 (addf : (⟨S16x512x1024, .f32⟩ : BufTy).Contents (Elt F) → (⟨S16x512x1024, .f32⟩ : BufTy).Contents (Elt F) → (⟨S16x512x1024, .f32⟩ : BufTy).Contents (Elt F)),
    unary main_arg2 main_v213 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v213 main_v214 rfl shapeCasts_S1x1024x1024_S1024x1024,
    binary main_v212 main_v214 main_v215 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v216 ((extractStridedSlice S1x1024 ![6, 0] · slices_S7x1024_S1x1024_6_0) : (⟨S7x1024, .f32⟩ : BufTy).Contents (Elt F) → (⟨S1x1024, .f32⟩ : BufTy).Contents (Elt F)),
    reshape main_v216 main_v217 rfl shapeCasts_S1x1024_S1024,
    unary main_v217 main_v218 (broadcastInDim S1x1x1024 ![2] bcast_S1024_S1x1x1024_2 : (⟨S1024, .f32⟩ : BufTy).Contents (Elt F) → (⟨S1x1x1024, .f32⟩ : BufTy).Contents (Elt F)),
    unary main_v218 main_v219 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v215 main_v219 main_v220 (addf : (⟨S16x512x1024, .f32⟩ : BufTy).Contents (Elt F) → (⟨S16x512x1024, .f32⟩ : BufTy).Contents (Elt F) → (⟨S16x512x1024, .f32⟩ : BufTy).Contents (Elt F)),
    unary main_v220 main_v221 ((transpose S16x1024x512 [0, 2, 1] · transposes_S16x512x1024_S16x1024x512_0_2_1) : (⟨S16x512x1024, .f32⟩ : BufTy).Contents (Elt F) → (⟨S16x1024x512, .f32⟩ : BufTy).Contents (Elt F)),
    binary main_v221 main_v221 main_v222 (mulf : (⟨S16x1024x512, .f32⟩ : BufTy).Contents (Elt F) → (⟨S16x1024x512, .f32⟩ : BufTy).Contents (Elt F) → (⟨S16x1024x512, .f32⟩ : BufTy).Contents (Elt F)),
    nullary main_cst_12 (constant S_ .f32 0x00000000#32),
    binary main_v222 main_cst_12 main_v223 ((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)),
    unary main_v223 main_v224 (broadcastInDim S16x1024x1 ![0, 1] bcast_S16x1024_S16x1024x1_0_1 : (⟨S16x1024, .f32⟩ : BufTy).Contents (Elt F) → (⟨S16x1024x1, .f32⟩ : BufTy).Contents (Elt F)),
    unary main_v224 main_v225 (Host.sqrt : (⟨S16x1024x1, .f32⟩ : BufTy).Contents (Elt F) → (⟨S16x1024x1, .f32⟩ : BufTy).Contents (Elt F)) ]

/-- The operations of the program's window 4, calls inlined. -/
abbrev ops_part4 : List (HloOp τ sig (Elt F)) :=
  [ nullary main_cst_13 (constant S_ .f32 0x2B8CBCCC#32),
    unary main_cst_13 main_v226 (broadcastInDim S16x1024x1 ![] bcast_S_S16x1024x1 : (⟨S_, .f32⟩ : BufTy).Contents (Elt F) → (⟨S16x1024x1, .f32⟩ : BufTy).Contents (Elt F)),
    binary main_v225 main_v226 main_v227 (maximumf : (⟨S16x1024x1, .f32⟩ : BufTy).Contents (Elt F) → (⟨S16x1024x1, .f32⟩ : BufTy).Contents (Elt F) → (⟨S16x1024x1, .f32⟩ : BufTy).Contents (Elt F)),
    unary main_v227 main_v228 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v221 main_v228 main_v229 (Host.divf : (⟨S16x1024x512, .f32⟩ : BufTy).Contents (Elt F) → (⟨S16x1024x512, .f32⟩ : BufTy).Contents (Elt F) → (⟨S16x1024x512, .f32⟩ : BufTy).Contents (Elt F)),
    nullary main_cst_14 (constant S_ .f32 0x3DCCCCCD#32),
    unary main_cst_14 main_v230 (broadcastInDim S16x1024x512 ![] bcast_S_S16x1024x512 : (⟨S_, .f32⟩ : BufTy).Contents (Elt F) → (⟨S16x1024x512, .f32⟩ : BufTy).Contents (Elt F)),
    binary main_v229 main_v230 main_v231 (mulf : (⟨S16x1024x512, .f32⟩ : BufTy).Contents (Elt F) → (⟨S16x1024x512, .f32⟩ : BufTy).Contents (Elt F) → (⟨S16x1024x512, .f32⟩ : BufTy).Contents (Elt F)),
    nullary main_cst_15 (constant S_ .f32 0x3F800000#32),
    unary main_cst_15 main_v232 (broadcastInDim S16x1024x512 ![] bcast_S_S16x1024x512 : (⟨S_, .f32⟩ : BufTy).Contents (Elt F) → (⟨S16x1024x512, .f32⟩ : BufTy).Contents (Elt F)),
    binary main_arg0 main_v232 main_v233 (mulf : (⟨S16x1024x512, .f32⟩ : BufTy).Contents (Elt F) → (⟨S16x1024x512, .f32⟩ : BufTy).Contents (Elt F) → (⟨S16x1024x512, .f32⟩ : BufTy).Contents (Elt F)),
    binary main_v231 main_v233 main_v234 (addf : (⟨S16x1024x512, .f32⟩ : BufTy).Contents (Elt F) → (⟨S16x1024x512, .f32⟩ : BufTy).Contents (Elt F) → (⟨S16x1024x512, .f32⟩ : BufTy).Contents (Elt F)),
    binary main_v148 main_v137 main_v235 ((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)),
    nullary main_cst_16 (constant S_ .f32 0x44800000#32),
    unary main_cst_16 main_v236 (broadcastInDim S16x512x512 ![] bcast_S_S16x512x512 : (⟨S_, .f32⟩ : BufTy).Contents (Elt F) → (⟨S16x512x512, .f32⟩ : BufTy).Contents (Elt F)),
    binary main_v235 main_v236 main_v237 (Host.divf : (⟨S16x512x512, .f32⟩ : BufTy).Contents (Elt F) → (⟨S16x512x512, .f32⟩ : BufTy).Contents (Elt F) → (⟨S16x512x512, .f32⟩ : BufTy).Contents (Elt F)),
    binary main_v237 main_v1 main_v238 ((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)),
    unary main_arg2 main_v239 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v239 main_v240 rfl shapeCasts_S1x1024x1024_S1024x1024,
    binary main_v238 main_v240 main_v241 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v242 ((extractStridedSlice S1x1024 ![0, 0] · slices_S7x1024_S1x1024_0_0) : (⟨S7x1024, .f32⟩ : BufTy).Contents (Elt F) → (⟨S1x1024, .f32⟩ : BufTy).Contents (Elt F)),
    reshape main_v242 main_v243 rfl shapeCasts_S1x1024_S1024,
    unary main_v243 main_v244 (broadcastInDim S1x1x1024 ![2] bcast_S1024_S1x1x1024_2 : (⟨S1024, .f32⟩ : BufTy).Contents (Elt F) → (⟨S1x1x1024, .f32⟩ : BufTy).Contents (Elt F)),
    unary main_v244 main_v245 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v241 main_v245 main_v246 (addf : (⟨S16x512x1024, .f32⟩ : BufTy).Contents (Elt F) → (⟨S16x512x1024, .f32⟩ : BufTy).Contents (Elt F) → (⟨S16x512x1024, .f32⟩ : BufTy).Contents (Elt F)),
    unary main_arg2 main_v247 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v247 main_v248 rfl shapeCasts_S1x1024x1024_S1024x1024,
    binary main_v246 main_v248 main_v249 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v250 ((extractStridedSlice S1x1024 ![1, 0] · slices_S7x1024_S1x1024_1_0) : (⟨S7x1024, .f32⟩ : BufTy).Contents (Elt F) → (⟨S1x1024, .f32⟩ : BufTy).Contents (Elt F)),
    reshape main_v250 main_v251 rfl shapeCasts_S1x1024_S1024,
    unary main_v251 main_v252 (broadcastInDim S1x1x1024 ![2] bcast_S1024_S1x1x1024_2 : (⟨S1024, .f32⟩ : BufTy).Contents (Elt F) → (⟨S1x1x1024, .f32⟩ : BufTy).Contents (Elt F)),
    unary main_v252 main_v253 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v249 main_v253 main_v254 (addf : (⟨S16x512x1024, .f32⟩ : BufTy).Contents (Elt F) → (⟨S16x512x1024, .f32⟩ : BufTy).Contents (Elt F) → (⟨S16x512x1024, .f32⟩ : BufTy).Contents (Elt F)),
    unary main_arg2 main_v255 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v255 main_v256 rfl shapeCasts_S1x1024x1024_S1024x1024,
    binary main_v254 main_v256 main_v257 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v258 ((extractStridedSlice S1x1024 ![2, 0] · slices_S7x1024_S1x1024_2_0) : (⟨S7x1024, .f32⟩ : BufTy).Contents (Elt F) → (⟨S1x1024, .f32⟩ : BufTy).Contents (Elt F)),
    reshape main_v258 main_v259 rfl shapeCasts_S1x1024_S1024,
    unary main_v259 main_v260 (broadcastInDim S1x1x1024 ![2] bcast_S1024_S1x1x1024_2 : (⟨S1024, .f32⟩ : BufTy).Contents (Elt F) → (⟨S1x1x1024, .f32⟩ : BufTy).Contents (Elt F)),
    unary main_v260 main_v261 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v257 main_v261 main_v262 (addf : (⟨S16x512x1024, .f32⟩ : BufTy).Contents (Elt F) → (⟨S16x512x1024, .f32⟩ : BufTy).Contents (Elt F) → (⟨S16x512x1024, .f32⟩ : BufTy).Contents (Elt F)),
    unary main_arg2 main_v263 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v263 main_v264 rfl shapeCasts_S1x1024x1024_S1024x1024,
    binary main_v262 main_v264 main_v265 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v266 ((extractStridedSlice S1x1024 ![3, 0] · slices_S7x1024_S1x1024_3_0) : (⟨S7x1024, .f32⟩ : BufTy).Contents (Elt F) → (⟨S1x1024, .f32⟩ : BufTy).Contents (Elt F)),
    reshape main_v266 main_v267 rfl shapeCasts_S1x1024_S1024,
    unary main_v267 main_v268 (broadcastInDim S1x1x1024 ![2] bcast_S1024_S1x1x1024_2 : (⟨S1024, .f32⟩ : BufTy).Contents (Elt F) → (⟨S1x1x1024, .f32⟩ : BufTy).Contents (Elt F)),
    unary main_v268 main_v269 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v265 main_v269 main_v270 (addf : (⟨S16x512x1024, .f32⟩ : BufTy).Contents (Elt F) → (⟨S16x512x1024, .f32⟩ : BufTy).Contents (Elt F) → (⟨S16x512x1024, .f32⟩ : BufTy).Contents (Elt F)),
    nullary main_call3_cst (constant S_ .f32 0x3FD62D7D#32),
    nullary main_call3_call0_cst (constant S_ .f32 0x00000000#32),
    unary main_call3_call0_cst main_call3_call0_v0 (broadcastInDim S16x512x1024 ![] bcast_S_S16x512x1024 : (⟨S_, .f32⟩ : BufTy).Contents (Elt F) → (⟨S16x512x1024, .f32⟩ : BufTy).Contents (Elt F)),
    binary main_v270 main_call3_call0_v0 main_call3_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call3_call0_cst_0 (constant S_ .f32 0x00000000#32),
    unary main_call3_call0_cst_0 main_call3_call0_v2 (broadcastInDim S16x512x1024 ![] bcast_S_S16x512x1024 : (⟨S_, .f32⟩ : BufTy).Contents (Elt F) → (⟨S16x512x1024, .f32⟩ : BufTy).Contents (Elt F)),
    binary main_v270 main_call3_call0_v2 main_call3_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call3_call0_cst_1 (constant S_ .f32 0x00000000#32),
    unary main_call3_call0_cst_1 main_call3_call0_call0_v0 (id : (⟨S_, .f32⟩ : BufTy).Contents (Elt F) → (⟨S_, .f32⟩ : BufTy).Contents (Elt F)),
    unary main_call3_call0_call0_v0 main_call3_call0_call0_v1 (broadcastInDim S16x512x1024 ![] bcast_S_S16x512x1024 : (⟨S_, .f32⟩ : BufTy).Contents (Elt F) → (⟨S16x512x1024, .f32⟩ : BufTy).Contents (Elt F)),
    ternary main_call3_call0_v3 main_call3_call0_call0_v1 main_v270 main_call3_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call3_call0_v4 main_call3_call0_v5 (Host.expm1 : (⟨S16x512x1024, .f32⟩ : BufTy).Contents (Elt F) → (⟨S16x512x1024, .f32⟩ : BufTy).Contents (Elt F)),
    unary main_call3_cst main_call3_call0_v6 (id : (⟨S_, .f32⟩ : BufTy).Contents (Elt F) → (⟨S_, .f32⟩ : BufTy).Contents (Elt F)),
    unary main_call3_call0_v6 main_call3_call0_v7 (broadcastInDim S16x512x1024 ![] bcast_S_S16x512x1024 : (⟨S_, .f32⟩ : BufTy).Contents (Elt F) → (⟨S16x512x1024, .f32⟩ : BufTy).Contents (Elt F)),
    binary main_call3_call0_v7 main_call3_call0_v5 main_call3_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call3_call0_v1 main_v270 main_call3_call0_v8 main_call3_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call3_cst_0 (constant S_ .f32 0x3F867D5F#32),
    unary main_call3_cst_0 main_call3_v1 (broadcastInDim S16x512x1024 ![] bcast_S_S16x512x1024 : (⟨S_, .f32⟩ : BufTy).Contents (Elt F) → (⟨S16x512x1024, .f32⟩ : BufTy).Contents (Elt F)),
    binary main_call3_v1 main_call3_v0 main_v271 (mulf : (⟨S16x512x1024, .f32⟩ : BufTy).Contents (Elt F) → (⟨S16x512x1024, .f32⟩ : BufTy).Contents (Elt F) → (⟨S16x512x1024, .f32⟩ : BufTy).Contents (Elt F)),
    unary main_arg2 main_v272 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v272 main_v273 rfl shapeCasts_S1x1024x1024_S1024x1024,
    binary main_v271 main_v273 main_v274 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v275 ((extractStridedSlice S1x1024 ![4, 0] · slices_S7x1024_S1x1024_4_0) : (⟨S7x1024, .f32⟩ : BufTy).Contents (Elt F) → (⟨S1x1024, .f32⟩ : BufTy).Contents (Elt F)),
    reshape main_v275 main_v276 rfl shapeCasts_S1x1024_S1024,
    unary main_v276 main_v277 (broadcastInDim S1x1x1024 ![2] bcast_S1024_S1x1x1024_2 : (⟨S1024, .f32⟩ : BufTy).Contents (Elt F) → (⟨S1x1x1024, .f32⟩ : BufTy).Contents (Elt F)),
    unary main_v277 main_v278 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v274 main_v278 main_v279 (addf : (⟨S16x512x1024, .f32⟩ : BufTy).Contents (Elt F) → (⟨S16x512x1024, .f32⟩ : BufTy).Contents (Elt F) → (⟨S16x512x1024, .f32⟩ : BufTy).Contents (Elt F)),
    unary main_arg2 main_v280 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v280 main_v281 rfl shapeCasts_S1x1024x1024_S1024x1024 ]

/-- The operations of the program's window 5, calls inlined. -/
abbrev ops_part5 : List (HloOp τ sig (Elt F)) :=
  [ binary main_v279 main_v281 main_v282 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v283 ((extractStridedSlice S1x1024 ![5, 0] · slices_S7x1024_S1x1024_5_0) : (⟨S7x1024, .f32⟩ : BufTy).Contents (Elt F) → (⟨S1x1024, .f32⟩ : BufTy).Contents (Elt F)),
    reshape main_v283 main_v284 rfl shapeCasts_S1x1024_S1024,
    unary main_v284 main_v285 (broadcastInDim S1x1x1024 ![2] bcast_S1024_S1x1x1024_2 : (⟨S1024, .f32⟩ : BufTy).Contents (Elt F) → (⟨S1x1x1024, .f32⟩ : BufTy).Contents (Elt F)),
    unary main_v285 main_v286 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v282 main_v286 main_v287 (addf : (⟨S16x512x1024, .f32⟩ : BufTy).Contents (Elt F) → (⟨S16x512x1024, .f32⟩ : BufTy).Contents (Elt F) → (⟨S16x512x1024, .f32⟩ : BufTy).Contents (Elt F)),
    unary main_arg2 main_v288 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v288 main_v289 rfl shapeCasts_S1x1024x1024_S1024x1024,
    binary main_v287 main_v289 main_v290 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v291 ((extractStridedSlice S1x1024 ![6, 0] · slices_S7x1024_S1x1024_6_0) : (⟨S7x1024, .f32⟩ : BufTy).Contents (Elt F) → (⟨S1x1024, .f32⟩ : BufTy).Contents (Elt F)),
    reshape main_v291 main_v292 rfl shapeCasts_S1x1024_S1024,
    unary main_v292 main_v293 (broadcastInDim S1x1x1024 ![2] bcast_S1024_S1x1x1024_2 : (⟨S1024, .f32⟩ : BufTy).Contents (Elt F) → (⟨S1x1x1024, .f32⟩ : BufTy).Contents (Elt F)),
    unary main_v293 main_v294 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v290 main_v294 main_v295 (addf : (⟨S16x512x1024, .f32⟩ : BufTy).Contents (Elt F) → (⟨S16x512x1024, .f32⟩ : BufTy).Contents (Elt F) → (⟨S16x512x1024, .f32⟩ : BufTy).Contents (Elt F)),
    unary main_v295 main_v296 ((transpose S16x1024x512 [0, 2, 1] · transposes_S16x512x1024_S16x1024x512_0_2_1) : (⟨S16x512x1024, .f32⟩ : BufTy).Contents (Elt F) → (⟨S16x1024x512, .f32⟩ : BufTy).Contents (Elt F)),
    binary main_v296 main_v296 main_v297 (mulf : (⟨S16x1024x512, .f32⟩ : BufTy).Contents (Elt F) → (⟨S16x1024x512, .f32⟩ : BufTy).Contents (Elt F) → (⟨S16x1024x512, .f32⟩ : BufTy).Contents (Elt F)),
    nullary main_cst_17 (constant S_ .f32 0x00000000#32),
    binary main_v297 main_cst_17 main_v298 ((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)),
    unary main_v298 main_v299 (broadcastInDim S16x1024x1 ![0, 1] bcast_S16x1024_S16x1024x1_0_1 : (⟨S16x1024, .f32⟩ : BufTy).Contents (Elt F) → (⟨S16x1024x1, .f32⟩ : BufTy).Contents (Elt F)),
    unary main_v299 main_v300 (Host.sqrt : (⟨S16x1024x1, .f32⟩ : BufTy).Contents (Elt F) → (⟨S16x1024x1, .f32⟩ : BufTy).Contents (Elt F)),
    nullary main_cst_18 (constant S_ .f32 0x2B8CBCCC#32),
    unary main_cst_18 main_v301 (broadcastInDim S16x1024x1 ![] bcast_S_S16x1024x1 : (⟨S_, .f32⟩ : BufTy).Contents (Elt F) → (⟨S16x1024x1, .f32⟩ : BufTy).Contents (Elt F)),
    binary main_v300 main_v301 main_v302 (maximumf : (⟨S16x1024x1, .f32⟩ : BufTy).Contents (Elt F) → (⟨S16x1024x1, .f32⟩ : BufTy).Contents (Elt F) → (⟨S16x1024x1, .f32⟩ : BufTy).Contents (Elt F)),
    unary main_v302 main_v303 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v296 main_v303 main_v304 (Host.divf : (⟨S16x1024x512, .f32⟩ : BufTy).Contents (Elt F) → (⟨S16x1024x512, .f32⟩ : BufTy).Contents (Elt F) → (⟨S16x1024x512, .f32⟩ : BufTy).Contents (Elt F)),
    nullary main_cst_19 (constant S_ .f32 0x3DCCCCCD#32),
    unary main_cst_19 main_v305 (broadcastInDim S16x1024x512 ![] bcast_S_S16x1024x512 : (⟨S_, .f32⟩ : BufTy).Contents (Elt F) → (⟨S16x1024x512, .f32⟩ : BufTy).Contents (Elt F)),
    binary main_v304 main_v305 main_v306 (mulf : (⟨S16x1024x512, .f32⟩ : BufTy).Contents (Elt F) → (⟨S16x1024x512, .f32⟩ : BufTy).Contents (Elt F) → (⟨S16x1024x512, .f32⟩ : BufTy).Contents (Elt F)),
    nullary main_cst_20 (constant S_ .f32 0x3F800000#32),
    unary main_cst_20 main_v307 (broadcastInDim S16x1024x512 ![] bcast_S_S16x1024x512 : (⟨S_, .f32⟩ : BufTy).Contents (Elt F) → (⟨S16x1024x512, .f32⟩ : BufTy).Contents (Elt F)),
    binary main_arg1 main_v307 main_v308 (mulf : (⟨S16x1024x512, .f32⟩ : BufTy).Contents (Elt F) → (⟨S16x1024x512, .f32⟩ : BufTy).Contents (Elt F) → (⟨S16x1024x512, .f32⟩ : BufTy).Contents (Elt F)),
    binary main_v306 main_v308 main_v309 (addf : (⟨S16x1024x512, .f32⟩ : BufTy).Contents (Elt F) → (⟨S16x1024x512, .f32⟩ : BufTy).Contents (Elt F) → (⟨S16x1024x512, .f32⟩ : BufTy).Contents (Elt F)) ]

/-- All the operations, in order. -/
abbrev ops : List (HloOp τ sig (Elt F)) :=
  ops_part0 ++ (ops_part1 ++ (ops_part2 ++ (ops_part3 ++ (ops_part4 ++ ops_part5))))

set_option maxRecDepth 16384 in
theorem main_part0_eq (c : Dev nD) : main_part0 (F := F) c = seq ops_part0 := rfl

set_option maxRecDepth 16384 in
theorem main_part1_eq (c : Dev nD) : main_part1 (F := F) c = seq ops_part1 := rfl

set_option maxRecDepth 16384 in
theorem main_part2_eq (c : Dev nD) : main_part2 (F := F) c = seq ops_part2 := rfl

set_option maxRecDepth 16384 in
theorem main_part3_eq (c : Dev nD) : main_part3 (F := F) c = seq ops_part3 := rfl

set_option maxRecDepth 16384 in
theorem main_part4_eq (c : Dev nD) : main_part4 (F := F) c = seq ops_part4 := rfl

set_option maxRecDepth 16384 in
theorem main_part5_eq (c : Dev nD) : main_part5 (F := F) c = seq ops_part5 := rfl

set_option maxRecDepth 16384 in
/-- The program is the straight line of its operations. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_part0_sub : (ops_part0 : List (HloOp τ sig (Elt F))).Forall fun op => op.bufs ⊆ tcRefs τ sig :=
  ⟨unary_bufs_sub .., unary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub ..⟩
set_option maxRecDepth 16384 in
theorem ops_part0_fresh : ∀ op ∈ (ops_part0 : List (HloOp τ sig (Elt F))), op.fresh = ∅ := by
  intro _ h; (repeat (cases h with | head => rfl | tail _ h => ?_)); exact nomatch h

set_option maxRecDepth 16384 in
theorem ops_part1_sub : (ops_part1 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub ..⟩
set_option maxRecDepth 16384 in
theorem ops_part1_fresh : ∀ op ∈ (ops_part1 : List (HloOp τ sig (Elt F))), op.fresh = ∅ := by
  intro _ h; (repeat (cases h with | head => rfl | tail _ h => ?_)); exact nomatch h

set_option maxRecDepth 16384 in
theorem ops_part2_sub : (ops_part2 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., binary_bufs_sub .., unary_bufs_sub .., reshape_bufs_sub .., binary_bufs_sub ..⟩
set_option maxRecDepth 16384 in
theorem ops_part2_fresh : ∀ op ∈ (ops_part2 : List (HloOp τ sig (Elt F))), op.fresh = ∅ := by
  intro _ h; (repeat (cases h with | head => rfl | tail _ h => ?_)); exact nomatch h

set_option maxRecDepth 16384 in
theorem ops_part3_sub : (ops_part3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., nullary_bufs_sub .., binary_bufs_sub .., unary_bufs_sub .., unary_bufs_sub ..⟩
set_option maxRecDepth 16384 in
theorem ops_part3_fresh : ∀ op ∈ (ops_part3 : List (HloOp τ sig (Elt F))), op.fresh = ∅ := by
  intro _ h; (repeat (cases h with | head => rfl | tail _ h => ?_)); exact nomatch h

set_option maxRecDepth 16384 in
theorem ops_part4_sub : (ops_part4 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩
set_option maxRecDepth 16384 in
theorem ops_part4_fresh : ∀ op ∈ (ops_part4 : List (HloOp τ sig (Elt F))), op.fresh = ∅ := by
  intro _ h; (repeat (cases h with | head => rfl | tail _ h => ?_)); exact nomatch h

set_option maxRecDepth 16384 in
theorem ops_part5_sub : (ops_part5 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 16384 in
theorem ops_part5_fresh : ∀ op ∈ (ops_part5 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

theorem ops_fresh : ∀ op ∈ (ops : List (HloOp τ sig (Elt F))), op.fresh = ∅ := by
  intro op h
  simp only [ops, List.mem_append] at h
  rcases h with h | h | h | h | h | h
  exacts [ops_part0_fresh op h, ops_part1_fresh op h, ops_part2_fresh op h, ops_part3_fresh op h, ops_part4_fresh op h, ops_part5_fresh op h]

end Cert.ReferenceIdeal.Ops

end
-- ==== Proof.RefSegBase.lean ====
/-
  The perceptron cut at SELU: the four layers before it, and SELU with the three layers after it; and the tactic that
  shows an operation's one written buffer is in a given list.
-/
import proofs.«114870_j317827580568_1_alg».proof.Proof.Gen.ReferenceIdeal
import proofs.«114870_j317827580568_1_alg».proof.Proof.RefStages
import Idealize.ShloMosaic.Lib.StableHlo.Run

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The four layers before SELU. -/
def fcPre (W : FVec F S7x1024x1024 .f32) (b : FVec F S7x1024 .f32) (x : FVec F S16x512x1024 .f32) : FVec F S16x512x1024 .f32 :=
  Stages.linAt 3 slices_S7x1024x1024_S1x1024x1024_3_0_0 slices_S7x1024_S1x1024_3_0 W b
    (Stages.linAt 2 slices_S7x1024x1024_S1x1024x1024_2_0_0 slices_S7x1024_S1x1024_2_0 W b
      (Stages.linAt 1 slices_S7x1024x1024_S1x1024x1024_1_0_0 slices_S7x1024_S1x1024_1_0 W b
        (Stages.linAt 0 slices_S7x1024x1024_S1x1024x1024_0_0_0 slices_S7x1024_S1x1024_0_0 W b x)))

/-- SELU and the three layers after it. -/
def fcPost (W : FVec F S7x1024x1024 .f32) (b : FVec F S7x1024 .f32) (y : FVec F S16x512x1024 .f32) : FVec F S16x512x1024 .f32 :=
  Stages.linAt 6 slices_S7x1024x1024_S1x1024x1024_6_0_0 slices_S7x1024_S1x1024_6_0 W b
    (Stages.linAt 5 slices_S7x1024x1024_S1x1024x1024_5_0_0 slices_S7x1024_S1x1024_5_0 W b
      (Stages.linAt 4 slices_S7x1024x1024_S1x1024x1024_4_0_0 slices_S7x1024_S1x1024_4_0 W b (Stages.seluR y)))

/-- The perceptron is the two halves composed. -/
theorem fc1R_eq (W : FVec F S7x1024x1024 .f32) (b : FVec F S7x1024 .f32) (x : FVec F S16x512x1024 .f32) :
    Stages.fc1R W b x = fcPost W b (fcPre W b x) := rfl

/-- Closes `op.writes ⊆ (W.map devRef).toFinset` for one builder operation over literal references. -/
macro "wtac" : tactic =>
  `(tactic| (simp only [nullary_writes, unary_writes, binary_writes, ternary_writes, reshape_writes,
      Finset.singleton_subset_iff, List.mem_toFinset]; exact List.mem_map_of_mem (by decide)))

end Cert.ReferenceIdeal.Segs

end
-- ==== Proof.RefSegA.lean ====
/-
  The first stretches of the reference program: the two input transposes, and the first perceptron instance in its two halves; what each stretch leaves in its result buffer as a term of the buffers it reads, and that it leaves every buffer it does not write alone.
-/
import proofs.«114870_j317827580568_1_alg».proof.Proof.RefSegBase

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The operations of stretch T. -/
abbrev seg_T : List (HloOp τ sig (Elt F)) :=
  [ unary main_arg0 main_v0 ((transpose S16x512x1024 [0, 2, 1] · transposes_S16x1024x512_S16x512x1024_0_2_1) : (⟨S16x1024x512, .f32⟩ : BufTy).Contents (Elt F) → (⟨S16x512x1024, .f32⟩ : BufTy).Contents (Elt F)),
    unary main_arg1 main_v1 ((transpose S16x512x1024 [0, 2, 1] · transposes_S16x1024x512_S16x512x1024_0_2_1) : (⟨S16x1024x512, .f32⟩ : BufTy).Contents (Elt F) → (⟨S16x512x1024, .f32⟩ : BufTy).Contents (Elt F)) ]

/-- The buffers stretch T writes. -/
abbrev W_T : List (Ref sig .tc) := [main_v0, main_v1]

set_option maxRecDepth 16384 in
theorem seg_T_writes : (seg_T : List (HloOp τ sig (Elt F))).Forall fun op => op.writes ⊆ (W_T.map (Proc.devRef (τ := τ) .tc)).toFinset := by
  simp only [List.Forall]
  refine ⟨?_, ?_⟩ <;> wtac

/-- A buffer stretch T does not write keeps its contents through it. -/
theorem keep_T (V : Valuation τ sig (Elt F)) (r : Ref sig .tc) (h : r ∉ W_T) :
    after seg_T V (Proc.devRef .tc r) = V (Proc.devRef .tc r) :=
  after_of_writes_sub seg_T V seg_T_writes h

set_option maxRecDepth 16384 in
set_option maxHeartbeats 4000000 in
theorem res_T_v0 (V : Valuation τ sig (Elt F)) :
    after seg_T V (Proc.devRef .tc main_v0) = Stages.inT (V (Proc.devRef .tc main_arg0)) := by
  simp only [seg_T]
  after_results_simp
  rfl

set_option maxRecDepth 16384 in
set_option maxHeartbeats 4000000 in
theorem res_T_v1 (V : Valuation τ sig (Elt F)) :
    after seg_T V (Proc.devRef .tc main_v1) = Stages.inT (V (Proc.devRef .tc main_arg1)) := by
  simp only [seg_T]
  after_results_simp
  rfl

/-- The operations of stretch FC1a. -/
abbrev seg_FC1a : List (HloOp τ sig (Elt F)) :=
  [ unary main_arg2 main_v2 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v2 main_v3 rfl shapeCasts_S1x1024x1024_S1024x1024,
    binary main_v0 main_v3 main_v4 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v5 ((extractStridedSlice S1x1024 ![0, 0] · slices_S7x1024_S1x1024_0_0) : (⟨S7x1024, .f32⟩ : BufTy).Contents (Elt F) → (⟨S1x1024, .f32⟩ : BufTy).Contents (Elt F)),
    reshape main_v5 main_v6 rfl shapeCasts_S1x1024_S1024,
    unary main_v6 main_v7 (broadcastInDim S1x1x1024 ![2] bcast_S1024_S1x1x1024_2 : (⟨S1024, .f32⟩ : BufTy).Contents (Elt F) → (⟨S1x1x1024, .f32⟩ : BufTy).Contents (Elt F)),
    unary main_v7 main_v8 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v4 main_v8 main_v9 (addf : (⟨S16x512x1024, .f32⟩ : BufTy).Contents (Elt F) → (⟨S16x512x1024, .f32⟩ : BufTy).Contents (Elt F) → (⟨S16x512x1024, .f32⟩ : BufTy).Contents (Elt F)),
    unary main_arg2 main_v10 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v10 main_v11 rfl shapeCasts_S1x1024x1024_S1024x1024,
    binary main_v9 main_v11 main_v12 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v13 ((extractStridedSlice S1x1024 ![1, 0] · slices_S7x1024_S1x1024_1_0) : (⟨S7x1024, .f32⟩ : BufTy).Contents (Elt F) → (⟨S1x1024, .f32⟩ : BufTy).Contents (Elt F)),
    reshape main_v13 main_v14 rfl shapeCasts_S1x1024_S1024,
    unary main_v14 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v12 main_v16 main_v17 (addf : (⟨S16x512x1024, .f32⟩ : BufTy).Contents (Elt F) → (⟨S16x512x1024, .f32⟩ : BufTy).Contents (Elt F) → (⟨S16x512x1024, .f32⟩ : BufTy).Contents (Elt F)),
    unary main_arg2 main_v18 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v18 main_v19 rfl shapeCasts_S1x1024x1024_S1024x1024,
    binary main_v17 main_v19 main_v20 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v21 ((extractStridedSlice S1x1024 ![2, 0] · slices_S7x1024_S1x1024_2_0) : (⟨S7x1024, .f32⟩ : BufTy).Contents (Elt F) → (⟨S1x1024, .f32⟩ : BufTy).Contents (Elt F)),
    reshape main_v21 main_v22 rfl shapeCasts_S1x1024_S1024,
    unary main_v22 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v20 main_v24 main_v25 (addf : (⟨S16x512x1024, .f32⟩ : BufTy).Contents (Elt F) → (⟨S16x512x1024, .f32⟩ : BufTy).Contents (Elt F) → (⟨S16x512x1024, .f32⟩ : BufTy).Contents (Elt F)),
    unary main_arg2 main_v26 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v26 main_v27 rfl shapeCasts_S1x1024x1024_S1024x1024,
    binary main_v25 main_v27 main_v28 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v29 ((extractStridedSlice S1x1024 ![3, 0] · slices_S7x1024_S1x1024_3_0) : (⟨S7x1024, .f32⟩ : BufTy).Contents (Elt F) → (⟨S1x1024, .f32⟩ : BufTy).Contents (Elt F)),
    reshape main_v29 main_v30 rfl shapeCasts_S1x1024_S1024,
    unary main_v30 main_v31 (broadcastInDim S1x1x1024 ![2] bcast_S1024_S1x1x1024_2 : (⟨S1024, .f32⟩ : BufTy).Contents (Elt F) → (⟨S1x1x1024, .f32⟩ : BufTy).Contents (Elt F)),
    unary main_v31 main_v32 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v28 main_v32 main_v33 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC1a writes. -/
abbrev W_FC1a : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33]

set_option maxRecDepth 16384 in
theorem seg_FC1a_writes : (seg_FC1a : List (HloOp τ sig (Elt F))).Forall fun op => op.writes ⊆ (W_FC1a.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC1a does not write keeps its contents through it. -/
theorem keep_FC1a (V : Valuation τ sig (Elt F)) (r : Ref sig .tc) (h : r ∉ W_FC1a) :
    after seg_FC1a V (Proc.devRef .tc r) = V (Proc.devRef .tc r) :=
  after_of_writes_sub seg_FC1a V seg_FC1a_writes h

set_option maxRecDepth 16384 in
set_option maxHeartbeats 4000000 in
theorem res_FC1a_v33 (V : Valuation τ sig (Elt F)) :
    after seg_FC1a V (Proc.devRef .tc main_v33) = fcPre (V (Proc.devRef .tc main_arg2)) (V (Proc.devRef .tc main_arg3)) (V (Proc.devRef .tc main_v0)) := by
  simp only [seg_FC1a]
  after_results_simp
  rfl

/-- The operations of stretch FC1b. -/
abbrev seg_FC1b : List (HloOp τ sig (Elt F)) :=
  [ nullary main_call0_cst (constant S_ .f32 0x3FD62D7D#32),
    nullary main_call0_call0_cst (constant S_ .f32 0x00000000#32),
    unary main_call0_call0_cst main_call0_call0_v0 (broadcastInDim S16x512x1024 ![] bcast_S_S16x512x1024 : (⟨S_, .f32⟩ : BufTy).Contents (Elt F) → (⟨S16x512x1024, .f32⟩ : BufTy).Contents (Elt F)),
    binary main_v33 main_call0_call0_v0 main_call0_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call0_call0_cst_0 (constant S_ .f32 0x00000000#32),
    unary main_call0_call0_cst_0 main_call0_call0_v2 (broadcastInDim S16x512x1024 ![] bcast_S_S16x512x1024 : (⟨S_, .f32⟩ : BufTy).Contents (Elt F) → (⟨S16x512x1024, .f32⟩ : BufTy).Contents (Elt F)),
    binary main_v33 main_call0_call0_v2 main_call0_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call0_call0_cst_1 (constant S_ .f32 0x00000000#32),
    unary main_call0_call0_cst_1 main_call0_call0_call0_v0 (id : (⟨S_, .f32⟩ : BufTy).Contents (Elt F) → (⟨S_, .f32⟩ : BufTy).Contents (Elt F)),
    unary main_call0_call0_call0_v0 main_call0_call0_call0_v1 (broadcastInDim S16x512x1024 ![] bcast_S_S16x512x1024 : (⟨S_, .f32⟩ : BufTy).Contents (Elt F) → (⟨S16x512x1024, .f32⟩ : BufTy).Contents (Elt F)),
    ternary main_call0_call0_v3 main_call0_call0_call0_v1 main_v33 main_call0_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call0_call0_v4 main_call0_call0_v5 (Host.expm1 : (⟨S16x512x1024, .f32⟩ : BufTy).Contents (Elt F) → (⟨S16x512x1024, .f32⟩ : BufTy).Contents (Elt F)),
    unary main_call0_cst main_call0_call0_v6 (id : (⟨S_, .f32⟩ : BufTy).Contents (Elt F) → (⟨S_, .f32⟩ : BufTy).Contents (Elt F)),
    unary main_call0_call0_v6 main_call0_call0_v7 (broadcastInDim S16x512x1024 ![] bcast_S_S16x512x1024 : (⟨S_, .f32⟩ : BufTy).Contents (Elt F) → (⟨S16x512x1024, .f32⟩ : BufTy).Contents (Elt F)),
    binary main_call0_call0_v7 main_call0_call0_v5 main_call0_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call0_call0_v1 main_v33 main_call0_call0_v8 main_call0_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call0_cst_0 (constant S_ .f32 0x3F867D5F#32),
    unary main_call0_cst_0 main_call0_v1 (broadcastInDim S16x512x1024 ![] bcast_S_S16x512x1024 : (⟨S_, .f32⟩ : BufTy).Contents (Elt F) → (⟨S16x512x1024, .f32⟩ : BufTy).Contents (Elt F)),
    binary main_call0_v1 main_call0_v0 main_v34 (mulf : (⟨S16x512x1024, .f32⟩ : BufTy).Contents (Elt F) → (⟨S16x512x1024, .f32⟩ : BufTy).Contents (Elt F) → (⟨S16x512x1024, .f32⟩ : BufTy).Contents (Elt F)),
    unary main_arg2 main_v35 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v35 main_v36 rfl shapeCasts_S1x1024x1024_S1024x1024,
    binary main_v34 main_v36 main_v37 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v38 ((extractStridedSlice S1x1024 ![4, 0] · slices_S7x1024_S1x1024_4_0) : (⟨S7x1024, .f32⟩ : BufTy).Contents (Elt F) → (⟨S1x1024, .f32⟩ : BufTy).Contents (Elt F)),
    reshape main_v38 main_v39 rfl shapeCasts_S1x1024_S1024,
    unary main_v39 main_v40 (broadcastInDim S1x1x1024 ![2] bcast_S1024_S1x1x1024_2 : (⟨S1024, .f32⟩ : BufTy).Contents (Elt F) → (⟨S1x1x1024, .f32⟩ : BufTy).Contents (Elt F)),
    unary main_v40 main_v41 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v37 main_v41 main_v42 (addf : (⟨S16x512x1024, .f32⟩ : BufTy).Contents (Elt F) → (⟨S16x512x1024, .f32⟩ : BufTy).Contents (Elt F) → (⟨S16x512x1024, .f32⟩ : BufTy).Contents (Elt F)),
    unary main_arg2 main_v43 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v43 main_v44 rfl shapeCasts_S1x1024x1024_S1024x1024,
    binary main_v42 main_v44 main_v45 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v46 ((extractStridedSlice S1x1024 ![5, 0] · slices_S7x1024_S1x1024_5_0) : (⟨S7x1024, .f32⟩ : BufTy).Contents (Elt F) → (⟨S1x1024, .f32⟩ : BufTy).Contents (Elt F)),
    reshape main_v46 main_v47 rfl shapeCasts_S1x1024_S1024,
    unary main_v47 main_v48 (broadcastInDim S1x1x1024 ![2] bcast_S1024_S1x1x1024_2 : (⟨S1024, .f32⟩ : BufTy).Contents (Elt F) → (⟨S1x1x1024, .f32⟩ : BufTy).Contents (Elt F)),
    unary main_v48 main_v49 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v45 main_v49 main_v50 (addf : (⟨S16x512x1024, .f32⟩ : BufTy).Contents (Elt F) → (⟨S16x512x1024, .f32⟩ : BufTy).Contents (Elt F) → (⟨S16x512x1024, .f32⟩ : BufTy).Contents (Elt F)),
    unary main_arg2 main_v51 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v51 main_v52 rfl shapeCasts_S1x1024x1024_S1024x1024,
    binary main_v50 main_v52 main_v53 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v54 ((extractStridedSlice S1x1024 ![6, 0] · slices_S7x1024_S1x1024_6_0) : (⟨S7x1024, .f32⟩ : BufTy).Contents (Elt F) → (⟨S1x1024, .f32⟩ : BufTy).Contents (Elt F)),
    reshape main_v54 main_v55 rfl shapeCasts_S1x1024_S1024,
    unary main_v55 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v53 main_v57 main_v58 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC1b writes. -/
abbrev W_FC1b : List (Ref sig .tc) := [main_call0_cst, main_call0_call0_cst, main_call0_call0_v0, main_call0_call0_v1, main_call0_call0_cst_0, main_call0_call0_v2, main_call0_call0_v3, main_call0_call0_cst_1, main_call0_call0_call0_v0, main_call0_call0_call0_v1, main_call0_call0_v4, main_call0_call0_v5, main_call0_call0_v6, main_call0_call0_v7, main_call0_call0_v8, main_call0_v0, main_call0_cst_0, main_call0_v1, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58]

set_option maxRecDepth 16384 in
theorem seg_FC1b_writes : (seg_FC1b : List (HloOp τ sig (Elt F))).Forall fun op => op.writes ⊆ (W_FC1b.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC1b does not write keeps its contents through it. -/
theorem keep_FC1b (V : Valuation τ sig (Elt F)) (r : Ref sig .tc) (h : r ∉ W_FC1b) :
    after seg_FC1b V (Proc.devRef .tc r) = V (Proc.devRef .tc r) :=
  after_of_writes_sub seg_FC1b V seg_FC1b_writes h

set_option maxRecDepth 16384 in
set_option maxHeartbeats 4000000 in
theorem res_FC1b_v58 (V : Valuation τ sig (Elt F)) :
    after seg_FC1b V (Proc.devRef .tc main_v58) = fcPost (V (Proc.devRef .tc main_arg2)) (V (Proc.devRef .tc main_arg3)) (V (Proc.devRef .tc main_v33)) := by
  simp only [seg_FC1b]
  after_results_simp
  rfl

end Cert.ReferenceIdeal.Segs

end
-- ==== Proof.RefSegB.lean ====
/-
  The second perceptron instance of the reference program, in its two halves: what each stretch leaves in its result buffer as a term of the buffers it reads, and that it leaves every buffer it does not write alone.
-/
import proofs.«114870_j317827580568_1_alg».proof.Proof.RefSegBase

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The operations of stretch FC2a. -/
abbrev seg_FC2a : List (HloOp τ sig (Elt F)) :=
  [ unary main_arg2 main_v59 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v59 main_v60 rfl shapeCasts_S1x1024x1024_S1024x1024,
    binary main_v1 main_v60 main_v61 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v62 ((extractStridedSlice S1x1024 ![0, 0] · slices_S7x1024_S1x1024_0_0) : (⟨S7x1024, .f32⟩ : BufTy).Contents (Elt F) → (⟨S1x1024, .f32⟩ : BufTy).Contents (Elt F)),
    reshape main_v62 main_v63 rfl shapeCasts_S1x1024_S1024,
    unary main_v63 main_v64 (broadcastInDim S1x1x1024 ![2] bcast_S1024_S1x1x1024_2 : (⟨S1024, .f32⟩ : BufTy).Contents (Elt F) → (⟨S1x1x1024, .f32⟩ : BufTy).Contents (Elt F)),
    unary main_v64 main_v65 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v61 main_v65 main_v66 (addf : (⟨S16x512x1024, .f32⟩ : BufTy).Contents (Elt F) → (⟨S16x512x1024, .f32⟩ : BufTy).Contents (Elt F) → (⟨S16x512x1024, .f32⟩ : BufTy).Contents (Elt F)),
    unary main_arg2 main_v67 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v67 main_v68 rfl shapeCasts_S1x1024x1024_S1024x1024,
    binary main_v66 main_v68 main_v69 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v70 ((extractStridedSlice S1x1024 ![1, 0] · slices_S7x1024_S1x1024_1_0) : (⟨S7x1024, .f32⟩ : BufTy).Contents (Elt F) → (⟨S1x1024, .f32⟩ : BufTy).Contents (Elt F)),
    reshape main_v70 main_v71 rfl shapeCasts_S1x1024_S1024,
    unary main_v71 main_v72 (broadcastInDim S1x1x1024 ![2] bcast_S1024_S1x1x1024_2 : (⟨S1024, .f32⟩ : BufTy).Contents (Elt F) → (⟨S1x1x1024, .f32⟩ : BufTy).Contents (Elt F)),
    unary main_v72 main_v73 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v69 main_v73 main_v74 (addf : (⟨S16x512x1024, .f32⟩ : BufTy).Contents (Elt F) → (⟨S16x512x1024, .f32⟩ : BufTy).Contents (Elt F) → (⟨S16x512x1024, .f32⟩ : BufTy).Contents (Elt F)),
    unary main_arg2 main_v75 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v75 main_v76 rfl shapeCasts_S1x1024x1024_S1024x1024,
    binary main_v74 main_v76 main_v77 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v78 ((extractStridedSlice S1x1024 ![2, 0] · slices_S7x1024_S1x1024_2_0) : (⟨S7x1024, .f32⟩ : BufTy).Contents (Elt F) → (⟨S1x1024, .f32⟩ : BufTy).Contents (Elt F)),
    reshape main_v78 main_v79 rfl shapeCasts_S1x1024_S1024,
    unary main_v79 main_v80 (broadcastInDim S1x1x1024 ![2] bcast_S1024_S1x1x1024_2 : (⟨S1024, .f32⟩ : BufTy).Contents (Elt F) → (⟨S1x1x1024, .f32⟩ : BufTy).Contents (Elt F)),
    unary main_v80 main_v81 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v77 main_v81 main_v82 (addf : (⟨S16x512x1024, .f32⟩ : BufTy).Contents (Elt F) → (⟨S16x512x1024, .f32⟩ : BufTy).Contents (Elt F) → (⟨S16x512x1024, .f32⟩ : BufTy).Contents (Elt F)),
    unary main_arg2 main_v83 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v83 main_v84 rfl shapeCasts_S1x1024x1024_S1024x1024,
    binary main_v82 main_v84 main_v85 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v86 ((extractStridedSlice S1x1024 ![3, 0] · slices_S7x1024_S1x1024_3_0) : (⟨S7x1024, .f32⟩ : BufTy).Contents (Elt F) → (⟨S1x1024, .f32⟩ : BufTy).Contents (Elt F)),
    reshape main_v86 main_v87 rfl shapeCasts_S1x1024_S1024,
    unary main_v87 main_v88 (broadcastInDim S1x1x1024 ![2] bcast_S1024_S1x1x1024_2 : (⟨S1024, .f32⟩ : BufTy).Contents (Elt F) → (⟨S1x1x1024, .f32⟩ : BufTy).Contents (Elt F)),
    unary main_v88 main_v89 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v85 main_v89 main_v90 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC2a writes. -/
abbrev W_FC2a : List (Ref sig .tc) := [main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90]

set_option maxRecDepth 16384 in
theorem seg_FC2a_writes : (seg_FC2a : List (HloOp τ sig (Elt F))).Forall fun op => op.writes ⊆ (W_FC2a.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC2a does not write keeps its contents through it. -/
theorem keep_FC2a (V : Valuation τ sig (Elt F)) (r : Ref sig .tc) (h : r ∉ W_FC2a) :
    after seg_FC2a V (Proc.devRef .tc r) = V (Proc.devRef .tc r) :=
  after_of_writes_sub seg_FC2a V seg_FC2a_writes h

set_option maxRecDepth 16384 in
set_option maxHeartbeats 4000000 in
theorem res_FC2a_v90 (V : Valuation τ sig (Elt F)) :
    after seg_FC2a V (Proc.devRef .tc main_v90) = fcPre (V (Proc.devRef .tc main_arg2)) (V (Proc.devRef .tc main_arg3)) (V (Proc.devRef .tc main_v1)) := by
  simp only [seg_FC2a]
  after_results_simp
  rfl

/-- The operations of stretch FC2b. -/
abbrev seg_FC2b : List (HloOp τ sig (Elt F)) :=
  [ nullary main_call1_cst (constant S_ .f32 0x3FD62D7D#32),
    nullary main_call1_call0_cst (constant S_ .f32 0x00000000#32),
    unary main_call1_call0_cst main_call1_call0_v0 (broadcastInDim S16x512x1024 ![] bcast_S_S16x512x1024 : (⟨S_, .f32⟩ : BufTy).Contents (Elt F) → (⟨S16x512x1024, .f32⟩ : BufTy).Contents (Elt F)),
    binary main_v90 main_call1_call0_v0 main_call1_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call1_call0_cst_0 (constant S_ .f32 0x00000000#32),
    unary main_call1_call0_cst_0 main_call1_call0_v2 (broadcastInDim S16x512x1024 ![] bcast_S_S16x512x1024 : (⟨S_, .f32⟩ : BufTy).Contents (Elt F) → (⟨S16x512x1024, .f32⟩ : BufTy).Contents (Elt F)),
    binary main_v90 main_call1_call0_v2 main_call1_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call1_call0_cst_1 (constant S_ .f32 0x00000000#32),
    unary main_call1_call0_cst_1 main_call1_call0_call0_v0 (id : (⟨S_, .f32⟩ : BufTy).Contents (Elt F) → (⟨S_, .f32⟩ : BufTy).Contents (Elt F)),
    unary main_call1_call0_call0_v0 main_call1_call0_call0_v1 (broadcastInDim S16x512x1024 ![] bcast_S_S16x512x1024 : (⟨S_, .f32⟩ : BufTy).Contents (Elt F) → (⟨S16x512x1024, .f32⟩ : BufTy).Contents (Elt F)),
    ternary main_call1_call0_v3 main_call1_call0_call0_v1 main_v90 main_call1_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call1_call0_v4 main_call1_call0_v5 (Host.expm1 : (⟨S16x512x1024, .f32⟩ : BufTy).Contents (Elt F) → (⟨S16x512x1024, .f32⟩ : BufTy).Contents (Elt F)),
    unary main_call1_cst main_call1_call0_v6 (id : (⟨S_, .f32⟩ : BufTy).Contents (Elt F) → (⟨S_, .f32⟩ : BufTy).Contents (Elt F)),
    unary main_call1_call0_v6 main_call1_call0_v7 (broadcastInDim S16x512x1024 ![] bcast_S_S16x512x1024 : (⟨S_, .f32⟩ : BufTy).Contents (Elt F) → (⟨S16x512x1024, .f32⟩ : BufTy).Contents (Elt F)),
    binary main_call1_call0_v7 main_call1_call0_v5 main_call1_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call1_call0_v1 main_v90 main_call1_call0_v8 main_call1_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call1_cst_0 (constant S_ .f32 0x3F867D5F#32),
    unary main_call1_cst_0 main_call1_v1 (broadcastInDim S16x512x1024 ![] bcast_S_S16x512x1024 : (⟨S_, .f32⟩ : BufTy).Contents (Elt F) → (⟨S16x512x1024, .f32⟩ : BufTy).Contents (Elt F)),
    binary main_call1_v1 main_call1_v0 main_v91 (mulf : (⟨S16x512x1024, .f32⟩ : BufTy).Contents (Elt F) → (⟨S16x512x1024, .f32⟩ : BufTy).Contents (Elt F) → (⟨S16x512x1024, .f32⟩ : BufTy).Contents (Elt F)),
    unary main_arg2 main_v92 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v92 main_v93 rfl shapeCasts_S1x1024x1024_S1024x1024,
    binary main_v91 main_v93 main_v94 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v95 ((extractStridedSlice S1x1024 ![4, 0] · slices_S7x1024_S1x1024_4_0) : (⟨S7x1024, .f32⟩ : BufTy).Contents (Elt F) → (⟨S1x1024, .f32⟩ : BufTy).Contents (Elt F)),
    reshape main_v95 main_v96 rfl shapeCasts_S1x1024_S1024,
    unary main_v96 main_v97 (broadcastInDim S1x1x1024 ![2] bcast_S1024_S1x1x1024_2 : (⟨S1024, .f32⟩ : BufTy).Contents (Elt F) → (⟨S1x1x1024, .f32⟩ : BufTy).Contents (Elt F)),
    unary main_v97 main_v98 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v94 main_v98 main_v99 (addf : (⟨S16x512x1024, .f32⟩ : BufTy).Contents (Elt F) → (⟨S16x512x1024, .f32⟩ : BufTy).Contents (Elt F) → (⟨S16x512x1024, .f32⟩ : BufTy).Contents (Elt F)),
    unary main_arg2 main_v100 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v100 main_v101 rfl shapeCasts_S1x1024x1024_S1024x1024,
    binary main_v99 main_v101 main_v102 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v103 ((extractStridedSlice S1x1024 ![5, 0] · slices_S7x1024_S1x1024_5_0) : (⟨S7x1024, .f32⟩ : BufTy).Contents (Elt F) → (⟨S1x1024, .f32⟩ : BufTy).Contents (Elt F)),
    reshape main_v103 main_v104 rfl shapeCasts_S1x1024_S1024,
    unary main_v104 main_v105 (broadcastInDim S1x1x1024 ![2] bcast_S1024_S1x1x1024_2 : (⟨S1024, .f32⟩ : BufTy).Contents (Elt F) → (⟨S1x1x1024, .f32⟩ : BufTy).Contents (Elt F)),
    unary main_v105 main_v106 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v102 main_v106 main_v107 (addf : (⟨S16x512x1024, .f32⟩ : BufTy).Contents (Elt F) → (⟨S16x512x1024, .f32⟩ : BufTy).Contents (Elt F) → (⟨S16x512x1024, .f32⟩ : BufTy).Contents (Elt F)),
    unary main_arg2 main_v108 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v108 main_v109 rfl shapeCasts_S1x1024x1024_S1024x1024,
    binary main_v107 main_v109 main_v110 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v111 ((extractStridedSlice S1x1024 ![6, 0] · slices_S7x1024_S1x1024_6_0) : (⟨S7x1024, .f32⟩ : BufTy).Contents (Elt F) → (⟨S1x1024, .f32⟩ : BufTy).Contents (Elt F)),
    reshape main_v111 main_v112 rfl shapeCasts_S1x1024_S1024,
    unary main_v112 main_v113 (broadcastInDim S1x1x1024 ![2] bcast_S1024_S1x1x1024_2 : (⟨S1024, .f32⟩ : BufTy).Contents (Elt F) → (⟨S1x1x1024, .f32⟩ : BufTy).Contents (Elt F)),
    unary main_v113 main_v114 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v110 main_v114 main_v115 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC2b writes. -/
abbrev W_FC2b : List (Ref sig .tc) := [main_call1_cst, main_call1_call0_cst, main_call1_call0_v0, main_call1_call0_v1, main_call1_call0_cst_0, main_call1_call0_v2, main_call1_call0_v3, main_call1_call0_cst_1, main_call1_call0_call0_v0, main_call1_call0_call0_v1, main_call1_call0_v4, main_call1_call0_v5, main_call1_call0_v6, main_call1_call0_v7, main_call1_call0_v8, main_call1_v0, main_call1_cst_0, main_call1_v1, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115]

set_option maxRecDepth 16384 in
theorem seg_FC2b_writes : (seg_FC2b : List (HloOp τ sig (Elt F))).Forall fun op => op.writes ⊆ (W_FC2b.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC2b does not write keeps its contents through it. -/
theorem keep_FC2b (V : Valuation τ sig (Elt F)) (r : Ref sig .tc) (h : r ∉ W_FC2b) :
    after seg_FC2b V (Proc.devRef .tc r) = V (Proc.devRef .tc r) :=
  after_of_writes_sub seg_FC2b V seg_FC2b_writes h

set_option maxRecDepth 16384 in
set_option maxHeartbeats 4000000 in
theorem res_FC2b_v115 (V : Valuation τ sig (Elt F)) :
    after seg_FC2b V (Proc.devRef .tc main_v115) = fcPost (V (Proc.devRef .tc main_arg2)) (V (Proc.devRef .tc main_arg3)) (V (Proc.devRef .tc main_v90)) := by
  simp only [seg_FC2b]
  after_results_simp
  rfl

end Cert.ReferenceIdeal.Segs

end
-- ==== Proof.RefSegC.lean ====
/-
  The four softmaxes and the first attention product of the reference program, as one stretch: what it leaves in the three buffers read later, as terms of the buffers it reads, and that it leaves every buffer it does not write alone.
-/
import proofs.«114870_j317827580568_1_alg».proof.Proof.RefSegBase

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The operations of stretch SM. -/
abbrev seg_SM : List (HloOp τ sig (Elt F)) :=
  [ nullary main_cst (constant S_ .f32 0xFF800000#32),
    binary main_v58 main_cst main_v116 ((fun x v => Host.reduce FloatOps.maximumf x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    nullary main_cst_0 (constant S_ .f32 0xFF800000#32),
    unary main_cst_0 main_v117 (broadcastInDim S16x1024 ![] bcast_S_S16x1024 : (⟨S_, .f32⟩ : BufTy).Contents (Elt F) → (⟨S16x1024, .f32⟩ : BufTy).Contents (Elt F)),
    binary main_v117 main_v116 main_v118 (maximumf : (⟨S16x1024, .f32⟩ : BufTy).Contents (Elt F) → (⟨S16x1024, .f32⟩ : BufTy).Contents (Elt F) → (⟨S16x1024, .f32⟩ : BufTy).Contents (Elt F)),
    unary main_v118 main_v119 (broadcastInDim S16x1x1024 ![0, 2] bcast_S16x1024_S16x1x1024_0_2 : (⟨S16x1024, .f32⟩ : BufTy).Contents (Elt F) → (⟨S16x1x1024, .f32⟩ : BufTy).Contents (Elt F)),
    unary main_v119 main_v120 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v58 main_v120 main_v121 (subf : (⟨S16x512x1024, .f32⟩ : BufTy).Contents (Elt F) → (⟨S16x512x1024, .f32⟩ : BufTy).Contents (Elt F) → (⟨S16x512x1024, .f32⟩ : BufTy).Contents (Elt F)),
    unary main_v121 main_v122 (Host.exp : (⟨S16x512x1024, .f32⟩ : BufTy).Contents (Elt F) → (⟨S16x512x1024, .f32⟩ : BufTy).Contents (Elt F)),
    nullary main_cst_1 (constant S_ .f32 0x00000000#32),
    binary main_v122 main_cst_1 main_v123 ((fun x v => Host.reduceAdd x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    unary main_v123 main_v124 (broadcastInDim S16x1x1024 ![0, 2] bcast_S16x1024_S16x1x1024_0_2 : (⟨S16x1024, .f32⟩ : BufTy).Contents (Elt F) → (⟨S16x1x1024, .f32⟩ : BufTy).Contents (Elt F)),
    unary main_v124 main_v125 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v122 main_v125 main_v126 (Host.divf : (⟨S16x512x1024, .f32⟩ : BufTy).Contents (Elt F) → (⟨S16x512x1024, .f32⟩ : BufTy).Contents (Elt F) → (⟨S16x512x1024, .f32⟩ : BufTy).Contents (Elt F)),
    nullary main_cst_2 (constant S_ .f32 0xFF800000#32),
    binary main_v58 main_cst_2 main_v127 ((fun x v => Host.reduce FloatOps.maximumf x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    nullary main_cst_3 (constant S_ .f32 0xFF800000#32),
    unary main_cst_3 main_v128 (broadcastInDim S16x512 ![] bcast_S_S16x512 : (⟨S_, .f32⟩ : BufTy).Contents (Elt F) → (⟨S16x512, .f32⟩ : BufTy).Contents (Elt F)),
    binary main_v128 main_v127 main_v129 (maximumf : (⟨S16x512, .f32⟩ : BufTy).Contents (Elt F) → (⟨S16x512, .f32⟩ : BufTy).Contents (Elt F) → (⟨S16x512, .f32⟩ : BufTy).Contents (Elt F)),
    unary main_v129 main_v130 (broadcastInDim S16x512x1 ![0, 1] bcast_S16x512_S16x512x1_0_1 : (⟨S16x512, .f32⟩ : BufTy).Contents (Elt F) → (⟨S16x512x1, .f32⟩ : BufTy).Contents (Elt F)),
    unary main_v130 main_v131 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v58 main_v131 main_v132 (subf : (⟨S16x512x1024, .f32⟩ : BufTy).Contents (Elt F) → (⟨S16x512x1024, .f32⟩ : BufTy).Contents (Elt F) → (⟨S16x512x1024, .f32⟩ : BufTy).Contents (Elt F)),
    unary main_v132 main_v133 (Host.exp : (⟨S16x512x1024, .f32⟩ : BufTy).Contents (Elt F) → (⟨S16x512x1024, .f32⟩ : BufTy).Contents (Elt F)),
    nullary main_cst_4 (constant S_ .f32 0x00000000#32),
    binary main_v133 main_cst_4 main_v134 ((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    unary main_v134 main_v135 (broadcastInDim S16x512x1 ![0, 1] bcast_S16x512_S16x512x1_0_1 : (⟨S16x512, .f32⟩ : BufTy).Contents (Elt F) → (⟨S16x512x1, .f32⟩ : BufTy).Contents (Elt F)),
    unary main_v135 main_v136 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v133 main_v136 main_v137 (Host.divf : (⟨S16x512x1024, .f32⟩ : BufTy).Contents (Elt F) → (⟨S16x512x1024, .f32⟩ : BufTy).Contents (Elt F) → (⟨S16x512x1024, .f32⟩ : BufTy).Contents (Elt F)),
    nullary main_cst_5 (constant S_ .f32 0xFF800000#32),
    binary main_v115 main_cst_5 main_v138 ((fun x v => Host.reduce FloatOps.maximumf x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    nullary main_cst_6 (constant S_ .f32 0xFF800000#32),
    unary main_cst_6 main_v139 (broadcastInDim S16x1024 ![] bcast_S_S16x1024 : (⟨S_, .f32⟩ : BufTy).Contents (Elt F) → (⟨S16x1024, .f32⟩ : BufTy).Contents (Elt F)),
    binary main_v139 main_v138 main_v140 (maximumf : (⟨S16x1024, .f32⟩ : BufTy).Contents (Elt F) → (⟨S16x1024, .f32⟩ : BufTy).Contents (Elt F) → (⟨S16x1024, .f32⟩ : BufTy).Contents (Elt F)),
    unary main_v140 main_v141 (broadcastInDim S16x1x1024 ![0, 2] bcast_S16x1024_S16x1x1024_0_2 : (⟨S16x1024, .f32⟩ : BufTy).Contents (Elt F) → (⟨S16x1x1024, .f32⟩ : BufTy).Contents (Elt F)),
    unary main_v141 main_v142 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v115 main_v142 main_v143 (subf : (⟨S16x512x1024, .f32⟩ : BufTy).Contents (Elt F) → (⟨S16x512x1024, .f32⟩ : BufTy).Contents (Elt F) → (⟨S16x512x1024, .f32⟩ : BufTy).Contents (Elt F)),
    unary main_v143 main_v144 (Host.exp : (⟨S16x512x1024, .f32⟩ : BufTy).Contents (Elt F) → (⟨S16x512x1024, .f32⟩ : BufTy).Contents (Elt F)),
    nullary main_cst_7 (constant S_ .f32 0x00000000#32),
    binary main_v144 main_cst_7 main_v145 ((fun x v => Host.reduceAdd x v reducesTo_S16x512x1024_S16x1024_d1 h_S_) : (⟨S16x512x1024, .f32⟩ : BufTy).Contents (Elt F) → (⟨S_, .f32⟩ : BufTy).Contents (Elt F) → (⟨S16x1024, .f32⟩ : BufTy).Contents (Elt F)),
    unary main_v145 main_v146 (broadcastInDim S16x1x1024 ![0, 2] bcast_S16x1024_S16x1x1024_0_2 : (⟨S16x1024, .f32⟩ : BufTy).Contents (Elt F) → (⟨S16x1x1024, .f32⟩ : BufTy).Contents (Elt F)),
    unary main_v146 main_v147 (broadcastInDim S16x512x1024 ![0, 1, 2] bcast_S16x1x1024_S16x512x1024_0_1_2 : (⟨S16x1x1024, .f32⟩ : BufTy).Contents (Elt F) → (⟨S16x512x1024, .f32⟩ : BufTy).Contents (Elt F)),
    binary main_v144 main_v147 main_v148 (Host.divf : (⟨S16x512x1024, .f32⟩ : BufTy).Contents (Elt F) → (⟨S16x512x1024, .f32⟩ : BufTy).Contents (Elt F) → (⟨S16x512x1024, .f32⟩ : BufTy).Contents (Elt F)),
    nullary main_cst_8 (constant S_ .f32 0xFF800000#32),
    binary main_v115 main_cst_8 main_v149 ((fun x v => Host.reduce FloatOps.maximumf x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    nullary main_cst_9 (constant S_ .f32 0xFF800000#32),
    unary main_cst_9 main_v150 (broadcastInDim S16x512 ![] bcast_S_S16x512 : (⟨S_, .f32⟩ : BufTy).Contents (Elt F) → (⟨S16x512, .f32⟩ : BufTy).Contents (Elt F)),
    binary main_v150 main_v149 main_v151 (maximumf : (⟨S16x512, .f32⟩ : BufTy).Contents (Elt F) → (⟨S16x512, .f32⟩ : BufTy).Contents (Elt F) → (⟨S16x512, .f32⟩ : BufTy).Contents (Elt F)),
    unary main_v151 main_v152 (broadcastInDim S16x512x1 ![0, 1] bcast_S16x512_S16x512x1_0_1 : (⟨S16x512, .f32⟩ : BufTy).Contents (Elt F) → (⟨S16x512x1, .f32⟩ : BufTy).Contents (Elt F)),
    unary main_v152 main_v153 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v115 main_v153 main_v154 (subf : (⟨S16x512x1024, .f32⟩ : BufTy).Contents (Elt F) → (⟨S16x512x1024, .f32⟩ : BufTy).Contents (Elt F) → (⟨S16x512x1024, .f32⟩ : BufTy).Contents (Elt F)),
    unary main_v154 main_v155 (Host.exp : (⟨S16x512x1024, .f32⟩ : BufTy).Contents (Elt F) → (⟨S16x512x1024, .f32⟩ : BufTy).Contents (Elt F)),
    nullary main_cst_10 (constant S_ .f32 0x00000000#32),
    binary main_v155 main_cst_10 main_v156 ((fun x v => Host.reduceAdd x v reducesTo_S16x512x1024_S16x512_d2 h_S_) : (⟨S16x512x1024, .f32⟩ : BufTy).Contents (Elt F) → (⟨S_, .f32⟩ : BufTy).Contents (Elt F) → (⟨S16x512, .f32⟩ : BufTy).Contents (Elt F)),
    unary main_v156 main_v157 (broadcastInDim S16x512x1 ![0, 1] bcast_S16x512_S16x512x1_0_1 : (⟨S16x512, .f32⟩ : BufTy).Contents (Elt F) → (⟨S16x512x1, .f32⟩ : BufTy).Contents (Elt F)),
    unary main_v157 main_v158 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v155 main_v158 main_v159 (Host.divf : (⟨S16x512x1024, .f32⟩ : BufTy).Contents (Elt F) → (⟨S16x512x1024, .f32⟩ : BufTy).Contents (Elt F) → (⟨S16x512x1024, .f32⟩ : BufTy).Contents (Elt F)),
    binary main_v126 main_v159 main_v160 ((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)),
    nullary main_cst_11 (constant S_ .f32 0x44800000#32),
    unary main_cst_11 main_v161 (broadcastInDim S16x512x512 ![] bcast_S_S16x512x512 : (⟨S_, .f32⟩ : BufTy).Contents (Elt F) → (⟨S16x512x512, .f32⟩ : BufTy).Contents (Elt F)),
    binary main_v160 main_v161 main_v162 (Host.divf : (⟨S16x512x512, .f32⟩ : BufTy).Contents (Elt F) → (⟨S16x512x512, .f32⟩ : BufTy).Contents (Elt F) → (⟨S16x512x512, .f32⟩ : BufTy).Contents (Elt F)),
    binary main_v162 main_v0 main_v163 ((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)) ]

/-- The buffers stretch SM writes. -/
abbrev W_SM : List (Ref sig .tc) := [main_cst, main_v116, main_cst_0, main_v117, main_v118, main_v119, main_v120, main_v121, main_v122, main_cst_1, main_v123, main_v124, main_v125, main_v126, main_cst_2, main_v127, main_cst_3, main_v128, main_v129, main_v130, main_v131, main_v132, main_v133, main_cst_4, main_v134, main_v135, main_v136, main_v137, main_cst_5, main_v138, main_cst_6, main_v139, main_v140, main_v141, main_v142, main_v143, main_v144, main_cst_7, main_v145, main_v146, main_v147, main_v148, main_cst_8, main_v149, main_cst_9, main_v150, main_v151, main_v152, main_v153, main_v154, main_v155, main_cst_10, main_v156, main_v157, main_v158, main_v159, main_v160, main_cst_11, main_v161, main_v162, main_v163]

set_option maxRecDepth 16384 in
theorem seg_SM_writes : (seg_SM : List (HloOp τ sig (Elt F))).Forall fun op => op.writes ⊆ (W_SM.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch SM does not write keeps its contents through it. -/
theorem keep_SM (V : Valuation τ sig (Elt F)) (r : Ref sig .tc) (h : r ∉ W_SM) :
    after seg_SM V (Proc.devRef .tc r) = V (Proc.devRef .tc r) :=
  after_of_writes_sub seg_SM V seg_SM_writes h

set_option maxRecDepth 16384 in
set_option maxHeartbeats 4000000 in
theorem res_SM_v137 (V : Valuation τ sig (Elt F)) :
    after seg_SM V (Proc.devRef .tc main_v137) = Stages.smax2 (V (Proc.devRef .tc main_v58)) := by
  simp only [seg_SM]
  after_results_simp
  rfl

set_option maxRecDepth 16384 in
set_option maxHeartbeats 4000000 in
theorem res_SM_v148 (V : Valuation τ sig (Elt F)) :
    after seg_SM V (Proc.devRef .tc main_v148) = Stages.smax1 (V (Proc.devRef .tc main_v115)) := by
  simp only [seg_SM]
  after_results_simp
  rfl

set_option maxRecDepth 16384 in
set_option maxHeartbeats 4000000 in
theorem res_SM_v163 (V : Valuation τ sig (Elt F)) :
    after seg_SM V (Proc.devRef .tc main_v163) = Stages.att (Stages.smax1 (V (Proc.devRef .tc main_v58))) (Stages.smax2 (V (Proc.devRef .tc main_v115))) (V (Proc.devRef .tc main_v0)) := by
  simp only [seg_SM]
  after_results_simp
  rfl

end Cert.ReferenceIdeal.Segs

end
-- ==== Proof.RefSegD.lean ====
/-
  The third perceptron instance of the reference program in its two halves, the first result's normalization and blend, and the second attention product: what each stretch leaves in its result buffer as a term of the buffers it reads, and that it leaves every buffer it does not write alone.
-/
import proofs.«114870_j317827580568_1_alg».proof.Proof.RefSegBase

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The operations of stretch FC3a. -/
abbrev seg_FC3a : List (HloOp τ sig (Elt F)) :=
  [ unary main_arg2 main_v164 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v164 main_v165 rfl shapeCasts_S1x1024x1024_S1024x1024,
    binary main_v163 main_v165 main_v166 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v167 ((extractStridedSlice S1x1024 ![0, 0] · slices_S7x1024_S1x1024_0_0) : (⟨S7x1024, .f32⟩ : BufTy).Contents (Elt F) → (⟨S1x1024, .f32⟩ : BufTy).Contents (Elt F)),
    reshape main_v167 main_v168 rfl shapeCasts_S1x1024_S1024,
    unary main_v168 main_v169 (broadcastInDim S1x1x1024 ![2] bcast_S1024_S1x1x1024_2 : (⟨S1024, .f32⟩ : BufTy).Contents (Elt F) → (⟨S1x1x1024, .f32⟩ : BufTy).Contents (Elt F)),
    unary main_v169 main_v170 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v166 main_v170 main_v171 (addf : (⟨S16x512x1024, .f32⟩ : BufTy).Contents (Elt F) → (⟨S16x512x1024, .f32⟩ : BufTy).Contents (Elt F) → (⟨S16x512x1024, .f32⟩ : BufTy).Contents (Elt F)),
    unary main_arg2 main_v172 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v172 main_v173 rfl shapeCasts_S1x1024x1024_S1024x1024,
    binary main_v171 main_v173 main_v174 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v175 ((extractStridedSlice S1x1024 ![1, 0] · slices_S7x1024_S1x1024_1_0) : (⟨S7x1024, .f32⟩ : BufTy).Contents (Elt F) → (⟨S1x1024, .f32⟩ : BufTy).Contents (Elt F)),
    reshape main_v175 main_v176 rfl shapeCasts_S1x1024_S1024,
    unary main_v176 main_v177 (broadcastInDim S1x1x1024 ![2] bcast_S1024_S1x1x1024_2 : (⟨S1024, .f32⟩ : BufTy).Contents (Elt F) → (⟨S1x1x1024, .f32⟩ : BufTy).Contents (Elt F)),
    unary main_v177 main_v178 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v174 main_v178 main_v179 (addf : (⟨S16x512x1024, .f32⟩ : BufTy).Contents (Elt F) → (⟨S16x512x1024, .f32⟩ : BufTy).Contents (Elt F) → (⟨S16x512x1024, .f32⟩ : BufTy).Contents (Elt F)),
    unary main_arg2 main_v180 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v180 main_v181 rfl shapeCasts_S1x1024x1024_S1024x1024,
    binary main_v179 main_v181 main_v182 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v183 ((extractStridedSlice S1x1024 ![2, 0] · slices_S7x1024_S1x1024_2_0) : (⟨S7x1024, .f32⟩ : BufTy).Contents (Elt F) → (⟨S1x1024, .f32⟩ : BufTy).Contents (Elt F)),
    reshape main_v183 main_v184 rfl shapeCasts_S1x1024_S1024,
    unary main_v184 main_v185 (broadcastInDim S1x1x1024 ![2] bcast_S1024_S1x1x1024_2 : (⟨S1024, .f32⟩ : BufTy).Contents (Elt F) → (⟨S1x1x1024, .f32⟩ : BufTy).Contents (Elt F)),
    unary main_v185 main_v186 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v182 main_v186 main_v187 (addf : (⟨S16x512x1024, .f32⟩ : BufTy).Contents (Elt F) → (⟨S16x512x1024, .f32⟩ : BufTy).Contents (Elt F) → (⟨S16x512x1024, .f32⟩ : BufTy).Contents (Elt F)),
    unary main_arg2 main_v188 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v188 main_v189 rfl shapeCasts_S1x1024x1024_S1024x1024,
    binary main_v187 main_v189 main_v190 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v191 ((extractStridedSlice S1x1024 ![3, 0] · slices_S7x1024_S1x1024_3_0) : (⟨S7x1024, .f32⟩ : BufTy).Contents (Elt F) → (⟨S1x1024, .f32⟩ : BufTy).Contents (Elt F)),
    reshape main_v191 main_v192 rfl shapeCasts_S1x1024_S1024,
    unary main_v192 main_v193 (broadcastInDim S1x1x1024 ![2] bcast_S1024_S1x1x1024_2 : (⟨S1024, .f32⟩ : BufTy).Contents (Elt F) → (⟨S1x1x1024, .f32⟩ : BufTy).Contents (Elt F)),
    unary main_v193 main_v194 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v190 main_v194 main_v195 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC3a writes. -/
abbrev W_FC3a : List (Ref sig .tc) := [main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195]

set_option maxRecDepth 16384 in
theorem seg_FC3a_writes : (seg_FC3a : List (HloOp τ sig (Elt F))).Forall fun op => op.writes ⊆ (W_FC3a.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC3a does not write keeps its contents through it. -/
theorem keep_FC3a (V : Valuation τ sig (Elt F)) (r : Ref sig .tc) (h : r ∉ W_FC3a) :
    after seg_FC3a V (Proc.devRef .tc r) = V (Proc.devRef .tc r) :=
  after_of_writes_sub seg_FC3a V seg_FC3a_writes h

set_option maxRecDepth 16384 in
set_option maxHeartbeats 4000000 in
theorem res_FC3a_v195 (V : Valuation τ sig (Elt F)) :
    after seg_FC3a V (Proc.devRef .tc main_v195) = fcPre (V (Proc.devRef .tc main_arg2)) (V (Proc.devRef .tc main_arg3)) (V (Proc.devRef .tc main_v163)) := by
  simp only [seg_FC3a]
  after_results_simp
  rfl

/-- The operations of stretch FC3b. -/
abbrev seg_FC3b : List (HloOp τ sig (Elt F)) :=
  [ nullary main_call2_cst (constant S_ .f32 0x3FD62D7D#32),
    nullary main_call2_call0_cst (constant S_ .f32 0x00000000#32),
    unary main_call2_call0_cst main_call2_call0_v0 (broadcastInDim S16x512x1024 ![] bcast_S_S16x512x1024 : (⟨S_, .f32⟩ : BufTy).Contents (Elt F) → (⟨S16x512x1024, .f32⟩ : BufTy).Contents (Elt F)),
    binary main_v195 main_call2_call0_v0 main_call2_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call2_call0_cst_0 (constant S_ .f32 0x00000000#32),
    unary main_call2_call0_cst_0 main_call2_call0_v2 (broadcastInDim S16x512x1024 ![] bcast_S_S16x512x1024 : (⟨S_, .f32⟩ : BufTy).Contents (Elt F) → (⟨S16x512x1024, .f32⟩ : BufTy).Contents (Elt F)),
    binary main_v195 main_call2_call0_v2 main_call2_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call2_call0_cst_1 (constant S_ .f32 0x00000000#32),
    unary main_call2_call0_cst_1 main_call2_call0_call0_v0 (id : (⟨S_, .f32⟩ : BufTy).Contents (Elt F) → (⟨S_, .f32⟩ : BufTy).Contents (Elt F)),
    unary main_call2_call0_call0_v0 main_call2_call0_call0_v1 (broadcastInDim S16x512x1024 ![] bcast_S_S16x512x1024 : (⟨S_, .f32⟩ : BufTy).Contents (Elt F) → (⟨S16x512x1024, .f32⟩ : BufTy).Contents (Elt F)),
    ternary main_call2_call0_v3 main_call2_call0_call0_v1 main_v195 main_call2_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call2_call0_v4 main_call2_call0_v5 (Host.expm1 : (⟨S16x512x1024, .f32⟩ : BufTy).Contents (Elt F) → (⟨S16x512x1024, .f32⟩ : BufTy).Contents (Elt F)),
    unary main_call2_cst main_call2_call0_v6 (id : (⟨S_, .f32⟩ : BufTy).Contents (Elt F) → (⟨S_, .f32⟩ : BufTy).Contents (Elt F)),
    unary main_call2_call0_v6 main_call2_call0_v7 (broadcastInDim S16x512x1024 ![] bcast_S_S16x512x1024 : (⟨S_, .f32⟩ : BufTy).Contents (Elt F) → (⟨S16x512x1024, .f32⟩ : BufTy).Contents (Elt F)),
    binary main_call2_call0_v7 main_call2_call0_v5 main_call2_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call2_call0_v1 main_v195 main_call2_call0_v8 main_call2_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call2_cst_0 (constant S_ .f32 0x3F867D5F#32),
    unary main_call2_cst_0 main_call2_v1 (broadcastInDim S16x512x1024 ![] bcast_S_S16x512x1024 : (⟨S_, .f32⟩ : BufTy).Contents (Elt F) → (⟨S16x512x1024, .f32⟩ : BufTy).Contents (Elt F)),
    binary main_call2_v1 main_call2_v0 main_v196 (mulf : (⟨S16x512x1024, .f32⟩ : BufTy).Contents (Elt F) → (⟨S16x512x1024, .f32⟩ : BufTy).Contents (Elt F) → (⟨S16x512x1024, .f32⟩ : BufTy).Contents (Elt F)),
    unary main_arg2 main_v197 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v197 main_v198 rfl shapeCasts_S1x1024x1024_S1024x1024,
    binary main_v196 main_v198 main_v199 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v200 ((extractStridedSlice S1x1024 ![4, 0] · slices_S7x1024_S1x1024_4_0) : (⟨S7x1024, .f32⟩ : BufTy).Contents (Elt F) → (⟨S1x1024, .f32⟩ : BufTy).Contents (Elt F)),
    reshape main_v200 main_v201 rfl shapeCasts_S1x1024_S1024,
    unary main_v201 main_v202 (broadcastInDim S1x1x1024 ![2] bcast_S1024_S1x1x1024_2 : (⟨S1024, .f32⟩ : BufTy).Contents (Elt F) → (⟨S1x1x1024, .f32⟩ : BufTy).Contents (Elt F)),
    unary main_v202 main_v203 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v199 main_v203 main_v204 (addf : (⟨S16x512x1024, .f32⟩ : BufTy).Contents (Elt F) → (⟨S16x512x1024, .f32⟩ : BufTy).Contents (Elt F) → (⟨S16x512x1024, .f32⟩ : BufTy).Contents (Elt F)),
    unary main_arg2 main_v205 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v205 main_v206 rfl shapeCasts_S1x1024x1024_S1024x1024,
    binary main_v204 main_v206 main_v207 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v208 ((extractStridedSlice S1x1024 ![5, 0] · slices_S7x1024_S1x1024_5_0) : (⟨S7x1024, .f32⟩ : BufTy).Contents (Elt F) → (⟨S1x1024, .f32⟩ : BufTy).Contents (Elt F)),
    reshape main_v208 main_v209 rfl shapeCasts_S1x1024_S1024,
    unary main_v209 main_v210 (broadcastInDim S1x1x1024 ![2] bcast_S1024_S1x1x1024_2 : (⟨S1024, .f32⟩ : BufTy).Contents (Elt F) → (⟨S1x1x1024, .f32⟩ : BufTy).Contents (Elt F)),
    unary main_v210 main_v211 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v207 main_v211 main_v212 (addf : (⟨S16x512x1024, .f32⟩ : BufTy).Contents (Elt F) → (⟨S16x512x1024, .f32⟩ : BufTy).Contents (Elt F) → (⟨S16x512x1024, .f32⟩ : BufTy).Contents (Elt F)),
    unary main_arg2 main_v213 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v213 main_v214 rfl shapeCasts_S1x1024x1024_S1024x1024,
    binary main_v212 main_v214 main_v215 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v216 ((extractStridedSlice S1x1024 ![6, 0] · slices_S7x1024_S1x1024_6_0) : (⟨S7x1024, .f32⟩ : BufTy).Contents (Elt F) → (⟨S1x1024, .f32⟩ : BufTy).Contents (Elt F)),
    reshape main_v216 main_v217 rfl shapeCasts_S1x1024_S1024,
    unary main_v217 main_v218 (broadcastInDim S1x1x1024 ![2] bcast_S1024_S1x1x1024_2 : (⟨S1024, .f32⟩ : BufTy).Contents (Elt F) → (⟨S1x1x1024, .f32⟩ : BufTy).Contents (Elt F)),
    unary main_v218 main_v219 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v215 main_v219 main_v220 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC3b writes. -/
abbrev W_FC3b : List (Ref sig .tc) := [main_call2_cst, main_call2_call0_cst, main_call2_call0_v0, main_call2_call0_v1, main_call2_call0_cst_0, main_call2_call0_v2, main_call2_call0_v3, main_call2_call0_cst_1, main_call2_call0_call0_v0, main_call2_call0_call0_v1, main_call2_call0_v4, main_call2_call0_v5, main_call2_call0_v6, main_call2_call0_v7, main_call2_call0_v8, main_call2_v0, main_call2_cst_0, main_call2_v1, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220]

set_option maxRecDepth 16384 in
theorem seg_FC3b_writes : (seg_FC3b : List (HloOp τ sig (Elt F))).Forall fun op => op.writes ⊆ (W_FC3b.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC3b does not write keeps its contents through it. -/
theorem keep_FC3b (V : Valuation τ sig (Elt F)) (r : Ref sig .tc) (h : r ∉ W_FC3b) :
    after seg_FC3b V (Proc.devRef .tc r) = V (Proc.devRef .tc r) :=
  after_of_writes_sub seg_FC3b V seg_FC3b_writes h

set_option maxRecDepth 16384 in
set_option maxHeartbeats 4000000 in
theorem res_FC3b_v220 (V : Valuation τ sig (Elt F)) :
    after seg_FC3b V (Proc.devRef .tc main_v220) = fcPost (V (Proc.devRef .tc main_arg2)) (V (Proc.devRef .tc main_arg3)) (V (Proc.devRef .tc main_v195)) := by
  simp only [seg_FC3b]
  after_results_simp
  rfl

/-- The operations of stretch N0. -/
abbrev seg_N0 : List (HloOp τ sig (Elt F)) :=
  [ unary main_v220 main_v221 ((transpose S16x1024x512 [0, 2, 1] · transposes_S16x512x1024_S16x1024x512_0_2_1) : (⟨S16x512x1024, .f32⟩ : BufTy).Contents (Elt F) → (⟨S16x1024x512, .f32⟩ : BufTy).Contents (Elt F)),
    binary main_v221 main_v221 main_v222 (mulf : (⟨S16x1024x512, .f32⟩ : BufTy).Contents (Elt F) → (⟨S16x1024x512, .f32⟩ : BufTy).Contents (Elt F) → (⟨S16x1024x512, .f32⟩ : BufTy).Contents (Elt F)),
    nullary main_cst_12 (constant S_ .f32 0x00000000#32),
    binary main_v222 main_cst_12 main_v223 ((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)),
    unary main_v223 main_v224 (broadcastInDim S16x1024x1 ![0, 1] bcast_S16x1024_S16x1024x1_0_1 : (⟨S16x1024, .f32⟩ : BufTy).Contents (Elt F) → (⟨S16x1024x1, .f32⟩ : BufTy).Contents (Elt F)),
    unary main_v224 main_v225 (Host.sqrt : (⟨S16x1024x1, .f32⟩ : BufTy).Contents (Elt F) → (⟨S16x1024x1, .f32⟩ : BufTy).Contents (Elt F)),
    nullary main_cst_13 (constant S_ .f32 0x2B8CBCCC#32),
    unary main_cst_13 main_v226 (broadcastInDim S16x1024x1 ![] bcast_S_S16x1024x1 : (⟨S_, .f32⟩ : BufTy).Contents (Elt F) → (⟨S16x1024x1, .f32⟩ : BufTy).Contents (Elt F)),
    binary main_v225 main_v226 main_v227 (maximumf : (⟨S16x1024x1, .f32⟩ : BufTy).Contents (Elt F) → (⟨S16x1024x1, .f32⟩ : BufTy).Contents (Elt F) → (⟨S16x1024x1, .f32⟩ : BufTy).Contents (Elt F)),
    unary main_v227 main_v228 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v221 main_v228 main_v229 (Host.divf : (⟨S16x1024x512, .f32⟩ : BufTy).Contents (Elt F) → (⟨S16x1024x512, .f32⟩ : BufTy).Contents (Elt F) → (⟨S16x1024x512, .f32⟩ : BufTy).Contents (Elt F)),
    nullary main_cst_14 (constant S_ .f32 0x3DCCCCCD#32),
    unary main_cst_14 main_v230 (broadcastInDim S16x1024x512 ![] bcast_S_S16x1024x512 : (⟨S_, .f32⟩ : BufTy).Contents (Elt F) → (⟨S16x1024x512, .f32⟩ : BufTy).Contents (Elt F)),
    binary main_v229 main_v230 main_v231 (mulf : (⟨S16x1024x512, .f32⟩ : BufTy).Contents (Elt F) → (⟨S16x1024x512, .f32⟩ : BufTy).Contents (Elt F) → (⟨S16x1024x512, .f32⟩ : BufTy).Contents (Elt F)),
    nullary main_cst_15 (constant S_ .f32 0x3F800000#32),
    unary main_cst_15 main_v232 (broadcastInDim S16x1024x512 ![] bcast_S_S16x1024x512 : (⟨S_, .f32⟩ : BufTy).Contents (Elt F) → (⟨S16x1024x512, .f32⟩ : BufTy).Contents (Elt F)),
    binary main_arg0 main_v232 main_v233 (mulf : (⟨S16x1024x512, .f32⟩ : BufTy).Contents (Elt F) → (⟨S16x1024x512, .f32⟩ : BufTy).Contents (Elt F) → (⟨S16x1024x512, .f32⟩ : BufTy).Contents (Elt F)),
    binary main_v231 main_v233 main_v234 (addf : (⟨S16x1024x512, .f32⟩ : BufTy).Contents (Elt F) → (⟨S16x1024x512, .f32⟩ : BufTy).Contents (Elt F) → (⟨S16x1024x512, .f32⟩ : BufTy).Contents (Elt F)) ]

/-- The buffers stretch N0 writes. -/
abbrev W_N0 : List (Ref sig .tc) := [main_v221, main_v222, main_cst_12, main_v223, main_v224, main_v225, main_cst_13, main_v226, main_v227, main_v228, main_v229, main_cst_14, main_v230, main_v231, main_cst_15, main_v232, main_v233, main_v234]

set_option maxRecDepth 16384 in
theorem seg_N0_writes : (seg_N0 : List (HloOp τ sig (Elt F))).Forall fun op => op.writes ⊆ (W_N0.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> wtac

/-- A buffer stretch N0 does not write keeps its contents through it. -/
theorem keep_N0 (V : Valuation τ sig (Elt F)) (r : Ref sig .tc) (h : r ∉ W_N0) :
    after seg_N0 V (Proc.devRef .tc r) = V (Proc.devRef .tc r) :=
  after_of_writes_sub seg_N0 V seg_N0_writes h

set_option maxRecDepth 16384 in
set_option maxHeartbeats 4000000 in
theorem res_N0_v234 (V : Valuation τ sig (Elt F)) :
    after seg_N0 V (Proc.devRef .tc main_v234) = Stages.norm (V (Proc.devRef .tc main_v220)) (V (Proc.devRef .tc main_arg0)) := by
  simp only [seg_N0]
  after_results_simp
  rfl

/-- The operations of stretch A1. -/
abbrev seg_A1 : List (HloOp τ sig (Elt F)) :=
  [ binary main_v148 main_v137 main_v235 ((fun l r => Host.dotGeneral dot_S16x512x1024_S16x512x1024_S16x512x512_2_2_1_1_0_0 none l r) : (⟨S16x512x1024, .f32⟩ : BufTy).Contents (Elt F) → (⟨S16x512x1024, .f32⟩ : BufTy).Contents (Elt F) → (⟨S16x512x512, .f32⟩ : BufTy).Contents (Elt F)),
    nullary main_cst_16 (constant S_ .f32 0x44800000#32),
    unary main_cst_16 main_v236 (broadcastInDim S16x512x512 ![] bcast_S_S16x512x512 : (⟨S_, .f32⟩ : BufTy).Contents (Elt F) → (⟨S16x512x512, .f32⟩ : BufTy).Contents (Elt F)),
    binary main_v235 main_v236 main_v237 (Host.divf : (⟨S16x512x512, .f32⟩ : BufTy).Contents (Elt F) → (⟨S16x512x512, .f32⟩ : BufTy).Contents (Elt F) → (⟨S16x512x512, .f32⟩ : BufTy).Contents (Elt F)),
    binary main_v237 main_v1 main_v238 ((fun l r => Host.dotGeneral dot_S16x512x512_S16x512x1024_S16x512x1024_2_1_1_2_0_0 none l r) : (⟨S16x512x512, .f32⟩ : BufTy).Contents (Elt F) → (⟨S16x512x1024, .f32⟩ : BufTy).Contents (Elt F) → (⟨S16x512x1024, .f32⟩ : BufTy).Contents (Elt F)) ]

/-- The buffers stretch A1 writes. -/
abbrev W_A1 : List (Ref sig .tc) := [main_v235, main_cst_16, main_v236, main_v237, main_v238]

set_option maxRecDepth 16384 in
theorem seg_A1_writes : (seg_A1 : List (HloOp τ sig (Elt F))).Forall fun op => op.writes ⊆ (W_A1.map (Proc.devRef (τ := τ) .tc)).toFinset := by
  simp only [List.Forall]
  refine ⟨?_, ?_, ?_, ?_, ?_⟩ <;> wtac

/-- A buffer stretch A1 does not write keeps its contents through it. -/
theorem keep_A1 (V : Valuation τ sig (Elt F)) (r : Ref sig .tc) (h : r ∉ W_A1) :
    after seg_A1 V (Proc.devRef .tc r) = V (Proc.devRef .tc r) :=
  after_of_writes_sub seg_A1 V seg_A1_writes h

set_option maxRecDepth 16384 in
set_option maxHeartbeats 4000000 in
theorem res_A1_v238 (V : Valuation τ sig (Elt F)) :
    after seg_A1 V (Proc.devRef .tc main_v238) = Stages.att (V (Proc.devRef .tc main_v148)) (V (Proc.devRef .tc main_v137)) (V (Proc.devRef .tc main_v1)) := by
  simp only [seg_A1]
  after_results_simp
  rfl

end Cert.ReferenceIdeal.Segs

end
-- ==== Proof.RefSegE.lean ====
/-
  The fourth perceptron instance of the reference program in its two halves and the second result's normalization and blend: what each stretch leaves in its result buffer as a term of the buffers it reads, and that it leaves every buffer it does not write alone.
-/
import proofs.«114870_j317827580568_1_alg».proof.Proof.RefSegBase

noncomputable section

namespace Cert.ReferenceIdeal.Segs

open Cert.ReferenceIdeal Cert.ReferenceIdeal.Gen Idealize.ShloMosaic Idealize.ShloMosaic.TcCoe Idealize.SL.Sem Idealize.ShloMosaic.StableHlo

variable {F : FTy → Type} [FloatOps F]

/-- The operations of stretch FC4a. -/
abbrev seg_FC4a : List (HloOp τ sig (Elt F)) :=
  [ unary main_arg2 main_v239 ((extractStridedSlice S1x1024x1024 ![0, 0, 0] · slices_S7x1024x1024_S1x1024x1024_0_0_0) : (⟨S7x1024x1024, .f32⟩ : BufTy).Contents (Elt F) → (⟨S1x1024x1024, .f32⟩ : BufTy).Contents (Elt F)),
    reshape main_v239 main_v240 rfl shapeCasts_S1x1024x1024_S1024x1024,
    binary main_v238 main_v240 main_v241 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v242 ((extractStridedSlice S1x1024 ![0, 0] · slices_S7x1024_S1x1024_0_0) : (⟨S7x1024, .f32⟩ : BufTy).Contents (Elt F) → (⟨S1x1024, .f32⟩ : BufTy).Contents (Elt F)),
    reshape main_v242 main_v243 rfl shapeCasts_S1x1024_S1024,
    unary main_v243 main_v244 (broadcastInDim S1x1x1024 ![2] bcast_S1024_S1x1x1024_2 : (⟨S1024, .f32⟩ : BufTy).Contents (Elt F) → (⟨S1x1x1024, .f32⟩ : BufTy).Contents (Elt F)),
    unary main_v244 main_v245 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v241 main_v245 main_v246 (addf : (⟨S16x512x1024, .f32⟩ : BufTy).Contents (Elt F) → (⟨S16x512x1024, .f32⟩ : BufTy).Contents (Elt F) → (⟨S16x512x1024, .f32⟩ : BufTy).Contents (Elt F)),
    unary main_arg2 main_v247 ((extractStridedSlice S1x1024x1024 ![1, 0, 0] · slices_S7x1024x1024_S1x1024x1024_1_0_0) : (⟨S7x1024x1024, .f32⟩ : BufTy).Contents (Elt F) → (⟨S1x1024x1024, .f32⟩ : BufTy).Contents (Elt F)),
    reshape main_v247 main_v248 rfl shapeCasts_S1x1024x1024_S1024x1024,
    binary main_v246 main_v248 main_v249 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v250 ((extractStridedSlice S1x1024 ![1, 0] · slices_S7x1024_S1x1024_1_0) : (⟨S7x1024, .f32⟩ : BufTy).Contents (Elt F) → (⟨S1x1024, .f32⟩ : BufTy).Contents (Elt F)),
    reshape main_v250 main_v251 rfl shapeCasts_S1x1024_S1024,
    unary main_v251 main_v252 (broadcastInDim S1x1x1024 ![2] bcast_S1024_S1x1x1024_2 : (⟨S1024, .f32⟩ : BufTy).Contents (Elt F) → (⟨S1x1x1024, .f32⟩ : BufTy).Contents (Elt F)),
    unary main_v252 main_v253 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v249 main_v253 main_v254 (addf : (⟨S16x512x1024, .f32⟩ : BufTy).Contents (Elt F) → (⟨S16x512x1024, .f32⟩ : BufTy).Contents (Elt F) → (⟨S16x512x1024, .f32⟩ : BufTy).Contents (Elt F)),
    unary main_arg2 main_v255 ((extractStridedSlice S1x1024x1024 ![2, 0, 0] · slices_S7x1024x1024_S1x1024x1024_2_0_0) : (⟨S7x1024x1024, .f32⟩ : BufTy).Contents (Elt F) → (⟨S1x1024x1024, .f32⟩ : BufTy).Contents (Elt F)),
    reshape main_v255 main_v256 rfl shapeCasts_S1x1024x1024_S1024x1024,
    binary main_v254 main_v256 main_v257 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v258 ((extractStridedSlice S1x1024 ![2, 0] · slices_S7x1024_S1x1024_2_0) : (⟨S7x1024, .f32⟩ : BufTy).Contents (Elt F) → (⟨S1x1024, .f32⟩ : BufTy).Contents (Elt F)),
    reshape main_v258 main_v259 rfl shapeCasts_S1x1024_S1024,
    unary main_v259 main_v260 (broadcastInDim S1x1x1024 ![2] bcast_S1024_S1x1x1024_2 : (⟨S1024, .f32⟩ : BufTy).Contents (Elt F) → (⟨S1x1x1024, .f32⟩ : BufTy).Contents (Elt F)),
    unary main_v260 main_v261 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v257 main_v261 main_v262 (addf : (⟨S16x512x1024, .f32⟩ : BufTy).Contents (Elt F) → (⟨S16x512x1024, .f32⟩ : BufTy).Contents (Elt F) → (⟨S16x512x1024, .f32⟩ : BufTy).Contents (Elt F)),
    unary main_arg2 main_v263 ((extractStridedSlice S1x1024x1024 ![3, 0, 0] · slices_S7x1024x1024_S1x1024x1024_3_0_0) : (⟨S7x1024x1024, .f32⟩ : BufTy).Contents (Elt F) → (⟨S1x1024x1024, .f32⟩ : BufTy).Contents (Elt F)),
    reshape main_v263 main_v264 rfl shapeCasts_S1x1024x1024_S1024x1024,
    binary main_v262 main_v264 main_v265 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v266 ((extractStridedSlice S1x1024 ![3, 0] · slices_S7x1024_S1x1024_3_0) : (⟨S7x1024, .f32⟩ : BufTy).Contents (Elt F) → (⟨S1x1024, .f32⟩ : BufTy).Contents (Elt F)),
    reshape main_v266 main_v267 rfl shapeCasts_S1x1024_S1024,
    unary main_v267 main_v268 (broadcastInDim S1x1x1024 ![2] bcast_S1024_S1x1x1024_2 : (⟨S1024, .f32⟩ : BufTy).Contents (Elt F) → (⟨S1x1x1024, .f32⟩ : BufTy).Contents (Elt F)),
    unary main_v268 main_v269 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v265 main_v269 main_v270 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC4a writes. -/
abbrev W_FC4a : List (Ref sig .tc) := [main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270]

set_option maxRecDepth 16384 in
theorem seg_FC4a_writes : (seg_FC4a : List (HloOp τ sig (Elt F))).Forall fun op => op.writes ⊆ (W_FC4a.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC4a does not write keeps its contents through it. -/
theorem keep_FC4a (V : Valuation τ sig (Elt F)) (r : Ref sig .tc) (h : r ∉ W_FC4a) :
    after seg_FC4a V (Proc.devRef .tc r) = V (Proc.devRef .tc r) :=
  after_of_writes_sub seg_FC4a V seg_FC4a_writes h

set_option maxRecDepth 16384 in
set_option maxHeartbeats 4000000 in
theorem res_FC4a_v270 (V : Valuation τ sig (Elt F)) :
    after seg_FC4a V (Proc.devRef .tc main_v270) = fcPre (V (Proc.devRef .tc main_arg2)) (V (Proc.devRef .tc main_arg3)) (V (Proc.devRef .tc main_v238)) := by
  simp only [seg_FC4a]
  after_results_simp
  rfl

/-- The operations of stretch FC4b. -/
abbrev seg_FC4b : List (HloOp τ sig (Elt F)) :=
  [ nullary main_call3_cst (constant S_ .f32 0x3FD62D7D#32),
    nullary main_call3_call0_cst (constant S_ .f32 0x00000000#32),
    unary main_call3_call0_cst main_call3_call0_v0 (broadcastInDim S16x512x1024 ![] bcast_S_S16x512x1024 : (⟨S_, .f32⟩ : BufTy).Contents (Elt F) → (⟨S16x512x1024, .f32⟩ : BufTy).Contents (Elt F)),
    binary main_v270 main_call3_call0_v0 main_call3_call0_v1 (cmpf .ogt : (⟨S16x512x1024, .f32⟩ : BufTy).Contents (Elt F) → (⟨S16x512x1024, .f32⟩ : BufTy).Contents (Elt F) → (⟨S16x512x1024, .i1⟩ : BufTy).Contents (Elt F)),
    nullary main_call3_call0_cst_0 (constant S_ .f32 0x00000000#32),
    unary main_call3_call0_cst_0 main_call3_call0_v2 (broadcastInDim S16x512x1024 ![] bcast_S_S16x512x1024 : (⟨S_, .f32⟩ : BufTy).Contents (Elt F) → (⟨S16x512x1024, .f32⟩ : BufTy).Contents (Elt F)),
    binary main_v270 main_call3_call0_v2 main_call3_call0_v3 (cmpf .ogt : (⟨S16x512x1024, .f32⟩ : BufTy).Contents (Elt F) → (⟨S16x512x1024, .f32⟩ : BufTy).Contents (Elt F) → (⟨S16x512x1024, .i1⟩ : BufTy).Contents (Elt F)),
    nullary main_call3_call0_cst_1 (constant S_ .f32 0x00000000#32),
    unary main_call3_call0_cst_1 main_call3_call0_call0_v0 (id : (⟨S_, .f32⟩ : BufTy).Contents (Elt F) → (⟨S_, .f32⟩ : BufTy).Contents (Elt F)),
    unary main_call3_call0_call0_v0 main_call3_call0_call0_v1 (broadcastInDim S16x512x1024 ![] bcast_S_S16x512x1024 : (⟨S_, .f32⟩ : BufTy).Contents (Elt F) → (⟨S16x512x1024, .f32⟩ : BufTy).Contents (Elt F)),
    ternary main_call3_call0_v3 main_call3_call0_call0_v1 main_v270 main_call3_call0_v4 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    unary main_call3_call0_v4 main_call3_call0_v5 (Host.expm1 : (⟨S16x512x1024, .f32⟩ : BufTy).Contents (Elt F) → (⟨S16x512x1024, .f32⟩ : BufTy).Contents (Elt F)),
    unary main_call3_cst main_call3_call0_v6 (id : (⟨S_, .f32⟩ : BufTy).Contents (Elt F) → (⟨S_, .f32⟩ : BufTy).Contents (Elt F)),
    unary main_call3_call0_v6 main_call3_call0_v7 (broadcastInDim S16x512x1024 ![] bcast_S_S16x512x1024 : (⟨S_, .f32⟩ : BufTy).Contents (Elt F) → (⟨S16x512x1024, .f32⟩ : BufTy).Contents (Elt F)),
    binary main_call3_call0_v7 main_call3_call0_v5 main_call3_call0_v8 (mulf : (⟨S16x512x1024, .f32⟩ : BufTy).Contents (Elt F) → (⟨S16x512x1024, .f32⟩ : BufTy).Contents (Elt F) → (⟨S16x512x1024, .f32⟩ : BufTy).Contents (Elt F)),
    ternary main_call3_call0_v1 main_v270 main_call3_call0_v8 main_call3_v0 (select : (⟨S16x512x1024, .i1⟩ : BufTy).Contents (Elt F) → (⟨S16x512x1024, .f32⟩ : BufTy).Contents (Elt F) → (⟨S16x512x1024, .f32⟩ : BufTy).Contents (Elt F) → (⟨S16x512x1024, .f32⟩ : BufTy).Contents (Elt F)),
    nullary main_call3_cst_0 (constant S_ .f32 0x3F867D5F#32),
    unary main_call3_cst_0 main_call3_v1 (broadcastInDim S16x512x1024 ![] bcast_S_S16x512x1024 : (⟨S_, .f32⟩ : BufTy).Contents (Elt F) → (⟨S16x512x1024, .f32⟩ : BufTy).Contents (Elt F)),
    binary main_call3_v1 main_call3_v0 main_v271 (mulf : (⟨S16x512x1024, .f32⟩ : BufTy).Contents (Elt F) → (⟨S16x512x1024, .f32⟩ : BufTy).Contents (Elt F) → (⟨S16x512x1024, .f32⟩ : BufTy).Contents (Elt F)),
    unary main_arg2 main_v272 ((extractStridedSlice S1x1024x1024 ![4, 0, 0] · slices_S7x1024x1024_S1x1024x1024_4_0_0) : (⟨S7x1024x1024, .f32⟩ : BufTy).Contents (Elt F) → (⟨S1x1024x1024, .f32⟩ : BufTy).Contents (Elt F)),
    reshape main_v272 main_v273 rfl shapeCasts_S1x1024x1024_S1024x1024,
    binary main_v271 main_v273 main_v274 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v275 ((extractStridedSlice S1x1024 ![4, 0] · slices_S7x1024_S1x1024_4_0) : (⟨S7x1024, .f32⟩ : BufTy).Contents (Elt F) → (⟨S1x1024, .f32⟩ : BufTy).Contents (Elt F)),
    reshape main_v275 main_v276 rfl shapeCasts_S1x1024_S1024,
    unary main_v276 main_v277 (broadcastInDim S1x1x1024 ![2] bcast_S1024_S1x1x1024_2 : (⟨S1024, .f32⟩ : BufTy).Contents (Elt F) → (⟨S1x1x1024, .f32⟩ : BufTy).Contents (Elt F)),
    unary main_v277 main_v278 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v274 main_v278 main_v279 (addf : (⟨S16x512x1024, .f32⟩ : BufTy).Contents (Elt F) → (⟨S16x512x1024, .f32⟩ : BufTy).Contents (Elt F) → (⟨S16x512x1024, .f32⟩ : BufTy).Contents (Elt F)),
    unary main_arg2 main_v280 ((extractStridedSlice S1x1024x1024 ![5, 0, 0] · slices_S7x1024x1024_S1x1024x1024_5_0_0) : (⟨S7x1024x1024, .f32⟩ : BufTy).Contents (Elt F) → (⟨S1x1024x1024, .f32⟩ : BufTy).Contents (Elt F)),
    reshape main_v280 main_v281 rfl shapeCasts_S1x1024x1024_S1024x1024,
    binary main_v279 main_v281 main_v282 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v283 ((extractStridedSlice S1x1024 ![5, 0] · slices_S7x1024_S1x1024_5_0) : (⟨S7x1024, .f32⟩ : BufTy).Contents (Elt F) → (⟨S1x1024, .f32⟩ : BufTy).Contents (Elt F)),
    reshape main_v283 main_v284 rfl shapeCasts_S1x1024_S1024,
    unary main_v284 main_v285 (broadcastInDim S1x1x1024 ![2] bcast_S1024_S1x1x1024_2 : (⟨S1024, .f32⟩ : BufTy).Contents (Elt F) → (⟨S1x1x1024, .f32⟩ : BufTy).Contents (Elt F)),
    unary main_v285 main_v286 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v282 main_v286 main_v287 (addf : (⟨S16x512x1024, .f32⟩ : BufTy).Contents (Elt F) → (⟨S16x512x1024, .f32⟩ : BufTy).Contents (Elt F) → (⟨S16x512x1024, .f32⟩ : BufTy).Contents (Elt F)),
    unary main_arg2 main_v288 ((extractStridedSlice S1x1024x1024 ![6, 0, 0] · slices_S7x1024x1024_S1x1024x1024_6_0_0) : (⟨S7x1024x1024, .f32⟩ : BufTy).Contents (Elt F) → (⟨S1x1024x1024, .f32⟩ : BufTy).Contents (Elt F)),
    reshape main_v288 main_v289 rfl shapeCasts_S1x1024x1024_S1024x1024,
    binary main_v287 main_v289 main_v290 ((fun l r => Host.dotGeneral dot_S16x512x1024_S1024x1024_S16x512x1024_2_1_01_0_n_n none l r) : (⟨S16x512x1024, .f32⟩ : BufTy).Contents (Elt F) → (⟨S1024x1024, .f32⟩ : BufTy).Contents (Elt F) → (⟨S16x512x1024, .f32⟩ : BufTy).Contents (Elt F)),
    unary main_arg3 main_v291 ((extractStridedSlice S1x1024 ![6, 0] · slices_S7x1024_S1x1024_6_0) : (⟨S7x1024, .f32⟩ : BufTy).Contents (Elt F) → (⟨S1x1024, .f32⟩ : BufTy).Contents (Elt F)),
    reshape main_v291 main_v292 rfl shapeCasts_S1x1024_S1024,
    unary main_v292 main_v293 (broadcastInDim S1x1x1024 ![2] bcast_S1024_S1x1x1024_2 : (⟨S1024, .f32⟩ : BufTy).Contents (Elt F) → (⟨S1x1x1024, .f32⟩ : BufTy).Contents (Elt F)),
    unary main_v293 main_v294 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v290 main_v294 main_v295 (addf : (⟨S16x512x1024, .f32⟩ : BufTy).Contents (Elt F) → (⟨S16x512x1024, .f32⟩ : BufTy).Contents (Elt F) → (⟨S16x512x1024, .f32⟩ : BufTy).Contents (Elt F)) ]

/-- The buffers stretch FC4b writes. -/
abbrev W_FC4b : List (Ref sig .tc) := [main_call3_cst, main_call3_call0_cst, main_call3_call0_v0, main_call3_call0_v1, main_call3_call0_cst_0, main_call3_call0_v2, main_call3_call0_v3, main_call3_call0_cst_1, main_call3_call0_call0_v0, main_call3_call0_call0_v1, main_call3_call0_v4, main_call3_call0_v5, main_call3_call0_v6, main_call3_call0_v7, main_call3_call0_v8, main_call3_v0, main_call3_cst_0, main_call3_v1, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295]

set_option maxRecDepth 16384 in
theorem seg_FC4b_writes : (seg_FC4b : List (HloOp τ sig (Elt F))).Forall fun op => op.writes ⊆ (W_FC4b.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> wtac

/-- A buffer stretch FC4b does not write keeps its contents through it. -/
theorem keep_FC4b (V : Valuation τ sig (Elt F)) (r : Ref sig .tc) (h : r ∉ W_FC4b) :
    after seg_FC4b V (Proc.devRef .tc r) = V (Proc.devRef .tc r) :=
  after_of_writes_sub seg_FC4b V seg_FC4b_writes h

set_option maxRecDepth 16384 in
set_option maxHeartbeats 4000000 in
theorem res_FC4b_v295 (V : Valuation τ sig (Elt F)) :
    after seg_FC4b V (Proc.devRef .tc main_v295) = fcPost (V (Proc.devRef .tc main_arg2)) (V (Proc.devRef .tc main_arg3)) (V (Proc.devRef .tc main_v270)) := by
  simp only [seg_FC4b]
  after_results_simp
  rfl

/-- The operations of stretch N1. -/
abbrev seg_N1 : List (HloOp τ sig (Elt F)) :=
  [ unary main_v295 main_v296 ((transpose S16x1024x512 [0, 2, 1] · transposes_S16x512x1024_S16x1024x512_0_2_1) : (⟨S16x512x1024, .f32⟩ : BufTy).Contents (Elt F) → (⟨S16x1024x512, .f32⟩ : BufTy).Contents (Elt F)),
    binary main_v296 main_v296 main_v297 (mulf : (⟨S16x1024x512, .f32⟩ : BufTy).Contents (Elt F) → (⟨S16x1024x512, .f32⟩ : BufTy).Contents (Elt F) → (⟨S16x1024x512, .f32⟩ : BufTy).Contents (Elt F)),
    nullary main_cst_17 (constant S_ .f32 0x00000000#32),
    binary main_v297 main_cst_17 main_v298 ((fun x v => Host.reduceAdd x v reducesTo_S16x1024x512_S16x1024_d2 h_S_) : (⟨S16x1024x512, .f32⟩ : BufTy).Contents (Elt F) → (⟨S_, .f32⟩ : BufTy).Contents (Elt F) → (⟨S16x1024, .f32⟩ : BufTy).Contents (Elt F)),
    unary main_v298 main_v299 (broadcastInDim S16x1024x1 ![0, 1] bcast_S16x1024_S16x1024x1_0_1 : (⟨S16x1024, .f32⟩ : BufTy).Contents (Elt F) → (⟨S16x1024x1, .f32⟩ : BufTy).Contents (Elt F)),
    unary main_v299 main_v300 (Host.sqrt : (⟨S16x1024x1, .f32⟩ : BufTy).Contents (Elt F) → (⟨S16x1024x1, .f32⟩ : BufTy).Contents (Elt F)),
    nullary main_cst_18 (constant S_ .f32 0x2B8CBCCC#32),
    unary main_cst_18 main_v301 (broadcastInDim S16x1024x1 ![] bcast_S_S16x1024x1 : (⟨S_, .f32⟩ : BufTy).Contents (Elt F) → (⟨S16x1024x1, .f32⟩ : BufTy).Contents (Elt F)),
    binary main_v300 main_v301 main_v302 (maximumf : (⟨S16x1024x1, .f32⟩ : BufTy).Contents (Elt F) → (⟨S16x1024x1, .f32⟩ : BufTy).Contents (Elt F) → (⟨S16x1024x1, .f32⟩ : BufTy).Contents (Elt F)),
    unary main_v302 main_v303 (broadcastInDim S16x1024x512 ![0, 1, 2] bcast_S16x1024x1_S16x1024x512_0_1_2 : (⟨S16x1024x1, .f32⟩ : BufTy).Contents (Elt F) → (⟨S16x1024x512, .f32⟩ : BufTy).Contents (Elt F)),
    binary main_v296 main_v303 main_v304 (Host.divf : (⟨S16x1024x512, .f32⟩ : BufTy).Contents (Elt F) → (⟨S16x1024x512, .f32⟩ : BufTy).Contents (Elt F) → (⟨S16x1024x512, .f32⟩ : BufTy).Contents (Elt F)),
    nullary main_cst_19 (constant S_ .f32 0x3DCCCCCD#32),
    unary main_cst_19 main_v305 (broadcastInDim S16x1024x512 ![] bcast_S_S16x1024x512 : (⟨S_, .f32⟩ : BufTy).Contents (Elt F) → (⟨S16x1024x512, .f32⟩ : BufTy).Contents (Elt F)),
    binary main_v304 main_v305 main_v306 (mulf : (⟨S16x1024x512, .f32⟩ : BufTy).Contents (Elt F) → (⟨S16x1024x512, .f32⟩ : BufTy).Contents (Elt F) → (⟨S16x1024x512, .f32⟩ : BufTy).Contents (Elt F)),
    nullary main_cst_20 (constant S_ .f32 0x3F800000#32),
    unary main_cst_20 main_v307 (broadcastInDim S16x1024x512 ![] bcast_S_S16x1024x512 : (⟨S_, .f32⟩ : BufTy).Contents (Elt F) → (⟨S16x1024x512, .f32⟩ : BufTy).Contents (Elt F)),
    binary main_arg1 main_v307 main_v308 (mulf : (⟨S16x1024x512, .f32⟩ : BufTy).Contents (Elt F) → (⟨S16x1024x512, .f32⟩ : BufTy).Contents (Elt F) → (⟨S16x1024x512, .f32⟩ : BufTy).Contents (Elt F)),
    binary main_v306 main_v308 main_v309 (addf : (⟨S16x1024x512, .f32⟩ : BufTy).Contents (Elt F) → (⟨S16x1024x512, .f32⟩ : BufTy).Contents (Elt F) → (⟨S16x1024x512, .f32⟩ : BufTy).Contents (Elt F)) ]

/-- The buffers stretch N1 writes. -/
abbrev W_N1 : List (Ref sig .tc) := [main_v296, main_v297, main_cst_17, main_v298, main_v299, main_v300, main_cst_18, main_v301, main_v302, main_v303, main_v304, main_cst_19, main_v305, main_v306, main_cst_20, main_v307, main_v308, main_v309]

set_option maxRecDepth 16384 in
theorem seg_N1_writes : (seg_N1 : List (HloOp τ sig (Elt F))).Forall fun op => op.writes ⊆ (W_N1.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> wtac

/-- A buffer stretch N1 does not write keeps its contents through it. -/
theorem keep_N1 (V : Valuation τ sig (Elt F)) (r : Ref sig .tc) (h : r ∉ W_N1) :
    after seg_N1 V (Proc.devRef .tc r) = V (Proc.devRef .tc r) :=
  after_of_writes_sub seg_N1 V seg_N1_writes h

set_option maxRecDepth 16384 in
set_option maxHeartbeats 4000000 in
theorem res_N1_v309 (V : Valuation τ sig (Elt F)) :
    after seg_N1 V (Proc.devRef .tc main_v309) = Stages.norm (V (Proc.devRef .tc main_v295)) (V (Proc.devRef .tc main_arg1)) := by
  simp only [seg_N1]
  after_results_simp
  rfl

end Cert.ReferenceIdeal.Segs

end
-- ==== Proof.RefRun.lean ====
/-
  The reference program's run, read back. Its operations are cut into thirteen stretches (the input transposes; each
  of the four perceptron instances in two halves; the softmaxes with the first attention product; the two
  normalize-and-blend tails; the second attention product); `val k` is what the device's buffers hold after the first
  k stretches, and each buffer still read later is followed through the stretches as a closed term of the four
  argument arrays. The two results come out as `Stages.out0` / `Stages.out1` of the perceptron `Stages.fc1R`, and the
  arguments unchanged.
-/
import proofs.«114870_j317827580568_1_alg».proof.Proof.RefOps
import proofs.«114870_j317827580568_1_alg».proof.Proof.RefSegA
import proofs.«114870_j317827580568_1_alg».proof.Proof.RefSegB
import proofs.«114870_j317827580568_1_alg».proof.Proof.RefSegC
import proofs.«114870_j317827580568_1_alg».proof.Proof.RefSegD
import proofs.«114870_j317827580568_1_alg».proof.Proof.RefSegE

noncomputable section

namespace Cert.ReferenceIdeal.Run

open Cert.ReferenceIdeal Cert.ReferenceIdeal.Gen Idealize.ShloMosaic Idealize.ShloMosaic.TcCoe Idealize.SL.Sem Idealize.ShloMosaic.StableHlo Cert.ReferenceIdeal.Segs

variable {F : FTy → Type} [FloatOps F]

/-- The four argument arrays in a valuation. -/
abbrev A0 (V0 : Valuation τ sig (Elt F)) := V0 (Proc.devRef .tc main_arg0)
abbrev A1 (V0 : Valuation τ sig (Elt F)) := V0 (Proc.devRef .tc main_arg1)
abbrev Wt (V0 : Valuation τ sig (Elt F)) := V0 (Proc.devRef .tc main_arg2)
abbrev Bs (V0 : Valuation τ sig (Elt F)) := V0 (Proc.devRef .tc main_arg3)

/-- Two lists of operations run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers before the first stretch. -/
def val0 (V0 : Valuation τ sig (Elt F)) : Valuation τ sig (Elt F) := V0
theorem st0_arg0 (V0 : Valuation τ sig (Elt F)) : val0 V0 (Proc.devRef .tc main_arg0) = (A0 V0) := rfl
theorem st0_arg1 (V0 : Valuation τ sig (Elt F)) : val0 V0 (Proc.devRef .tc main_arg1) = (A1 V0) := rfl
theorem st0_arg2 (V0 : Valuation τ sig (Elt F)) : val0 V0 (Proc.devRef .tc main_arg2) = (Wt V0) := rfl
theorem st0_arg3 (V0 : Valuation τ sig (Elt F)) : val0 V0 (Proc.devRef .tc main_arg3) = (Bs V0) := rfl

/-- The buffers after stretch T. -/
def val1 (V0 : Valuation τ sig (Elt F)) : Valuation τ sig (Elt F) := after seg_T (val0 V0)
theorem st1_arg0 (V0 : Valuation τ sig (Elt F)) : val1 V0 (Proc.devRef .tc main_arg0) = (A0 V0) :=
  (keep_T _ main_arg0 (by decide)).trans (st0_arg0 V0)
theorem st1_arg1 (V0 : Valuation τ sig (Elt F)) : val1 V0 (Proc.devRef .tc main_arg1) = (A1 V0) :=
  (keep_T _ main_arg1 (by decide)).trans (st0_arg1 V0)
theorem st1_arg2 (V0 : Valuation τ sig (Elt F)) : val1 V0 (Proc.devRef .tc main_arg2) = (Wt V0) :=
  (keep_T _ main_arg2 (by decide)).trans (st0_arg2 V0)
theorem st1_arg3 (V0 : Valuation τ sig (Elt F)) : val1 V0 (Proc.devRef .tc main_arg3) = (Bs V0) :=
  (keep_T _ main_arg3 (by decide)).trans (st0_arg3 V0)
theorem st1_v0 (V0 : Valuation τ sig (Elt F)) : val1 V0 (Proc.devRef .tc main_v0) = (Stages.inT (A0 V0)) := by
  unfold val1
  rw [res_T_v0, st0_arg0]
theorem st1_v1 (V0 : Valuation τ sig (Elt F)) : val1 V0 (Proc.devRef .tc main_v1) = (Stages.inT (A1 V0)) := by
  unfold val1
  rw [res_T_v1, st0_arg1]

/-- The buffers after stretch FC1a. -/
def val2 (V0 : Valuation τ sig (Elt F)) : Valuation τ sig (Elt F) := after seg_FC1a (val1 V0)
theorem st2_arg0 (V0 : Valuation τ sig (Elt F)) : val2 V0 (Proc.devRef .tc main_arg0) = (A0 V0) :=
  (keep_FC1a _ main_arg0 (by decide)).trans (st1_arg0 V0)
theorem st2_arg1 (V0 : Valuation τ sig (Elt F)) : val2 V0 (Proc.devRef .tc main_arg1) = (A1 V0) :=
  (keep_FC1a _ main_arg1 (by decide)).trans (st1_arg1 V0)
theorem st2_arg2 (V0 : Valuation τ sig (Elt F)) : val2 V0 (Proc.devRef .tc main_arg2) = (Wt V0) :=
  (keep_FC1a _ main_arg2 (by decide)).trans (st1_arg2 V0)
theorem st2_arg3 (V0 : Valuation τ sig (Elt F)) : val2 V0 (Proc.devRef .tc main_arg3) = (Bs V0) :=
  (keep_FC1a _ main_arg3 (by decide)).trans (st1_arg3 V0)
theorem st2_v0 (V0 : Valuation τ sig (Elt F)) : val2 V0 (Proc.devRef .tc main_v0) = (Stages.inT (A0 V0)) :=
  (keep_FC1a _ main_v0 (by decide)).trans (st1_v0 V0)
theorem st2_v1 (V0 : Valuation τ sig (Elt F)) : val2 V0 (Proc.devRef .tc main_v1) = (Stages.inT (A1 V0)) :=
  (keep_FC1a _ main_v1 (by decide)).trans (st1_v1 V0)
theorem st2_v33 (V0 : Valuation τ sig (Elt F)) : val2 V0 (Proc.devRef .tc main_v33) = (fcPre (Wt V0) (Bs V0) (Stages.inT (A0 V0))) := by
  unfold val2
  rw [res_FC1a_v33, st1_arg2, st1_arg3, st1_v0]

/-- The buffers after stretch FC1b. -/
def val3 (V0 : Valuation τ sig (Elt F)) : Valuation τ sig (Elt F) := after seg_FC1b (val2 V0)
theorem st3_arg0 (V0 : Valuation τ sig (Elt F)) : val3 V0 (Proc.devRef .tc main_arg0) = (A0 V0) :=
  (keep_FC1b _ main_arg0 (by decide)).trans (st2_arg0 V0)
theorem st3_arg1 (V0 : Valuation τ sig (Elt F)) : val3 V0 (Proc.devRef .tc main_arg1) = (A1 V0) :=
  (keep_FC1b _ main_arg1 (by decide)).trans (st2_arg1 V0)
theorem st3_arg2 (V0 : Valuation τ sig (Elt F)) : val3 V0 (Proc.devRef .tc main_arg2) = (Wt V0) :=
  (keep_FC1b _ main_arg2 (by decide)).trans (st2_arg2 V0)
theorem st3_arg3 (V0 : Valuation τ sig (Elt F)) : val3 V0 (Proc.devRef .tc main_arg3) = (Bs V0) :=
  (keep_FC1b _ main_arg3 (by decide)).trans (st2_arg3 V0)
theorem st3_v0 (V0 : Valuation τ sig (Elt F)) : val3 V0 (Proc.devRef .tc main_v0) = (Stages.inT (A0 V0)) :=
  (keep_FC1b _ main_v0 (by decide)).trans (st2_v0 V0)
theorem st3_v1 (V0 : Valuation τ sig (Elt F)) : val3 V0 (Proc.devRef .tc main_v1) = (Stages.inT (A1 V0)) :=
  (keep_FC1b _ main_v1 (by decide)).trans (st2_v1 V0)
theorem st3_v58 (V0 : Valuation τ sig (Elt F)) : val3 V0 (Proc.devRef .tc main_v58) = (Stages.fc1R (Wt V0) (Bs V0) (Stages.inT (A0 V0))) := by
  unfold val3
  rw [res_FC1b_v58, st2_arg2, st2_arg3, st2_v33]
  rfl

/-- The buffers after stretch FC2a. -/
def val4 (V0 : Valuation τ sig (Elt F)) : Valuation τ sig (Elt F) := after seg_FC2a (val3 V0)
theorem st4_arg0 (V0 : Valuation τ sig (Elt F)) : val4 V0 (Proc.devRef .tc main_arg0) = (A0 V0) :=
  (keep_FC2a _ main_arg0 (by decide)).trans (st3_arg0 V0)
theorem st4_arg1 (V0 : Valuation τ sig (Elt F)) : val4 V0 (Proc.devRef .tc main_arg1) = (A1 V0) :=
  (keep_FC2a _ main_arg1 (by decide)).trans (st3_arg1 V0)
theorem st4_arg2 (V0 : Valuation τ sig (Elt F)) : val4 V0 (Proc.devRef .tc main_arg2) = (Wt V0) :=
  (keep_FC2a _ main_arg2 (by decide)).trans (st3_arg2 V0)
theorem st4_arg3 (V0 : Valuation τ sig (Elt F)) : val4 V0 (Proc.devRef .tc main_arg3) = (Bs V0) :=
  (keep_FC2a _ main_arg3 (by decide)).trans (st3_arg3 V0)
theorem st4_v0 (V0 : Valuation τ sig (Elt F)) : val4 V0 (Proc.devRef .tc main_v0) = (Stages.inT (A0 V0)) :=
  (keep_FC2a _ main_v0 (by decide)).trans (st3_v0 V0)
theorem st4_v1 (V0 : Valuation τ sig (Elt F)) : val4 V0 (Proc.devRef .tc main_v1) = (Stages.inT (A1 V0)) :=
  (keep_FC2a _ main_v1 (by decide)).trans (st3_v1 V0)
theorem st4_v58 (V0 : Valuation τ sig (Elt F)) : val4 V0 (Proc.devRef .tc main_v58) = (Stages.fc1R (Wt V0) (Bs V0) (Stages.inT (A0 V0))) :=
  (keep_FC2a _ main_v58 (by decide)).trans (st3_v58 V0)
theorem st4_v90 (V0 : Valuation τ sig (Elt F)) : val4 V0 (Proc.devRef .tc main_v90) = (fcPre (Wt V0) (Bs V0) (Stages.inT (A1 V0))) := by
  unfold val4
  rw [res_FC2a_v90, st3_arg2, st3_arg3, st3_v1]

/-- The buffers after stretch FC2b. -/
def val5 (V0 : Valuation τ sig (Elt F)) : Valuation τ sig (Elt F) := after seg_FC2b (val4 V0)
theorem st5_arg0 (V0 : Valuation τ sig (Elt F)) : val5 V0 (Proc.devRef .tc main_arg0) = (A0 V0) :=
  (keep_FC2b _ main_arg0 (by decide)).trans (st4_arg0 V0)
theorem st5_arg1 (V0 : Valuation τ sig (Elt F)) : val5 V0 (Proc.devRef .tc main_arg1) = (A1 V0) :=
  (keep_FC2b _ main_arg1 (by decide)).trans (st4_arg1 V0)
theorem st5_arg2 (V0 : Valuation τ sig (Elt F)) : val5 V0 (Proc.devRef .tc main_arg2) = (Wt V0) :=
  (keep_FC2b _ main_arg2 (by decide)).trans (st4_arg2 V0)
theorem st5_arg3 (V0 : Valuation τ sig (Elt F)) : val5 V0 (Proc.devRef .tc main_arg3) = (Bs V0) :=
  (keep_FC2b _ main_arg3 (by decide)).trans (st4_arg3 V0)
theorem st5_v0 (V0 : Valuation τ sig (Elt F)) : val5 V0 (Proc.devRef .tc main_v0) = (Stages.inT (A0 V0)) :=
  (keep_FC2b _ main_v0 (by decide)).trans (st4_v0 V0)
theorem st5_v1 (V0 : Valuation τ sig (Elt F)) : val5 V0 (Proc.devRef .tc main_v1) = (Stages.inT (A1 V0)) :=
  (keep_FC2b _ main_v1 (by decide)).trans (st4_v1 V0)
theorem st5_v58 (V0 : Valuation τ sig (Elt F)) : val5 V0 (Proc.devRef .tc main_v58) = (Stages.fc1R (Wt V0) (Bs V0) (Stages.inT (A0 V0))) :=
  (keep_FC2b _ main_v58 (by decide)).trans (st4_v58 V0)
theorem st5_v115 (V0 : Valuation τ sig (Elt F)) : val5 V0 (Proc.devRef .tc main_v115) = (Stages.fc1R (Wt V0) (Bs V0) (Stages.inT (A1 V0))) := by
  unfold val5
  rw [res_FC2b_v115, st4_arg2, st4_arg3, st4_v90]
  rfl

/-- The buffers after stretch SM. -/
def val6 (V0 : Valuation τ sig (Elt F)) : Valuation τ sig (Elt F) := after seg_SM (val5 V0)
theorem st6_arg0 (V0 : Valuation τ sig (Elt F)) : val6 V0 (Proc.devRef .tc main_arg0) = (A0 V0) :=
  (keep_SM _ main_arg0 (by decide)).trans (st5_arg0 V0)
theorem st6_arg1 (V0 : Valuation τ sig (Elt F)) : val6 V0 (Proc.devRef .tc main_arg1) = (A1 V0) :=
  (keep_SM _ main_arg1 (by decide)).trans (st5_arg1 V0)
theorem st6_arg2 (V0 : Valuation τ sig (Elt F)) : val6 V0 (Proc.devRef .tc main_arg2) = (Wt V0) :=
  (keep_SM _ main_arg2 (by decide)).trans (st5_arg2 V0)
theorem st6_arg3 (V0 : Valuation τ sig (Elt F)) : val6 V0 (Proc.devRef .tc main_arg3) = (Bs V0) :=
  (keep_SM _ main_arg3 (by decide)).trans (st5_arg3 V0)
theorem st6_v1 (V0 : Valuation τ sig (Elt F)) : val6 V0 (Proc.devRef .tc main_v1) = (Stages.inT (A1 V0)) :=
  (keep_SM _ main_v1 (by decide)).trans (st5_v1 V0)
theorem st6_v137 (V0 : Valuation τ sig (Elt F)) : val6 V0 (Proc.devRef .tc main_v137) = (Stages.smax2 (Stages.fc1R (Wt V0) (Bs V0) (Stages.inT (A0 V0)))) := by
  unfold val6
  rw [res_SM_v137, st5_v58]
theorem st6_v148 (V0 : Valuation τ sig (Elt F)) : val6 V0 (Proc.devRef .tc main_v148) = (Stages.smax1 (Stages.fc1R (Wt V0) (Bs V0) (Stages.inT (A1 V0)))) := by
  unfold val6
  rw [res_SM_v148, st5_v115]
theorem st6_v163 (V0 : Valuation τ sig (Elt F)) : val6 V0 (Proc.devRef .tc main_v163) = (Stages.att (Stages.smax1 (Stages.fc1R (Wt V0) (Bs V0) (Stages.inT (A0 V0)))) (Stages.smax2 (Stages.fc1R (Wt V0) (Bs V0) (Stages.inT (A1 V0)))) (Stages.inT (A0 V0))) := by
  unfold val6
  rw [res_SM_v163, st5_v58, st5_v115, st5_v0]

/-- The buffers after stretch FC3a. -/
def val7 (V0 : Valuation τ sig (Elt F)) : Valuation τ sig (Elt F) := after seg_FC3a (val6 V0)
theorem st7_arg0 (V0 : Valuation τ sig (Elt F)) : val7 V0 (Proc.devRef .tc main_arg0) = (A0 V0) :=
  (keep_FC3a _ main_arg0 (by decide)).trans (st6_arg0 V0)
theorem st7_arg1 (V0 : Valuation τ sig (Elt F)) : val7 V0 (Proc.devRef .tc main_arg1) = (A1 V0) :=
  (keep_FC3a _ main_arg1 (by decide)).trans (st6_arg1 V0)
theorem st7_arg2 (V0 : Valuation τ sig (Elt F)) : val7 V0 (Proc.devRef .tc main_arg2) = (Wt V0) :=
  (keep_FC3a _ main_arg2 (by decide)).trans (st6_arg2 V0)
theorem st7_arg3 (V0 : Valuation τ sig (Elt F)) : val7 V0 (Proc.devRef .tc main_arg3) = (Bs V0) :=
  (keep_FC3a _ main_arg3 (by decide)).trans (st6_arg3 V0)
theorem st7_v1 (V0 : Valuation τ sig (Elt F)) : val7 V0 (Proc.devRef .tc main_v1) = (Stages.inT (A1 V0)) :=
  (keep_FC3a _ main_v1 (by decide)).trans (st6_v1 V0)
theorem st7_v137 (V0 : Valuation τ sig (Elt F)) : val7 V0 (Proc.devRef .tc main_v137) = (Stages.smax2 (Stages.fc1R (Wt V0) (Bs V0) (Stages.inT (A0 V0)))) :=
  (keep_FC3a _ main_v137 (by decide)).trans (st6_v137 V0)
theorem st7_v148 (V0 : Valuation τ sig (Elt F)) : val7 V0 (Proc.devRef .tc main_v148) = (Stages.smax1 (Stages.fc1R (Wt V0) (Bs V0) (Stages.inT (A1 V0)))) :=
  (keep_FC3a _ main_v148 (by decide)).trans (st6_v148 V0)
theorem st7_v195 (V0 : Valuation τ sig (Elt F)) : val7 V0 (Proc.devRef .tc main_v195) = (fcPre (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) := by
  unfold val7
  rw [res_FC3a_v195, st6_arg2, st6_arg3, st6_v163]

/-- The buffers after stretch FC3b. -/
def val8 (V0 : Valuation τ sig (Elt F)) : Valuation τ sig (Elt F) := after seg_FC3b (val7 V0)
theorem st8_arg0 (V0 : Valuation τ sig (Elt F)) : val8 V0 (Proc.devRef .tc main_arg0) = (A0 V0) :=
  (keep_FC3b _ main_arg0 (by decide)).trans (st7_arg0 V0)
theorem st8_arg1 (V0 : Valuation τ sig (Elt F)) : val8 V0 (Proc.devRef .tc main_arg1) = (A1 V0) :=
  (keep_FC3b _ main_arg1 (by decide)).trans (st7_arg1 V0)
theorem st8_arg2 (V0 : Valuation τ sig (Elt F)) : val8 V0 (Proc.devRef .tc main_arg2) = (Wt V0) :=
  (keep_FC3b _ main_arg2 (by decide)).trans (st7_arg2 V0)
theorem st8_arg3 (V0 : Valuation τ sig (Elt F)) : val8 V0 (Proc.devRef .tc main_arg3) = (Bs V0) :=
  (keep_FC3b _ main_arg3 (by decide)).trans (st7_arg3 V0)
theorem st8_v1 (V0 : Valuation τ sig (Elt F)) : val8 V0 (Proc.devRef .tc main_v1) = (Stages.inT (A1 V0)) :=
  (keep_FC3b _ main_v1 (by decide)).trans (st7_v1 V0)
theorem st8_v137 (V0 : Valuation τ sig (Elt F)) : val8 V0 (Proc.devRef .tc main_v137) = (Stages.smax2 (Stages.fc1R (Wt V0) (Bs V0) (Stages.inT (A0 V0)))) :=
  (keep_FC3b _ main_v137 (by decide)).trans (st7_v137 V0)
theorem st8_v148 (V0 : Valuation τ sig (Elt F)) : val8 V0 (Proc.devRef .tc main_v148) = (Stages.smax1 (Stages.fc1R (Wt V0) (Bs V0) (Stages.inT (A1 V0)))) :=
  (keep_FC3b _ main_v148 (by decide)).trans (st7_v148 V0)
theorem st8_v220 (V0 : Valuation τ sig (Elt F)) : val8 V0 (Proc.devRef .tc main_v220) = (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) := by
  unfold val8
  rw [res_FC3b_v220, st7_arg2, st7_arg3, st7_v195]
  rfl

/-- The buffers after stretch N0. -/
def val9 (V0 : Valuation τ sig (Elt F)) : Valuation τ sig (Elt F) := after seg_N0 (val8 V0)
theorem st9_arg0 (V0 : Valuation τ sig (Elt F)) : val9 V0 (Proc.devRef .tc main_arg0) = (A0 V0) :=
  (keep_N0 _ main_arg0 (by decide)).trans (st8_arg0 V0)
theorem st9_arg1 (V0 : Valuation τ sig (Elt F)) : val9 V0 (Proc.devRef .tc main_arg1) = (A1 V0) :=
  (keep_N0 _ main_arg1 (by decide)).trans (st8_arg1 V0)
theorem st9_arg2 (V0 : Valuation τ sig (Elt F)) : val9 V0 (Proc.devRef .tc main_arg2) = (Wt V0) :=
  (keep_N0 _ main_arg2 (by decide)).trans (st8_arg2 V0)
theorem st9_arg3 (V0 : Valuation τ sig (Elt F)) : val9 V0 (Proc.devRef .tc main_arg3) = (Bs V0) :=
  (keep_N0 _ main_arg3 (by decide)).trans (st8_arg3 V0)
theorem st9_v1 (V0 : Valuation τ sig (Elt F)) : val9 V0 (Proc.devRef .tc main_v1) = (Stages.inT (A1 V0)) :=
  (keep_N0 _ main_v1 (by decide)).trans (st8_v1 V0)
theorem st9_v137 (V0 : Valuation τ sig (Elt F)) : val9 V0 (Proc.devRef .tc main_v137) = (Stages.smax2 (Stages.fc1R (Wt V0) (Bs V0) (Stages.inT (A0 V0)))) :=
  (keep_N0 _ main_v137 (by decide)).trans (st8_v137 V0)
theorem st9_v148 (V0 : Valuation τ sig (Elt F)) : val9 V0 (Proc.devRef .tc main_v148) = (Stages.smax1 (Stages.fc1R (Wt V0) (Bs V0) (Stages.inT (A1 V0)))) :=
  (keep_N0 _ main_v148 (by decide)).trans (st8_v148 V0)
theorem st9_v234 (V0 : Valuation τ sig (Elt F)) : val9 V0 (Proc.devRef .tc main_v234) = (Stages.norm (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) (A0 V0)) := by
  unfold val9
  rw [res_N0_v234, st8_v220, st8_arg0]

/-- The buffers after stretch A1. -/
def val10 (V0 : Valuation τ sig (Elt F)) : Valuation τ sig (Elt F) := after seg_A1 (val9 V0)
theorem st10_arg0 (V0 : Valuation τ sig (Elt F)) : val10 V0 (Proc.devRef .tc main_arg0) = (A0 V0) :=
  (keep_A1 _ main_arg0 (by decide)).trans (st9_arg0 V0)
theorem st10_arg1 (V0 : Valuation τ sig (Elt F)) : val10 V0 (Proc.devRef .tc main_arg1) = (A1 V0) :=
  (keep_A1 _ main_arg1 (by decide)).trans (st9_arg1 V0)
theorem st10_arg2 (V0 : Valuation τ sig (Elt F)) : val10 V0 (Proc.devRef .tc main_arg2) = (Wt V0) :=
  (keep_A1 _ main_arg2 (by decide)).trans (st9_arg2 V0)
theorem st10_arg3 (V0 : Valuation τ sig (Elt F)) : val10 V0 (Proc.devRef .tc main_arg3) = (Bs V0) :=
  (keep_A1 _ main_arg3 (by decide)).trans (st9_arg3 V0)
theorem st10_v234 (V0 : Valuation τ sig (Elt F)) : val10 V0 (Proc.devRef .tc main_v234) = (Stages.norm (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) (A0 V0)) :=
  (keep_A1 _ main_v234 (by decide)).trans (st9_v234 V0)
theorem st10_v238 (V0 : Valuation τ sig (Elt F)) : val10 V0 (Proc.devRef .tc main_v238) = (Stages.att (Stages.smax1 (Stages.fc1R (Wt V0) (Bs V0) (Stages.inT (A1 V0)))) (Stages.smax2 (Stages.fc1R (Wt V0) (Bs V0) (Stages.inT (A0 V0)))) (Stages.inT (A1 V0))) := by
  unfold val10
  rw [res_A1_v238, st9_v148, st9_v137, st9_v1]

/-- The buffers after stretch FC4a. -/
def val11 (V0 : Valuation τ sig (Elt F)) : Valuation τ sig (Elt F) := after seg_FC4a (val10 V0)
theorem st11_arg0 (V0 : Valuation τ sig (Elt F)) : val11 V0 (Proc.devRef .tc main_arg0) = (A0 V0) :=
  (keep_FC4a _ main_arg0 (by decide)).trans (st10_arg0 V0)
theorem st11_arg1 (V0 : Valuation τ sig (Elt F)) : val11 V0 (Proc.devRef .tc main_arg1) = (A1 V0) :=
  (keep_FC4a _ main_arg1 (by decide)).trans (st10_arg1 V0)
theorem st11_arg2 (V0 : Valuation τ sig (Elt F)) : val11 V0 (Proc.devRef .tc main_arg2) = (Wt V0) :=
  (keep_FC4a _ main_arg2 (by decide)).trans (st10_arg2 V0)
theorem st11_arg3 (V0 : Valuation τ sig (Elt F)) : val11 V0 (Proc.devRef .tc main_arg3) = (Bs V0) :=
  (keep_FC4a _ main_arg3 (by decide)).trans (st10_arg3 V0)
theorem st11_v234 (V0 : Valuation τ sig (Elt F)) : val11 V0 (Proc.devRef .tc main_v234) = (Stages.norm (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) (A0 V0)) :=
  (keep_FC4a _ main_v234 (by decide)).trans (st10_v234 V0)
theorem st11_v270 (V0 : Valuation τ sig (Elt F)) : val11 V0 (Proc.devRef .tc main_v270) = (fcPre (Wt V0) (Bs V0) (Stages.att (Stages.smax1 (Stages.fc1R (Wt V0) (Bs V0) (Stages.inT (A1 V0)))) (Stages.smax2 (Stages.fc1R (Wt V0) (Bs V0) (Stages.inT (A0 V0)))) (Stages.inT (A1 V0)))) := by
  unfold val11
  rw [res_FC4a_v270, st10_arg2, st10_arg3, st10_v238]

/-- The buffers after stretch FC4b. -/
def val12 (V0 : Valuation τ sig (Elt F)) : Valuation τ sig (Elt F) := after seg_FC4b (val11 V0)
theorem st12_arg0 (V0 : Valuation τ sig (Elt F)) : val12 V0 (Proc.devRef .tc main_arg0) = (A0 V0) :=
  (keep_FC4b _ main_arg0 (by decide)).trans (st11_arg0 V0)
theorem st12_arg1 (V0 : Valuation τ sig (Elt F)) : val12 V0 (Proc.devRef .tc main_arg1) = (A1 V0) :=
  (keep_FC4b _ main_arg1 (by decide)).trans (st11_arg1 V0)
theorem st12_arg2 (V0 : Valuation τ sig (Elt F)) : val12 V0 (Proc.devRef .tc main_arg2) = (Wt V0) :=
  (keep_FC4b _ main_arg2 (by decide)).trans (st11_arg2 V0)
theorem st12_arg3 (V0 : Valuation τ sig (Elt F)) : val12 V0 (Proc.devRef .tc main_arg3) = (Bs V0) :=
  (keep_FC4b _ main_arg3 (by decide)).trans (st11_arg3 V0)
theorem st12_v234 (V0 : Valuation τ sig (Elt F)) : val12 V0 (Proc.devRef .tc main_v234) = (Stages.norm (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) (A0 V0)) :=
  (keep_FC4b _ main_v234 (by decide)).trans (st11_v234 V0)
theorem st12_v295 (V0 : Valuation τ sig (Elt F)) : val12 V0 (Proc.devRef .tc main_v295) = (Stages.fc1R (Wt V0) (Bs V0) (Stages.att (Stages.smax1 (Stages.fc1R (Wt V0) (Bs V0) (Stages.inT (A1 V0)))) (Stages.smax2 (Stages.fc1R (Wt V0) (Bs V0) (Stages.inT (A0 V0)))) (Stages.inT (A1 V0)))) := by
  unfold val12
  rw [res_FC4b_v295, st11_arg2, st11_arg3, st11_v270]
  rfl

/-- The buffers after stretch N1. -/
def val13 (V0 : Valuation τ sig (Elt F)) : Valuation τ sig (Elt F) := after seg_N1 (val12 V0)
theorem st13_arg0 (V0 : Valuation τ sig (Elt F)) : val13 V0 (Proc.devRef .tc main_arg0) = (A0 V0) :=
  (keep_N1 _ main_arg0 (by decide)).trans (st12_arg0 V0)
theorem st13_arg1 (V0 : Valuation τ sig (Elt F)) : val13 V0 (Proc.devRef .tc main_arg1) = (A1 V0) :=
  (keep_N1 _ main_arg1 (by decide)).trans (st12_arg1 V0)
theorem st13_arg2 (V0 : Valuation τ sig (Elt F)) : val13 V0 (Proc.devRef .tc main_arg2) = (Wt V0) :=
  (keep_N1 _ main_arg2 (by decide)).trans (st12_arg2 V0)
theorem st13_arg3 (V0 : Valuation τ sig (Elt F)) : val13 V0 (Proc.devRef .tc main_arg3) = (Bs V0) :=
  (keep_N1 _ main_arg3 (by decide)).trans (st12_arg3 V0)
theorem st13_v234 (V0 : Valuation τ sig (Elt F)) : val13 V0 (Proc.devRef .tc main_v234) = (Stages.norm (Stages.fc1R (Wt V0) (Bs V0) (Stages.att (Stages.smax1 (Stages.fc1R (Wt V0) (Bs V0) (Stages.inT (A0 V0)))) (Stages.smax2 (Stages.fc1R (Wt V0) (Bs V0) (Stages.inT (A1 V0)))) (Stages.inT (A0 V0)))) (A0 V0)) :=
  (keep_N1 _ main_v234 (by decide)).trans (st12_v234 V0)
theorem st13_v309 (V0 : Valuation τ sig (Elt F)) : val13 V0 (Proc.devRef .tc main_v309) = (Stages.norm (Stages.fc1R (Wt V0) (Bs V0) (Stages.att (Stages.smax1 (Stages.fc1R (Wt V0) (Bs V0) (Stages.inT (A1 V0)))) (Stages.smax2 (Stages.fc1R (Wt V0) (Bs V0) (Stages.inT (A0 V0)))) (Stages.inT (A1 V0)))) (A1 V0)) := by
  unfold val13
  rw [res_N1_v309, st12_v295, st12_arg1]

set_option maxRecDepth 16384 in
/-- The operations of the program are the stretches one after the other. -/
theorem ops_eq : (Ops.ops : List (HloOp τ sig (Elt F))) = seg_T ++ (seg_FC1a ++ (seg_FC1b ++ (seg_FC2a ++ (seg_FC2b ++ (seg_SM ++ (seg_FC3a ++ (seg_FC3b ++ (seg_N0 ++ (seg_A1 ++ (seg_FC4a ++ (seg_FC4b ++ (seg_N1)))))))))))) := rfl

theorem after_ops (V0 : Valuation τ sig (Elt F)) : after Ops.ops V0 = val13 V0 := by
  rw [ops_eq]; simp only [after_app]; rfl

/-- On every device, for any float values, from any memory with zero counters: every weakly fair execution of the
    program terminates with the two results at `Stages.out0` / `Stages.out1` of the perceptron over the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v234) = Stages.out0 (Stages.fc1R (m ((c.tc : Thread nD τ).loc main_arg2)) (m ((c.tc : Thread nD τ).loc main_arg3))) (m ((c.tc : Thread nD τ).loc main_arg0)) (m ((c.tc : Thread nD τ).loc main_arg1))
      ∧ r.2.mem ((c.tc : Thread nD τ).loc main_v309) = Stages.out1 (Stages.fc1R (m ((c.tc : Thread nD τ).loc main_arg2)) (m ((c.tc : Thread nD τ).loc main_arg3))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v234).trans ((congrFun (after_ops (launchContents m c)) _).trans (st13_v234 (launchContents m c))),
       (h c main_v309).trans ((congrFun (after_ops (launchContents m c)) _).trans (st13_v309 (launchContents m c))),
       (h c main_arg0).trans ((congrFun (after_ops (launchContents m c)) _).trans (st13_arg0 (launchContents m c))),
       (h c main_arg1).trans ((congrFun (after_ops (launchContents m c)) _).trans (st13_arg1 (launchContents m c))),
       (h c main_arg2).trans ((congrFun (after_ops (launchContents m c)) _).trans (st13_arg2 (launchContents m c))),
       (h c main_arg3).trans ((congrFun (after_ops (launchContents m c)) _).trans (st13_arg3 (launchContents m c)))⟩)
    (run_seq Ops.scopedRefs_eq Ops.scopedSems_eq defs main (fun _ => Ops.ops) Ops.main_eq (fun _ => Ops.ops_sub) m ρ (fun _ => Ops.ops_fresh))

end Cert.ReferenceIdeal.Run

end
-- ==== Proof.lean ====
/-
  The proof of `Cert.Claim`: three frames, the idealization's ledger, and the equality of the two idealized programs.

  The program runs a seven-layer perceptron (seven affine maps y ↦ y·Wᵢᵀ + bᵢ, SELU after the fourth) on every row of
  four 8192 × 1024 arrays, between transposes, two softmaxes, two attention products and a normalize-and-blend tail; the
  kernel computes the perceptron in four pipelined regions of 16 row blocks each, the reference as plain array
  operations. The five conjuncts:

  1, 2. The kernel as printed, and the kernel read on the extended reals, run — every weakly fair execution of @main
     terminates and nothing faults — and leave the four argument arrays as launched. This is the generated frame of
     each program: host operations never write an argument, and each region writes back only its own output array.

  3. The reference read on the extended reals runs and leaves its arguments as launched: it is a straight line of host
     operations, whose run is read back stretch by stretch (`Run.run`); the frame is the last four conjuncts of
     that reading.

  4. The idealization changed one thing, four times (once per region): the f32 word the kernel carries for SELU's
     scale · alpha is read as the exact product of the two f32 words the reference multiplies, the rational
     123715243141731 / 2⁴⁶. Each of the four entries is the table's row for that name, by definition of the table.

  5. On the extended reals the two programs end with equal results. The kernel's two result arrays are the host-side
     arithmetic (`KStages.out0`, `KStages.out1`) around the perceptron `KValue.fcK` of the weight and bias arguments:
     each region's output array ends holding the perceptron of every row of its input array, because each grid point
     writes back the perceptron of its 512 rows and the 16 blocks tile the array; the reference's two results are the
     same arithmetic (`Stages.out0`, `Stages.out1`) around its own perceptron `Stages.fc1R`. The host-side arithmetic
     of the two programs is the same operations on the same shapes; the two perceptrons agree row by row — both are
     the specification's seven layers, the kernel multiplying by the transposed weight slices and selecting between
     scale · y and (scale · alpha) · (eʸ − 1), the reference computing scale · elu(y), equal at every extended real by
     associativity of the product. From memories that agree on the four arguments the results are therefore equal.
-/
import proofs.«114870_j317827580568_1_alg».proof.Defs
import proofs.«114870_j317827580568_1_alg».proof.Proof.Gen.Kernel
import proofs.«114870_j317827580568_1_alg».proof.Proof.Gen.Kernel.Skeleton
import proofs.«114870_j317827580568_1_alg».proof.Proof.Gen.Kernel.Launch
import proofs.«114870_j317827580568_1_alg».proof.Proof.Gen.Kernel.Points
import proofs.«114870_j317827580568_1_alg».proof.Proof.Gen.Kernel.Frame
import proofs.«114870_j317827580568_1_alg».proof.Proof.Gen.KernelIdeal
import proofs.«114870_j317827580568_1_alg».proof.Proof.Gen.KernelIdeal.Skeleton
import proofs.«114870_j317827580568_1_alg».proof.Proof.Gen.KernelIdeal.Launch
import proofs.«114870_j317827580568_1_alg».proof.Proof.Gen.KernelIdeal.Points
import proofs.«114870_j317827580568_1_alg».proof.Proof.Gen.KernelIdeal.Frame
import proofs.«114870_j317827580568_1_alg».proof.Proof.Gen.ReferenceIdeal
import proofs.«114870_j317827580568_1_alg».proof.Proof.Gen.Pre_finite_inputs
import proofs.«114870_j317827580568_1_alg».proof.Proof.KRun
import proofs.«114870_j317827580568_1_alg».proof.Proof.KValue
import proofs.«114870_j317827580568_1_alg».proof.Proof.BridgeGlue
import proofs.«114870_j317827580568_1_alg».proof.Proof.BridgeFc
import proofs.«114870_j317827580568_1_alg».proof.Proof.RefRun
import Idealize.ShloMosaic.Adequacy
import Idealize.ShloMosaic.Init

noncomputable section

namespace Cert.Proof

open Idealize.ShloMosaic Idealize.SL.Sem

/-! ## The frames -/

/-- The kernel as printed runs and leaves its arguments as launched. -/
theorem frame_k : Cert.frame_Kernel := fun m ρ _ => Cert.Kernel.Gen.frame m ρ

/-- The kernel on the extended reals runs and leaves its arguments as launched. -/
theorem frame_ki : Cert.frame_KernelIdeal := fun m ρ _ => Cert.KernelIdeal.Gen.frame m ρ

/-- The reference on the extended reals runs and leaves its arguments as launched: the last four conjuncts of its
    run read back. -/
theorem frame_ri : Cert.frame_ReferenceIdeal := fun m ρ _ =>
  (θ_run Cert.ReferenceIdeal.defs _ _).mono (fun _ h c => (h c).2.2) (Cert.ReferenceIdeal.Run.run (F := Ideal) m ρ)

/-! ## The idealization's ledger -/

/-- One entry of the ledger: the table gives "selu_scale_alpha" the exact product of scale and alpha. -/
theorem named_entry :
    IdealRules.named_const.Statement Cert.KernelIdeal.κ "selu_scale_alpha" .f32 0x3FE10966#32
      ((123715243141731 / 70368744177664 : ℝ) : EReal) :=
  IdealRules.named_const.statement Cert.KernelIdeal.κ "selu_scale_alpha" .f32 0x3FE10966#32
    ((123715243141731 / 70368744177664 : ℝ) : EReal) rfl

/-- The ledger: the same entry at each of the four regions. -/
theorem preserves : Cert.preserves_Kernel_KernelIdeal := ⟨named_entry, named_entry, named_entry, named_entry⟩

/-! ## The two idealized programs end with equal results -/

/-- Both programs' first result: the host-side arithmetic around the perceptron of the weight and bias arguments. -/
abbrev res0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v74) :=
  Cert.KernelIdeal.KStages.out0 (F := Ideal) (Cert.KernelIdeal.KValue.fcK (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))

/-- Both programs' second result. -/
abbrev res1 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v95) :=
  Cert.KernelIdeal.KStages.out1 (F := Ideal) (Cert.KernelIdeal.KValue.fcK (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))

/-- From memories that agree on the four arguments both programs run, end with those two results, and leave their
    arguments as launched: the kernel by its regions' values, the reference by its run read back, with the two
    spellings of the perceptron and of the host-side arithmetic identified. -/
theorem algebraic : Cert.algebraic_KernelIdeal_ReferenceIdeal := by
  intro m ρ m' ρ' _ hagree
  refine ⟨res0 m, res1 m, ?_, ?_⟩
  · exact (θ_run Cert.KernelIdeal.defs _ _).mono
      (fun r h c => ⟨(h c).1.trans (Cert.KernelIdeal.KValue.W9_v74 m ρ c),
        (h c).2.1.trans (Cert.KernelIdeal.KValue.W9_v95 m ρ c), (h c).2.2⟩)
      (Cert.KernelIdeal.KRun.run_values (F := Ideal) m ρ)
  · refine (θ_run Cert.ReferenceIdeal.defs _ _).mono
      (fun _ h c => ⟨(h c).1.trans ?_, (h c).2.1.trans ?_, (h c).2.2⟩)
      (Cert.ReferenceIdeal.Run.run (F := Ideal) m' ρ')
    · rw [(hagree c).1, (hagree c).2.1, (hagree c).2.2.1, (hagree c).2.2.2]
      show _ = Cert.KernelIdeal.KStages.out0 (F := Ideal) _ _ _
      rw [Cert.Bridge.out0_eq, Cert.Bridge.fcK_eq]
    · rw [(hagree c).1, (hagree c).2.1, (hagree c).2.2.1, (hagree c).2.2.2]
      show _ = Cert.KernelIdeal.KStages.out1 (F := Ideal) _ _ _
      rw [Cert.Bridge.out1_eq, Cert.Bridge.fcK_eq]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
